-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x3 : Shape := ⟨2, ![16384, 3]⟩
abbrev S2x262144 : Shape := ⟨2, ![2, 262144]⟩
abbrev S16384 : Shape := ⟨1, ![16384]⟩
abbrev S256 : Shape := ⟨1, ![256]⟩
abbrev S256x256 : Shape := ⟨2, ![256, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part8 {F : FTy → Type} [FloatOps F] (main_arg30 : FVec F S256x256 .f32) (main_arg31 : FVec F S256 .f32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256x256 .f32 := Host.absf main_arg30
  let main_cst_54 : FVec F S_ .f32 := constant S_ .f32 0x7F800000#32
  let main_v140 : FVec F S256x256 .f32 := broadcastInDim S256x256 ![] bcast_S_S256x256 main_cst_54
  let main_v141 : IVec S256x256 1 := cmpf .olt main_v139 main_v140
  let main_c_55 : IVec S_ 1 := constantI S_ 1 1#1
  let main_v142 : IVec S_ 1 := (fun x v => Host.reduce IntOp.andi x v reducesTo_S256x256_S_d0_1 h_S_) main_v141 main_c_55
  let main_v143 : IVec S_ 1 := andi main_v138 main_v142
  let main_v144 : FVec F S256 .f32 := Host.absf main_arg31
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  main_v148

def fn_part7 {F : FTy → Type} [FloatOps F] (main_arg27 : FVec F S256 .f32) (main_arg28 : FVec F S256 .f32) (main_arg29 : FVec F S256 .f32) (main_arg30 : FVec F S256x256 .f32) (main_arg31 : FVec F S256 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg27
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256 .f32 := Host.absf main_arg28
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256 .f32 := Host.absf main_arg29
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg30 main_arg31 main_v133 main_v136

def fn_part6 {F : FTy → Type} [FloatOps F] (main_arg23 : FVec F S256 .f32) (main_arg24 : FVec F S256x256 .f32) (main_arg25 : FVec F S256 .f32) (main_arg26 : FVec F S256x256 .f32) (main_arg27 : FVec F S256 .f32) (main_arg28 : FVec F S256 .f32) (main_arg29 : FVec F S256 .f32) (main_arg30 : FVec F S256x256 .f32) (main_arg31 : FVec F S256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg24
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg26
  fn_part7 (F := F) main_arg27 main_arg28 main_arg29 main_arg30 main_arg31 main_v118 main_v119

def fn_part5 {F : FTy → Type} [FloatOps F] (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S256 .f32) (main_arg29 : FVec F S256 .f32) (main_arg30 : FVec F S256x256 .f32) (main_arg31 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg20
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg22
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg23 main_arg24 main_arg25 main_arg26 main_arg27 main_arg28 main_arg29 main_arg30 main_arg31 main_v98 main_v101 main_c_39

def fn_part4 {F : FTy → Type} [FloatOps F] (main_arg16 : FVec F S256x256 .f32) (main_arg17 : FVec F S256 .f32) (main_arg18 : FVec F S16384x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S256 .f32) (main_arg29 : FVec F S256 .f32) (main_arg30 : FVec F S256x256 .f32) (main_arg31 : FVec F S256 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S16384x256 .f32 := Host.absf main_arg18
  let main_cst_30 : FVec F S_ .f32 := constant S_ .f32 0x7F800000#32
  let main_v80 : FVec F S16384x256 .f32 := broadcastInDim S16384x256 ![] bcast_S_S16384x256 main_cst_30
  let main_v81 : IVec S16384x256 1 := cmpf .olt main_v79 main_v80
  let main_c_31 : IVec S_ 1 := constantI S_ 1 1#1
  let main_v82 : IVec S_ 1 := (fun x v => Host.reduce IntOp.andi x v reducesTo_S16384x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_v83 main_v84 main_cst_32

def fn_part3 {F : FTy → Type} [FloatOps F] (main_arg13 : FVec F S256 .f32) (main_arg14 : FVec F S256 .f32) (main_arg15 : FVec F S256 .f32) (main_arg16 : FVec F S256x256 .f32) (main_arg17 : FVec F S256 .f32) (main_arg18 : FVec F S16384x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S256 .f32) (main_arg29 : FVec F S256 .f32) (main_arg30 : FVec F S256x256 .f32) (main_arg31 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S16384x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S256 .f32) (main_arg29 : FVec F S256 .f32) (main_arg30 : FVec F S256x256 .f32) (main_arg31 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S16384x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S256 .f32) (main_arg29 : FVec F S256 .f32) (main_arg30 : FVec F S256x256 .f32) (main_arg31 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S16384x256 .f32) (main_arg1 : FVec F S16384x3 .f32) (main_arg2 : IVec S2x262144 32) (main_arg3 : IVec S16384 32) (main_arg4 : FVec F S16384x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S16384x256 .f32) (main_arg19 : FVec F S256 .f32) (main_arg20 : FVec F S256x256 .f32) (main_arg21 : FVec F S256 .f32) (main_arg22 : FVec F S256x256 .f32) (main_arg23 : FVec F S256 .f32) (main_arg24 : FVec F S256x256 .f32) (main_arg25 : FVec F S256 .f32) (main_arg26 : FVec F S256x256 .f32) (main_arg27 : FVec F S256 .f32) (main_arg28 : FVec F S256 .f32) (main_arg29 : FVec F S256 .f32) (main_arg30 : FVec F S256x256 .f32) (main_arg31 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S16384x256 .f32 := Host.absf main_arg4
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S16384x256 : Shape := ⟨2, ![16384, 256]⟩
abbrev S16384x3 : Shape := ⟨2, ![16384, 3]⟩
abbrev S2x262144 : Shape := ⟨2, ![2, 262144]⟩
abbrev S16384 : Shape := ⟨1, ![16384]⟩
abbrev S256 : Shape := ⟨1, ![256]⟩
abbrev S256x256 : Shape := ⟨2, ![256, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S1x256 : Shape := ⟨2, ![1, 256]⟩
abbrev S2048x256 : Shape := ⟨2, ![2048, 256]⟩
abbrev S16384x512 : Shape := ⟨2, ![16384, 512]⟩

abbrev nBuf : Space → Nat
  | .hbm => 111
  | .vmem => 52
  | .smem => 0
  | _ => 0

abbrev bufTy : (tb : Table) → Fin (tcTables nBuf tb) → BufTy
  | .hbm, ⟨0, _⟩ => ⟨S16384x256, .f32⟩
  | .hbm, ⟨1, _⟩ => ⟨S16384x3, .f32⟩
  | .hbm, ⟨2, _⟩ => ⟨S2x262144, .i32⟩
  | .hbm, ⟨3, _⟩ => ⟨S16384, .i32⟩
  | .hbm, ⟨4, _⟩ => ⟨S16384x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S16384x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S256x256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256x256, .f32⟩
  | .hbm, ⟨31, _⟩ => ⟨S256, .f32⟩
  | .hbm, ⟨32, _⟩ => ⟨S1x262144, .i32⟩
  | .hbm, ⟨33, _⟩ => ⟨S262144, .i32⟩
  | .hbm, ⟨34, _⟩ => ⟨S1x262144, .i32⟩
  | .hbm, ⟨35, _⟩ => ⟨S262144, .i32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144x256, .f32⟩
  | .hbm, ⟨45, _⟩ => ⟨S_, .f32⟩
  | .hbm, ⟨46, _⟩ => ⟨S16384x256, .f32⟩
  | .hbm, ⟨47, _⟩ => ⟨S262144x1, .i32⟩
  | .hbm, ⟨48, _⟩ => ⟨S16384x256, .f32⟩
  | .hbm, ⟨49, _⟩ => ⟨S1x256, .f32⟩
  | .hbm, ⟨50, _⟩ => ⟨S16384x256, .f32⟩
  | .hbm, ⟨51, _⟩ => ⟨S16384x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S16384x256, .f32⟩
  | .hbm, ⟨57, _⟩ => ⟨S1x256, .f32⟩
  | .hbm, ⟨58, _⟩ => ⟨S1x256, .f32⟩
  | .hbm, ⟨59, _⟩ => ⟨S_, .f32⟩
  | .hbm, ⟨60, _⟩ => ⟨S1x256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S16384x256, .f32⟩
  | .hbm, ⟨71, _⟩ => ⟨S1x262144, .i32⟩
  | .hbm, ⟨72, _⟩ => ⟨S262144, .i32⟩
  | .hbm, ⟨73, _⟩ => ⟨S1x262144, .i32⟩
  | .hbm, ⟨74, _⟩ => ⟨S262144, .i32⟩
  | .hbm, ⟨75, _⟩ => ⟨S_, .i32⟩
  | .hbm, ⟨76, _⟩ => ⟨S262144, .i32⟩
  | .hbm, ⟨77, _⟩ => ⟨S262144, .i1⟩
  | .hbm, ⟨78, _⟩ => ⟨S_, .i32⟩
  | .hbm, ⟨79, _⟩ => ⟨S262144, .i32⟩
  | .hbm, ⟨80, _⟩ => ⟨S262144, .i32⟩
  | .hbm, ⟨81, _⟩ => ⟨S262144, .i32⟩
  | .hbm, ⟨82, _⟩ => ⟨S262144x1, .i32⟩
  | .hbm, ⟨83, _⟩ => ⟨S262144x256, .f32⟩
  | .hbm, ⟨84, _⟩ => ⟨S_, .f32⟩
  | .hbm, ⟨85, _⟩ => ⟨S16384x256, .f32⟩
  | .hbm, ⟨86, _⟩ => ⟨S262144x1, .i32⟩
  | .hbm, ⟨87, _⟩ => ⟨S16384x256, .f32⟩
  | .hbm, ⟨88, _⟩ => ⟨S1x256, .f32⟩
  | .hbm, ⟨89, _⟩ => ⟨S16384x256, .f32⟩
  | .hbm, ⟨90, _⟩ => ⟨S16384x256, .f32⟩
  | .hbm, ⟨91, _⟩ => ⟨S1x256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S16384x256, .f32⟩
  | .hbm, ⟨96, _⟩ => ⟨S1x256, .f32⟩
  | .hbm, ⟨97, _⟩ => ⟨S1x256, .f32⟩
  | .hbm, ⟨98, _⟩ => ⟨S_, .f32⟩
  | .hbm, ⟨99, _⟩ => ⟨S1x256, .f32⟩
  | .hbm, ⟨100, _⟩ => ⟨S1x256, .f32⟩
  | .hbm, ⟨101, _⟩ => ⟨S_, .f32⟩
  | .hbm, ⟨102, _⟩ => ⟨S1x256, .f32⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S1x256, .f32⟩
  | .hbm, ⟨107, _⟩ => ⟨S1x256, .f32⟩
  | .hbm, ⟨108, _⟩ => ⟨S1x256, .f32⟩
  | .hbm, ⟨109, _⟩ => ⟨S16384x256, .f32⟩
  | .hbm, ⟨110, _⟩ => ⟨S16384x512, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S1x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S256x256, .f32⟩
  | .local _ .vmem, ⟨31, _⟩ => ⟨S1x256, .f32⟩
  | .local _ .vmem, ⟨32, _⟩ => ⟨S256x256, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S256x256, .f32⟩
  | .local _ .vmem, ⟨37, _⟩ => ⟨S1x256, .f32⟩
  | .local _ .vmem, ⟨38, _⟩ => ⟨S2048x256, .f32⟩
  | .local _ .vmem, ⟨39, _⟩ => ⟨S2048x256, .f32⟩
  | .local _ .vmem, ⟨40, _⟩ => ⟨S1x256, .f32⟩
  | .local _ .vmem, ⟨41, _⟩ => ⟨S1x256, .f32⟩
  | .local _ .vmem, ⟨42, _⟩ => ⟨S2048x256, .f32⟩
  | .local _ .vmem, ⟨43, _⟩ => ⟨S2048x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S256x256, .f32⟩
  | .local _ .vmem, ⟨49, _⟩ => ⟨S1x256, .f32⟩
  | .local _ .vmem, ⟨50, _⟩ => ⟨S2048x256, .f32⟩
  | .local _ .vmem, ⟨51, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21_0 : Ref sig .tc := ⟨.hbm, 56, rfl⟩
abbrev main_v21_1 : Ref sig .tc := ⟨.hbm, 57, rfl⟩
abbrev main_v21_2 : Ref sig .tc := ⟨.hbm, 58, rfl⟩
abbrev main_cst_1 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_3 : Ref sig .tc := ⟨.hbm, 75, rfl⟩
abbrev main_v36 : Ref sig .tc := ⟨.hbm, 76, rfl⟩
abbrev main_v37 : Ref sig .tc := ⟨.hbm, 77, rfl⟩
abbrev main_c_4 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_5 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53_0 : Ref sig .tc := ⟨.hbm, 95, rfl⟩
abbrev main_v53_1 : Ref sig .tc := ⟨.hbm, 96, rfl⟩
abbrev main_v53_2 : Ref sig .tc := ⟨.hbm, 97, rfl⟩
abbrev main_cst_6 : Ref sig .tc := ⟨.hbm, 98, rfl⟩
abbrev main_v54 : Ref sig .tc := ⟨.hbm, 99, rfl⟩
abbrev main_v55 : Ref sig .tc := ⟨.hbm, 100, rfl⟩
abbrev main_cst_7 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg10_1 : Ref sig .tc := ⟨.vmem, 39, rfl⟩
abbrev cc2_stg11_0 : Ref sig .tc := ⟨.vmem, 40, rfl⟩
abbrev cc2_stg12_0 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg7_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem10_1 : DmaSem sig := 39
abbrev cc2_sem11_0 : DmaSem sig := 40
abbrev cc2_sem12_0 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem7_1 : DmaSem sig := 51

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2048x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S16384x256 : S_.BroadcastsInDim S16384x256 (![] : Fin 0 → Fin S16384x256.rank)
  shapeCasts_S256_S1x256 : S256.ShapeCasts S1x256
  bcast_S1x256_S16384x256_0_1 : S1x256.BroadcastsInDim S16384x256 (![0, 1] : Fin 2 → Fin S16384x256.rank)
  inb_S1x256_S1x256_0_0 : ∀ a, (![0, 0] : Fin 2 → Nat) a + S1x256.size a ≤ S1x256.size a
  h_S1x256 : 0 < S1x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S1x256_S1x256 : S1x256.ShapeCasts S1x256
  broadcasts_S1x256_S2048x256 : S1x256.Broadcasts S2048x256
  reduces_S2048x256_S256 : S2048x256.Reduces [0] S256
  bcast_S_S1x256 : S_.BroadcastsInDim S1x256 (![] : Fin 0 → Fin S1x256.rank)
  concatenates_S16384x256_S16384x256_S16384x512_d1 : Shape.Concatenates [S16384x256, S16384x256] S16384x512 1
  gather_S16384x256_S262144x1_S262144x256_1_0_n_n_0_1_1256_wf : GatherDims.WF S16384x256 S262144x1 S262144x256 [1] [0] [] [0] [] 1 ![1, 256]
  scatter_S16384x256_S262144x1_S262144x256_1_0_0_1_wf : ScatterDims.WF S16384x256 S262144x1 S262144x256 [1] [0] [0] 1
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S16384x256.size a
  hwx0_10 : ∀ i : grid0.Coords, EltTy.bits .f32 = 32 ∨ (Rect.block (s := S16384x256) S2048x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S16384x256.size a
  hwx1_7 : ∀ i : grid1.Coords, EltTy.bits .f32 = 32 ∨ (Rect.block (s := S16384x256) S2048x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .f32 = 32 ∨ (Rect.block (s := S16384x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S16384x256.size a
  hwx2_1 : ∀ i : grid2.Coords, EltTy.bits .f32 = 32 ∨ (Rect.block (s := S16384x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .f32 = 32 ∨ (Rect.block (s := S256x256) S256x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x256.size a ≤ S16384x256.size a
  hwx2_10 : ∀ i : grid2.Coords, EltTy.bits .f32 = 32 ∨ (Rect.block (s := S16384x256) S2048x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x256.size a ≤ S1x256.size a
  hwx2_11 : ∀ i : grid2.Coords, EltTy.bits .f32 = 32 ∨ (Rect.block (s := S1x256) S1x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x256.size a ≤ S1x256.size a
  hwx2_12 : ∀ i : grid2.Coords, EltTy.bits .f32 = 32 ∨ (Rect.block (s := S1x256) S1x256.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S16384x256.size a
  hwx3_0 : ∀ i : grid3.Coords, EltTy.bits .f32 = 32 ∨ (Rect.block (s := S16384x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x256.size a ≤ S16384x256.size a
  hwx3_7 : ∀ i : grid3.Coords, EltTy.bits .f32 = 32 ∨ (Rect.block (s := S16384x256) S2048x256.size (cc3_transform_7 i) (hinb3_7 i)).WholeWords (EltTy.packing .f32)

variable [Facts₀]

def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v16) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21_0) S2048x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v21_1) S1x256.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21_2) S1x256.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v21_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v48) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg24) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v51) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v52) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v53_0) S2048x256.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v53_1) S1x256.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v53_2) S1x256.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v53_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg30) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S2048x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S16384x256 : Shape := ⟨2, ![16384, 256]⟩
abbrev S16384x3 : Shape := ⟨2, ![16384, 3]⟩
abbrev S2x262144 : Shape := ⟨2, ![2, 262144]⟩
abbrev S16384 : Shape := ⟨1, ![16384]⟩
abbrev S256 : Shape := ⟨1, ![256]⟩
abbrev S256x256 : Shape := ⟨2, ![256, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S1x256 : Shape := ⟨2, ![1, 256]⟩
abbrev S16384x512 : Shape := ⟨2, ![16384, 512]⟩

abbrev nBuf : Space → Nat
  | .hbm => 219
  | .vmem => 0
  | .smem => 0
  | _ => 0

abbrev hbmTy0_0 (i : Nat) : BufTy := match i % 128 with
  | 0 => ⟨S16384x256, .f32⟩
  | 1 => ⟨S16384x3, .f32⟩
  | 2 => ⟨S2x262144, .i32⟩
  | 3 => ⟨S16384, .i32⟩
  | 4 => ⟨S16384x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S16384x256, .f32⟩
  | 19 => ⟨S256, .f32⟩
  | 20 => ⟨S256x256, .f32⟩
  | 21 => ⟨S256, .f32⟩
  | 22 => ⟨S256x256, .f32⟩
  | 23 => ⟨S256, .f32⟩
  | 24 => ⟨S256x256, .f32⟩
  | 25 => ⟨S256, .f32⟩
  | 26 => ⟨S256x256, .f32⟩
  | 27 => ⟨S256, .f32⟩
  | 28 => ⟨S256, .f32⟩
  | 29 => ⟨S256, .f32⟩
  | 30 => ⟨S256x256, .f32⟩
  | 31 => ⟨S256, .f32⟩
  | 32 => ⟨S1x262144, .i32⟩
  | 33 => ⟨S262144, .i32⟩
  | 34 => ⟨S1x262144, .i32⟩
  | 35 => ⟨S262144, .i32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S262144x1, .i32⟩
  | 44 => ⟨S262144x256, .f32⟩
  | 45 => ⟨S_, .f32⟩
  | 46 => ⟨S16384x256, .f32⟩
  | 47 => ⟨S262144x1, .i32⟩
  | 48 => ⟨S16384x256, .f32⟩
  | 49 => ⟨S1x256, .f32⟩
  | 50 => ⟨S16384x256, .f32⟩
  | 51 => ⟨S16384x256, .f32⟩
  | 52 => ⟨S16384x256, .f32⟩
  | 53 => ⟨S1x256, .f32⟩
  | 54 => ⟨S16384x256, .f32⟩
  | 55 => ⟨S16384x256, .f32⟩
  | 56 => ⟨S16384x256, .f32⟩
  | 57 => ⟨S16384x256, .f32⟩
  | 58 => ⟨S1x256, .f32⟩
  | 59 => ⟨S16384x256, .f32⟩
  | 60 => ⟨S16384x256, .f32⟩
  | 61 => ⟨S16384x256, .f32⟩
  | 62 => ⟨S16384x256, .f32⟩
  | 63 => ⟨S1x256, .f32⟩
  | 64 => ⟨S16384x256, .f32⟩
  | 65 => ⟨S16384x256, .f32⟩
  | 66 => ⟨S16384x256, .f32⟩
  | 67 => ⟨S_, .f32⟩
  | 68 => ⟨S16384x256, .f32⟩
  | 69 => ⟨S16384x256, .f32⟩
  | 70 => ⟨S16384x256, .f32⟩
  | 71 => ⟨S1x256, .f32⟩
  | 72 => ⟨S16384x256, .f32⟩
  | 73 => ⟨S16384x256, .f32⟩
  | 74 => ⟨S_, .f32⟩
  | 75 => ⟨S16384x256, .f32⟩
  | 76 => ⟨S16384x256, .f32⟩
  | 77 => ⟨S_, .f32⟩
  | 78 => ⟨S256, .f32⟩
  | 79 => ⟨S_, .f32⟩
  | 80 => ⟨S256, .f32⟩
  | 81 => ⟨S256, .f32⟩
  | 82 => ⟨S_, .i32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S16384x256, .f32⟩
  | 90 => ⟨S16384x256, .f32⟩
  | 91 => ⟨S16384x256, .f32⟩
  | 92 => ⟨S_, .f32⟩
  | 93 => ⟨S_, .f32⟩
  | 94 => ⟨S_, .f32⟩
  | 95 => ⟨S_, .f32⟩
  | 96 => ⟨S256, .f32⟩
  | 97 => ⟨S256, .f32⟩
  | 98 => ⟨S256, .f32⟩
  | 99 => ⟨S_, .f32⟩
  | 100 => ⟨S_, .i1⟩
  | 101 => ⟨S_, .f32⟩
  | 102 => ⟨S_, .f32⟩
  | 103 => ⟨S256, .f32⟩
  | 104 => ⟨S256, .f32⟩
  | 105 => ⟨S1x256, .f32⟩
  | 106 => ⟨S16384x256, .f32⟩
  | 107 => ⟨S16384x256, .f32⟩
  | 108 => ⟨S_, .f32⟩
  | 109 => ⟨S256, .f32⟩
  | 110 => ⟨S256, .f32⟩
  | 111 => ⟨S256, .f32⟩
  | 112 => ⟨S1x256, .f32⟩
  | 113 => ⟨S16384x256, .f32⟩
  | 114 => ⟨S16384x256, .f32⟩
  | 115 => ⟨S1x256, .f32⟩
  | 116 => ⟨S16384x256, .f32⟩
  | 117 => ⟨S16384x256, .f32⟩
  | 118 => ⟨S1x256, .f32⟩
  | 119 => ⟨S16384x256, .f32⟩
  | 120 => ⟨S16384x256, .f32⟩
  | 121 => ⟨S16384x256, .f32⟩
  | 122 => ⟨S1x256, .f32⟩
  | 123 => ⟨S16384x256, .f32⟩
  | 124 => ⟨S16384x256, .f32⟩
  | 125 => ⟨S1x262144, .i32⟩
  | 126 => ⟨S262144, .i32⟩
  | 127 => ⟨S1x262144, .i32⟩
  | _ => ⟨S16384x256, .f32⟩

abbrev hbmTy0_1 (i : Nat) : BufTy := match i % 128 with
  | 0 => ⟨S262144, .i32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S262144x256, .f32⟩
  | 10 => ⟨S_, .f32⟩
  | 11 => ⟨S16384x256, .f32⟩
  | 12 => ⟨S262144x1, .i32⟩
  | 13 => ⟨S16384x256, .f32⟩
  | 14 => ⟨S1x256, .f32⟩
  | 15 => ⟨S16384x256, .f32⟩
  | 16 => ⟨S16384x256, .f32⟩
  | 17 => ⟨S16384x256, .f32⟩
  | 18 => ⟨S1x256, .f32⟩
  | 19 => ⟨S16384x256, .f32⟩
  | 20 => ⟨S16384x256, .f32⟩
  | 21 => ⟨S16384x256, .f32⟩
  | 22 => ⟨S16384x256, .f32⟩
  | 23 => ⟨S1x256, .f32⟩
  | 24 => ⟨S16384x256, .f32⟩
  | 25 => ⟨S16384x256, .f32⟩
  | 26 => ⟨S16384x256, .f32⟩
  | 27 => ⟨S16384x256, .f32⟩
  | 28 => ⟨S1x256, .f32⟩
  | 29 => ⟨S16384x256, .f32⟩
  | 30 => ⟨S16384x256, .f32⟩
  | 31 => ⟨S16384x256, .f32⟩
  | 32 => ⟨S_, .f32⟩
  | 33 => ⟨S16384x256, .f32⟩
  | 34 => ⟨S16384x256, .f32⟩
  | 35 => ⟨S16384x256, .f32⟩
  | 36 => ⟨S1x256, .f32⟩
  | 37 => ⟨S16384x256, .f32⟩
  | 38 => ⟨S16384x256, .f32⟩
  | 39 => ⟨S_, .f32⟩
  | 40 => ⟨S16384x256, .f32⟩
  | 41 => ⟨S16384x256, .f32⟩
  | 42 => ⟨S_, .f32⟩
  | 43 => ⟨S256, .f32⟩
  | 44 => ⟨S_, .f32⟩
  | 45 => ⟨S256, .f32⟩
  | 46 => ⟨S256, .f32⟩
  | 47 => ⟨S_, .i32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S16384x256, .f32⟩
  | 55 => ⟨S16384x256, .f32⟩
  | 56 => ⟨S16384x256, .f32⟩
  | 57 => ⟨S_, .f32⟩
  | 58 => ⟨S_, .f32⟩
  | 59 => ⟨S_, .f32⟩
  | 60 => ⟨S_, .f32⟩
  | 61 => ⟨S256, .f32⟩
  | 62 => ⟨S256, .f32⟩
  | 63 => ⟨S256, .f32⟩
  | 64 => ⟨S_, .f32⟩
  | 65 => ⟨S_, .i1⟩
  | 66 => ⟨S_, .f32⟩
  | 67 => ⟨S_, .f32⟩
  | 68 => ⟨S256, .f32⟩
  | 69 => ⟨S256, .f32⟩
  | 70 => ⟨S1x256, .f32⟩
  | 71 => ⟨S16384x256, .f32⟩
  | 72 => ⟨S16384x256, .f32⟩
  | 73 => ⟨S_, .f32⟩
  | 74 => ⟨S256, .f32⟩
  | 75 => ⟨S256, .f32⟩
  | 76 => ⟨S256, .f32⟩
  | 77 => ⟨S1x256, .f32⟩
  | 78 => ⟨S16384x256, .f32⟩
  | 79 => ⟨S16384x256, .f32⟩
  | 80 => ⟨S1x256, .f32⟩
  | 81 => ⟨S16384x256, .f32⟩
  | 82 => ⟨S16384x256, .f32⟩
  | 83 => ⟨S1x256, .f32⟩
  | 84 => ⟨S16384x256, .f32⟩
  | 85 => ⟨S16384x256, .f32⟩
  | 86 => ⟨S16384x256, .f32⟩
  | 87 => ⟨S1x256, .f32⟩
  | 88 => ⟨S16384x256, .f32⟩
  | 89 => ⟨S16384x256, .f32⟩
  | 90 => ⟨S16384x512, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call0_cst : Ref sig .tc := ⟨.hbm, 67, rfl⟩
abbrev main_call0_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call1_cst : Ref sig .tc := ⟨.hbm, 74, rfl⟩
abbrev main_call1_v0 : Ref sig .tc := ⟨.hbm, 75, rfl⟩
abbrev main_v37 : Ref sig .tc := ⟨.hbm, 76, rfl⟩
abbrev main_cst_1 : Ref sig .tc := ⟨.hbm, 77, rfl⟩
abbrev main_v38 : Ref sig .tc := ⟨.hbm, 78, rfl⟩
abbrev main_cst_2 : Ref sig .tc := ⟨.hbm, 79, rfl⟩
abbrev main_v39 : Ref sig .tc := ⟨.hbm, 80, rfl⟩
abbrev main_v40 : Ref sig .tc := ⟨.hbm, 81, rfl⟩
abbrev main_c_3 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_cst_3 : Ref sig .tc := ⟨.hbm, 99, rfl⟩
abbrev main_call2_v12 : Ref sig .tc := ⟨.hbm, 100, rfl⟩
abbrev main_call2_cst_4 : Ref sig .tc := ⟨.hbm, 101, rfl⟩
abbrev main_call2_call0_v0 : Ref sig .tc := ⟨.hbm, 102, rfl⟩
abbrev main_call2_call0_v1 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_4 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_c_5 : Ref sig .tc := ⟨.hbm, 129, rfl⟩
abbrev main_v65 : Ref sig .tc := ⟨.hbm, 130, rfl⟩
abbrev main_v66 : Ref sig .tc := ⟨.hbm, 131, rfl⟩
abbrev main_c_6 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_7 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_call3_cst : Ref sig .tc := ⟨.hbm, 160, rfl⟩
abbrev main_call3_v0 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_call4_cst : Ref sig .tc := ⟨.hbm, 167, rfl⟩
abbrev main_call4_v0 : Ref sig .tc := ⟨.hbm, 168, rfl⟩
abbrev main_v98 : Ref sig .tc := ⟨.hbm, 169, rfl⟩
abbrev main_cst_8 : Ref sig .tc := ⟨.hbm, 170, rfl⟩
abbrev main_v99 : Ref sig .tc := ⟨.hbm, 171, rfl⟩
abbrev main_cst_9 : Ref sig .tc := ⟨.hbm, 172, rfl⟩
abbrev main_v100 : Ref sig .tc := ⟨.hbm, 173, rfl⟩
abbrev main_v101 : Ref sig .tc := ⟨.hbm, 174, rfl⟩
abbrev main_c_10 : Ref sig .tc := ⟨.hbm, 175, rfl⟩
abbrev main_call5_cst : Ref sig .tc := ⟨.hbm, 176, rfl⟩
abbrev main_call5_v0 : Ref sig .tc := ⟨.hbm, 177, rfl⟩
abbrev main_call5_v1 : Ref sig .tc := ⟨.hbm, 178, rfl⟩
abbrev main_call5_cst_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_v6 : Ref sig .tc := ⟨.hbm, 184, rfl⟩
abbrev main_call5_v7 : Ref sig .tc := ⟨.hbm, 185, rfl⟩
abbrev main_call5_cst_1 : Ref sig .tc := ⟨.hbm, 186, rfl⟩
abbrev main_call5_v8 : Ref sig .tc := ⟨.hbm, 187, rfl⟩
abbrev main_call5_cst_2 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_cst_3 : Ref sig .tc := ⟨.hbm, 192, rfl⟩
abbrev main_call5_v12 : Ref sig .tc := ⟨.hbm, 193, rfl⟩
abbrev main_call5_cst_4 : Ref sig .tc := ⟨.hbm, 194, rfl⟩
abbrev main_call5_call0_v0 : Ref sig .tc := ⟨.hbm, 195, rfl⟩
abbrev main_call5_call0_v1 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_cst_11 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S256_d0 : S16384x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  concatenates_S16384x256_S16384x256_S16384x512_d1 : Shape.Concatenates [S16384x256, S16384x256] S16384x512 1
  gather_S16384x256_S262144x1_S262144x256_1_0_n_n_0_1_1256_wf : GatherDims.WF S16384x256 S262144x1 S262144x256 [1] [0] [] [0] [] 1 ![1, 256]
  scatter_S16384x256_S262144x1_S262144x256_1_0_0_1_wf : ScatterDims.WF S16384x256 S262144x1 S262144x256 [1] [0] [0] 1
  dot_S16384x256_S256x256_S16384x256_1_0_0_1_n_n_wf : DotDims.WF S16384x256 S256x256 S16384x256 [1] [0] [0] [1] [] []

variable [Facts₀]

def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.Finite1.lean ====
/-
  The precondition "every float input is finite", read back.

  The printed predicate is a chain of thirty conjuncts, one per float input array `x`: the conjunction over all
  indices of `|x i| < +∞`, taken as a reduction by `and` of the array of one-bit comparison results.  At the ideal
  instance a float is an extended real, `|x| = max x (-x)`, and the bit pattern `0x7F800000` denotes `⊤`; so
  `|x i| < ⊤` says that `x i` is neither `⊤` nor `⊥`, that is, a real number.

  The chain is printed in eight consecutive parts.  Each part lemma below takes the part's value at the one index
  of the rank-zero result, assumes it is the bit 1, and concludes: the conjunction accumulated before the part is 1,
  the comparison the part found half-made holds everywhere, and every array the part or a later part tests has
  only real entries.
-/
import proofs.«136727_j87875030876560_1_alg».proof.Pre_finite_inputs
import proofs.«136727_j87875030876560_1_alg».proof.Proof.LibEReal
import Idealize.ShloMosaic.Lib.ReduceAll

namespace Cert.Proof.Finite

open Idealize.ShloMosaic Cert.Spec Cert.Pre_finite_inputs

/-- The rank-zero shape has one index. -/
instance : Subsingleton S_.Idx := ⟨fun a b => funext fun d => d.elim0⟩

/-- The f32 pattern of `+∞` denotes `⊤`. -/
theorem top_bits : Ideal.ofBits .f32 0x7F800000#32 = (⊤ : EReal) := by simp [Ideal.ofBits, Ideal.ieee]

/-- An extended real whose absolute value is below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  change BitVec.ofBool (decide (max x (-x) < Ideal.ofBits .f32 0x7F800000#32)) = 1#1 at h
  rw [top_bits] at h
  induction x using EReal.rec with
  | bot => simp at h
  | coe a => exact ⟨a, rfl⟩
  | top => simp at h

/-- Every entry of the array is a real number. -/
def R {S : Shape} (x : FVec Ideal S .f32) : Prop := ∀ i, IsReal (x i)

/-- The pointwise `and` of two one-bit words is 1 only if both are. -/
theorem andi_one {x y : IVec S_ 1} {j : S_.Idx} (h : andi x y j = 1#1) : x j = 1#1 ∧ y j = 1#1 :=
  IntOp.andi_eq_one.1 h

/-- A reduction by `and` over all axes that is 1 met only 1s. -/
theorem all_one {S : Shape} {axes : List (Fin S.rank)} (hr : S.ReducesTo axes S_) (hu : 0 < S_.numel)
    (p : IVec S 1) (init : IVec S_ 1) (j : S_.Idx) (e : Host.reduce IntOp.andi p init hr hu j = 1#1) (i : S.Idx) :
    p i = 1#1 :=
  Host.reduce_andi_all p init hr hu j e i

/-- If `|x i| < +∞` holds at every index, every entry of `x` is real. -/
theorem real_of_cmp {S : Shape} (bc : S_.BroadcastsInDim S (![] : Fin 0 → Fin S.rank)) (x : FVec Ideal S .f32)
    (h : ∀ i, cmpf .olt (Host.absf x) (broadcastInDim S ![] bc (constant S_ .f32 0x7F800000#32)) i = 1#1) : R x :=
  fun i => real_of_abs_lt (x i) (h i)

/-- One conjunct of the chain: if "all of `|x| < +∞`" is 1, every entry of `x` is real. -/
theorem all_real {S : Shape} {axes : List (Fin S.rank)} (bc : S_.BroadcastsInDim S (![] : Fin 0 → Fin S.rank))
    (hr : S.ReducesTo axes S_) (hu : 0 < S_.numel) (x : FVec Ideal S .f32) (init : IVec S_ 1) (j : S_.Idx)
    (e : Host.reduce IntOp.andi (cmpf .olt (Host.absf x) (broadcastInDim S ![] bc (constant S_ .f32 0x7F800000#32)))
      init hr hu j = 1#1) : R x :=
  real_of_cmp bc x (all_one hr hu _ init j e)

/-- The thirty-two argument arrays of the predicate. -/
structure Args where
  a0 : FVec Ideal S16384x256 .f32
  a1 : FVec Ideal S16384x3 .f32
  a2 : IVec S2x262144 32
  a3 : IVec S16384 32
  a4 : FVec Ideal S16384x256 .f32
  a5 : FVec Ideal S256 .f32
  a6 : FVec Ideal S256x256 .f32
  a7 : FVec Ideal S256 .f32
  a8 : FVec Ideal S256x256 .f32
  a9 : FVec Ideal S256 .f32
  a10 : FVec Ideal S256x256 .f32
  a11 : FVec Ideal S256 .f32
  a12 : FVec Ideal S256x256 .f32
  a13 : FVec Ideal S256 .f32
  a14 : FVec Ideal S256 .f32
  a15 : FVec Ideal S256 .f32
  a16 : FVec Ideal S256x256 .f32
  a17 : FVec Ideal S256 .f32
  a18 : FVec Ideal S16384x256 .f32
  a19 : FVec Ideal S256 .f32
  a20 : FVec Ideal S256x256 .f32
  a21 : FVec Ideal S256 .f32
  a22 : FVec Ideal S256x256 .f32
  a23 : FVec Ideal S256 .f32
  a24 : FVec Ideal S256x256 .f32
  a25 : FVec Ideal S256 .f32
  a26 : FVec Ideal S256x256 .f32
  a27 : FVec Ideal S256 .f32
  a28 : FVec Ideal S256 .f32
  a29 : FVec Ideal S256 .f32
  a30 : FVec Ideal S256x256 .f32
  a31 : FVec Ideal S256 .f32

variable [Facts]
open Facts

/-! ## The tails: what each part and the parts after it test -/

abbrev T8 (A : Args) : Prop := R A.a30 ∧ R A.a31
abbrev T7 (A : Args) : Prop := R A.a27 ∧ R A.a28 ∧ R A.a29 ∧ T8 A
abbrev T6 (A : Args) : Prop := R A.a23 ∧ R A.a24 ∧ R A.a25 ∧ R A.a26 ∧ T7 A
abbrev T5 (A : Args) : Prop := R A.a20 ∧ R A.a21 ∧ R A.a22 ∧ T6 A
abbrev T4 (A : Args) : Prop := R A.a16 ∧ R A.a17 ∧ R A.a18 ∧ R A.a19 ∧ T5 A
abbrev T3 (A : Args) : Prop := R A.a13 ∧ R A.a14 ∧ R A.a15 ∧ T4 A
abbrev T2 (A : Args) : Prop := R A.a9 ∧ R A.a10 ∧ R A.a11 ∧ R A.a12 ∧ T3 A
abbrev T1 (A : Args) : Prop := R A.a6 ∧ R A.a7 ∧ R A.a8 ∧ T2 A
abbrev T0 (A : Args) : Prop := R A.a0 ∧ R A.a1 ∧ R A.a4 ∧ R A.a5 ∧ T1 A

/-! ## The parts, last first -/

theorem part8 (A : Args) (v133 : IVec S_ 1) (v136 : IVec S256 1) (j : S_.Idx)
    (h : fn_part8 (F := Ideal) A.a30 A.a31 v133 v136 j = 1#1) :
    v133 j = 1#1 ∧ (∀ i, v136 i = 1#1) ∧ T8 A := by
  dsimp only [fn_part8] at h
  obtain ⟨h, h31⟩ := andi_one h
  obtain ⟨h, h30⟩ := andi_one h
  obtain ⟨h, h136⟩ := andi_one h
  exact ⟨h, all_one _ _ _ _ _ h136, all_real _ _ _ _ _ _ h30, all_real _ _ _ _ _ _ h31⟩

theorem part7 (A : Args) (v118 : IVec S_ 1) (v119 : FVec Ideal S256x256 .f32) (j : S_.Idx)
    (h : fn_part7 (F := Ideal) A.a27 A.a28 A.a29 A.a30 A.a31 v118 v119 j = 1#1) :
    v118 j = 1#1
      ∧ (∀ i, cmpf .olt v119 (broadcastInDim S256x256 ![] bcast_S_S256x256 (constant S_ .f32 0x7F800000#32)) i = 1#1)
      ∧ T7 A := by
  dsimp only [fn_part7] at h
  obtain ⟨h, h29, t8⟩ := part8 A _ _ j h
  obtain ⟨h, h28⟩ := andi_one h
  obtain ⟨h, h27⟩ := andi_one h
  obtain ⟨h, h119⟩ := andi_one h
  exact ⟨h, all_one _ _ _ _ _ h119, all_real _ _ _ _ _ _ h27, all_real _ _ _ _ _ _ h28, real_of_cmp _ _ h29, t8⟩

theorem part6 (A : Args) (v98 : IVec S_ 1) (v101 : IVec S256x256 1) (c39 : IVec S_ 1) (j : S_.Idx)
    (h : fn_part6 (F := Ideal) A.a23 A.a24 A.a25 A.a26 A.a27 A.a28 A.a29 A.a30 A.a31 v98 v101 c39 j = 1#1) :
    v98 j = 1#1 ∧ (∀ i, v101 i = 1#1) ∧ T6 A := by
  dsimp only [fn_part6] at h
  obtain ⟨h, h26, t7⟩ := part7 A _ _ j h
  obtain ⟨h, h25⟩ := andi_one h
  obtain ⟨h, h24⟩ := andi_one h
  obtain ⟨h, h23⟩ := andi_one h
  obtain ⟨h, h101⟩ := andi_one h
  exact ⟨h, all_one _ _ _ _ _ h101, all_real _ _ _ _ _ _ h23, all_real _ _ _ _ _ _ h24, all_real _ _ _ _ _ _ h25, real_of_cmp _ _ h26, t7⟩

theorem part5 (A : Args) (v83 : IVec S_ 1) (v84 : FVec Ideal S256 .f32) (cst32 : FVec Ideal S_ .f32) (j : S_.Idx)
    (h : fn_part5 (F := Ideal) A.a20 A.a21 A.a22 A.a23 A.a24 A.a25 A.a26 A.a27 A.a28 A.a29 A.a30 A.a31 v83 v84 cst32 j = 1#1) :
    v83 j = 1#1 ∧ (∀ i, cmpf .olt v84 (broadcastInDim S256 ![] bcast_S_S256 cst32) i = 1#1) ∧ T5 A := by
  dsimp only [fn_part5] at h
  obtain ⟨h, h22, t6⟩ := part6 A _ _ _ j h
  obtain ⟨h, h21⟩ := andi_one h
  obtain ⟨h, h20⟩ := andi_one h
  obtain ⟨h, h84⟩ := andi_one h
  exact ⟨h, all_one _ _ _ _ _ h84, all_real _ _ _ _ _ _ h20, all_real _ _ _ _ _ _ h21, real_of_cmp _ _ h22, t6⟩

theorem part4 (A : Args) (v63 v67 : IVec S_ 1) (j : S_.Idx)
    (h : fn_part4 (F := Ideal) A.a16 A.a17 A.a18 A.a19 A.a20 A.a21 A.a22 A.a23 A.a24 A.a25 A.a26 A.a27 A.a28 A.a29 A.a30 A.a31 v63 v67 j = 1#1) :
    v63 j = 1#1 ∧ v67 j = 1#1 ∧ T4 A := by
  dsimp only [fn_part4] at h
  obtain ⟨h, h19, t5⟩ := part5 A _ _ _ j h
  obtain ⟨h, h18⟩ := andi_one h
  obtain ⟨h, h17⟩ := andi_one h
  obtain ⟨h, h16⟩ := andi_one h
  obtain ⟨h63, h67⟩ := andi_one h
  exact ⟨h63, h67, all_real _ _ _ _ _ _ h16, all_real _ _ _ _ _ _ h17, all_real _ _ _ _ _ _ h18, real_of_cmp _ _ h19, t5⟩

theorem part3 (A : Args) (v48 : IVec S_ 1) (v49 v50 : FVec Ideal S256x256 .f32) (j : S_.Idx)
    (h : fn_part3 (F := Ideal) A.a13 A.a14 A.a15 A.a16 A.a17 A.a18 A.a19 A.a20 A.a21 A.a22 A.a23 A.a24 A.a25 A.a26 A.a27 A.a28 A.a29 A.a30 A.a31 v48 v49 v50 j = 1#1) :
    v48 j = 1#1 ∧ (∀ i, cmpf .olt v49 v50 i = 1#1) ∧ T3 A := by
  dsimp only [fn_part3] at h
  obtain ⟨h, h15, t4⟩ := part4 A _ _ j h
  obtain ⟨h, h14⟩ := andi_one h
  obtain ⟨h, h13⟩ := andi_one h
  obtain ⟨h, h49⟩ := andi_one h
  exact ⟨h, all_one _ _ _ _ _ h49, all_real _ _ _ _ _ _ h13, all_real _ _ _ _ _ _ h14, all_real _ _ _ _ _ _ h15, t4⟩

theorem part2 (A : Args) (v33 : IVec S_ 1) (j : S_.Idx)
    (h : fn_part2 (F := Ideal) A.a9 A.a10 A.a11 A.a12 A.a13 A.a14 A.a15 A.a16 A.a17 A.a18 A.a19 A.a20 A.a21 A.a22 A.a23 A.a24 A.a25 A.a26 A.a27 A.a28 A.a29 A.a30 A.a31 v33 j = 1#1) :
    v33 j = 1#1 ∧ T2 A := by
  dsimp only [fn_part2] at h
  obtain ⟨h, h12, t3⟩ := part3 A _ _ _ j h
  obtain ⟨h, h11⟩ := andi_one h
  obtain ⟨h, h10⟩ := andi_one h
  obtain ⟨h, h9⟩ := andi_one h
  exact ⟨h, all_real _ _ _ _ _ _ h9, all_real _ _ _ _ _ _ h10, all_real _ _ _ _ _ _ h11, real_of_cmp _ _ h12, t3⟩

theorem part1 (A : Args) (v13 : IVec S_ 1) (v16 : IVec S256 1) (j : S_.Idx)
    (h : fn_part1 (F := Ideal) A.a6 A.a7 A.a8 A.a9 A.a10 A.a11 A.a12 A.a13 A.a14 A.a15 A.a16 A.a17 A.a18 A.a19 A.a20 A.a21 A.a22 A.a23 A.a24 A.a25 A.a26 A.a27 A.a28 A.a29 A.a30 A.a31 v13 v16 j = 1#1) :
    v13 j = 1#1 ∧ (∀ i, v16 i = 1#1) ∧ T1 A := by
  dsimp only [fn_part1] at h
  obtain ⟨h, t2⟩ := part2 A _ j h
  obtain ⟨h, h8⟩ := andi_one h
  obtain ⟨h, h7⟩ := andi_one h
  obtain ⟨h, h6⟩ := andi_one h
  obtain ⟨h, h16⟩ := andi_one h
  exact ⟨h, all_one _ _ _ _ _ h16, all_real _ _ _ _ _ _ h6, all_real _ _ _ _ _ _ h7, all_real _ _ _ _ _ _ h8, t2⟩

/-- The whole predicate: if it is 1, every float argument array has only real entries. -/
theorem fn_real (A : Args) (j : S_.Idx)
    (h : fn (F := Ideal) A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26 A.a27 A.a28 A.a29 A.a30 A.a31 j = 1#1) : T0 A := by
  dsimp only [fn] at h
  obtain ⟨h, h5, t1⟩ := part1 A _ _ j h
  obtain ⟨h, h4⟩ := andi_one h
  obtain ⟨h0, h1⟩ := andi_one h
  exact ⟨all_real _ _ _ _ _ _ h0, all_real _ _ _ _ _ _ h1, all_real _ _ _ _ _ _ h4, real_of_cmp _ _ h5, t1⟩

end Cert.Proof.Finite
-- ==== Proof.Finite.lean ====
/-
  From the precondition to "every float input entry is a real number".

  The precondition says that the printed predicate "every float input is finite", applied to the thirty-two argument
  arrays of the initial memory, is the bit 1 on every device.  Read at the one index of its rank-zero value it gives,
  conjunct by conjunct, that every entry of every float argument array is a real number.
-/
import proofs.«136727_j87875030876560_1_alg».proof.Defs
import proofs.«136727_j87875030876560_1_alg».proof.Proof.Gen.Pre_finite_inputs
import proofs.«136727_j87875030876560_1_alg».proof.Proof.Finite1

namespace Cert.Proof.Finite

open Idealize.ShloMosaic Idealize.SL.Sem Cert.Spec

/-- The argument arrays of the memory `m` on device `c`. -/
def argsOf (m : (ℓ : Loc Cert.KernelIdeal.nD Cert.KernelIdeal.τ Cert.KernelIdeal.sig) → Buf (Elt Ideal) ℓ)
    (c : Dev Cert.KernelIdeal.nD) : Args :=
  ⟨(m ((c.tc : Thread Cert.KernelIdeal.nD Cert.KernelIdeal.τ).loc Cert.KernelIdeal.main_arg0)),
    (m ((c.tc : Thread Cert.KernelIdeal.nD Cert.KernelIdeal.τ).loc Cert.KernelIdeal.main_arg1)),
    (m ((c.tc : Thread Cert.KernelIdeal.nD Cert.KernelIdeal.τ).loc Cert.KernelIdeal.main_arg2)),
    (m ((c.tc : Thread Cert.KernelIdeal.nD Cert.KernelIdeal.τ).loc Cert.KernelIdeal.main_arg3)),
    (m ((c.tc : Thread Cert.KernelIdeal.nD Cert.KernelIdeal.τ).loc Cert.KernelIdeal.main_arg4)),
    (m ((c.tc : Thread Cert.KernelIdeal.nD Cert.KernelIdeal.τ).loc Cert.KernelIdeal.main_arg5)),
    (m ((c.tc : Thread Cert.KernelIdeal.nD Cert.KernelIdeal.τ).loc Cert.KernelIdeal.main_arg6)),
    (m ((c.tc : Thread Cert.KernelIdeal.nD Cert.KernelIdeal.τ).loc Cert.KernelIdeal.main_arg7)),
    (m ((c.tc : Thread Cert.KernelIdeal.nD Cert.KernelIdeal.τ).loc Cert.KernelIdeal.main_arg8)),
    (m ((c.tc : Thread Cert.KernelIdeal.nD Cert.KernelIdeal.τ).loc Cert.KernelIdeal.main_arg9)),
    (m ((c.tc : Thread Cert.KernelIdeal.nD Cert.KernelIdeal.τ).loc Cert.KernelIdeal.main_arg10)),
    (m ((c.tc : Thread Cert.KernelIdeal.nD Cert.KernelIdeal.τ).loc Cert.KernelIdeal.main_arg11)),
    (m ((c.tc : Thread Cert.KernelIdeal.nD Cert.KernelIdeal.τ).loc Cert.KernelIdeal.main_arg12)),
    (m ((c.tc : Thread Cert.KernelIdeal.nD Cert.KernelIdeal.τ).loc Cert.KernelIdeal.main_arg13)),
    (m ((c.tc : Thread Cert.KernelIdeal.nD Cert.KernelIdeal.τ).loc Cert.KernelIdeal.main_arg14)),
    (m ((c.tc : Thread Cert.KernelIdeal.nD Cert.KernelIdeal.τ).loc Cert.KernelIdeal.main_arg15)),
    (m ((c.tc : Thread Cert.KernelIdeal.nD Cert.KernelIdeal.τ).loc Cert.KernelIdeal.main_arg16)),
    (m ((c.tc : Thread Cert.KernelIdeal.nD Cert.KernelIdeal.τ).loc Cert.KernelIdeal.main_arg17)),
    (m ((c.tc : Thread Cert.KernelIdeal.nD Cert.KernelIdeal.τ).loc Cert.KernelIdeal.main_arg18)),
    (m ((c.tc : Thread Cert.KernelIdeal.nD Cert.KernelIdeal.τ).loc Cert.KernelIdeal.main_arg19)),
    (m ((c.tc : Thread Cert.KernelIdeal.nD Cert.KernelIdeal.τ).loc Cert.KernelIdeal.main_arg20)),
    (m ((c.tc : Thread Cert.KernelIdeal.nD Cert.KernelIdeal.τ).loc Cert.KernelIdeal.main_arg21)),
    (m ((c.tc : Thread Cert.KernelIdeal.nD Cert.KernelIdeal.τ).loc Cert.KernelIdeal.main_arg22)),
    (m ((c.tc : Thread Cert.KernelIdeal.nD Cert.KernelIdeal.τ).loc Cert.KernelIdeal.main_arg23)),
    (m ((c.tc : Thread Cert.KernelIdeal.nD Cert.KernelIdeal.τ).loc Cert.KernelIdeal.main_arg24)),
    (m ((c.tc : Thread Cert.KernelIdeal.nD Cert.KernelIdeal.τ).loc Cert.KernelIdeal.main_arg25)),
    (m ((c.tc : Thread Cert.KernelIdeal.nD Cert.KernelIdeal.τ).loc Cert.KernelIdeal.main_arg26)),
    (m ((c.tc : Thread Cert.KernelIdeal.nD Cert.KernelIdeal.τ).loc Cert.KernelIdeal.main_arg27)),
    (m ((c.tc : Thread Cert.KernelIdeal.nD Cert.KernelIdeal.τ).loc Cert.KernelIdeal.main_arg28)),
    (m ((c.tc : Thread Cert.KernelIdeal.nD Cert.KernelIdeal.τ).loc Cert.KernelIdeal.main_arg29)),
    (m ((c.tc : Thread Cert.KernelIdeal.nD Cert.KernelIdeal.τ).loc Cert.KernelIdeal.main_arg30)),
    (m ((c.tc : Thread Cert.KernelIdeal.nD Cert.KernelIdeal.τ).loc Cert.KernelIdeal.main_arg31))⟩

/-- Under the precondition every entry of every float argument array the network reads is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i))
      ∧ (∀ i, IsReal ((m ((c.tc : Thread Cert.KernelIdeal.nD Cert.KernelIdeal.τ).loc Cert.KernelIdeal.main_arg13)) i))
      ∧ (∀ i, IsReal ((m ((c.tc : Thread Cert.KernelIdeal.nD Cert.KernelIdeal.τ).loc Cert.KernelIdeal.main_arg14)) i))
      ∧ (∀ i, IsReal ((m ((c.tc : Thread Cert.KernelIdeal.nD Cert.KernelIdeal.τ).loc Cert.KernelIdeal.main_arg15)) i))
      ∧ (∀ i, IsReal ((m ((c.tc : Thread Cert.KernelIdeal.nD Cert.KernelIdeal.τ).loc Cert.KernelIdeal.main_arg16)) i))
      ∧ (∀ i, IsReal ((m ((c.tc : Thread Cert.KernelIdeal.nD Cert.KernelIdeal.τ).loc Cert.KernelIdeal.main_arg17)) i))
      ∧ (∀ i, IsReal ((m ((c.tc : Thread Cert.KernelIdeal.nD Cert.KernelIdeal.τ).loc Cert.KernelIdeal.main_arg18)) i))
      ∧ (∀ i, IsReal ((m ((c.tc : Thread Cert.KernelIdeal.nD Cert.KernelIdeal.τ).loc Cert.KernelIdeal.main_arg19)) i))
      ∧ (∀ i, IsReal ((m ((c.tc : Thread Cert.KernelIdeal.nD Cert.KernelIdeal.τ).loc Cert.KernelIdeal.main_arg20)) i))
      ∧ (∀ i, IsReal ((m ((c.tc : Thread Cert.KernelIdeal.nD Cert.KernelIdeal.τ).loc Cert.KernelIdeal.main_arg21)) i))
      ∧ (∀ i, IsReal ((m ((c.tc : Thread Cert.KernelIdeal.nD Cert.KernelIdeal.τ).loc Cert.KernelIdeal.main_arg22)) i))
      ∧ (∀ i, IsReal ((m ((c.tc : Thread Cert.KernelIdeal.nD Cert.KernelIdeal.τ).loc Cert.KernelIdeal.main_arg23)) i))
      ∧ (∀ i, IsReal ((m ((c.tc : Thread Cert.KernelIdeal.nD Cert.KernelIdeal.τ).loc Cert.KernelIdeal.main_arg24)) i))
      ∧ (∀ i, IsReal ((m ((c.tc : Thread Cert.KernelIdeal.nD Cert.KernelIdeal.τ).loc Cert.KernelIdeal.main_arg25)) i))
      ∧ (∀ i, IsReal ((m ((c.tc : Thread Cert.KernelIdeal.nD Cert.KernelIdeal.τ).loc Cert.KernelIdeal.main_arg26)) i))
      ∧ (∀ i, IsReal ((m ((c.tc : Thread Cert.KernelIdeal.nD Cert.KernelIdeal.τ).loc Cert.KernelIdeal.main_arg27)) i))
      ∧ (∀ i, IsReal ((m ((c.tc : Thread Cert.KernelIdeal.nD Cert.KernelIdeal.τ).loc Cert.KernelIdeal.main_arg28)) i))
      ∧ (∀ i, IsReal ((m ((c.tc : Thread Cert.KernelIdeal.nD Cert.KernelIdeal.τ).loc Cert.KernelIdeal.main_arg29)) i))
      ∧ (∀ i, IsReal ((m ((c.tc : Thread Cert.KernelIdeal.nD Cert.KernelIdeal.τ).loc Cert.KernelIdeal.main_arg30)) i))
      ∧ (∀ i, IsReal ((m ((c.tc : Thread Cert.KernelIdeal.nD Cert.KernelIdeal.τ).loc Cert.KernelIdeal.main_arg31)) i)) := by
  have t : T0 (argsOf m c) := fn_real (argsOf m c) (fun d => d.elim0) (congrFun (h c) _)
  obtain ⟨r0, -, rest⟩ := t
  exact ⟨r0, rest⟩

end Cert.Proof.Finite
-- ==== Proof.Spec.lean ====
/-
  The two arrangements of one LINKX layer on the extended reals, with no program in sight.

  A layer takes the aggregated edge embedding `emb` and the node features `x` (both N × D, N = 16384, D = 256), forms
  `out = emb + (emb·c1w + c1b) + xn + (xn·c2w + c2b)` with `xn = x·nw + nb`, rectifies, applies `f1w, f1b`, rectifies
  again to get `h`, normalises every column of `h` over its N rows (mean, biased variance, ε inside the inverse
  square root, scale `g`, shift `b`) and applies `f2w, f2b`.

  The two arrangements differ only in how sums are grouped and in how the variance is taken:
  `R` groups each bias with its matrix product and takes the variance as the mean squared deviation from the mean;
  `K` adds each bias last and takes the variance as the mean of the squares minus the square of the mean.
  Matrices and vectors are plain functions of their coordinates; `toMat`, `toVec`, `ofMat` pass between them and
  arrays indexed by a shape's indices.
-/
import Idealize.ShloMosaic.PureOps.Ideal
import Idealize.ShloMosaic.Lib.ValueIdx
import proofs.«136727_j87875030876560_1_alg».proof.Proof.LibEReal

noncomputable section

namespace Cert.Linkx

open Idealize.ShloMosaic

/-- A matrix of extended reals by coordinates. -/
abbrev Mat (a b : ℕ) := Fin a → Fin b → EReal
/-- A vector of extended reals by its coordinate. -/
abbrev Vect (a : ℕ) := Fin a → EReal

/-- An array over a rank-2 shape read as a matrix. -/
def toMat {a b : ℕ} (A : (⟨2, ![a, b]⟩ : Shape).Idx → EReal) : Mat a b := fun i j => A (ValueIdx.ix2 i j)
/-- An array over a rank-1 shape read as a vector. -/
def toVec {a : ℕ} (v : (⟨1, ![a]⟩ : Shape).Idx → EReal) : Vect a := fun i => v (ValueIdx.ix1 i)
/-- A one-row array over a rank-2 shape `[1, a]` read as a vector. -/
def toRow {a : ℕ} (v : (⟨2, ![1, a]⟩ : Shape).Idx → EReal) : Vect a := fun j => v (ValueIdx.ix2 0 j)
/-- A matrix as an array over the rank-2 shape. -/
def ofMat {a b : ℕ} (M : Mat a b) : (⟨2, ![a, b]⟩ : Shape).Idx → EReal := fun y => M (y 0) (y 1)

theorem toMat_ofMat {a b : ℕ} (M : Mat a b) : toMat (ofMat M) = M := rfl
theorem ofMat_toMat {a b : ℕ} (A : (⟨2, ![a, b]⟩ : Shape).Idx → EReal) : ofMat (toMat A) = A := by
  funext y; exact congrArg A (ValueIdx.eq_ix2 y).symm
theorem ofMat_apply {a b : ℕ} (M : Mat a b) (i : Fin a) (j : Fin b) : ofMat M (ValueIdx.ix2 i j) = M i j := rfl

/-- The number of rows, as a real. -/
def nR : ℝ := 16384
/-- The batch-norm ε: the real number the f32 word 0x3727C5AC denotes, 10995116 · 2⁻⁴⁰ (the f32 nearest 10⁻⁵). -/
def epsR : ℝ := 10995116 / 2 ^ 40

theorem nR_ne : nR ≠ 0 := by unfold nR; norm_num
theorem epsR_pos : 0 < epsR := by unfold epsR; positivity

/-- The f32 word 0x46800000 (sign 0, exponent 141, significand 2²³: 2¹⁴) is the real 16384. -/
theorem n_eq : Ideal.ofBits .f32 0x46800000#32 = ((nR : ℝ) : EReal) := by
  unfold nR
  simp [Ideal.ofBits, Ideal.ieee, -EReal.coe_mul]; norm_num
/-- The f32 word 0x3727C5AC is the real ε. -/
theorem eps_eq : Ideal.ofBits .f32 0x3727C5AC#32 = ((epsR : ℝ) : EReal) := by
  unfold epsR
  simp [Ideal.ofBits, Ideal.ieee, -EReal.coe_mul]; norm_num

/-- The matrix product `A · W` at `(i, j)`: the sum over the D = 256 inner coordinates. -/
def mm {n : ℕ} (A : Mat n 256) (W : Mat 256 256) : Mat n 256 := fun i j => ∑ k : Fin 256, A i k * W k j

/-- `x·nw + nb`. -/
def xnOf {n : ℕ} (x : Mat n 256) (nw : Mat 256 256) (nb : Vect 256) : Mat n 256 := fun i j => mm x nw i j + nb j

/-- The pre-normalisation hidden layer, biases grouped with their products. -/
def hidR {n : ℕ} (emb x : Mat n 256) (nw : Mat 256 256) (nb : Vect 256) (c1w : Mat 256 256) (c1b : Vect 256)
    (c2w : Mat 256 256) (c2b : Vect 256) (f1w : Mat 256 256) (f1b : Vect 256) : Mat n 256 := fun i j =>
  max (mm (fun i j => max (((emb i j + (mm emb c1w i j + c1b j)) + xnOf x nw nb i j)
      + (mm (xnOf x nw nb) c2w i j + c2b j)) 0) f1w i j + f1b j) 0

/-- The pre-normalisation hidden layer, each bias added last. -/
def hidK {n : ℕ} (emb x : Mat n 256) (nw : Mat 256 256) (nb : Vect 256) (c1w : Mat 256 256) (c1b : Vect 256)
    (c2w : Mat 256 256) (c2b : Vect 256) (f1w : Mat 256 256) (f1b : Vect 256) : Mat n 256 := fun i j =>
  max (mm (fun i j => max (((((emb i j + mm emb c1w i j) + c1b j) + xnOf x nw nb i j)
      + mm (xnOf x nw nb) c2w i j) + c2b j) 0) f1w i j + f1b j) 0

/-- The mean of each column over the 16384 rows. -/
def colMean (h : Mat 16384 256) : Vect 256 := fun j => Ideal.div (∑ i : Fin 16384, h i j) ((nR : ℝ) : EReal)
/-- The variance of each column as the mean squared deviation from the mean. -/
def varR (h : Mat 16384 256) : Vect 256 := fun j =>
  Ideal.div (∑ i : Fin 16384, (h i j - colMean h j) * (h i j - colMean h j)) ((nR : ℝ) : EReal)
/-- The variance of each column as the mean of the squares minus the square of the mean. -/
def varK (h : Mat 16384 256) : Vect 256 := fun j =>
  Ideal.div (∑ i : Fin 16384, h i j * h i j) ((nR : ℝ) : EReal) - colMean h j * colMean h j

/-- The normalisation with a given mean and variance row, then `f2w, f2b`. -/
def normOut {n : ℕ} (h : Mat n 256) (mu var g b : Vect 256) (f2w : Mat 256 256) (f2b : Vect 256) : Mat n 256 := fun i j =>
  mm (fun i j => ((h i j - mu j) * Ideal.rsqrt (var j + ((epsR : ℝ) : EReal))) * g j + b j) f2w i j + f2b j

/-- One layer, the first arrangement. -/
def layerR (emb x : Mat 16384 256) (nw : Mat 256 256) (nb : Vect 256) (c1w : Mat 256 256) (c1b : Vect 256)
    (c2w : Mat 256 256) (c2b : Vect 256) (f1w : Mat 256 256) (f1b : Vect 256) (g b : Vect 256)
    (f2w : Mat 256 256) (f2b : Vect 256) : Mat 16384 256 :=
  normOut (hidR emb x nw nb c1w c1b c2w c2b f1w f1b) (colMean (hidR emb x nw nb c1w c1b c2w c2b f1w f1b))
    (varR (hidR emb x nw nb c1w c1b c2w c2b f1w f1b)) g b f2w f2b

/-- One layer, the second arrangement. -/
def layerK (emb x : Mat 16384 256) (nw : Mat 256 256) (nb : Vect 256) (c1w : Mat 256 256) (c1b : Vect 256)
    (c2w : Mat 256 256) (c2b : Vect 256) (f1w : Mat 256 256) (f1b : Vect 256) (g b : Vect 256)
    (f2w : Mat 256 256) (f2b : Vect 256) : Mat 16384 256 :=
  normOut (hidK emb x nw nb c1w c1b c2w c2b f1w f1b) (colMean (hidK emb x nw nb c1w c1b c2w c2b f1w f1b))
    (varK (hidK emb x nw nb c1w c1b c2w c2b f1w f1b)) g b f2w f2b

end Cert.Linkx

end
-- ==== Proof.Math1.lean ====
/-
  The two arrangements of one layer agree on real inputs.

  * The hidden layers `hidK` and `hidR` differ only in how a sum of six terms is bracketed; addition of extended
    reals is associative, so they agree for every input.
  * With real inputs every entry of the hidden layer is a real number: sums, products, finite sums and the
    rectifier keep real numbers real.
  * For a real matrix the column means are real, the two variances agree (the identity between the mean of the
    squares minus the square of the mean and the mean squared deviation, over the reals), the variance is a
    nonnegative real, so the variance plus ε is a positive real and its inverse square root is real.
-/
import proofs.«136727_j87875030876560_1_alg».proof.Proof.Spec

noncomputable section

namespace Cert.Linkx

open Idealize.ShloMosaic
open Cert.Spec (IsReal)

/-! ## The hidden layer -/

/-- The two bracketings of the six-term sum. -/
theorem six_assoc (a A c X B d : EReal) :
    ((a + (A + c)) + X) + (B + d) = ((((a + A) + c) + X) + B) + d := by
  simp only [add_assoc]

/-- The two hidden layers agree for all extended-real inputs. -/
theorem hidK_eq_hidR {n : ℕ} (emb x : Mat n 256) (nw : Mat 256 256) (nb : Vect 256) (c1w : Mat 256 256)
    (c1b : Vect 256) (c2w : Mat 256 256) (c2b : Vect 256) (f1w : Mat 256 256) (f1b : Vect 256) :
    hidK emb x nw nb c1w c1b c2w c2b f1w f1b = hidR emb x nw nb c1w c1b c2w c2b f1w f1b := by
  funext i j
  unfold hidK hidR
  simp only [six_assoc]

/-- A product of real matrices is real. -/
theorem mm_isReal {n : ℕ} {A : Mat n 256} {W : Mat 256 256} (hA : ∀ i k, IsReal (A i k))
    (hW : ∀ k j, IsReal (W k j)) : ∀ i j, IsReal (mm A W i j) := fun i j =>
  IsReal.sum _ _ fun k => (hA i k).mul (hW k j)

/-- `x·nw + nb` is real for real arguments. -/
theorem xnOf_isReal {n : ℕ} {x : Mat n 256} {nw : Mat 256 256} {nb : Vect 256} (hx : ∀ i j, IsReal (x i j))
    (hnw : ∀ i j, IsReal (nw i j)) (hnb : ∀ j, IsReal (nb j)) : ∀ i j, IsReal (xnOf x nw nb i j) := fun i j =>
  (mm_isReal hx hnw i j).add (hnb j)

/-- With real inputs every entry of the hidden layer is real. -/
theorem hidR_isReal {n : ℕ} {emb x : Mat n 256} {nw : Mat 256 256} {nb : Vect 256} {c1w : Mat 256 256}
    {c1b : Vect 256} {c2w : Mat 256 256} {c2b : Vect 256} {f1w : Mat 256 256} {f1b : Vect 256}
    (hemb : ∀ i j, IsReal (emb i j)) (hx : ∀ i j, IsReal (x i j)) (hnw : ∀ i j, IsReal (nw i j))
    (hnb : ∀ j, IsReal (nb j)) (hc1w : ∀ i j, IsReal (c1w i j)) (hc1b : ∀ j, IsReal (c1b j))
    (hc2w : ∀ i j, IsReal (c2w i j)) (hc2b : ∀ j, IsReal (c2b j)) (hf1w : ∀ i j, IsReal (f1w i j))
    (hf1b : ∀ j, IsReal (f1b j)) : ∀ i j, IsReal (hidR emb x nw nb c1w c1b c2w c2b f1w f1b i j) := by
  intro i j
  have hxn := xnOf_isReal hx hnw hnb
  have hin : ∀ i j, IsReal (max (((emb i j + (mm emb c1w i j + c1b j)) + xnOf x nw nb i j)
      + (mm (xnOf x nw nb) c2w i j + c2b j)) 0) := fun i j =>
    ((((hemb i j).add ((mm_isReal hemb hc1w i j).add (hc1b j))).add (hxn i j)).add
      ((mm_isReal hxn hc2w i j).add (hc2b j))).max_zero
  exact ((mm_isReal hin hf1w i j).add (hf1b j)).max_zero

/-! ## Mean and variance of a real matrix -/

/-- The number of rows, as a real. -/
theorem card_rows : (Fintype.card (Fin 16384) : ℝ) = nR := by
  rw [Fintype.card_fin]; unfold nR; norm_num

/-- The column mean of a matrix of reals, as a real. -/
theorem colMean_coe (h : Fin 16384 → Fin 256 → ℝ) (j : Fin 256) :
    colMean (fun i j => ((h i j : ℝ) : EReal)) j = (((∑ i, h i j) * (1 / nR) : ℝ) : EReal) := by
  unfold colMean
  rw [Cert.Spec.div_real _ nR_ne, ← Cert.Spec.coe_sum, ← EReal.coe_mul]

/-- The mean-squared-deviation variance of a matrix of reals, as a real. -/
theorem varR_coe (h : Fin 16384 → Fin 256 → ℝ) (j : Fin 256) :
    varR (fun i j => ((h i j : ℝ) : EReal)) j
      = (((∑ i, (h i j - (∑ i, h i j) * (1 / nR)) * (h i j - (∑ i, h i j) * (1 / nR))) * (1 / nR) : ℝ) : EReal) := by
  unfold varR
  rw [colMean_coe, Cert.Spec.div_real _ nR_ne]
  simp only [← EReal.coe_sub, ← EReal.coe_mul, ← Cert.Spec.coe_sum]

/-- The mean-of-squares variance of a matrix of reals, as a real. -/
theorem varK_coe (h : Fin 16384 → Fin 256 → ℝ) (j : Fin 256) :
    varK (fun i j => ((h i j : ℝ) : EReal)) j
      = (((∑ i, h i j * h i j) * (1 / nR) - ((∑ i, h i j) * (1 / nR)) * ((∑ i, h i j) * (1 / nR)) : ℝ) : EReal) := by
  unfold varK
  rw [colMean_coe, Cert.Spec.div_real _ nR_ne]
  simp only [← EReal.coe_sub, ← EReal.coe_mul, ← Cert.Spec.coe_sum]

/-- A real matrix is the coercion of a matrix of reals. -/
theorem exists_coe {h : Mat 16384 256} (hh : ∀ i j, IsReal (h i j)) :
    ∃ h' : Fin 16384 → Fin 256 → ℝ, h = fun i j => ((h' i j : ℝ) : EReal) := by
  choose h' hh' using hh
  exact ⟨h', funext fun i => funext fun j => hh' i j⟩

/-- The column means of a real matrix are real. -/
theorem colMean_isReal {h : Mat 16384 256} (hh : ∀ i j, IsReal (h i j)) : ∀ j, IsReal (colMean h j) := fun j =>
  (IsReal.sum _ _ fun i => hh i j).div_real nR_ne

/-- For a real matrix the two variances agree. -/
theorem varK_eq_varR {h : Mat 16384 256} (hh : ∀ i j, IsReal (h i j)) : varK h = varR h := by
  obtain ⟨h', rfl⟩ := exists_coe hh
  funext j
  rw [varK_coe, varR_coe, Cert.Spec.var_real (fun i => h' i j) nR nR_ne card_rows]

/-- For a real matrix the inverse square root of the variance plus ε is real. -/
theorem rsqrt_varR_isReal {h : Mat 16384 256} (hh : ∀ i j, IsReal (h i j)) (j : Fin 256) :
    IsReal (Ideal.rsqrt (varR h j + ((epsR : ℝ) : EReal))) := by
  obtain ⟨h', rfl⟩ := exists_coe hh
  rw [varR_coe, ← EReal.coe_add]
  have hN : (0 : ℝ) ≤ 1 / nR := by unfold nR; norm_num
  have hv : (0 : ℝ) ≤ (∑ i, (h' i j - (∑ i, h' i j) * (1 / nR)) * (h' i j - (∑ i, h' i j) * (1 / nR))) * (1 / nR) :=
    mul_nonneg (Finset.sum_nonneg fun i _ => mul_self_nonneg _) hN
  rw [Cert.Spec.rsqrt_pos (add_pos_of_nonneg_of_pos hv epsR_pos)]
  exact IsReal.coe _

/-! ## The normalisation and the whole layer -/

/-- The normalised output is real when all its ingredients are. -/
theorem normOut_isReal {n : ℕ} {h : Mat n 256} {mu var g b : Vect 256} {f2w : Mat 256 256} {f2b : Vect 256}
    (hh : ∀ i j, IsReal (h i j)) (hmu : ∀ j, IsReal (mu j))
    (hrs : ∀ j, IsReal (Ideal.rsqrt (var j + ((epsR : ℝ) : EReal)))) (hg : ∀ j, IsReal (g j))
    (hb : ∀ j, IsReal (b j)) (hf2w : ∀ i j, IsReal (f2w i j)) (hf2b : ∀ j, IsReal (f2b j)) :
    ∀ i j, IsReal (normOut h mu var g b f2w f2b i j) := by
  intro i j
  have hin : ∀ i j, IsReal (((h i j - mu j) * Ideal.rsqrt (var j + ((epsR : ℝ) : EReal))) * g j + b j) := fun i j =>
    ((((hh i j).sub (hmu j)).mul (hrs j)).mul (hg j)).add (hb j)
  exact (mm_isReal hin hf2w i j).add (hf2b j)

end Cert.Linkx

end
-- ==== Proof.Math.lean ====
/-
  One layer: on real inputs the two arrangements agree, and the result is real.

  The hidden layers of the two arrangements agree for every input (associativity of the sum); with real inputs the
  hidden layer is real, so its two variances agree; hence the normalised outputs agree.  All ingredients of the
  normalised output — the hidden layer, the column means, the inverse square root of the variance plus ε, the scale,
  the shift, the last weights and bias — are real, so every entry of the output is real.
-/
import proofs.«136727_j87875030876560_1_alg».proof.Proof.Math1

noncomputable section

namespace Cert.Linkx

/-- On real inputs the two arrangements of a layer agree: the hidden layers agree for every input, and on the real
    hidden layer the two variances agree. -/
theorem layer_eq (emb x : Mat 16384 256) (nw : Mat 256 256) (nb : Vect 256) (c1w : Mat 256 256) (c1b : Vect 256)
    (c2w : Mat 256 256) (c2b : Vect 256) (f1w : Mat 256 256) (f1b : Vect 256) (g b : Vect 256)
    (f2w : Mat 256 256) (f2b : Vect 256)
    (hemb : ∀ i j, Cert.Spec.IsReal (emb i j)) (hx : ∀ i j, Cert.Spec.IsReal (x i j))
    (hnw : ∀ i j, Cert.Spec.IsReal (nw i j)) (hnb : ∀ j, Cert.Spec.IsReal (nb j))
    (hc1w : ∀ i j, Cert.Spec.IsReal (c1w i j)) (hc1b : ∀ j, Cert.Spec.IsReal (c1b j))
    (hc2w : ∀ i j, Cert.Spec.IsReal (c2w i j)) (hc2b : ∀ j, Cert.Spec.IsReal (c2b j))
    (hf1w : ∀ i j, Cert.Spec.IsReal (f1w i j)) (hf1b : ∀ j, Cert.Spec.IsReal (f1b j))
    (hg : ∀ j, Cert.Spec.IsReal (g j)) (hb : ∀ j, Cert.Spec.IsReal (b j))
    (hf2w : ∀ i j, Cert.Spec.IsReal (f2w i j)) (hf2b : ∀ j, Cert.Spec.IsReal (f2b j)) :
    layerK emb x nw nb c1w c1b c2w c2b f1w f1b g b f2w f2b = layerR emb x nw nb c1w c1b c2w c2b f1w f1b g b f2w f2b := by
  unfold layerK layerR
  rw [hidK_eq_hidR, varK_eq_varR (hidR_isReal hemb hx hnw hnb hc1w hc1b hc2w hc2b hf1w hf1b)]

/-- On real inputs every entry of a layer's output is real. -/
theorem layerR_isReal (emb x : Mat 16384 256) (nw : Mat 256 256) (nb : Vect 256) (c1w : Mat 256 256) (c1b : Vect 256)
    (c2w : Mat 256 256) (c2b : Vect 256) (f1w : Mat 256 256) (f1b : Vect 256) (g b : Vect 256)
    (f2w : Mat 256 256) (f2b : Vect 256)
    (hemb : ∀ i j, Cert.Spec.IsReal (emb i j)) (hx : ∀ i j, Cert.Spec.IsReal (x i j))
    (hnw : ∀ i j, Cert.Spec.IsReal (nw i j)) (hnb : ∀ j, Cert.Spec.IsReal (nb j))
    (hc1w : ∀ i j, Cert.Spec.IsReal (c1w i j)) (hc1b : ∀ j, Cert.Spec.IsReal (c1b j))
    (hc2w : ∀ i j, Cert.Spec.IsReal (c2w i j)) (hc2b : ∀ j, Cert.Spec.IsReal (c2b j))
    (hf1w : ∀ i j, Cert.Spec.IsReal (f1w i j)) (hf1b : ∀ j, Cert.Spec.IsReal (f1b j))
    (hg : ∀ j, Cert.Spec.IsReal (g j)) (hb : ∀ j, Cert.Spec.IsReal (b j))
    (hf2w : ∀ i j, Cert.Spec.IsReal (f2w i j)) (hf2b : ∀ j, Cert.Spec.IsReal (f2b j)) :
    ∀ i j, Cert.Spec.IsReal (layerR emb x nw nb c1w c1b c2w c2b f1w f1b g b f2w f2b i j) := by
  have hh := hidR_isReal hemb hx hnw hnb hc1w hc1b hc2w hc2b hf1w hf1b
  unfold layerR
  exact normOut_isReal hh (colMean_isReal hh) (rsqrt_varR_isReal hh) hg hb hf2w hf2b

end Cert.Linkx

end
-- ==== Proof.RefDefs.lean ====
/-
  The reference program's host operations as functions of arrays.

  `embArr` is the aggregated edge embedding (the edge list's two rows, the source indices wrapped into range,
  the gather of the embedding table's rows, their scatter-add at the destinations, the bias row added);
  `hidArr` is the dense chain up to the second rectification; `meanArr` and `varArr` are the column mean and the
  column variance (the mean squared deviation from the mean, over N − 0 rows, selected against a not-a-number
  when N − 0 is not positive); `bnArr` the normalisation; `layerArr` one whole layer; `lastOp` the final
  concatenation.  Each mirrors the program's operations one for one, in the program's order.
-/
import proofs.«136727_j87875030876560_1_alg».proof.ReferenceIdeal
import Idealize.ShloMosaic.PureOps.Ideal

noncomputable section

namespace Cert.ReferenceIdeal.Hand

open Cert.ReferenceIdeal Idealize.ShloMosaic
open Cert.ReferenceIdeal.Facts₀ Cert.ReferenceIdeal.Facts

variable [Facts]

/-- The aggregated edge embedding plus its bias: operations %0 … %16. -/
def embArr (ew : FVec Ideal S16384x256 .f32) (eb : FVec Ideal S256 .f32) (ei : IVec S2x262144 32) : FVec Ideal S16384x256 .f32 :=
  addf (Host.scatterAdd scatter_S16384x256_S262144x1_S262144x256_1_0_0_1 (broadcastInDim S16384x256 ![] bcast_S_S16384x256 (constant (F := Ideal) S_ .f32 0x00000000#32)) (broadcastInDim S262144x1 ![0] bcast_S262144_S262144x1_0 (shapeCast S262144 (extractStridedSlice S1x262144 ![1, 0] ei slices_S2x262144_S1x262144_1_0) shapeCasts_S1x262144_S262144)) (Host.gather gather_S16384x256_S262144x1_S262144x256_1_0_n_n_0_1_1256 ew (broadcastInDim S262144x1 ![0] bcast_S262144_S262144x1_0 (select (cmpi .slt (shapeCast S262144 (extractStridedSlice S1x262144 ![0, 0] ei slices_S2x262144_S1x262144_0_0) shapeCasts_S1x262144_S262144) (broadcastInDim S262144 ![] bcast_S_S262144 (constantI S_ 32 0#32))) (addi (shapeCast S262144 (extractStridedSlice S1x262144 ![0, 0] ei slices_S2x262144_S1x262144_0_0) shapeCasts_S1x262144_S262144) (broadcastInDim S262144 ![] bcast_S_S262144 (constantI S_ 32 16384#32))) (shapeCast S262144 (extractStridedSlice S1x262144 ![0, 0] ei slices_S2x262144_S1x262144_0_0) shapeCasts_S1x262144_S262144))))) (broadcastInDim S16384x256 ![0, 1] bcast_S1x256_S16384x256_0_1 (broadcastInDim S1x256 ![1] bcast_S256_S1x256_1 eb))

/-- The dense chain up to the second rectification: operations %17 … %37. -/
def hidArr (emb x : FVec Ideal S16384x256 .f32) (nw : FVec Ideal S256x256 .f32) (nb : FVec Ideal S256 .f32) (c1w : FVec Ideal S256x256 .f32) (c1b : FVec Ideal S256 .f32)
    (c2w : FVec Ideal S256x256 .f32) (c2b : FVec Ideal S256 .f32) (f1w : FVec Ideal S256x256 .f32) (f1b : FVec Ideal S256 .f32) : FVec Ideal S16384x256 .f32 :=
  maximumf (addf (Host.dotGeneral dot_S16384x256_S256x256_S16384x256_1_0_0_1_n_n none (maximumf (addf (addf (addf emb (addf (Host.dotGeneral dot_S16384x256_S256x256_S16384x256_1_0_0_1_n_n none emb c1w) (broadcastInDim S16384x256 ![0, 1] bcast_S1x256_S16384x256_0_1 (broadcastInDim S1x256 ![1] bcast_S256_S1x256_1 c1b)))) (addf (Host.dotGeneral dot_S16384x256_S256x256_S16384x256_1_0_0_1_n_n none x nw) (broadcastInDim S16384x256 ![0, 1] bcast_S1x256_S16384x256_0_1 (broadcastInDim S1x256 ![1] bcast_S256_S1x256_1 nb)))) (addf (Host.dotGeneral dot_S16384x256_S256x256_S16384x256_1_0_0_1_n_n none (addf (Host.dotGeneral dot_S16384x256_S256x256_S16384x256_1_0_0_1_n_n none x nw) (broadcastInDim S16384x256 ![0, 1] bcast_S1x256_S16384x256_0_1 (broadcastInDim S1x256 ![1] bcast_S256_S1x256_1 nb))) c2w) (broadcastInDim S16384x256 ![0, 1] bcast_S1x256_S16384x256_0_1 (broadcastInDim S1x256 ![1] bcast_S256_S1x256_1 c2b)))) (broadcastInDim S16384x256 ![] bcast_S_S16384x256 (constant (F := Ideal) S_ .f32 0x00000000#32))) f1w) (broadcastInDim S16384x256 ![0, 1] bcast_S1x256_S16384x256_0_1 (broadcastInDim S1x256 ![1] bcast_S256_S1x256_1 f1b))) (broadcastInDim S16384x256 ![] bcast_S_S16384x256 (constant (F := Ideal) S_ .f32 0x00000000#32))

/-- The column mean: the column sum divided by N. -/
def meanArr (h : FVec Ideal S16384x256 .f32) : FVec Ideal S256 .f32 :=
  Host.divf (Host.reduceAdd h (constant (F := Ideal) S_ .f32 0x00000000#32) reducesTo_S16384x256_S256_d0 h_S_) (broadcastInDim S256 ![] bcast_S_S256 (constant (F := Ideal) S_ .f32 0x46800000#32))

/-- The column variance as the outlined function computes it with its second argument the integer 0. -/
def varArr (h : FVec Ideal S16384x256 .f32) : FVec Ideal S256 .f32 :=
  select (broadcastInDim S256 ![] bcast_S_S256 (cmpf .ogt (subf (constant (F := Ideal) S_ .f32 0x46800000#32) (sitofp (F := Ideal) .f32 (constantI S_ 32 0#32))) (constant (F := Ideal) S_ .f32 0x00000000#32))) (Host.divf (Host.reduceAdd (mulf (subf h (broadcastInDim S16384x256 ![0, 1] bcast_S1x256_S16384x256_0_1 (Host.divf (broadcastInDim S1x256 ![1] bcast_S256_S1x256_1 (Host.reduceAdd h (constant (F := Ideal) S_ .f32 0x00000000#32) reducesTo_S16384x256_S256_d0 h_S_)) (broadcastInDim S1x256 ![] bcast_S_S1x256 (constant (F := Ideal) S_ .f32 0x46800000#32))))) (subf h (broadcastInDim S16384x256 ![0, 1] bcast_S1x256_S16384x256_0_1 (Host.divf (broadcastInDim S1x256 ![1] bcast_S256_S1x256_1 (Host.reduceAdd h (constant (F := Ideal) S_ .f32 0x00000000#32) reducesTo_S16384x256_S256_d0 h_S_)) (broadcastInDim S1x256 ![] bcast_S_S1x256 (constant (F := Ideal) S_ .f32 0x46800000#32)))))) (constant (F := Ideal) S_ .f32 0x00000000#32) reducesTo_S16384x256_S256_d0 h_S_) (broadcastInDim S256 ![] bcast_S_S256 (subf (constant (F := Ideal) S_ .f32 0x46800000#32) (sitofp (F := Ideal) .f32 (constantI S_ 32 0#32))))) (broadcastInDim S256 ![] bcast_S_S256 (id (constant (F := Ideal) S_ .f32 0x7FC00000#32)))

/-- The normalisation with scale and shift: operations %42 … %56. -/
def bnArr (h : FVec Ideal S16384x256 .f32) (g b : FVec Ideal S256 .f32) : FVec Ideal S16384x256 .f32 :=
  addf (mulf (mulf (subf h (broadcastInDim S16384x256 ![0, 1] bcast_S1x256_S16384x256_0_1 (broadcastInDim S1x256 ![1] bcast_S256_S1x256_1 (meanArr h)))) (broadcastInDim S16384x256 ![0, 1] bcast_S1x256_S16384x256_0_1 (broadcastInDim S1x256 ![1] bcast_S256_S1x256_1 (Host.rsqrt (addf (varArr h) (broadcastInDim S256 ![] bcast_S_S256 (constant (F := Ideal) S_ .f32 0x3727C5AC#32))))))) (broadcastInDim S16384x256 ![0, 1] bcast_S1x256_S16384x256_0_1 (broadcastInDim S1x256 ![1] bcast_S256_S1x256_1 g))) (broadcastInDim S16384x256 ![0, 1] bcast_S1x256_S16384x256_0_1 (broadcastInDim S1x256 ![1] bcast_S256_S1x256_1 b))

/-- One layer: operations %17 … %60. -/
def layerArr (emb x : FVec Ideal S16384x256 .f32) (nw : FVec Ideal S256x256 .f32) (nb : FVec Ideal S256 .f32) (c1w : FVec Ideal S256x256 .f32) (c1b : FVec Ideal S256 .f32)
    (c2w : FVec Ideal S256x256 .f32) (c2b : FVec Ideal S256 .f32) (f1w : FVec Ideal S256x256 .f32) (f1b : FVec Ideal S256 .f32) (g b : FVec Ideal S256 .f32)
    (f2w : FVec Ideal S256x256 .f32) (f2b : FVec Ideal S256 .f32) : FVec Ideal S16384x256 .f32 :=
  addf (Host.dotGeneral dot_S16384x256_S256x256_S16384x256_1_0_0_1_n_n none (bnArr (hidArr emb x nw nb c1w c1b c2w c2b f1w f1b) g b) f2w) (broadcastInDim S16384x256 ![0, 1] bcast_S1x256_S16384x256_0_1 (broadcastInDim S1x256 ![1] bcast_S256_S1x256_1 f2b))

/-- The final concatenation along the columns: operation %122. -/
def lastOp (a x : FVec Ideal S16384x256 .f32) : FVec Ideal S16384x512 .f32 :=
  concatenate S16384x512 1 [⟨S16384x256, a⟩, ⟨S16384x256, x⟩] concatenates_S16384x256_S16384x256_S16384x512_d1

end Cert.ReferenceIdeal.Hand

end
-- ==== Proof.LibAggReal.lean ====
import Idealize.ShloMosaic.PureOps.Ideal
import proofs.«136727_j87875030876560_1_alg».proof.Proof.LibEReal

/-! Gathers and accumulating scatters keep real entries. No program is imported.

    At the ideal instance a float is an extended real. A gather reads each entry of its result off the operand at a
    computed index, so an operand of real entries gives a result of real entries. An accumulating scatter makes each
    entry of its result the operand's entry plus the finite sum of the update entries whose target is that entry
    (an update aimed outside the operand adds nothing), so a real operand and real updates give real entries.
    Both hold for every dimension record and every array of integer indices. -/

noncomputable section

open Idealize.ShloMosaic

namespace Cert.Spec

/-- Every entry of a gather out of real entries is real: it is one of the operand's entries. -/
theorem gather_isReal {s si so : Shape} (d : GatherDims s si so) {w : ℕ} (x : s.Idx → EReal) (idx : IVec si w)
    (hx : ∀ i, IsReal (x i)) (j : so.Idx) : IsReal (Host.gather d x idx j) :=
  hx (d.operandIdx j idx)

/-- Every entry of an accumulating scatter of real updates into a real operand is real: it is the operand's entry
    plus a finite sum of update entries. -/
theorem scatterAdd_isReal {φ : FTy} {s si su : Shape} (d : ScatterDims s si su) {w : ℕ} (x : s.Idx → EReal)
    (idx : IVec si w) (u : su.Idx → EReal) (hx : ∀ i, IsReal (x i)) (hu : ∀ i, IsReal (u i)) (j : s.Idx) :
    IsReal (Host.scatterAdd (F := Ideal) (φ := φ) d x idx u j) :=
  (hx j).add (IsReal.sum _ _ hu)

end Cert.Spec

end
-- ==== Proof.LibBcastRead.lean ====
/-
  Broadcasts of vectors over a matrix, read at an entry.

  A length-`E` vector turned into an `E × 1` column and then spread over `C` columns has, at entry
  `(e, q)`, the vector's entry `e`, whatever the column `q`. A length-`C` vector turned into a
  `1 × C` row and then spread over `N` rows has, at entry `(n, q)`, the vector's entry `q`. A scalar
  spread over any shape has the scalar at every entry. No program is imported.
-/
import Idealize.ShloMosaic.Lib.Pipeline.Value
import Idealize.ShloMosaic.Lib.ValueIdx

noncomputable section

namespace Cert.Lib.BcastRead

open Idealize.ShloMosaic Idealize.ShloMosaic.ValueIdx

variable {α : Type}

/-- A vector as a column, spread over the columns: entry `(e, q)` is the vector's entry `e`. -/
theorem col_spread_apply {E C : Nat} (hE : E ≠ 1)
    (h1 : (⟨1, ![E]⟩ : Shape).BroadcastsInDim ⟨2, ![E, 1]⟩ ![0])
    (h2 : (⟨2, ![E, 1]⟩ : Shape).BroadcastsInDim ⟨2, ![E, C]⟩ ![0, 1])
    (v : (⟨1, ![E]⟩ : Shape).Idx → α) (e : Fin E) (q : Fin C) :
    broadcastInDim ⟨2, ![E, C]⟩ ![0, 1] h2 (broadcastInDim ⟨2, ![E, 1]⟩ ![0] h1 v) (ix2 e q) = v (ix1 e) := by
  rw [broadcastInDim_apply ![0, 1] h2 _ (ix2 e q) (ix2 e (0 : Fin 1)) (fun a => by
    match a with
    | ⟨0, _⟩ => exact (if_neg hE).symm
    | ⟨1, _⟩ => exact (if_pos rfl).symm)]
  exact broadcastInDim_apply ![0] h1 v (ix2 e (0 : Fin 1)) (ix1 e) (fun a => by
    match a with
    | ⟨0, _⟩ => exact (if_neg hE).symm)

/-- A vector as a row, spread over the rows: entry `(n, q)` is the vector's entry `q`. -/
theorem row_spread_apply {N C : Nat} (hC : C ≠ 1)
    (h1 : (⟨1, ![C]⟩ : Shape).BroadcastsInDim ⟨2, ![1, C]⟩ ![1])
    (h2 : (⟨2, ![1, C]⟩ : Shape).BroadcastsInDim ⟨2, ![N, C]⟩ ![0, 1])
    (v : (⟨1, ![C]⟩ : Shape).Idx → α) (n : Fin N) (q : Fin C) :
    broadcastInDim ⟨2, ![N, C]⟩ ![0, 1] h2 (broadcastInDim ⟨2, ![1, C]⟩ ![1] h1 v) (ix2 n q) = v (ix1 q) := by
  rw [broadcastInDim_apply ![0, 1] h2 _ (ix2 n q) (ix2 (0 : Fin 1) q) (fun a => by
    match a with
    | ⟨0, _⟩ => exact (if_pos rfl).symm
    | ⟨1, _⟩ => exact (if_neg hC).symm)]
  exact broadcastInDim_apply ![1] h1 v (ix2 (0 : Fin 1) q) (ix1 q) (fun a => by
    match a with
    | ⟨0, _⟩ => exact (if_neg hC).symm)

/-- A scalar spread over a shape: every entry is the scalar. -/
theorem scalar_spread_apply {T : Shape} (h : (⟨0, ![]⟩ : Shape).BroadcastsInDim T ![])
    (x : (⟨0, ![]⟩ : Shape).Idx → α) (j : T.Idx) :
    broadcastInDim T ![] h x j = x ix0 :=
  broadcastInDim_apply ![] h x j ix0 (fun a => a.elim0)

end Cert.Lib.BcastRead

end
-- ==== Proof.RefReadBn.lean ====
/-
  The reference's aggregated embedding has real entries, and its column mean and column variance read at a column.

  The aggregated embedding is a scatter-add of gathered rows of the embedding table into the zero array, plus a bias
  row: real table entries and a real bias give real entries.  The column mean at column j is the sum of the column's
  16384 entries divided by 16384; the column variance at column j is the sum of the squared deviations from that mean
  divided by 16384 (the guard 16384 - 0 > 0 of the variance is a true constant, so the guarded branch is taken).
-/
import proofs.«136727_j87875030876560_1_alg».proof.Proof.RefDefs
import proofs.«136727_j87875030876560_1_alg».proof.Proof.Spec
import proofs.«136727_j87875030876560_1_alg».proof.Proof.LibAggReal
import proofs.«136727_j87875030876560_1_alg».proof.Proof.LibBcastRead
import Idealize.ShloMosaic.PureOps.Ideal.Laws

noncomputable section

namespace Cert.ReferenceIdeal.Hand

open Cert.ReferenceIdeal Idealize.ShloMosaic Cert.Linkx
open Cert.ReferenceIdeal.Facts₀ Cert.ReferenceIdeal.Facts

variable [Facts]

/-- The aggregated embedding of a real table with a real bias has real entries: the scatter-add's operand is the
    zero array, its updates are gathered table entries, and the bias row is added entrywise. -/
theorem embArr_isReal (ew : FVec Ideal S16384x256 .f32) (eb : FVec Ideal S256 .f32) (ei : IVec S2x262144 32)
    (hew : ∀ i, Cert.Spec.IsReal (ew i)) (heb : ∀ i, Cert.Spec.IsReal (eb i)) :
    ∀ i, Cert.Spec.IsReal (embArr ew eb ei i) := by
  intro i
  unfold embArr
  refine Cert.Spec.IsReal.add ?_ (heb _)
  refine Cert.Spec.scatterAdd_isReal _ _ _ _ (fun _ => ?_) (fun j => Cert.Spec.gather_isReal _ _ _ hew j) i
  show Cert.Spec.IsReal (Ideal.ofBits .f32 0x00000000#32)
  rw [Ideal.ofBits_zero_f32]
  exact Cert.Spec.IsReal.zero

/-- The index a column reduction reads: row k of column j. -/
theorem lift_col (hR : S16384x256.Reduces [0] S256) (j : Fin 256) (k : Fin 16384) :
    hR.lift (ValueIdx.ix1 j) k = ValueIdx.ix2 k j := by
  funext a; apply Fin.ext
  match a with
  | ⟨0, _⟩ => rfl
  | ⟨1, _⟩ => rfl

/-- A column sum with initial value zero, read at column j: the sum of the column's entries. -/
theorem colsum_apply (h : FVec Ideal S16384x256 .f32) (j : Fin 256) :
    Host.reduceAdd (F := Ideal) h (constant (F := Ideal) S_ .f32 0x00000000#32) reducesTo_S16384x256_S256_d0 h_S_ (ValueIdx.ix1 j)
      = ∑ i : Fin 16384, h (ValueIdx.ix2 i j) := by
  have hR : S16384x256.Reduces [0] S256 := by decide
  refine (Ideal.hostReduceAdd_single reducesTo_S16384x256_S256_d0 hR h _ (ValueIdx.ix1 j)).trans ?_
  rw [ValueIdx.constant_apply, Ideal.ofBits_zero_f32, zero_add]
  exact Finset.sum_congr rfl fun k _ => congrArg h (lift_col hR j k)

/-- The column mean at column j. -/
theorem meanArr_apply (h : FVec Ideal S16384x256 .f32) (j : Fin 256) :
    meanArr h (ValueIdx.ix1 j) = colMean (toMat h) j := by
  unfold meanArr colMean
  show Ideal.div (Host.reduceAdd (F := Ideal) h (constant (F := Ideal) S_ .f32 0x00000000#32) reducesTo_S16384x256_S256_d0 h_S_ (ValueIdx.ix1 j))
      (broadcastInDim S256 ![] bcast_S_S256 (constant (F := Ideal) S_ .f32 0x46800000#32) (ValueIdx.ix1 j)) = _
  rw [colsum_apply, Cert.Lib.BcastRead.scalar_spread_apply, ValueIdx.constant_apply, n_eq]
  rfl

/-- A one-row array spread over the rows, read at (n, q): the row's entry q. -/
theorem rows_apply {α : Type} {N C : Nat} (hC : C ≠ 1)
    (h2 : (⟨2, ![1, C]⟩ : Shape).BroadcastsInDim ⟨2, ![N, C]⟩ ![0, 1])
    (r : (⟨2, ![1, C]⟩ : Shape).Idx → α) (n : Fin N) (q : Fin C) :
    broadcastInDim ⟨2, ![N, C]⟩ ![0, 1] h2 r (ValueIdx.ix2 n q) = r (ValueIdx.ix2 (0 : Fin 1) q) :=
  broadcastInDim_apply ![0, 1] h2 r (ValueIdx.ix2 n q) (ValueIdx.ix2 (0 : Fin 1) q) (fun a => by
    match a with
    | ⟨0, _⟩ => exact (if_pos rfl).symm
    | ⟨1, _⟩ => exact (if_neg hC).symm)

/-- A vector made a one-row array, read at (0, q): the vector's entry q. -/
theorem asrow_apply {α : Type} {C : Nat} (hC : C ≠ 1)
    (h1 : (⟨1, ![C]⟩ : Shape).BroadcastsInDim ⟨2, ![1, C]⟩ ![1])
    (v : (⟨1, ![C]⟩ : Shape).Idx → α) (q : Fin C) :
    broadcastInDim ⟨2, ![1, C]⟩ ![1] h1 v (ValueIdx.ix2 (0 : Fin 1) q) = v (ValueIdx.ix1 q) :=
  broadcastInDim_apply ![1] h1 v (ValueIdx.ix2 (0 : Fin 1) q) (ValueIdx.ix1 q) (fun a => by
    match a with
    | ⟨0, _⟩ => exact (if_neg hC).symm)

/-- The number of rows less the integer zero made a float: the real 16384. -/
theorem rows_less_zero (i : S_.Idx) :
    subf (constant (F := Ideal) S_ .f32 0x46800000#32) (sitofp (F := Ideal) .f32 (constantI S_ 32 0#32)) i = ((nR : ℝ) : EReal) := by
  show Ideal.ofBits .f32 0x46800000#32 - ((((0#32 : BitVec 32).toInt : ℝ)) : EReal) = _
  rw [n_eq]
  have h0 : (((0#32 : BitVec 32).toInt : ℝ)) = 0 := by simp
  rw [h0, EReal.coe_zero, sub_zero]

/-- The variance's guard 16384 - 0 > 0 holds. -/
theorem guard_true (i : S_.Idx) :
    cmpf .ogt (subf (constant (F := Ideal) S_ .f32 0x46800000#32) (sitofp (F := Ideal) .f32 (constantI S_ 32 0#32)))
      (constant (F := Ideal) S_ .f32 0x00000000#32) i = 1#1 := by
  show Ideal.cmp .ogt (subf (constant (F := Ideal) S_ .f32 0x46800000#32) (sitofp (F := Ideal) .f32 (constantI S_ 32 0#32)) i)
      (Ideal.ofBits .f32 0x00000000#32) = 1#1
  rw [rows_less_zero, Ideal.ofBits_zero_f32]
  have hpos : (0 : EReal) < ((nR : ℝ) : EReal) := by
    rw [← EReal.coe_zero]; exact EReal.coe_lt_coe_iff.mpr (by unfold nR; norm_num)
  show BitVec.ofBool (decide ((0 : EReal) < ((nR : ℝ) : EReal))) = 1#1
  rw [decide_eq_true hpos]
  rfl

/-- A host quotient read at an index. -/
theorem hostDivf_apply {s : Shape} {φ : FTy} (x y : FVec Ideal s φ) (i : s.Idx) :
    Host.divf (F := Ideal) x y i = Ideal.div (x i) (y i) := rfl

/-- The deviation from the column mean, as the variance forms it, read at (i, j). -/
theorem dev_apply (h : FVec Ideal S16384x256 .f32) (i : Fin 16384) (j : Fin 256) :
    subf h (broadcastInDim S16384x256 ![0, 1] bcast_S1x256_S16384x256_0_1
      (Host.divf (F := Ideal) (broadcastInDim S1x256 ![1] bcast_S256_S1x256_1
          (Host.reduceAdd (F := Ideal) h (constant (F := Ideal) S_ .f32 0x00000000#32) reducesTo_S16384x256_S256_d0 h_S_))
        (broadcastInDim S1x256 ![] bcast_S_S1x256 (constant (F := Ideal) S_ .f32 0x46800000#32)))) (ValueIdx.ix2 i j)
      = toMat h i j - colMean (toMat h) j := by
  rw [ValueIdx.subf_apply, rows_apply (by decide), hostDivf_apply, asrow_apply (by decide), colsum_apply,
    Cert.Lib.BcastRead.scalar_spread_apply, ValueIdx.constant_apply, n_eq]
  rfl

/-- The column variance at column j: the mean squared deviation from the column mean. -/
theorem varArr_apply (h : FVec Ideal S16384x256 .f32) (j : Fin 256) :
    varArr h (ValueIdx.ix1 j) = varR (toMat h) j := by
  unfold varArr
  rw [ValueIdx.select_apply, Cert.Lib.BcastRead.scalar_spread_apply, guard_true, ValueIdx.select_one,
    hostDivf_apply, colsum_apply, Cert.Lib.BcastRead.scalar_spread_apply, rows_less_zero]
  unfold varR
  refine congrArg (fun t => Ideal.div t ((nR : ℝ) : EReal)) (Finset.sum_congr rfl fun i _ => ?_)
  rw [ValueIdx.mulf_apply, dev_apply]

end Cert.ReferenceIdeal.Hand

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.RefReadHid.lean ====
/-
  The reference's dense chain read at an entry.

  Entry (p, q) of a product of a 16384 x 256 array with a 256 x 256 array is the sum over k of left (p, k) times
  right (k, q); a bias is spread over the rows, so it contributes its entry q; the rectifier is the maximum with the
  zero array.  Reading the chain entry by entry gives the hidden layer of the specification, with each bias grouped
  with its product.
-/
import proofs.«136727_j87875030876560_1_alg».proof.Proof.RefDefs
import proofs.«136727_j87875030876560_1_alg».proof.Proof.Spec
import proofs.«136727_j87875030876560_1_alg».proof.Proof.LibDotPlain
import proofs.«136727_j87875030876560_1_alg».proof.Proof.LibBcastRead
import Idealize.ShloMosaic.PureOps.Ideal.Laws

noncomputable section

namespace Cert.ReferenceIdeal.Hand

open Cert.ReferenceIdeal Idealize.ShloMosaic Cert.Linkx
open Cert.ReferenceIdeal.Facts₀ Cert.ReferenceIdeal.Facts

variable [Facts]

/-- Entry (p, q) of a 16384 x 256 by 256 x 256 product: the sum over the 256 inner coordinates. -/
theorem dot_apply (l : FVec Ideal S16384x256 .f32) (r : FVec Ideal S256x256 .f32) (p : Fin 16384) (q : Fin 256) :
    Host.dotGeneral (F := Ideal) dot_S16384x256_S256x256_S16384x256_1_0_0_1_n_n none l r (ValueIdx.ix2 p q)
      = ∑ k : Fin 256, l (ValueIdx.ix2 p k) * r (ValueIdx.ix2 k q) :=
  Cert.LibDotPlain.dotGeneral_apply _ rfl rfl rfl rfl rfl rfl none l r p q

/-- A bias spread over the rows, read at (p, q): the bias's entry q. -/
theorem biasRow_apply (v : FVec Ideal S256 .f32) (p : Fin 16384) (q : Fin 256) :
    broadcastInDim S16384x256 ![0, 1] bcast_S1x256_S16384x256_0_1 (broadcastInDim S1x256 ![1] bcast_S256_S1x256_1 v) (ValueIdx.ix2 p q)
      = v (ValueIdx.ix1 q) :=
  Cert.Lib.BcastRead.row_spread_apply (by decide) _ _ v p q

/-- The zero array read at an index. -/
theorem zeros_apply (y : S16384x256.Idx) :
    broadcastInDim S16384x256 ![] bcast_S_S16384x256 (constant (F := Ideal) S_ .f32 0x00000000#32) y = 0 := by
  rw [Cert.Lib.BcastRead.scalar_spread_apply, ValueIdx.constant_apply, Ideal.ofBits_zero_f32]

/-- A product plus its bias row, read at (p, q). -/
theorem affine_apply (a : FVec Ideal S16384x256 .f32) (w : FVec Ideal S256x256 .f32) (v : FVec Ideal S256 .f32)
    (p : Fin 16384) (q : Fin 256) :
    addf (Host.dotGeneral (F := Ideal) dot_S16384x256_S256x256_S16384x256_1_0_0_1_n_n none a w)
        (broadcastInDim S16384x256 ![0, 1] bcast_S1x256_S16384x256_0_1 (broadcastInDim S1x256 ![1] bcast_S256_S1x256_1 v)) (ValueIdx.ix2 p q)
      = mm (toMat a) (toMat w) p q + toVec v q := by
  rw [ValueIdx.addf_apply, dot_apply, biasRow_apply]
  rfl

/-- The array the first rectification produces, read at (p, q). -/
theorem mid_apply (emb x : FVec Ideal S16384x256 .f32) (nw : FVec Ideal S256x256 .f32) (nb : FVec Ideal S256 .f32)
    (c1w : FVec Ideal S256x256 .f32) (c1b : FVec Ideal S256 .f32) (c2w : FVec Ideal S256x256 .f32) (c2b : FVec Ideal S256 .f32)
    (p : Fin 16384) (q : Fin 256) :
    maximumf (addf (addf (addf emb (addf (Host.dotGeneral (F := Ideal) dot_S16384x256_S256x256_S16384x256_1_0_0_1_n_n none emb c1w) (broadcastInDim S16384x256 ![0, 1] bcast_S1x256_S16384x256_0_1 (broadcastInDim S1x256 ![1] bcast_S256_S1x256_1 c1b)))) (addf (Host.dotGeneral (F := Ideal) dot_S16384x256_S256x256_S16384x256_1_0_0_1_n_n none x nw) (broadcastInDim S16384x256 ![0, 1] bcast_S1x256_S16384x256_0_1 (broadcastInDim S1x256 ![1] bcast_S256_S1x256_1 nb)))) (addf (Host.dotGeneral (F := Ideal) dot_S16384x256_S256x256_S16384x256_1_0_0_1_n_n none (addf (Host.dotGeneral (F := Ideal) dot_S16384x256_S256x256_S16384x256_1_0_0_1_n_n none x nw) (broadcastInDim S16384x256 ![0, 1] bcast_S1x256_S16384x256_0_1 (broadcastInDim S1x256 ![1] bcast_S256_S1x256_1 nb))) c2w) (broadcastInDim S16384x256 ![0, 1] bcast_S1x256_S16384x256_0_1 (broadcastInDim S1x256 ![1] bcast_S256_S1x256_1 c2b)))) (broadcastInDim S16384x256 ![] bcast_S_S16384x256 (constant (F := Ideal) S_ .f32 0x00000000#32)) (ValueIdx.ix2 p q)
      = max (((toMat emb p q + (mm (toMat emb) (toMat c1w) p q + toVec c1b q)) + xnOf (toMat x) (toMat nw) (toVec nb) p q)
          + (mm (xnOf (toMat x) (toMat nw) (toVec nb)) (toMat c2w) p q + toVec c2b q)) 0 := by
  rw [ValueIdx.maximumf_apply, zeros_apply, ValueIdx.addf_apply, ValueIdx.addf_apply, ValueIdx.addf_apply,
    affine_apply, affine_apply, ValueIdx.addf_apply, dot_apply, biasRow_apply]
  have hs : ∑ k : Fin 256, addf (Host.dotGeneral (F := Ideal) dot_S16384x256_S256x256_S16384x256_1_0_0_1_n_n none x nw)
        (broadcastInDim S16384x256 ![0, 1] bcast_S1x256_S16384x256_0_1 (broadcastInDim S1x256 ![1] bcast_S256_S1x256_1 nb)) (ValueIdx.ix2 p k)
        * c2w (ValueIdx.ix2 k q)
      = mm (xnOf (toMat x) (toMat nw) (toVec nb)) (toMat c2w) p q :=
    Finset.sum_congr rfl fun k _ => congrArg (· * c2w (ValueIdx.ix2 k q)) (affine_apply x nw nb p k)
  rw [hs]
  rfl

/-- The dense chain up to the second rectification is the specification's hidden layer, biases grouped with
    their products. -/
theorem hidArr_eq (emb x : FVec Ideal S16384x256 .f32) (nw : FVec Ideal S256x256 .f32) (nb : FVec Ideal S256 .f32)
    (c1w : FVec Ideal S256x256 .f32) (c1b : FVec Ideal S256 .f32) (c2w : FVec Ideal S256x256 .f32) (c2b : FVec Ideal S256 .f32)
    (f1w : FVec Ideal S256x256 .f32) (f1b : FVec Ideal S256 .f32) :
    hidArr emb x nw nb c1w c1b c2w c2b f1w f1b
      = ofMat (a := 16384) (b := 256) (hidR (toMat emb) (toMat x) (toMat nw) (toVec nb) (toMat c1w) (toVec c1b)
          (toMat c2w) (toVec c2b) (toMat f1w) (toVec f1b)) := by
  funext y
  obtain ⟨p, q, rfl⟩ : ∃ (p : Fin 16384) (q : Fin 256), y = ValueIdx.ix2 p q := ⟨y 0, y 1, ValueIdx.eq_ix2 y⟩
  rw [ofMat_apply]
  unfold hidArr hidR
  rw [ValueIdx.maximumf_apply, zeros_apply, ValueIdx.addf_apply, dot_apply, biasRow_apply]
  refine congrArg (fun t => max (t + f1b (ValueIdx.ix1 q)) 0) (Finset.sum_congr rfl fun k _ => ?_)
  exact congrArg (· * f1w (ValueIdx.ix2 k q)) (mid_apply emb x nw nb c1w c1b c2w c2b p k)

end Cert.ReferenceIdeal.Hand

end
-- ==== Proof.RefRead.lean ====
/-
  One layer of the reference read at an entry.

  The normalised array at (p, q) is the hidden entry less the column mean, times the inverse square root of the
  column variance plus ε, times the scale, plus the shift; the layer is its product with the last weight matrix plus
  the last bias row.  With the hidden layer, the column mean and the column variance already read, this is the
  specification's layer in its first arrangement.
-/
import proofs.«136727_j87875030876560_1_alg».proof.Proof.RefReadBn
import proofs.«136727_j87875030876560_1_alg».proof.Proof.RefReadHid

noncomputable section

namespace Cert.ReferenceIdeal.Hand

open Cert.ReferenceIdeal Idealize.ShloMosaic Cert.Linkx
open Cert.ReferenceIdeal.Facts₀ Cert.ReferenceIdeal.Facts

variable [Facts]

/-- A host inverse square root read at an index. -/
theorem hostRsqrt_apply {s : Shape} {φ : FTy} (x : FVec Ideal s φ) (i : s.Idx) :
    Host.rsqrt (F := Ideal) x i = Ideal.rsqrt (x i) := rfl

/-- The inverse square root of the variance plus ε, read at column q. -/
theorem invStd_apply (h : FVec Ideal S16384x256 .f32) (q : Fin 256) :
    Host.rsqrt (F := Ideal) (addf (varArr h) (broadcastInDim S256 ![] bcast_S_S256 (constant (F := Ideal) S_ .f32 0x3727C5AC#32))) (ValueIdx.ix1 q)
      = Ideal.rsqrt (varR (toMat h) q + ((epsR : ℝ) : EReal)) := by
  rw [hostRsqrt_apply, ValueIdx.addf_apply, varArr_apply, Cert.Lib.BcastRead.scalar_spread_apply, ValueIdx.constant_apply, eps_eq]

/-- The normalisation with scale and shift, read at (p, q). -/
theorem bnArr_apply (h : FVec Ideal S16384x256 .f32) (g b : FVec Ideal S256 .f32) (p : Fin 16384) (q : Fin 256) :
    bnArr h g b (ValueIdx.ix2 p q)
      = ((toMat h p q - colMean (toMat h) q) * Ideal.rsqrt (varR (toMat h) q + ((epsR : ℝ) : EReal))) * toVec g q + toVec b q := by
  unfold bnArr
  rw [ValueIdx.addf_apply, ValueIdx.mulf_apply, ValueIdx.mulf_apply, ValueIdx.subf_apply,
    biasRow_apply, biasRow_apply, biasRow_apply, biasRow_apply, meanArr_apply, invStd_apply]
  rfl

/-- One layer of the reference is the specification's layer in its first arrangement. -/
theorem layerArr_eq (emb x : FVec Ideal S16384x256 .f32) (nw : FVec Ideal S256x256 .f32) (nb : FVec Ideal S256 .f32)
    (c1w : FVec Ideal S256x256 .f32) (c1b : FVec Ideal S256 .f32) (c2w : FVec Ideal S256x256 .f32) (c2b : FVec Ideal S256 .f32)
    (f1w : FVec Ideal S256x256 .f32) (f1b : FVec Ideal S256 .f32) (g b : FVec Ideal S256 .f32)
    (f2w : FVec Ideal S256x256 .f32) (f2b : FVec Ideal S256 .f32) :
    layerArr emb x nw nb c1w c1b c2w c2b f1w f1b g b f2w f2b
      = ofMat (a := 16384) (b := 256) (layerR (toMat emb) (toMat x) (toMat nw) (toVec nb) (toMat c1w) (toVec c1b)
          (toMat c2w) (toVec c2b) (toMat f1w) (toVec f1b) (toVec g) (toVec b) (toMat f2w) (toVec f2b)) := by
  funext y
  obtain ⟨p, q, rfl⟩ : ∃ (p : Fin 16384) (q : Fin 256), y = ValueIdx.ix2 p q := ⟨y 0, y 1, ValueIdx.eq_ix2 y⟩
  rw [ofMat_apply]
  unfold layerArr layerR normOut mm
  rw [ValueIdx.addf_apply, dot_apply, biasRow_apply, hidArr_eq]
  refine congrArg (· + f2b (ValueIdx.ix1 q)) (Finset.sum_congr rfl fun k _ => ?_)
  refine congrArg (· * f2w (ValueIdx.ix2 k q)) ?_
  rw [bnArr_apply, toMat_ofMat]

end Cert.ReferenceIdeal.Hand

end
-- ==== Proof.KEmb.lean ====
/-
  The aggregated edge embedding as the host operations before each layer's first kernel compute it.

  The edge list `ei` has two rows of 262144 node numbers: sources and destinations. A negative source number is
  taken from the end (16384 is added to it). Row `s` of the table `ew` is gathered for every edge's source `s`;
  the gathered rows are added into a zero array at the rows the destinations name; the bias `eb`, as a row, is added
  to every row of the result.
-/
import proofs.«136727_j87875030876560_1_alg».proof.KernelIdeal
import Idealize.ShloMosaic.PureOps.Ideal

noncomputable section

namespace Cert.KernelIdeal.Hand

open Idealize.ShloMosaic
open Cert.KernelIdeal

variable [Facts]
open Facts₀ Facts

/-- A vector of node numbers with the negative ones taken from the end: 16384 added where the number is below 0. -/
def normIdxK (v : IVec S262144 32) : IVec S262144 32 :=
  select (cmpi .slt v (broadcastInDim S262144 ![] bcast_S_S262144 (constantI S_ 32 0#32)))
    (addi v (broadcastInDim S262144 ![] bcast_S_S262144 (constantI S_ 32 16384#32))) v

/-- The aggregated edge embedding: the table's rows gathered at the sources, added up at the destinations, plus the
    bias row. -/
def embArrK (ew : FVec Ideal S16384x256 .f32) (eb : FVec Ideal S256 .f32) (ei : IVec S2x262144 32) :
    FVec Ideal S16384x256 .f32 :=
  addf
    (Host.scatterAdd scatter_S16384x256_S262144x1_S262144x256_1_0_0_1
      (broadcastInDim S16384x256 ![] bcast_S_S16384x256 (constant (F := Ideal) S_ .f32 0x00000000#32))
      (broadcastInDim S262144x1 ![0] bcast_S262144_S262144x1_0
        (shapeCast S262144 (extractStridedSlice S1x262144 ![1, 0] ei slices_S2x262144_S1x262144_1_0)
          shapeCasts_S1x262144_S262144))
      (Host.gather gather_S16384x256_S262144x1_S262144x256_1_0_n_n_0_1_1256 ew
        (broadcastInDim S262144x1 ![0] bcast_S262144_S262144x1_0
          (normIdxK (shapeCast S262144 (extractStridedSlice S1x262144 ![0, 0] ei slices_S2x262144_S1x262144_0_0)
            shapeCasts_S1x262144_S262144)))))
    (broadcastInDim S16384x256 ![0, 1] bcast_S1x256_S16384x256_0_1 (shapeCast S1x256 eb shapeCasts_S256_S1x256))

end Cert.KernelIdeal.Hand

end
-- ==== Proof.Bridge.lean ====
/-
  The two programs compute one function of real inputs.

  The aggregated edge embedding is the same array in both programs: the one difference, the bias as a length-256
  vector reshaped to a 1 × 256 row against the same vector broadcast to a 1 × 256 row, disappears when the row is
  spread over the 16384 rows (entry (n, q) is the vector's entry q either way).  One layer of the reference is the
  specification's layer in its first arrangement; on real inputs the two arrangements agree, and a layer's output is
  real, so the second layer's inputs are real as well.  Hence the second arrangement of the two layers, written as
  an array, is the reference's two layers.
-/
import proofs.«136727_j87875030876560_1_alg».proof.Proof.Math
import proofs.«136727_j87875030876560_1_alg».proof.Proof.RefRead
import proofs.«136727_j87875030876560_1_alg».proof.Proof.KEmb
import proofs.«136727_j87875030876560_1_alg».proof.Proof.LibBcastRead

noncomputable section

namespace Cert.Proof.Bridge

open Idealize.ShloMosaic Idealize.ShloMosaic.ValueIdx Cert.Linkx Cert.Spec
open Cert.KernelIdeal.Hand Cert.ReferenceIdeal.Hand

variable [Cert.KernelIdeal.Facts] [Cert.ReferenceIdeal.Facts]

/-! ## The aggregated embedding -/

/-- A length-256 vector reshaped to a 1 × 256 row and spread over the rows: entry (n, q) is the vector's entry q. -/
theorem bias_apply (eb : FVec Ideal Cert.KernelIdeal.S256 .f32) (n : Fin 16384) (q : Fin 256) :
    broadcastInDim Cert.KernelIdeal.S16384x256 ![0, 1] Cert.KernelIdeal.Facts₀.bcast_S1x256_S16384x256_0_1
        (shapeCast Cert.KernelIdeal.S1x256 eb Cert.KernelIdeal.Facts₀.shapeCasts_S256_S1x256) (ix2 n q) = eb (ix1 q) := by
  refine (broadcastInDim_apply ![0, 1] _ _ (ix2 n q) (ix2 (0 : Fin 1) q) (fun a => ?_)).trans ?_
  · match a with
    | ⟨0, _⟩ => exact (if_pos rfl).symm
    | ⟨1, _⟩ => exact (if_neg (show (256 : ℕ) ≠ 1 by decide)).symm
  · refine shapeCast_apply eb _ (ix2 (0 : Fin 1) q) (ix1 q) ?_
    rw [Shape.rowMajor_val_one, Shape.rowMajor_val_two]
    simp [ix1, ix2]

/-- The reshaped bias row spread over the rows is the broadcast bias row spread over the rows. -/
theorem bias_eq (eb : FVec Ideal Cert.KernelIdeal.S256 .f32) :
    broadcastInDim Cert.KernelIdeal.S16384x256 ![0, 1] Cert.KernelIdeal.Facts₀.bcast_S1x256_S16384x256_0_1
        (shapeCast Cert.KernelIdeal.S1x256 eb Cert.KernelIdeal.Facts₀.shapeCasts_S256_S1x256)
      = broadcastInDim Cert.ReferenceIdeal.S16384x256 ![0, 1] Cert.ReferenceIdeal.Facts₀.bcast_S1x256_S16384x256_0_1
        (broadcastInDim Cert.ReferenceIdeal.S1x256 ![1] Cert.ReferenceIdeal.Facts₀.bcast_S256_S1x256_1 eb) := by
  funext y
  have hy := eq_ix2 (n0 := 16384) (n1 := 256) y
  rw [hy]
  exact (bias_apply eb (y 0) (y 1)).trans
    (Cert.Lib.BcastRead.row_spread_apply (show (256 : ℕ) ≠ 1 by decide) _ _ eb (y 0) (y 1)).symm

/-- The aggregated edge embedding is the same array in both programs. -/
theorem embArrK_eq (ew : FVec Ideal Cert.KernelIdeal.S16384x256 .f32) (eb : FVec Ideal Cert.KernelIdeal.S256 .f32)
    (ei : IVec Cert.KernelIdeal.S2x262144 32) : embArrK ew eb ei = embArr ew eb ei := by
  unfold embArrK embArr normIdxK
  rw [bias_eq]
  rfl

/-! ## One layer, then two -/

/-- A node-feature array, a weight matrix, a bias or scale vector. -/
abbrev M := FVec Ideal Cert.ReferenceIdeal.S16384x256 .f32
abbrev W := FVec Ideal Cert.ReferenceIdeal.S256x256 .f32
abbrev V := FVec Ideal Cert.ReferenceIdeal.S256 .f32

theorem toMat_real {a b : ℕ} {A : (⟨2, ![a, b]⟩ : Shape).Idx → EReal} (h : ∀ i, IsReal (A i)) :
    ∀ i j, IsReal (toMat A i j) := fun i j => h _
theorem toVec_real {a : ℕ} {v : (⟨1, ![a]⟩ : Shape).Idx → EReal} (h : ∀ i, IsReal (v i)) :
    ∀ i, IsReal (toVec v i) := fun i => h _

/-- On real inputs the second arrangement of a layer, as an array, is the reference's layer, and it is real. -/
theorem layer_bridge (emb x : M) (nw : W) (nb : V) (c1w : W) (c1b : V) (c2w : W) (c2b : V) (f1w : W) (f1b : V) (g b : V) (f2w : W) (f2b : V)
    (hemb : ∀ i, IsReal (emb i)) (hx : ∀ i, IsReal (x i)) (hnw : ∀ i, IsReal (nw i)) (hnb : ∀ i, IsReal (nb i)) (hc1w : ∀ i, IsReal (c1w i)) (hc1b : ∀ i, IsReal (c1b i)) (hc2w : ∀ i, IsReal (c2w i)) (hc2b : ∀ i, IsReal (c2b i)) (hf1w : ∀ i, IsReal (f1w i)) (hf1b : ∀ i, IsReal (f1b i)) (hg : ∀ i, IsReal (g i)) (hb : ∀ i, IsReal (b i)) (hf2w : ∀ i, IsReal (f2w i)) (hf2b : ∀ i, IsReal (f2b i)) :
    ofMat (a := 16384) (b := 256) (layerK (toMat emb) (toMat x) (toMat nw) (toVec nb) (toMat c1w) (toVec c1b) (toMat c2w) (toVec c2b) (toMat f1w) (toVec f1b) (toVec g) (toVec b) (toMat f2w) (toVec f2b))
        = layerArr emb x nw nb c1w c1b c2w c2b f1w f1b g b f2w f2b
      ∧ ∀ i, IsReal (layerArr emb x nw nb c1w c1b c2w c2b f1w f1b g b f2w f2b i) := by
  rw [layerArr_eq, layer_eq _ _ _ _ _ _ _ _ _ _ _ _ _ _ (toMat_real hemb) (toMat_real hx) (toMat_real hnw) (toVec_real hnb) (toMat_real hc1w) (toVec_real hc1b) (toMat_real hc2w) (toVec_real hc2b) (toMat_real hf1w) (toVec_real hf1b) (toVec_real hg) (toVec_real hb) (toMat_real hf2w) (toVec_real hf2b)]
  exact ⟨rfl, fun i => layerR_isReal _ _ _ _ _ _ _ _ _ _ _ _ _ _ (toMat_real hemb) (toMat_real hx) (toMat_real hnw) (toVec_real hnb) (toMat_real hc1w) (toVec_real hc1b) (toMat_real hc2w) (toVec_real hc2b) (toMat_real hf1w) (toVec_real hf1b) (toVec_real hg) (toVec_real hb) (toMat_real hf2w) (toVec_real hf2b) (i 0) (i 1)⟩

/-- Two layers: the second arrangement over the kernel program's embeddings is the reference's two layers. -/
theorem two_layers (x : M) (ei : IVec Cert.ReferenceIdeal.S2x262144 32)
    (ew1 : M) (eb1 : V) (nw1 : W) (nb1 : V) (c1w1 : W) (c1b1 : V) (c2w1 : W) (c2b1 : V) (f1w1 : W) (f1b1 : V) (g1 b1 : V) (f2w1 : W) (f2b1 : V)
    (ew2 : M) (eb2 : V) (nw2 : W) (nb2 : V) (c1w2 : W) (c1b2 : V) (c2w2 : W) (c2b2 : V) (f1w2 : W) (f1b2 : V) (g2 b2 : V) (f2w2 : W) (f2b2 : V)
    (hx : ∀ i, IsReal (x i))
    (hew1 : ∀ i, IsReal (ew1 i)) (heb1 : ∀ i, IsReal (eb1 i)) (hnw1 : ∀ i, IsReal (nw1 i)) (hnb1 : ∀ i, IsReal (nb1 i)) (hc1w1 : ∀ i, IsReal (c1w1 i)) (hc1b1 : ∀ i, IsReal (c1b1 i)) (hc2w1 : ∀ i, IsReal (c2w1 i)) (hc2b1 : ∀ i, IsReal (c2b1 i)) (hf1w1 : ∀ i, IsReal (f1w1 i)) (hf1b1 : ∀ i, IsReal (f1b1 i)) (hg1 : ∀ i, IsReal (g1 i)) (hb1 : ∀ i, IsReal (b1 i)) (hf2w1 : ∀ i, IsReal (f2w1 i)) (hf2b1 : ∀ i, IsReal (f2b1 i))
    (hew2 : ∀ i, IsReal (ew2 i)) (heb2 : ∀ i, IsReal (eb2 i)) (hnw2 : ∀ i, IsReal (nw2 i)) (hnb2 : ∀ i, IsReal (nb2 i)) (hc1w2 : ∀ i, IsReal (c1w2 i)) (hc1b2 : ∀ i, IsReal (c1b2 i)) (hc2w2 : ∀ i, IsReal (c2w2 i)) (hc2b2 : ∀ i, IsReal (c2b2 i)) (hf1w2 : ∀ i, IsReal (f1w2 i)) (hf1b2 : ∀ i, IsReal (f1b2 i)) (hg2 : ∀ i, IsReal (g2 i)) (hb2 : ∀ i, IsReal (b2 i)) (hf2w2 : ∀ i, IsReal (f2w2 i)) (hf2b2 : ∀ i, IsReal (f2b2 i)) :
    ofMat (a := 16384) (b := 256) (layerK (toMat (embArrK ew2 eb2 ei))
        (layerK (toMat (embArrK ew1 eb1 ei)) (toMat x) (toMat nw1) (toVec nb1) (toMat c1w1) (toVec c1b1) (toMat c2w1) (toVec c2b1) (toMat f1w1) (toVec f1b1) (toVec g1) (toVec b1) (toMat f2w1) (toVec f2b1))
        (toMat nw2) (toVec nb2) (toMat c1w2) (toVec c1b2) (toMat c2w2) (toVec c2b2) (toMat f1w2) (toVec f1b2) (toVec g2) (toVec b2) (toMat f2w2) (toVec f2b2))
      = layerArr (embArr ew2 eb2 ei) (layerArr (embArr ew1 eb1 ei) x nw1 nb1 c1w1 c1b1 c2w1 c2b1 f1w1 f1b1 g1 b1 f2w1 f2b1) nw2 nb2 c1w2 c1b2 c2w2 c2b2 f1w2 f1b2 g2 b2 f2w2 f2b2 := by
  rw [embArrK_eq, embArrK_eq]
  obtain ⟨e1, r1⟩ := layer_bridge (embArr ew1 eb1 ei) x nw1 nb1 c1w1 c1b1 c2w1 c2b1 f1w1 f1b1 g1 b1 f2w1 f2b1
    (embArr_isReal ew1 eb1 ei hew1 heb1) hx hnw1 hnb1 hc1w1 hc1b1 hc2w1 hc2b1 hf1w1 hf1b1 hg1 hb1 hf2w1 hf2b1
  obtain ⟨e2, -⟩ := layer_bridge (embArr ew2 eb2 ei) (layerArr (embArr ew1 eb1 ei) x nw1 nb1 c1w1 c1b1 c2w1 c2b1 f1w1 f1b1 g1 b1 f2w1 f2b1) nw2 nb2 c1w2 c1b2 c2w2 c2b2 f1w2 f1b2 g2 b2 f2w2 f2b2
    (embArr_isReal ew2 eb2 ei hew2 heb2) r1 hnw2 hnb2 hc1w2 hc1b2 hc2w2 hc2b2 hf1w2 hf1b2 hg2 hb2 hf2w2 hf2b2
  have k1 : layerK (toMat (embArr ew1 eb1 ei)) (toMat x) (toMat nw1) (toVec nb1) (toMat c1w1) (toVec c1b1) (toMat c2w1) (toVec c2b1) (toMat f1w1) (toVec f1b1) (toVec g1) (toVec b1) (toMat f2w1) (toVec f2b1)
      = toMat (layerArr (embArr ew1 eb1 ei) x nw1 nb1 c1w1 c1b1 c2w1 c2b1 f1w1 f1b1 g1 b1 f2w1 f2b1) := by
    rw [← e1, toMat_ofMat]
  rw [k1]
  exact e2

end Cert.Proof.Bridge

end
-- ==== Proof.RefOps.lean ====
/-
  The reference program's host operations as lists, in the program's order, a call of an outlined
  function replaced by that function's operations over the call's own buffers.  The whole line is cut
  into consecutive stretches: per layer the edge aggregation (A), the dense chain to the second
  rectification (B), the column mean and variance (C), the normalisation and the last product (D, in two
  pieces), and at the end the concatenation (E).
-/
import proofs.«136727_j87875030876560_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 0 … 19 of the line. -/
abbrev opsA1 : List (HloOp τ sig (Elt F)) :=
  [ StableHlo.unary main_arg2 main_v0 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v0 main_v1 rfl shapeCasts_S1x262144_S262144,
    StableHlo.unary main_arg2 main_v2 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v2 main_v3 rfl shapeCasts_S1x262144_S262144,
    StableHlo.nullary main_c (constantI S_ 32 0#32),
    StableHlo.unary main_c main_v4 (broadcastInDim S262144 ![] bcast_S_S262144 : (⟨S_, .i32⟩ : BufTy).Contents (Elt F) → (⟨S262144, .i32⟩ : BufTy).Contents (Elt F)),
    StableHlo.binary main_v1 main_v4 main_v5 (cmpi .slt : (⟨S262144, .i32⟩ : BufTy).Contents (Elt F) → (⟨S262144, .i32⟩ : BufTy).Contents (Elt F) → (⟨S262144, .i1⟩ : BufTy).Contents (Elt F)),
    StableHlo.nullary main_c_0 (constantI S_ 32 16384#32),
    StableHlo.unary main_c_0 main_v6 (broadcastInDim S262144 ![] bcast_S_S262144 : (⟨S_, .i32⟩ : BufTy).Contents (Elt F) → (⟨S262144, .i32⟩ : BufTy).Contents (Elt F)),
    StableHlo.binary main_v1 main_v6 main_v7 (addi : (⟨S262144, .i32⟩ : BufTy).Contents (Elt F) → (⟨S262144, .i32⟩ : BufTy).Contents (Elt F) → (⟨S262144, .i32⟩ : BufTy).Contents (Elt F)),
    StableHlo.ternary main_v5 main_v7 main_v1 main_v8 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v8 main_v9 (broadcastInDim S262144x1 ![0] bcast_S262144_S262144x1_0 : (⟨S262144, .i32⟩ : BufTy).Contents (Elt F) → (⟨S262144x1, .i32⟩ : BufTy).Contents (Elt F)),
    StableHlo.binary main_arg4 main_v9 main_v10 ((fun x i => Host.gather gather_S16384x256_S262144x1_S262144x256_1_0_n_n_0_1_1256 x i) : (⟨S16384x256, .f32⟩ : BufTy).Contents (Elt F) → (⟨S262144x1, .i32⟩ : BufTy).Contents (Elt F) → (⟨S262144x256, .f32⟩ : BufTy).Contents (Elt F)),
    StableHlo.nullary main_cst (constant S_ .f32 0x00000000#32),
    StableHlo.unary main_cst main_v11 (broadcastInDim S16384x256 ![] bcast_S_S16384x256 : (⟨S_, .f32⟩ : BufTy).Contents (Elt F) → (⟨S16384x256, .f32⟩ : BufTy).Contents (Elt F)),
    StableHlo.unary main_v3 main_v12 (broadcastInDim S262144x1 ![0] bcast_S262144_S262144x1_0 : (⟨S262144, .i32⟩ : BufTy).Contents (Elt F) → (⟨S262144x1, .i32⟩ : BufTy).Contents (Elt F)),
    StableHlo.ternary main_v11 main_v12 main_v10 main_v13 ((fun x i u => Host.scatterAdd scatter_S16384x256_S262144x1_S262144x256_1_0_0_1 x i u) : (⟨S16384x256, .f32⟩ : BufTy).Contents (Elt F) → (⟨S262144x1, .i32⟩ : BufTy).Contents (Elt F) → (⟨S262144x256, .f32⟩ : BufTy).Contents (Elt F) → (⟨S16384x256, .f32⟩ : BufTy).Contents (Elt F)),
    StableHlo.unary main_arg5 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S16384x256 ![0, 1] bcast_S1x256_S16384x256_0_1 : (⟨S1x256, .f32⟩ : BufTy).Contents (Elt F) → (⟨S16384x256, .f32⟩ : BufTy).Contents (Elt F)),
    StableHlo.binary main_v13 main_v15 main_v16 (addf : (⟨S16384x256, .f32⟩ : BufTy).Contents (Elt F) → (⟨S16384x256, .f32⟩ : BufTy).Contents (Elt F) → (⟨S16384x256, .f32⟩ : BufTy).Contents (Elt F)) ]

/-- Operations 20 … 44 of the line. -/
abbrev opsB1 : List (HloOp τ sig (Elt F)) :=
  [ StableHlo.binary main_v16 main_arg8 main_v17 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg9 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S16384x256 ![0, 1] bcast_S1x256_S16384x256_0_1 : (⟨S1x256, .f32⟩ : BufTy).Contents (Elt F) → (⟨S16384x256, .f32⟩ : BufTy).Contents (Elt F)),
    StableHlo.binary main_v17 main_v19 main_v20 (addf : (⟨S16384x256, .f32⟩ : BufTy).Contents (Elt F) → (⟨S16384x256, .f32⟩ : BufTy).Contents (Elt F) → (⟨S16384x256, .f32⟩ : BufTy).Contents (Elt F)),
    StableHlo.binary main_v16 main_v20 main_v21 (addf : (⟨S16384x256, .f32⟩ : BufTy).Contents (Elt F) → (⟨S16384x256, .f32⟩ : BufTy).Contents (Elt F) → (⟨S16384x256, .f32⟩ : BufTy).Contents (Elt F)),
    StableHlo.binary main_arg0 main_arg6 main_v22 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg7 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S16384x256 ![0, 1] bcast_S1x256_S16384x256_0_1 : (⟨S1x256, .f32⟩ : BufTy).Contents (Elt F) → (⟨S16384x256, .f32⟩ : BufTy).Contents (Elt F)),
    StableHlo.binary main_v22 main_v24 main_v25 (addf : (⟨S16384x256, .f32⟩ : BufTy).Contents (Elt F) → (⟨S16384x256, .f32⟩ : BufTy).Contents (Elt F) → (⟨S16384x256, .f32⟩ : BufTy).Contents (Elt F)),
    StableHlo.binary main_v21 main_v25 main_v26 (addf : (⟨S16384x256, .f32⟩ : BufTy).Contents (Elt F) → (⟨S16384x256, .f32⟩ : BufTy).Contents (Elt F) → (⟨S16384x256, .f32⟩ : BufTy).Contents (Elt F)),
    StableHlo.binary main_v25 main_arg10 main_v27 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg11 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S16384x256 ![0, 1] bcast_S1x256_S16384x256_0_1 : (⟨S1x256, .f32⟩ : BufTy).Contents (Elt F) → (⟨S16384x256, .f32⟩ : BufTy).Contents (Elt F)),
    StableHlo.binary main_v27 main_v29 main_v30 (addf : (⟨S16384x256, .f32⟩ : BufTy).Contents (Elt F) → (⟨S16384x256, .f32⟩ : BufTy).Contents (Elt F) → (⟨S16384x256, .f32⟩ : BufTy).Contents (Elt F)),
    StableHlo.binary main_v26 main_v30 main_v31 (addf : (⟨S16384x256, .f32⟩ : BufTy).Contents (Elt F) → (⟨S16384x256, .f32⟩ : BufTy).Contents (Elt F) → (⟨S16384x256, .f32⟩ : BufTy).Contents (Elt F)),
    StableHlo.TRef.nullary main_call0.cst (constant S_ .f32 0x00000000#32),
    StableHlo.TRef.unary main_call0.cst main_call0.v0 (broadcastInDim S16384x256 ![] bcast_S_S16384x256),
    StableHlo.TRef.binary (.of main_v31 : StableHlo.TRef sig ⟨S16384x256, .f32⟩) main_call0.v0 main_call0.v1 maximumf,
    StableHlo.binary main_v32 main_arg12 main_v33 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg13 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S16384x256 ![0, 1] bcast_S1x256_S16384x256_0_1 : (⟨S1x256, .f32⟩ : BufTy).Contents (Elt F) → (⟨S16384x256, .f32⟩ : BufTy).Contents (Elt F)),
    StableHlo.binary main_v33 main_v35 main_v36 (addf : (⟨S16384x256, .f32⟩ : BufTy).Contents (Elt F) → (⟨S16384x256, .f32⟩ : BufTy).Contents (Elt F) → (⟨S16384x256, .f32⟩ : BufTy).Contents (Elt F)),
    StableHlo.TRef.nullary main_call1.cst (constant S_ .f32 0x00000000#32),
    StableHlo.TRef.unary main_call1.cst main_call1.v0 (broadcastInDim S16384x256 ![] bcast_S_S16384x256),
    StableHlo.TRef.binary (.of main_v36 : StableHlo.TRef sig ⟨S16384x256, .f32⟩) main_call1.v0 main_call1.v1 maximumf ]

/-- Operations 45 … 72 of the line. -/
abbrev opsC1 : List (HloOp τ sig (Elt F)) :=
  [ StableHlo.nullary main_cst_1 (constant S_ .f32 0x00000000#32),
    StableHlo.binary main_v37 main_cst_1 main_v38 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_2 (constant S_ .f32 0x46800000#32),
    StableHlo.unary main_cst_2 main_v39 (broadcastInDim S256 ![] bcast_S_S256 : (⟨S_, .f32⟩ : BufTy).Contents (Elt F) → (⟨S256, .f32⟩ : BufTy).Contents (Elt F)),
    StableHlo.binary main_v38 main_v39 main_v40 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call2.cst (constant S_ .f32 0x00000000#32),
    StableHlo.TRef.binary (.of main_v37 : StableHlo.TRef sig ⟨S16384x256, .f32⟩) main_call2.cst main_call2.v0 (fun x v => Host.reduceAdd x v reducesTo_S16384x256_S256_d0 h_S_),
    StableHlo.TRef.unary main_call2.v0 main_call2.v1 (broadcastInDim S1x256 ![1] bcast_S256_S1x256_1),
    StableHlo.TRef.nullary main_call2.cst_0 (constant S_ .f32 0x46800000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S16384x256 ![0, 1] bcast_S1x256_S16384x256_0_1),
    StableHlo.TRef.binary (.of main_v37 : StableHlo.TRef sig ⟨S16384x256, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x46800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16384x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

/-- Operations 73 … 84 of the line. -/
abbrev opsD1a : List (HloOp τ sig (Elt F)) :=
  [ StableHlo.unary main_v40 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S16384x256 ![0, 1] bcast_S1x256_S16384x256_0_1 : (⟨S1x256, .f32⟩ : BufTy).Contents (Elt F) → (⟨S16384x256, .f32⟩ : BufTy).Contents (Elt F)),
    StableHlo.binary main_v37 main_v43 main_v44 (subf : (⟨S16384x256, .f32⟩ : BufTy).Contents (Elt F) → (⟨S16384x256, .f32⟩ : BufTy).Contents (Elt F) → (⟨S16384x256, .f32⟩ : BufTy).Contents (Elt F)),
    StableHlo.nullary main_cst_4 (constant S_ .f32 0x3727C5AC#32),
    StableHlo.unary main_cst_4 main_v45 (broadcastInDim S256 ![] bcast_S_S256 : (⟨S_, .f32⟩ : BufTy).Contents (Elt F) → (⟨S256, .f32⟩ : BufTy).Contents (Elt F)),
    StableHlo.binary main_v41 main_v45 main_v46 (addf : (⟨S256, .f32⟩ : BufTy).Contents (Elt F) → (⟨S256, .f32⟩ : BufTy).Contents (Elt F) → (⟨S256, .f32⟩ : BufTy).Contents (Elt F)),
    StableHlo.unary main_v46 main_v47 (Host.rsqrt : (⟨S256, .f32⟩ : BufTy).Contents (Elt F) → (⟨S256, .f32⟩ : BufTy).Contents (Elt F)),
    StableHlo.unary main_v47 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S16384x256 ![0, 1] bcast_S1x256_S16384x256_0_1 : (⟨S1x256, .f32⟩ : BufTy).Contents (Elt F) → (⟨S16384x256, .f32⟩ : BufTy).Contents (Elt F)),
    StableHlo.binary main_v44 main_v49 main_v50 (mulf : (⟨S16384x256, .f32⟩ : BufTy).Contents (Elt F) → (⟨S16384x256, .f32⟩ : BufTy).Contents (Elt F) → (⟨S16384x256, .f32⟩ : BufTy).Contents (Elt F)),
    StableHlo.unary main_arg14 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S16384x256 ![0, 1] bcast_S1x256_S16384x256_0_1 : (⟨S1x256, .f32⟩ : BufTy).Contents (Elt F) → (⟨S16384x256, .f32⟩ : BufTy).Contents (Elt F)) ]

/-- Operations 85 … 92 of the line. -/
abbrev opsD1b : List (HloOp τ sig (Elt F)) :=
  [ StableHlo.binary main_v50 main_v52 main_v53 (mulf : (⟨S16384x256, .f32⟩ : BufTy).Contents (Elt F) → (⟨S16384x256, .f32⟩ : BufTy).Contents (Elt F) → (⟨S16384x256, .f32⟩ : BufTy).Contents (Elt F)),
    StableHlo.unary main_arg15 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S16384x256 ![0, 1] bcast_S1x256_S16384x256_0_1 : (⟨S1x256, .f32⟩ : BufTy).Contents (Elt F) → (⟨S16384x256, .f32⟩ : BufTy).Contents (Elt F)),
    StableHlo.binary main_v53 main_v55 main_v56 (addf : (⟨S16384x256, .f32⟩ : BufTy).Contents (Elt F) → (⟨S16384x256, .f32⟩ : BufTy).Contents (Elt F) → (⟨S16384x256, .f32⟩ : BufTy).Contents (Elt F)),
    StableHlo.binary main_v56 main_arg16 main_v57 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg17 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S16384x256 ![0, 1] bcast_S1x256_S16384x256_0_1 : (⟨S1x256, .f32⟩ : BufTy).Contents (Elt F) → (⟨S16384x256, .f32⟩ : BufTy).Contents (Elt F)),
    StableHlo.binary main_v57 main_v59 main_v60 (addf : (⟨S16384x256, .f32⟩ : BufTy).Contents (Elt F) → (⟨S16384x256, .f32⟩ : BufTy).Contents (Elt F) → (⟨S16384x256, .f32⟩ : BufTy).Contents (Elt F)) ]

/-- Operations 93 … 112 of the line. -/
abbrev opsA2 : List (HloOp τ sig (Elt F)) :=
  [ StableHlo.unary main_arg2 main_v61 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v61 main_v62 rfl shapeCasts_S1x262144_S262144,
    StableHlo.unary main_arg2 main_v63 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v63 main_v64 rfl shapeCasts_S1x262144_S262144,
    StableHlo.nullary main_c_5 (constantI S_ 32 0#32),
    StableHlo.unary main_c_5 main_v65 (broadcastInDim S262144 ![] bcast_S_S262144 : (⟨S_, .i32⟩ : BufTy).Contents (Elt F) → (⟨S262144, .i32⟩ : BufTy).Contents (Elt F)),
    StableHlo.binary main_v62 main_v65 main_v66 (cmpi .slt : (⟨S262144, .i32⟩ : BufTy).Contents (Elt F) → (⟨S262144, .i32⟩ : BufTy).Contents (Elt F) → (⟨S262144, .i1⟩ : BufTy).Contents (Elt F)),
    StableHlo.nullary main_c_6 (constantI S_ 32 16384#32),
    StableHlo.unary main_c_6 main_v67 (broadcastInDim S262144 ![] bcast_S_S262144 : (⟨S_, .i32⟩ : BufTy).Contents (Elt F) → (⟨S262144, .i32⟩ : BufTy).Contents (Elt F)),
    StableHlo.binary main_v62 main_v67 main_v68 (addi : (⟨S262144, .i32⟩ : BufTy).Contents (Elt F) → (⟨S262144, .i32⟩ : BufTy).Contents (Elt F) → (⟨S262144, .i32⟩ : BufTy).Contents (Elt F)),
    StableHlo.ternary main_v66 main_v68 main_v62 main_v69 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v69 main_v70 (broadcastInDim S262144x1 ![0] bcast_S262144_S262144x1_0 : (⟨S262144, .i32⟩ : BufTy).Contents (Elt F) → (⟨S262144x1, .i32⟩ : BufTy).Contents (Elt F)),
    StableHlo.binary main_arg18 main_v70 main_v71 ((fun x i => Host.gather gather_S16384x256_S262144x1_S262144x256_1_0_n_n_0_1_1256 x i) : (⟨S16384x256, .f32⟩ : BufTy).Contents (Elt F) → (⟨S262144x1, .i32⟩ : BufTy).Contents (Elt F) → (⟨S262144x256, .f32⟩ : BufTy).Contents (Elt F)),
    StableHlo.nullary main_cst_7 (constant S_ .f32 0x00000000#32),
    StableHlo.unary main_cst_7 main_v72 (broadcastInDim S16384x256 ![] bcast_S_S16384x256 : (⟨S_, .f32⟩ : BufTy).Contents (Elt F) → (⟨S16384x256, .f32⟩ : BufTy).Contents (Elt F)),
    StableHlo.unary main_v64 main_v73 (broadcastInDim S262144x1 ![0] bcast_S262144_S262144x1_0 : (⟨S262144, .i32⟩ : BufTy).Contents (Elt F) → (⟨S262144x1, .i32⟩ : BufTy).Contents (Elt F)),
    StableHlo.ternary main_v72 main_v73 main_v71 main_v74 ((fun x i u => Host.scatterAdd scatter_S16384x256_S262144x1_S262144x256_1_0_0_1 x i u) : (⟨S16384x256, .f32⟩ : BufTy).Contents (Elt F) → (⟨S262144x1, .i32⟩ : BufTy).Contents (Elt F) → (⟨S262144x256, .f32⟩ : BufTy).Contents (Elt F) → (⟨S16384x256, .f32⟩ : BufTy).Contents (Elt F)),
    StableHlo.unary main_arg19 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S16384x256 ![0, 1] bcast_S1x256_S16384x256_0_1 : (⟨S1x256, .f32⟩ : BufTy).Contents (Elt F) → (⟨S16384x256, .f32⟩ : BufTy).Contents (Elt F)),
    StableHlo.binary main_v74 main_v76 main_v77 (addf : (⟨S16384x256, .f32⟩ : BufTy).Contents (Elt F) → (⟨S16384x256, .f32⟩ : BufTy).Contents (Elt F) → (⟨S16384x256, .f32⟩ : BufTy).Contents (Elt F)) ]

/-- Operations 113 … 137 of the line. -/
abbrev opsB2 : List (HloOp τ sig (Elt F)) :=
  [ StableHlo.binary main_v77 main_arg22 main_v78 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg23 main_v79 (broadcastInDim S1x256 ![1] bcast_S256_S1x256_1 : (⟨S256, .f32⟩ : BufTy).Contents (Elt F) → (⟨S1x256, .f32⟩ : BufTy).Contents (Elt F)),
    StableHlo.unary main_v79 main_v80 (broadcastInDim S16384x256 ![0, 1] bcast_S1x256_S16384x256_0_1 : (⟨S1x256, .f32⟩ : BufTy).Contents (Elt F) → (⟨S16384x256, .f32⟩ : BufTy).Contents (Elt F)),
    StableHlo.binary main_v78 main_v80 main_v81 (addf : (⟨S16384x256, .f32⟩ : BufTy).Contents (Elt F) → (⟨S16384x256, .f32⟩ : BufTy).Contents (Elt F) → (⟨S16384x256, .f32⟩ : BufTy).Contents (Elt F)),
    StableHlo.binary main_v77 main_v81 main_v82 (addf : (⟨S16384x256, .f32⟩ : BufTy).Contents (Elt F) → (⟨S16384x256, .f32⟩ : BufTy).Contents (Elt F) → (⟨S16384x256, .f32⟩ : BufTy).Contents (Elt F)),
    StableHlo.binary main_v60 main_arg20 main_v83 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg21 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S16384x256 ![0, 1] bcast_S1x256_S16384x256_0_1 : (⟨S1x256, .f32⟩ : BufTy).Contents (Elt F) → (⟨S16384x256, .f32⟩ : BufTy).Contents (Elt F)),
    StableHlo.binary main_v83 main_v85 main_v86 (addf : (⟨S16384x256, .f32⟩ : BufTy).Contents (Elt F) → (⟨S16384x256, .f32⟩ : BufTy).Contents (Elt F) → (⟨S16384x256, .f32⟩ : BufTy).Contents (Elt F)),
    StableHlo.binary main_v82 main_v86 main_v87 (addf : (⟨S16384x256, .f32⟩ : BufTy).Contents (Elt F) → (⟨S16384x256, .f32⟩ : BufTy).Contents (Elt F) → (⟨S16384x256, .f32⟩ : BufTy).Contents (Elt F)),
    StableHlo.binary main_v86 main_arg24 main_v88 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg25 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S16384x256 ![0, 1] bcast_S1x256_S16384x256_0_1 : (⟨S1x256, .f32⟩ : BufTy).Contents (Elt F) → (⟨S16384x256, .f32⟩ : BufTy).Contents (Elt F)),
    StableHlo.binary main_v88 main_v90 main_v91 (addf : (⟨S16384x256, .f32⟩ : BufTy).Contents (Elt F) → (⟨S16384x256, .f32⟩ : BufTy).Contents (Elt F) → (⟨S16384x256, .f32⟩ : BufTy).Contents (Elt F)),
    StableHlo.binary main_v87 main_v91 main_v92 (addf : (⟨S16384x256, .f32⟩ : BufTy).Contents (Elt F) → (⟨S16384x256, .f32⟩ : BufTy).Contents (Elt F) → (⟨S16384x256, .f32⟩ : BufTy).Contents (Elt F)),
    StableHlo.TRef.nullary main_call3.cst (constant S_ .f32 0x00000000#32),
    StableHlo.TRef.unary main_call3.cst main_call3.v0 (broadcastInDim S16384x256 ![] bcast_S_S16384x256),
    StableHlo.TRef.binary (.of main_v92 : StableHlo.TRef sig ⟨S16384x256, .f32⟩) main_call3.v0 main_call3.v1 maximumf,
    StableHlo.binary main_v93 main_arg26 main_v94 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg27 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S16384x256 ![0, 1] bcast_S1x256_S16384x256_0_1 : (⟨S1x256, .f32⟩ : BufTy).Contents (Elt F) → (⟨S16384x256, .f32⟩ : BufTy).Contents (Elt F)),
    StableHlo.binary main_v94 main_v96 main_v97 (addf : (⟨S16384x256, .f32⟩ : BufTy).Contents (Elt F) → (⟨S16384x256, .f32⟩ : BufTy).Contents (Elt F) → (⟨S16384x256, .f32⟩ : BufTy).Contents (Elt F)),
    StableHlo.TRef.nullary main_call4.cst (constant S_ .f32 0x00000000#32),
    StableHlo.TRef.unary main_call4.cst main_call4.v0 (broadcastInDim S16384x256 ![] bcast_S_S16384x256),
    StableHlo.TRef.binary (.of main_v97 : StableHlo.TRef sig ⟨S16384x256, .f32⟩) main_call4.v0 main_call4.v1 maximumf ]

/-- Operations 138 … 165 of the line. -/
abbrev opsC2 : List (HloOp τ sig (Elt F)) :=
  [ StableHlo.nullary main_cst_8 (constant S_ .f32 0x00000000#32),
    StableHlo.binary main_v98 main_cst_8 main_v99 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_9 (constant S_ .f32 0x46800000#32),
    StableHlo.unary main_cst_9 main_v100 (broadcastInDim S256 ![] bcast_S_S256 : (⟨S_, .f32⟩ : BufTy).Contents (Elt F) → (⟨S256, .f32⟩ : BufTy).Contents (Elt F)),
    StableHlo.binary main_v99 main_v100 main_v101 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary main_call5.cst (constant S_ .f32 0x00000000#32),
    StableHlo.TRef.binary (.of main_v98 : StableHlo.TRef sig ⟨S16384x256, .f32⟩) main_call5.cst main_call5.v0 (fun x v => Host.reduceAdd x v reducesTo_S16384x256_S256_d0 h_S_),
    StableHlo.TRef.unary main_call5.v0 main_call5.v1 (broadcastInDim S1x256 ![1] bcast_S256_S1x256_1),
    StableHlo.TRef.nullary main_call5.cst_0 (constant S_ .f32 0x46800000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S16384x256 ![0, 1] bcast_S1x256_S16384x256_0_1),
    StableHlo.TRef.binary (.of main_v98 : StableHlo.TRef sig ⟨S16384x256, .f32⟩) main_call5.v4 main_call5.v5 subf,
    StableHlo.TRef.binary main_call5.v5 main_call5.v5 main_call5.v6 mulf,
    StableHlo.TRef.unary (.of main_c_10 : StableHlo.TRef sig ⟨S_, .i32⟩) main_call5.v7 (sitofp .f32),
    StableHlo.TRef.nullary main_call5.cst_1 (constant S_ .f32 0x46800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S16384x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b) ]

/-- Operations 166 … 169 of the line. -/
abbrev opsD2a : List (HloOp τ sig (Elt F)) :=
  [ StableHlo.unary main_v101 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S16384x256 ![0, 1] bcast_S1x256_S16384x256_0_1 : (⟨S1x256, .f32⟩ : BufTy).Contents (Elt F) → (⟨S16384x256, .f32⟩ : BufTy).Contents (Elt F)),
    StableHlo.binary main_v98 main_v104 main_v105 (subf : (⟨S16384x256, .f32⟩ : BufTy).Contents (Elt F) → (⟨S16384x256, .f32⟩ : BufTy).Contents (Elt F) → (⟨S16384x256, .f32⟩ : BufTy).Contents (Elt F)),
    StableHlo.nullary main_cst_11 (constant S_ .f32 0x3727C5AC#32) ]

/-- Operations 170 … 185 of the line. -/
abbrev opsD2b : List (HloOp τ sig (Elt F)) :=
  [ StableHlo.unary main_cst_11 main_v106 (broadcastInDim S256 ![] bcast_S_S256 : (⟨S_, .f32⟩ : BufTy).Contents (Elt F) → (⟨S256, .f32⟩ : BufTy).Contents (Elt F)),
    StableHlo.binary main_v102 main_v106 main_v107 (addf : (⟨S256, .f32⟩ : BufTy).Contents (Elt F) → (⟨S256, .f32⟩ : BufTy).Contents (Elt F) → (⟨S256, .f32⟩ : BufTy).Contents (Elt F)),
    StableHlo.unary main_v107 main_v108 (Host.rsqrt : (⟨S256, .f32⟩ : BufTy).Contents (Elt F) → (⟨S256, .f32⟩ : BufTy).Contents (Elt F)),
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S16384x256 ![0, 1] bcast_S1x256_S16384x256_0_1 : (⟨S1x256, .f32⟩ : BufTy).Contents (Elt F) → (⟨S16384x256, .f32⟩ : BufTy).Contents (Elt F)),
    StableHlo.binary main_v105 main_v110 main_v111 (mulf : (⟨S16384x256, .f32⟩ : BufTy).Contents (Elt F) → (⟨S16384x256, .f32⟩ : BufTy).Contents (Elt F) → (⟨S16384x256, .f32⟩ : BufTy).Contents (Elt F)),
    StableHlo.unary main_arg28 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S16384x256 ![0, 1] bcast_S1x256_S16384x256_0_1 : (⟨S1x256, .f32⟩ : BufTy).Contents (Elt F) → (⟨S16384x256, .f32⟩ : BufTy).Contents (Elt F)),
    StableHlo.binary main_v111 main_v113 main_v114 (mulf : (⟨S16384x256, .f32⟩ : BufTy).Contents (Elt F) → (⟨S16384x256, .f32⟩ : BufTy).Contents (Elt F) → (⟨S16384x256, .f32⟩ : BufTy).Contents (Elt F)),
    StableHlo.unary main_arg29 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S16384x256 ![0, 1] bcast_S1x256_S16384x256_0_1 : (⟨S1x256, .f32⟩ : BufTy).Contents (Elt F) → (⟨S16384x256, .f32⟩ : BufTy).Contents (Elt F)),
    StableHlo.binary main_v114 main_v116 main_v117 (addf : (⟨S16384x256, .f32⟩ : BufTy).Contents (Elt F) → (⟨S16384x256, .f32⟩ : BufTy).Contents (Elt F) → (⟨S16384x256, .f32⟩ : BufTy).Contents (Elt F)),
    StableHlo.binary main_v117 main_arg30 main_v118 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg31 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S16384x256 ![0, 1] bcast_S1x256_S16384x256_0_1 : (⟨S1x256, .f32⟩ : BufTy).Contents (Elt F) → (⟨S16384x256, .f32⟩ : BufTy).Contents (Elt F)),
    StableHlo.binary main_v118 main_v120 main_v121 (addf : (⟨S16384x256, .f32⟩ : BufTy).Contents (Elt F) → (⟨S16384x256, .f32⟩ : BufTy).Contents (Elt F) → (⟨S16384x256, .f32⟩ : BufTy).Contents (Elt F)) ]

/-- Operations 186 … 186 of the line. -/
abbrev opsE : List (HloOp τ sig (Elt F)) :=
  [ StableHlo.binary main_v121 main_arg0 main_v122 ((fun a b => concatenate S16384x512 1 [⟨S16384x256, a⟩, ⟨S16384x256, b⟩] concatenates_S16384x256_S16384x256_S16384x512_d1) : (⟨S16384x256, .f32⟩ : BufTy).Contents (Elt F) → (⟨S16384x256, .f32⟩ : BufTy).Contents (Elt F) → (⟨S16384x512, .f32⟩ : BufTy).Contents (Elt F)) ]

end Cert.ReferenceIdeal.Hand

end
-- ==== Proof.RefMain.lean ====
/-
  The reference program is the straight line of its operations: each of its three printed windows is the
  sequence of the stretches it covers (the outlined functions unfolded at their calls), so the program is
  the sequence of all the stretches; no buffer or semaphore is scoped; every operation touches only
  TensorCore buffers and determines its result.  Hence every weakly fair execution terminates with each
  buffer at the fold of the operations over the launch contents.
-/
import proofs.«136727_j87875030876560_1_alg».proof.Proof.RefOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
theorem part0_eq (c : Dev nD) : main_part0 (F := F) c = seq (opsA1 ++ (opsB1 ++ (opsC1 ++ (opsD1a)))) := by
  simp only [main_part0, fn_relu.body, fn_var.body, fn_where.body, opsA1, opsB1, opsC1, opsD1a, opsD1b, opsA2, opsB2, opsC2, opsD2a, opsD2b, opsE, List.cons_append, List.nil_append, seq, bind_assoc, pure_bind]
  rfl

set_option maxRecDepth 8192 in
set_option maxHeartbeats 4000000 in
theorem part1_eq (c : Dev nD) : main_part1 (F := F) c = seq (opsD1b ++ (opsA2 ++ (opsB2 ++ (opsC2 ++ (opsD2a))))) := by
  simp only [main_part1, fn_relu.body, fn_var.body, fn_where.body, opsA1, opsB1, opsC1, opsD1a, opsD1b, opsA2, opsB2, opsC2, opsD2a, opsD2b, opsE, List.cons_append, List.nil_append, seq, bind_assoc, pure_bind]
  rfl

set_option maxRecDepth 8192 in
set_option maxHeartbeats 4000000 in
theorem part2_eq (c : Dev nD) : main_part2 (F := F) c = seq (opsD2b ++ (opsE)) := by
  simp only [main_part2, fn_relu.body, fn_var.body, fn_where.body, opsA1, opsB1, opsC1, opsD1a, opsD1b, opsA2, opsB2, opsC2, opsD2a, opsD2b, opsE, List.cons_append, List.nil_append, seq, bind_assoc, pure_bind]

/-- All the operations, in order. -/
def ops : List (HloOp τ sig (Elt F)) := opsA1 ++ (opsB1 ++ (opsC1 ++ (opsD1a ++ (opsD1b ++ (opsA2 ++ (opsB2 ++ (opsC2 ++ (opsD2a ++ (opsD2b ++ (opsE))))))))))

theorem main_eq (c : Dev nD) : main (F := F) c = seq ops := by
  unfold main ops
  rw [part0_eq, part1_eq, part2_eq]
  simp only [seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append' {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem opsA1_sub : (opsA1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩
theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem opsB1_sub : (opsB1 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem opsC1_sub : (opsC1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsC1_fresh : (opsC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem opsD1a_sub : (opsD1a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
theorem opsD1a_fresh : (opsD1a : List (HloOp τ sig (Elt F))).Forall fun op => op.fresh = ∅ :=
  ⟨rfl, rfl, rfl, rfl, rfl, rfl, rfl, rfl, rfl, rfl, rfl, rfl⟩

theorem opsD1b_sub : (opsD1b : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem opsD1b_fresh : (opsD1b : List (HloOp τ sig (Elt F))).Forall fun op => op.fresh = ∅ :=
  ⟨rfl, rfl, rfl, rfl, rfl, rfl, rfl, rfl⟩

theorem opsA2_sub : (opsA2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩
theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem opsB2_sub : (opsB2 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem opsC2_sub : (opsC2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem opsD2a_sub : (opsD2a : List (HloOp τ sig (Elt F))).Forall fun op => op.bufs ⊆ tcRefs τ sig :=
  ⟨unary_bufs_sub .., unary_bufs_sub .., binary_bufs_sub .., nullary_bufs_sub ..⟩
theorem opsD2a_fresh : (opsD2a : List (HloOp τ sig (Elt F))).Forall fun op => op.fresh = ∅ :=
  ⟨rfl, rfl, rfl, rfl⟩

theorem opsD2b_sub : (opsD2b : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩
theorem opsD2b_fresh : (opsD2b : List (HloOp τ sig (Elt F))).Forall fun op => op.fresh = ∅ :=
  ⟨rfl, rfl, rfl, rfl, rfl, rfl, rfl, rfl, rfl, rfl, rfl, rfl, rfl, rfl, rfl, rfl⟩

theorem opsE_sub : (opsE : List (HloOp τ sig (Elt F))).Forall fun op => op.bufs ⊆ tcRefs τ sig :=
  binary_bufs_sub ..
theorem opsE_fresh : (opsE : List (HloOp τ sig (Elt F))).Forall fun op => op.fresh = ∅ :=
  rfl

theorem ops_sub : (ops : List (HloOp τ sig (Elt F))).Forall fun op => op.bufs ⊆ tcRefs τ sig :=
  forall_append' opsA1_sub (forall_append' opsB1_sub (forall_append' opsC1_sub (forall_append' opsD1a_sub (forall_append' opsD1b_sub (forall_append' opsA2_sub (forall_append' opsB2_sub (forall_append' opsC2_sub (forall_append' opsD2a_sub (forall_append' opsD2b_sub (opsE_sub))))))))))
theorem ops_fresh : (ops : List (HloOp τ sig (Elt F))).Forall fun op => op.fresh = ∅ :=
  forall_append' opsA1_fresh (forall_append' opsB1_fresh (forall_append' opsC1_fresh (forall_append' opsD1a_fresh (forall_append' opsD1b_fresh (forall_append' opsA2_fresh (forall_append' opsB2_fresh (forall_append' opsC2_fresh (forall_append' opsD2a_fresh (forall_append' opsD2b_fresh (opsE_fresh))))))))))

/-- From any memory with zero counters, every weakly fair execution of the program terminates with each
    TensorCore buffer at the fold of the operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.1 ops_fresh)

end Cert.ReferenceIdeal.Hand

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.RefRunA.lean ====
/-
  The edge-aggregation stretches of both layers read back: over any contents of the buffers before the
  stretch, the buffer of the aggregated embedding ends at `embArr` of the embedding table, the bias and
  the edge list as they were before, and every buffer the stretch does not write is unchanged.
-/
import proofs.«136727_j87875030876560_1_alg».proof.Proof.RefOps
import proofs.«136727_j87875030876560_1_alg».proof.Proof.RefDefs
import proofs.«136727_j87875030876560_1_alg».proof.Proof.LibTypedRef

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

open Cert.LibTypedRef

variable [Facts]

/-- The buffers that stretch A1 writes. -/
abbrev opsA1_W : List (Ref sig .tc) := [main_v0, main_v1, main_v2, main_v3, main_c, main_v4, main_v5, main_c_0, main_v6, main_v7, main_v8, main_v9, main_v10, main_cst, main_v11, main_v12, main_v13, main_v14, main_v15, main_v16]
theorem opsA1_writes : (opsA1 : List (HloOp τ sig (Elt Ideal))).Forall fun op =>
    op.writes ⊆ (opsA1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch A1 does not write keeps its contents through it. -/
theorem opsA1_keep (W : Valuation τ sig (Elt Ideal)) (r : Ref sig .tc) (h : r ∉ opsA1_W) :
    after opsA1 W (Proc.devRef .tc r) = W (Proc.devRef .tc r) :=
  after_of_writes_sub opsA1 W opsA1_writes h

theorem opsA1_v16 (W : Valuation τ sig (Elt Ideal)) :
    after opsA1 W (Proc.devRef .tc main_v16) = embArr (W (Proc.devRef .tc main_arg4)) (W (Proc.devRef .tc main_arg5)) (W (Proc.devRef .tc main_arg2)) := by
  after_results_simp
  rfl

/-- The buffers that stretch A2 writes. -/
abbrev opsA2_W : List (Ref sig .tc) := [main_v61, main_v62, main_v63, main_v64, main_c_5, main_v65, main_v66, main_c_6, main_v67, main_v68, main_v69, main_v70, main_v71, main_cst_7, main_v72, main_v73, main_v74, main_v75, main_v76, main_v77]
theorem opsA2_writes : (opsA2 : List (HloOp τ sig (Elt Ideal))).Forall fun op =>
    op.writes ⊆ (opsA2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch A2 does not write keeps its contents through it. -/
theorem opsA2_keep (W : Valuation τ sig (Elt Ideal)) (r : Ref sig .tc) (h : r ∉ opsA2_W) :
    after opsA2 W (Proc.devRef .tc r) = W (Proc.devRef .tc r) :=
  after_of_writes_sub opsA2 W opsA2_writes h

theorem opsA2_v77 (W : Valuation τ sig (Elt Ideal)) :
    after opsA2 W (Proc.devRef .tc main_v77) = embArr (W (Proc.devRef .tc main_arg18)) (W (Proc.devRef .tc main_arg19)) (W (Proc.devRef .tc main_arg2)) := by
  after_results_simp
  rfl

end Cert.ReferenceIdeal.Hand

end
-- ==== Proof.RefRunB.lean ====
/-
  The dense-chain stretches of both layers read back: over any contents before the stretch, the buffer of
  the second rectification ends at `hidArr` of the aggregated embedding, the node features and the eight
  weight arrays as they were before; every buffer the stretch does not write is unchanged.
-/
import proofs.«136727_j87875030876560_1_alg».proof.Proof.RefOps
import proofs.«136727_j87875030876560_1_alg».proof.Proof.RefDefs
import proofs.«136727_j87875030876560_1_alg».proof.Proof.LibTypedRef

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

open Cert.LibTypedRef

variable [Facts]

/-- The buffers that stretch B1 writes. -/
abbrev opsB1_W : List (Ref sig .tc) := [main_v17, main_v18, main_v19, main_v20, main_v21, main_v22, main_v23, main_v24, main_v25, main_v26, main_v27, main_v28, main_v29, main_v30, main_v31, main_call0_cst, main_call0_v0, main_v32, main_v33, main_v34, main_v35, main_v36, main_call1_cst, main_call1_v0, main_v37]
theorem opsB1_writes : (opsB1 : List (HloOp τ sig (Elt Ideal))).Forall fun op =>
    op.writes ⊆ (opsB1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch B1 does not write keeps its contents through it. -/
theorem opsB1_keep (W : Valuation τ sig (Elt Ideal)) (r : Ref sig .tc) (h : r ∉ opsB1_W) :
    after opsB1 W (Proc.devRef .tc r) = W (Proc.devRef .tc r) :=
  after_of_writes_sub opsB1 W opsB1_writes h

theorem opsB1_v37 (W : Valuation τ sig (Elt Ideal)) :
    after opsB1 W (Proc.devRef .tc main_v37) = hidArr (W (Proc.devRef .tc main_v16)) (W (Proc.devRef .tc main_arg0)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  after_results_simp
  simp only [ofBuf_toBuf]
  rfl

/-- The buffers that stretch B2 writes. -/
abbrev opsB2_W : List (Ref sig .tc) := [main_v78, main_v79, main_v80, main_v81, main_v82, main_v83, main_v84, main_v85, main_v86, main_v87, main_v88, main_v89, main_v90, main_v91, main_v92, main_call3_cst, main_call3_v0, main_v93, main_v94, main_v95, main_v96, main_v97, main_call4_cst, main_call4_v0, main_v98]
theorem opsB2_writes : (opsB2 : List (HloOp τ sig (Elt Ideal))).Forall fun op =>
    op.writes ⊆ (opsB2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch B2 does not write keeps its contents through it. -/
theorem opsB2_keep (W : Valuation τ sig (Elt Ideal)) (r : Ref sig .tc) (h : r ∉ opsB2_W) :
    after opsB2 W (Proc.devRef .tc r) = W (Proc.devRef .tc r) :=
  after_of_writes_sub opsB2 W opsB2_writes h

theorem opsB2_v98 (W : Valuation τ sig (Elt Ideal)) :
    after opsB2 W (Proc.devRef .tc main_v98) = hidArr (W (Proc.devRef .tc main_v77)) (W (Proc.devRef .tc main_v60)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) := by
  after_results_simp
  simp only [ofBuf_toBuf]
  rfl

end Cert.ReferenceIdeal.Hand

end
-- ==== Proof.RefRunC.lean ====
/-
  The mean-and-variance stretches of both layers read back: over any contents before the stretch, the
  mean's buffer ends at `meanArr` and the variance's at `varArr` of the hidden layer as it was before;
  every buffer the stretch does not write is unchanged.
-/
import proofs.«136727_j87875030876560_1_alg».proof.Proof.RefOps
import proofs.«136727_j87875030876560_1_alg».proof.Proof.RefDefs
import proofs.«136727_j87875030876560_1_alg».proof.Proof.LibTypedRef

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

open Cert.LibTypedRef

variable [Facts]

/-- The buffers that stretch C1 writes. -/
abbrev opsC1_W : List (Ref sig .tc) := [main_cst_1, main_v38, main_cst_2, main_v39, main_v40, main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v41]
theorem opsC1_writes : (opsC1 : List (HloOp τ sig (Elt Ideal))).Forall fun op =>
    op.writes ⊆ (opsC1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch C1 does not write keeps its contents through it. -/
theorem opsC1_keep (W : Valuation τ sig (Elt Ideal)) (r : Ref sig .tc) (h : r ∉ opsC1_W) :
    after opsC1 W (Proc.devRef .tc r) = W (Proc.devRef .tc r) :=
  after_of_writes_sub opsC1 W opsC1_writes h

theorem opsC1_v40 (W : Valuation τ sig (Elt Ideal)) :
    after opsC1 W (Proc.devRef .tc main_v40) = meanArr (W (Proc.devRef .tc main_v37)) := by
  after_results_simp
  rfl

theorem opsC1_v41 (W : Valuation τ sig (Elt Ideal)) :
    after opsC1 W (Proc.devRef .tc main_v41) = varArr (W (Proc.devRef .tc main_v37)) := by
  after_results_simp
  simp only [ofBuf_toBuf]
  rfl

/-- The buffers that stretch C2 writes. -/
abbrev opsC2_W : List (Ref sig .tc) := [main_cst_8, main_v99, main_cst_9, main_v100, main_v101, main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v102]
theorem opsC2_writes : (opsC2 : List (HloOp τ sig (Elt Ideal))).Forall fun op =>
    op.writes ⊆ (opsC2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch C2 does not write keeps its contents through it. -/
theorem opsC2_keep (W : Valuation τ sig (Elt Ideal)) (r : Ref sig .tc) (h : r ∉ opsC2_W) :
    after opsC2 W (Proc.devRef .tc r) = W (Proc.devRef .tc r) :=
  after_of_writes_sub opsC2 W opsC2_writes h

theorem opsC2_v101 (W : Valuation τ sig (Elt Ideal)) :
    after opsC2 W (Proc.devRef .tc main_v101) = meanArr (W (Proc.devRef .tc main_v98)) := by
  after_results_simp
  rfl

theorem opsC2_v102 (W : Valuation τ sig (Elt Ideal)) :
    after opsC2 W (Proc.devRef .tc main_v102) = varArr (W (Proc.devRef .tc main_v98)) := by
  after_results_simp
  simp only [ofBuf_toBuf]
  rfl

end Cert.ReferenceIdeal.Hand

end
-- ==== Proof.RefRunD.lean ====
/-
  The normalisation stretches of both layers and the final concatenation read back.  `normArr` is the
  normalisation and last product as a function of the hidden layer, a mean and a variance given
  separately; with the mean and the variance those of the hidden layer it is one whole layer.
-/
import proofs.«136727_j87875030876560_1_alg».proof.Proof.RefOps
import proofs.«136727_j87875030876560_1_alg».proof.Proof.RefDefs
import proofs.«136727_j87875030876560_1_alg».proof.Proof.LibTypedRef

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

open Cert.LibTypedRef

variable [Facts]

/-- Operations %42 … %60 as a function of the hidden layer, a column mean and a column variance. -/
def normArr (h : FVec Ideal S16384x256 .f32) (mu var g b : FVec Ideal S256 .f32) (f2w : FVec Ideal S256x256 .f32) (f2b : FVec Ideal S256 .f32) : FVec Ideal S16384x256 .f32 :=
  addf (Host.dotGeneral dot_S16384x256_S256x256_S16384x256_1_0_0_1_n_n none (addf (mulf (mulf (subf h (broadcastInDim S16384x256 ![0, 1] bcast_S1x256_S16384x256_0_1 (broadcastInDim S1x256 ![1] bcast_S256_S1x256_1 mu))) (broadcastInDim S16384x256 ![0, 1] bcast_S1x256_S16384x256_0_1 (broadcastInDim S1x256 ![1] bcast_S256_S1x256_1 (Host.rsqrt (addf var (broadcastInDim S256 ![] bcast_S_S256 (constant (F := Ideal) S_ .f32 0x3727C5AC#32))))))) (broadcastInDim S16384x256 ![0, 1] bcast_S1x256_S16384x256_0_1 (broadcastInDim S1x256 ![1] bcast_S256_S1x256_1 g))) (broadcastInDim S16384x256 ![0, 1] bcast_S1x256_S16384x256_0_1 (broadcastInDim S1x256 ![1] bcast_S256_S1x256_1 b))) f2w) (broadcastInDim S16384x256 ![0, 1] bcast_S1x256_S16384x256_0_1 (broadcastInDim S1x256 ![1] bcast_S256_S1x256_1 f2b))

/-- One layer is the normalisation stretch at the hidden layer's own mean and variance. -/
theorem layerArr_unfold (emb x : FVec Ideal S16384x256 .f32) (nw : FVec Ideal S256x256 .f32) (nb : FVec Ideal S256 .f32) (c1w : FVec Ideal S256x256 .f32) (c1b : FVec Ideal S256 .f32)
    (c2w : FVec Ideal S256x256 .f32) (c2b : FVec Ideal S256 .f32) (f1w : FVec Ideal S256x256 .f32) (f1b : FVec Ideal S256 .f32) (g b : FVec Ideal S256 .f32) (f2w : FVec Ideal S256x256 .f32) (f2b : FVec Ideal S256 .f32) :
    layerArr emb x nw nb c1w c1b c2w c2b f1w f1b g b f2w f2b
      = normArr (hidArr emb x nw nb c1w c1b c2w c2b f1w f1b) (meanArr (hidArr emb x nw nb c1w c1b c2w c2b f1w f1b))
          (varArr (hidArr emb x nw nb c1w c1b c2w c2b f1w f1b)) g b f2w f2b := rfl

/-- The buffers that stretch D1a writes. -/
abbrev opsD1a_W : List (Ref sig .tc) := [main_v42, main_v43, main_v44, main_cst_4, main_v45, main_v46, main_v47, main_v48, main_v49, main_v50, main_v51, main_v52]
theorem opsD1a_writes : (opsD1a : List (HloOp τ sig (Elt Ideal))).Forall fun op =>
    op.writes ⊆ (opsD1a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch D1a does not write keeps its contents through it. -/
theorem opsD1a_keep (W : Valuation τ sig (Elt Ideal)) (r : Ref sig .tc) (h : r ∉ opsD1a_W) :
    after opsD1a W (Proc.devRef .tc r) = W (Proc.devRef .tc r) :=
  after_of_writes_sub opsD1a W opsD1a_writes h

/-- The buffers that stretch D1b writes. -/
abbrev opsD1b_W : List (Ref sig .tc) := [main_v53, main_v54, main_v55, main_v56, main_v57, main_v58, main_v59, main_v60]
theorem opsD1b_writes : (opsD1b : List (HloOp τ sig (Elt Ideal))).Forall fun op =>
    op.writes ⊆ (opsD1b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch D1b does not write keeps its contents through it. -/
theorem opsD1b_keep (W : Valuation τ sig (Elt Ideal)) (r : Ref sig .tc) (h : r ∉ opsD1b_W) :
    after opsD1b W (Proc.devRef .tc r) = W (Proc.devRef .tc r) :=
  after_of_writes_sub opsD1b W opsD1b_writes h

/-- A buffer neither piece of stretch D1 writes keeps its contents through both. -/
theorem opsD1_keep (W : Valuation τ sig (Elt Ideal)) (r : Ref sig .tc) (ha : r ∉ opsD1a_W) (hb : r ∉ opsD1b_W) :
    after opsD1b (after opsD1a W) (Proc.devRef .tc r) = W (Proc.devRef .tc r) :=
  (opsD1b_keep _ r hb).trans (opsD1a_keep W r ha)

theorem opsD1_v60 (W : Valuation τ sig (Elt Ideal)) :
    after opsD1b (after opsD1a W) (Proc.devRef .tc main_v60) = normArr (W (Proc.devRef .tc main_v37)) (W (Proc.devRef .tc main_v40)) (W (Proc.devRef .tc main_v41)) (W (Proc.devRef .tc main_arg14)) (W (Proc.devRef .tc main_arg15)) (W (Proc.devRef .tc main_arg16)) (W (Proc.devRef .tc main_arg17)) := by
  after_results_simp
  rfl

/-- The buffers that stretch D2a writes. -/
abbrev opsD2a_W : List (Ref sig .tc) := [main_v103, main_v104, main_v105, main_cst_11]
theorem opsD2a_writes : (opsD2a : List (HloOp τ sig (Elt Ideal))).Forall fun op =>
    op.writes ⊆ (opsD2a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch D2a does not write keeps its contents through it. -/
theorem opsD2a_keep (W : Valuation τ sig (Elt Ideal)) (r : Ref sig .tc) (h : r ∉ opsD2a_W) :
    after opsD2a W (Proc.devRef .tc r) = W (Proc.devRef .tc r) :=
  after_of_writes_sub opsD2a W opsD2a_writes h

/-- The buffers that stretch D2b writes. -/
abbrev opsD2b_W : List (Ref sig .tc) := [main_v106, main_v107, main_v108, main_v109, main_v110, main_v111, main_v112, main_v113, main_v114, main_v115, main_v116, main_v117, main_v118, main_v119, main_v120, main_v121]
theorem opsD2b_writes : (opsD2b : List (HloOp τ sig (Elt Ideal))).Forall fun op =>
    op.writes ⊆ (opsD2b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch D2b does not write keeps its contents through it. -/
theorem opsD2b_keep (W : Valuation τ sig (Elt Ideal)) (r : Ref sig .tc) (h : r ∉ opsD2b_W) :
    after opsD2b W (Proc.devRef .tc r) = W (Proc.devRef .tc r) :=
  after_of_writes_sub opsD2b W opsD2b_writes h

/-- A buffer neither piece of stretch D2 writes keeps its contents through both. -/
theorem opsD2_keep (W : Valuation τ sig (Elt Ideal)) (r : Ref sig .tc) (ha : r ∉ opsD2a_W) (hb : r ∉ opsD2b_W) :
    after opsD2b (after opsD2a W) (Proc.devRef .tc r) = W (Proc.devRef .tc r) :=
  (opsD2b_keep _ r hb).trans (opsD2a_keep W r ha)

theorem opsD2_v121 (W : Valuation τ sig (Elt Ideal)) :
    after opsD2b (after opsD2a W) (Proc.devRef .tc main_v121) = normArr (W (Proc.devRef .tc main_v98)) (W (Proc.devRef .tc main_v101)) (W (Proc.devRef .tc main_v102)) (W (Proc.devRef .tc main_arg28)) (W (Proc.devRef .tc main_arg29)) (W (Proc.devRef .tc main_arg30)) (W (Proc.devRef .tc main_arg31)) := by
  after_results_simp
  rfl

/-- The buffers that stretch E writes. -/
abbrev opsE_W : List (Ref sig .tc) := [main_v122]
theorem opsE_writes : (opsE : List (HloOp τ sig (Elt Ideal))).Forall fun op =>
    op.writes ⊆ (opsE_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch E does not write keeps its contents through it. -/
theorem opsE_keep (W : Valuation τ sig (Elt Ideal)) (r : Ref sig .tc) (h : r ∉ opsE_W) :
    after opsE W (Proc.devRef .tc r) = W (Proc.devRef .tc r) :=
  after_of_writes_sub opsE W opsE_writes h

theorem opsE_v122 (W : Valuation τ sig (Elt Ideal)) :
    after opsE W (Proc.devRef .tc main_v122) = lastOp (W (Proc.devRef .tc main_v121)) (W (Proc.devRef .tc main_arg0)) := by
  after_results_simp
  rfl

end Cert.ReferenceIdeal.Hand

end
-- ==== Proof.RefRun.lean ====
/-
  The reference program's run, assembled from the stretches: the contents after each stretch are named
  (`val1` … `val9`), each buffer a later stretch reads is followed through the stretches that leave it
  alone, and the result buffer ends at the final concatenation of the second layer of the first layer of
  the node features with the node features, every argument buffer unchanged.
-/
import proofs.«136727_j87875030876560_1_alg».proof.Proof.RefMain
import proofs.«136727_j87875030876560_1_alg».proof.Proof.RefRunA
import proofs.«136727_j87875030876560_1_alg».proof.Proof.RefRunB
import proofs.«136727_j87875030876560_1_alg».proof.Proof.RefRunC
import proofs.«136727_j87875030876560_1_alg».proof.Proof.RefRunD

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The buffers' contents after the first 1 stretches. -/
def val1 (V0 : Valuation τ sig (Elt Ideal)) : Valuation τ sig (Elt Ideal) := after opsA1 V0

/-- The buffers' contents after the first 2 stretches. -/
def val2 (V0 : Valuation τ sig (Elt Ideal)) : Valuation τ sig (Elt Ideal) := after opsB1 (val1 V0)

/-- The buffers' contents after the first 3 stretches. -/
def val3 (V0 : Valuation τ sig (Elt Ideal)) : Valuation τ sig (Elt Ideal) := after opsC1 (val2 V0)

/-- The buffers' contents after the first 4 stretches. -/
def val4 (V0 : Valuation τ sig (Elt Ideal)) : Valuation τ sig (Elt Ideal) := after opsD1b (after opsD1a (val3 V0))

/-- The buffers' contents after the first 5 stretches. -/
def val5 (V0 : Valuation τ sig (Elt Ideal)) : Valuation τ sig (Elt Ideal) := after opsA2 (val4 V0)

/-- The buffers' contents after the first 6 stretches. -/
def val6 (V0 : Valuation τ sig (Elt Ideal)) : Valuation τ sig (Elt Ideal) := after opsB2 (val5 V0)

/-- The buffers' contents after the first 7 stretches. -/
def val7 (V0 : Valuation τ sig (Elt Ideal)) : Valuation τ sig (Elt Ideal) := after opsC2 (val6 V0)

/-- The buffers' contents after the first 8 stretches. -/
def val8 (V0 : Valuation τ sig (Elt Ideal)) : Valuation τ sig (Elt Ideal) := after opsD2b (after opsD2a (val7 V0))

/-- The buffers' contents after the first 9 stretches. -/
def val9 (V0 : Valuation τ sig (Elt Ideal)) : Valuation τ sig (Elt Ideal) := after opsE (val8 V0)

/-- The fold over two lines in a row is the fold over the second after the fold over the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

theorem after_ops (V0 : Valuation τ sig (Elt Ideal)) : after ops V0 = val9 V0 := by
  unfold ops val9 val8 val7 val6 val5 val4 val3 val2 val1
  simp only [after_app]

theorem val1_keep (V0 : Valuation τ sig (Elt Ideal)) (r : Ref sig .tc) (h1 : r ∉ opsA1_W) :
    val1 V0 (Proc.devRef .tc r) = V0 (Proc.devRef .tc r) := opsA1_keep _ r h1
theorem val1_arg (V0 : Valuation τ sig (Elt Ideal)) (r : Ref sig .tc) (h1 : r ∉ opsA1_W) :
    val1 V0 (Proc.devRef .tc r) = V0 (Proc.devRef .tc r) := val1_keep V0 r h1

theorem val2_keep (V0 : Valuation τ sig (Elt Ideal)) (r : Ref sig .tc) (h2 : r ∉ opsB1_W) :
    val2 V0 (Proc.devRef .tc r) = val1 V0 (Proc.devRef .tc r) := opsB1_keep _ r h2
theorem val2_arg (V0 : Valuation τ sig (Elt Ideal)) (r : Ref sig .tc) (h1 : r ∉ opsA1_W) (h2 : r ∉ opsB1_W) :
    val2 V0 (Proc.devRef .tc r) = V0 (Proc.devRef .tc r) :=
  (val2_keep V0 r h2).trans (val1_arg V0 r h1)

theorem val3_keep (V0 : Valuation τ sig (Elt Ideal)) (r : Ref sig .tc) (h3 : r ∉ opsC1_W) :
    val3 V0 (Proc.devRef .tc r) = val2 V0 (Proc.devRef .tc r) := opsC1_keep _ r h3
theorem val3_arg (V0 : Valuation τ sig (Elt Ideal)) (r : Ref sig .tc) (h1 : r ∉ opsA1_W) (h2 : r ∉ opsB1_W) (h3 : r ∉ opsC1_W) :
    val3 V0 (Proc.devRef .tc r) = V0 (Proc.devRef .tc r) :=
  (val3_keep V0 r h3).trans (val2_arg V0 r h1 h2)

theorem val4_keep (V0 : Valuation τ sig (Elt Ideal)) (r : Ref sig .tc) (h4a : r ∉ opsD1a_W) (h4b : r ∉ opsD1b_W) :
    val4 V0 (Proc.devRef .tc r) = val3 V0 (Proc.devRef .tc r) := opsD1_keep _ r h4a h4b
theorem val4_arg (V0 : Valuation τ sig (Elt Ideal)) (r : Ref sig .tc) (h1 : r ∉ opsA1_W) (h2 : r ∉ opsB1_W) (h3 : r ∉ opsC1_W) (h4a : r ∉ opsD1a_W) (h4b : r ∉ opsD1b_W) :
    val4 V0 (Proc.devRef .tc r) = V0 (Proc.devRef .tc r) :=
  (val4_keep V0 r h4a h4b).trans (val3_arg V0 r h1 h2 h3)

theorem val5_keep (V0 : Valuation τ sig (Elt Ideal)) (r : Ref sig .tc) (h5 : r ∉ opsA2_W) :
    val5 V0 (Proc.devRef .tc r) = val4 V0 (Proc.devRef .tc r) := opsA2_keep _ r h5
theorem val5_arg (V0 : Valuation τ sig (Elt Ideal)) (r : Ref sig .tc) (h1 : r ∉ opsA1_W) (h2 : r ∉ opsB1_W) (h3 : r ∉ opsC1_W) (h4a : r ∉ opsD1a_W) (h4b : r ∉ opsD1b_W) (h5 : r ∉ opsA2_W) :
    val5 V0 (Proc.devRef .tc r) = V0 (Proc.devRef .tc r) :=
  (val5_keep V0 r h5).trans (val4_arg V0 r h1 h2 h3 h4a h4b)

theorem val6_keep (V0 : Valuation τ sig (Elt Ideal)) (r : Ref sig .tc) (h6 : r ∉ opsB2_W) :
    val6 V0 (Proc.devRef .tc r) = val5 V0 (Proc.devRef .tc r) := opsB2_keep _ r h6
theorem val6_arg (V0 : Valuation τ sig (Elt Ideal)) (r : Ref sig .tc) (h1 : r ∉ opsA1_W) (h2 : r ∉ opsB1_W) (h3 : r ∉ opsC1_W) (h4a : r ∉ opsD1a_W) (h4b : r ∉ opsD1b_W) (h5 : r ∉ opsA2_W) (h6 : r ∉ opsB2_W) :
    val6 V0 (Proc.devRef .tc r) = V0 (Proc.devRef .tc r) :=
  (val6_keep V0 r h6).trans (val5_arg V0 r h1 h2 h3 h4a h4b h5)

theorem val7_keep (V0 : Valuation τ sig (Elt Ideal)) (r : Ref sig .tc) (h7 : r ∉ opsC2_W) :
    val7 V0 (Proc.devRef .tc r) = val6 V0 (Proc.devRef .tc r) := opsC2_keep _ r h7
theorem val7_arg (V0 : Valuation τ sig (Elt Ideal)) (r : Ref sig .tc) (h1 : r ∉ opsA1_W) (h2 : r ∉ opsB1_W) (h3 : r ∉ opsC1_W) (h4a : r ∉ opsD1a_W) (h4b : r ∉ opsD1b_W) (h5 : r ∉ opsA2_W) (h6 : r ∉ opsB2_W) (h7 : r ∉ opsC2_W) :
    val7 V0 (Proc.devRef .tc r) = V0 (Proc.devRef .tc r) :=
  (val7_keep V0 r h7).trans (val6_arg V0 r h1 h2 h3 h4a h4b h5 h6)

theorem val8_keep (V0 : Valuation τ sig (Elt Ideal)) (r : Ref sig .tc) (h8a : r ∉ opsD2a_W) (h8b : r ∉ opsD2b_W) :
    val8 V0 (Proc.devRef .tc r) = val7 V0 (Proc.devRef .tc r) := opsD2_keep _ r h8a h8b
theorem val8_arg (V0 : Valuation τ sig (Elt Ideal)) (r : Ref sig .tc) (h1 : r ∉ opsA1_W) (h2 : r ∉ opsB1_W) (h3 : r ∉ opsC1_W) (h4a : r ∉ opsD1a_W) (h4b : r ∉ opsD1b_W) (h5 : r ∉ opsA2_W) (h6 : r ∉ opsB2_W) (h7 : r ∉ opsC2_W) (h8a : r ∉ opsD2a_W) (h8b : r ∉ opsD2b_W) :
    val8 V0 (Proc.devRef .tc r) = V0 (Proc.devRef .tc r) :=
  (val8_keep V0 r h8a h8b).trans (val7_arg V0 r h1 h2 h3 h4a h4b h5 h6 h7)

theorem val9_keep (V0 : Valuation τ sig (Elt Ideal)) (r : Ref sig .tc) (h9 : r ∉ opsE_W) :
    val9 V0 (Proc.devRef .tc r) = val8 V0 (Proc.devRef .tc r) := opsE_keep _ r h9
theorem val9_arg (V0 : Valuation τ sig (Elt Ideal)) (r : Ref sig .tc) (h1 : r ∉ opsA1_W) (h2 : r ∉ opsB1_W) (h3 : r ∉ opsC1_W) (h4a : r ∉ opsD1a_W) (h4b : r ∉ opsD1b_W) (h5 : r ∉ opsA2_W) (h6 : r ∉ opsB2_W) (h7 : r ∉ opsC2_W) (h8a : r ∉ opsD2a_W) (h8b : r ∉ opsD2b_W) (h9 : r ∉ opsE_W) :
    val9 V0 (Proc.devRef .tc r) = V0 (Proc.devRef .tc r) :=
  (val9_keep V0 r h9).trans (val8_arg V0 r h1 h2 h3 h4a h4b h5 h6 h7 h8a h8b)

/-- The first layer's aggregated embedding, hidden layer and output, and the second layer's, of the launch contents. -/
def emb1 (V0 : Valuation τ sig (Elt Ideal)) : FVec Ideal S16384x256 .f32 := embArr (V0 (Proc.devRef .tc main_arg4)) (V0 (Proc.devRef .tc main_arg5)) (V0 (Proc.devRef .tc main_arg2))
def hid1 (V0 : Valuation τ sig (Elt Ideal)) : FVec Ideal S16384x256 .f32 := hidArr (emb1 V0) (V0 (Proc.devRef .tc main_arg0)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
def out1 (V0 : Valuation τ sig (Elt Ideal)) : FVec Ideal S16384x256 .f32 := layerArr (emb1 V0) (V0 (Proc.devRef .tc main_arg0)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))
def emb2 (V0 : Valuation τ sig (Elt Ideal)) : FVec Ideal S16384x256 .f32 := embArr (V0 (Proc.devRef .tc main_arg18)) (V0 (Proc.devRef .tc main_arg19)) (V0 (Proc.devRef .tc main_arg2))
def hid2 (V0 : Valuation τ sig (Elt Ideal)) : FVec Ideal S16384x256 .f32 := hidArr (emb2 V0) (out1 V0) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27))
def out2 (V0 : Valuation τ sig (Elt Ideal)) : FVec Ideal S16384x256 .f32 := layerArr (emb2 V0) (out1 V0) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31))

theorem val1_v16 (V0 : Valuation τ sig (Elt Ideal)) : val1 V0 (Proc.devRef .tc main_v16) = emb1 V0 := opsA1_v16 V0

theorem val2_v37 (V0 : Valuation τ sig (Elt Ideal)) : val2 V0 (Proc.devRef .tc main_v37) = hid1 V0 := by
  unfold val2 hid1
  rw [opsB1_v37, val1_v16, val1_arg V0 main_arg0 (by decide),
    val1_arg V0 main_arg6 (by decide),
    val1_arg V0 main_arg7 (by decide),
    val1_arg V0 main_arg8 (by decide),
    val1_arg V0 main_arg9 (by decide),
    val1_arg V0 main_arg10 (by decide),
    val1_arg V0 main_arg11 (by decide),
    val1_arg V0 main_arg12 (by decide),
    val1_arg V0 main_arg13 (by decide)]

theorem val3_v37 (V0 : Valuation τ sig (Elt Ideal)) : val3 V0 (Proc.devRef .tc main_v37) = hid1 V0 :=
  (val3_keep V0 main_v37 (by decide)).trans (val2_v37 V0)
theorem val3_v40 (V0 : Valuation τ sig (Elt Ideal)) : val3 V0 (Proc.devRef .tc main_v40) = meanArr (hid1 V0) := by
  unfold val3
  rw [opsC1_v40, val2_v37]
theorem val3_v41 (V0 : Valuation τ sig (Elt Ideal)) : val3 V0 (Proc.devRef .tc main_v41) = varArr (hid1 V0) := by
  unfold val3
  rw [opsC1_v41, val2_v37]

theorem val4_v60 (V0 : Valuation τ sig (Elt Ideal)) : val4 V0 (Proc.devRef .tc main_v60) = out1 V0 := by
  unfold val4 out1
  rw [opsD1_v60, val3_v37, val3_v40, val3_v41, val3_arg V0 main_arg14 (by decide) (by decide) (by decide),
    val3_arg V0 main_arg15 (by decide) (by decide) (by decide),
    val3_arg V0 main_arg16 (by decide) (by decide) (by decide),
    val3_arg V0 main_arg17 (by decide) (by decide) (by decide)]
  unfold hid1
  exact (layerArr_unfold ..).symm

theorem val5_v60 (V0 : Valuation τ sig (Elt Ideal)) : val5 V0 (Proc.devRef .tc main_v60) = out1 V0 :=
  (val5_keep V0 main_v60 (by decide)).trans (val4_v60 V0)
theorem val5_v77 (V0 : Valuation τ sig (Elt Ideal)) : val5 V0 (Proc.devRef .tc main_v77) = emb2 V0 := by
  unfold val5 emb2
  rw [opsA2_v77, val4_arg V0 main_arg18 (by decide) (by decide) (by decide) (by decide) (by decide),
    val4_arg V0 main_arg19 (by decide) (by decide) (by decide) (by decide) (by decide),
    val4_arg V0 main_arg2 (by decide) (by decide) (by decide) (by decide) (by decide)]

theorem val6_v98 (V0 : Valuation τ sig (Elt Ideal)) : val6 V0 (Proc.devRef .tc main_v98) = hid2 V0 := by
  unfold val6 hid2
  rw [opsB2_v98, val5_v77, val5_v60, val5_arg V0 main_arg20 (by decide) (by decide) (by decide) (by decide) (by decide) (by decide),
    val5_arg V0 main_arg21 (by decide) (by decide) (by decide) (by decide) (by decide) (by decide),
    val5_arg V0 main_arg22 (by decide) (by decide) (by decide) (by decide) (by decide) (by decide),
    val5_arg V0 main_arg23 (by decide) (by decide) (by decide) (by decide) (by decide) (by decide),
    val5_arg V0 main_arg24 (by decide) (by decide) (by decide) (by decide) (by decide) (by decide),
    val5_arg V0 main_arg25 (by decide) (by decide) (by decide) (by decide) (by decide) (by decide),
    val5_arg V0 main_arg26 (by decide) (by decide) (by decide) (by decide) (by decide) (by decide),
    val5_arg V0 main_arg27 (by decide) (by decide) (by decide) (by decide) (by decide) (by decide)]

theorem val7_v98 (V0 : Valuation τ sig (Elt Ideal)) : val7 V0 (Proc.devRef .tc main_v98) = hid2 V0 :=
  (val7_keep V0 main_v98 (by decide)).trans (val6_v98 V0)
theorem val7_v101 (V0 : Valuation τ sig (Elt Ideal)) : val7 V0 (Proc.devRef .tc main_v101) = meanArr (hid2 V0) := by
  unfold val7
  rw [opsC2_v101, val6_v98]
theorem val7_v102 (V0 : Valuation τ sig (Elt Ideal)) : val7 V0 (Proc.devRef .tc main_v102) = varArr (hid2 V0) := by
  unfold val7
  rw [opsC2_v102, val6_v98]

theorem val8_v121 (V0 : Valuation τ sig (Elt Ideal)) : val8 V0 (Proc.devRef .tc main_v121) = out2 V0 := by
  unfold val8 out2
  rw [opsD2_v121, val7_v98, val7_v101, val7_v102, val7_arg V0 main_arg28 (by decide) (by decide) (by decide) (by decide) (by decide) (by decide) (by decide) (by decide),
    val7_arg V0 main_arg29 (by decide) (by decide) (by decide) (by decide) (by decide) (by decide) (by decide) (by decide),
    val7_arg V0 main_arg30 (by decide) (by decide) (by decide) (by decide) (by decide) (by decide) (by decide) (by decide),
    val7_arg V0 main_arg31 (by decide) (by decide) (by decide) (by decide) (by decide) (by decide) (by decide) (by decide)]
  unfold hid2
  exact (layerArr_unfold ..).symm

theorem val9_v122 (V0 : Valuation τ sig (Elt Ideal)) : val9 V0 (Proc.devRef .tc main_v122) = lastOp (out2 V0) (V0 (Proc.devRef .tc main_arg0)) := by
  unfold val9
  rw [opsE_v122, val8_v121, val8_arg V0 main_arg0 (by decide) (by decide) (by decide) (by decide) (by decide) (by decide) (by decide) (by decide) (by decide) (by decide)]

/-- The named terms at the launch contents are the terms over the memory's cells. -/
theorem res_eq (m : (ℓ : Loc nD τ sig) → Buf (Elt Ideal) ℓ) (c : Dev nD) :
    lastOp (out2 (launchContents m c)) (launchContents m c (Proc.devRef .tc main_arg0))
      = lastOp (layerArr (embArr (m ((c.tc : Thread nD τ).loc main_arg18)) (m ((c.tc : Thread nD τ).loc main_arg19)) (m ((c.tc : Thread nD τ).loc main_arg2))) (layerArr (embArr (m ((c.tc : Thread nD τ).loc main_arg4)) (m ((c.tc : Thread nD τ).loc main_arg5)) (m ((c.tc : Thread nD τ).loc main_arg2))) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31))) (m ((c.tc : Thread nD τ).loc main_arg0)) := rfl

/-- From any memory with zero counters, every weakly fair execution of the program terminates with the
    result buffer at the concatenation of the second layer (of the first layer) with the node features,
    and every argument buffer as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v122) = lastOp (layerArr (embArr (m ((c.tc : Thread nD τ).loc main_arg18)) (m ((c.tc : Thread nD τ).loc main_arg19)) (m ((c.tc : Thread nD τ).loc main_arg2))) (layerArr (embArr (m ((c.tc : Thread nD τ).loc main_arg4)) (m ((c.tc : Thread nD τ).loc main_arg5)) (m ((c.tc : Thread nD τ).loc main_arg2))) (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c =>
    ⟨((h c main_v122).trans (congrFun (after_ops _) _)).trans ((val9_v122 _).trans (res_eq m c)),
      ((h c main_arg0).trans (congrFun (after_ops _) _)).trans (val9_arg _ main_arg0 (by decide) (by decide) (by decide) (by decide) (by decide) (by decide) (by decide) (by decide) (by decide) (by decide) (by decide)),
      ((h c main_arg1).trans (congrFun (after_ops _) _)).trans (val9_arg _ main_arg1 (by decide) (by decide) (by decide) (by decide) (by decide) (by decide) (by decide) (by decide) (by decide) (by decide) (by decide)),
      ((h c main_arg2).trans (congrFun (after_ops _) _)).trans (val9_arg _ main_arg2 (by decide) (by decide) (by decide) (by decide) (by decide) (by decide) (by decide) (by decide) (by decide) (by decide) (by decide)),
      ((h c main_arg3).trans (congrFun (after_ops _) _)).trans (val9_arg _ main_arg3 (by decide) (by decide) (by decide) (by decide) (by decide) (by decide) (by decide) (by decide) (by decide) (by decide) (by decide)),
      ((h c main_arg4).trans (congrFun (after_ops _) _)).trans (val9_arg _ main_arg4 (by decide) (by decide) (by decide) (by decide) (by decide) (by decide) (by decide) (by decide) (by decide) (by decide) (by decide)),
      ((h c main_arg5).trans (congrFun (after_ops _) _)).trans (val9_arg _ main_arg5 (by decide) (by decide) (by decide) (by decide) (by decide) (by decide) (by decide) (by decide) (by decide) (by decide) (by decide)),
      ((h c main_arg6).trans (congrFun (after_ops _) _)).trans (val9_arg _ main_arg6 (by decide) (by decide) (by decide) (by decide) (by decide) (by decide) (by decide) (by decide) (by decide) (by decide) (by decide)),
      ((h c main_arg7).trans (congrFun (after_ops _) _)).trans (val9_arg _ main_arg7 (by decide) (by decide) (by decide) (by decide) (by decide) (by decide) (by decide) (by decide) (by decide) (by decide) (by decide)),
      ((h c main_arg8).trans (congrFun (after_ops _) _)).trans (val9_arg _ main_arg8 (by decide) (by decide) (by decide) (by decide) (by decide) (by decide) (by decide) (by decide) (by decide) (by decide) (by decide)),
      ((h c main_arg9).trans (congrFun (after_ops _) _)).trans (val9_arg _ main_arg9 (by decide) (by decide) (by decide) (by decide) (by decide) (by decide) (by decide) (by decide) (by decide) (by decide) (by decide)),
      ((h c main_arg10).trans (congrFun (after_ops _) _)).trans (val9_arg _ main_arg10 (by decide) (by decide) (by decide) (by decide) (by decide) (by decide) (by decide) (by decide) (by decide) (by decide) (by decide)),
      ((h c main_arg11).trans (congrFun (after_ops _) _)).trans (val9_arg _ main_arg11 (by decide) (by decide) (by decide) (by decide) (by decide) (by decide) (by decide) (by decide) (by decide) (by decide) (by decide)),
      ((h c main_arg12).trans (congrFun (after_ops _) _)).trans (val9_arg _ main_arg12 (by decide) (by decide) (by decide) (by decide) (by decide) (by decide) (by decide) (by decide) (by decide) (by decide) (by decide)),
      ((h c main_arg13).trans (congrFun (after_ops _) _)).trans (val9_arg _ main_arg13 (by decide) (by decide) (by decide) (by decide) (by decide) (by decide) (by decide) (by decide) (by decide) (by decide) (by decide)),
      ((h c main_arg14).trans (congrFun (after_ops _) _)).trans (val9_arg _ main_arg14 (by decide) (by decide) (by decide) (by decide) (by decide) (by decide) (by decide) (by decide) (by decide) (by decide) (by decide)),
      ((h c main_arg15).trans (congrFun (after_ops _) _)).trans (val9_arg _ main_arg15 (by decide) (by decide) (by decide) (by decide) (by decide) (by decide) (by decide) (by decide) (by decide) (by decide) (by decide)),
      ((h c main_arg16).trans (congrFun (after_ops _) _)).trans (val9_arg _ main_arg16 (by decide) (by decide) (by decide) (by decide) (by decide) (by decide) (by decide) (by decide) (by decide) (by decide) (by decide)),
      ((h c main_arg17).trans (congrFun (after_ops _) _)).trans (val9_arg _ main_arg17 (by decide) (by decide) (by decide) (by decide) (by decide) (by decide) (by decide) (by decide) (by decide) (by decide) (by decide)),
      ((h c main_arg18).trans (congrFun (after_ops _) _)).trans (val9_arg _ main_arg18 (by decide) (by decide) (by decide) (by decide) (by decide) (by decide) (by decide) (by decide) (by decide) (by decide) (by decide)),
      ((h c main_arg19).trans (congrFun (after_ops _) _)).trans (val9_arg _ main_arg19 (by decide) (by decide) (by decide) (by decide) (by decide) (by decide) (by decide) (by decide) (by decide) (by decide) (by decide)),
      ((h c main_arg20).trans (congrFun (after_ops _) _)).trans (val9_arg _ main_arg20 (by decide) (by decide) (by decide) (by decide) (by decide) (by decide) (by decide) (by decide) (by decide) (by decide) (by decide)),
      ((h c main_arg21).trans (congrFun (after_ops _) _)).trans (val9_arg _ main_arg21 (by decide) (by decide) (by decide) (by decide) (by decide) (by decide) (by decide) (by decide) (by decide) (by decide) (by decide)),
      ((h c main_arg22).trans (congrFun (after_ops _) _)).trans (val9_arg _ main_arg22 (by decide) (by decide) (by decide) (by decide) (by decide) (by decide) (by decide) (by decide) (by decide) (by decide) (by decide)),
      ((h c main_arg23).trans (congrFun (after_ops _) _)).trans (val9_arg _ main_arg23 (by decide) (by decide) (by decide) (by decide) (by decide) (by decide) (by decide) (by decide) (by decide) (by decide) (by decide)),
      ((h c main_arg24).trans (congrFun (after_ops _) _)).trans (val9_arg _ main_arg24 (by decide) (by decide) (by decide) (by decide) (by decide) (by decide) (by decide) (by decide) (by decide) (by decide) (by decide)),
      ((h c main_arg25).trans (congrFun (after_ops _) _)).trans (val9_arg _ main_arg25 (by decide) (by decide) (by decide) (by decide) (by decide) (by decide) (by decide) (by decide) (by decide) (by decide) (by decide)),
      ((h c main_arg26).trans (congrFun (after_ops _) _)).trans (val9_arg _ main_arg26 (by decide) (by decide) (by decide) (by decide) (by decide) (by decide) (by decide) (by decide) (by decide) (by decide) (by decide)),
      ((h c main_arg27).trans (congrFun (after_ops _) _)).trans (val9_arg _ main_arg27 (by decide) (by decide) (by decide) (by decide) (by decide) (by decide) (by decide) (by decide) (by decide) (by decide) (by decide)),
      ((h c main_arg28).trans (congrFun (after_ops _) _)).trans (val9_arg _ main_arg28 (by decide) (by decide) (by decide) (by decide) (by decide) (by decide) (by decide) (by decide) (by decide) (by decide) (by decide)),
      ((h c main_arg29).trans (congrFun (after_ops _) _)).trans (val9_arg _ main_arg29 (by decide) (by decide) (by decide) (by decide) (by decide) (by decide) (by decide) (by decide) (by decide) (by decide) (by decide)),
      ((h c main_arg30).trans (congrFun (after_ops _) _)).trans (val9_arg _ main_arg30 (by decide) (by decide) (by decide) (by decide) (by decide) (by decide) (by decide) (by decide) (by decide) (by decide) (by decide)),
      ((h c main_arg31).trans (congrFun (after_ops _) _)).trans (val9_arg _ main_arg31 (by decide) (by decide) (by decide) (by decide) (by decide) (by decide) (by decide) (by decide) (by decide) (by decide) (by decide))⟩)
    (run_all m ρ)

end Cert.ReferenceIdeal.Hand

end
-- ==== Proof.KHost.lean ====
/-
  What each stretch of host operations of the idealized kernel's `@main` leaves in the buffers the kernels and
  the result read, for arbitrary buffer contents `W` at the stretch's start.

  * The aggregated edge embedding (stretches 0 and 2): the term `embArrK` of the table, the bias and the edge list.
  * The bias rows: a vector reshaped to a one-row matrix has the vector's entries.
  * The mean and variance rows (stretches 1 and 3): the column sums divided by the number of rows 16384, and the
    mean of the squares minus the square of the mean.
  * A buffer a stretch does not write keeps its contents.
  * The result (stretch 4): the last kernel's output and the node features side by side.
-/
import proofs.«136727_j87875030876560_1_alg».proof.Proof.Gen.KernelIdeal.Launch
import proofs.«136727_j87875030876560_1_alg».proof.Proof.Spec
import proofs.«136727_j87875030876560_1_alg».proof.Proof.LibBcastRead
import proofs.«136727_j87875030876560_1_alg».proof.Proof.KEmb
import Idealize.ShloMosaic.Lib.StableHlo.Run

set_option maxRecDepth 16384

noncomputable section

namespace Cert.KernelIdeal.Hand

open Idealize.ShloMosaic Idealize.ShloMosaic.TcCoe Idealize.ShloMosaic.ValueIdx
open Cert.KernelIdeal Cert.KernelIdeal.Gen Cert.Linkx

variable (W : Valuation τ sig (Elt Ideal))

/-! ## Reading a reshaped vector and a divided row at an entry -/

/-- A vector reshaped to a one-row matrix has, at entry `(0, q)`, the vector's entry `q`. -/
theorem reshape_row_apply {α : Type} {C : Nat} (h : (⟨1, ![C]⟩ : Shape).ShapeCasts ⟨2, ![1, C]⟩)
    (v : (⟨1, ![C]⟩ : Shape).Idx → α) (q : Fin C) :
    shapeCast ⟨2, ![1, C]⟩ v h (ix2 (0 : Fin 1) q) = v (ix1 q) := by
  refine shapeCast_apply v h _ _ ?_
  rw [Shape.rowMajor_val_one, Shape.rowMajor_val_two]
  show q.val = 0 * C + q.val
  omega

/-- A one-row matrix divided entrywise by the constant row 16384 has, at entry `(0, q)`, the quotient by the
    number of rows. -/
theorem div_nrow_apply (r : FVec Ideal S1x256 .f32) (q : Fin 256) :
    (Host.divf r (broadcastInDim S1x256 ![] bcast_S_S1x256 (constant (F := Ideal) S_ .f32 0x46800000#32)) : FVec Ideal S1x256 .f32)
        (ix2 (0 : Fin 1) q)
      = Ideal.div (r (ix2 (0 : Fin 1) q)) ((nR : ℝ) : EReal) := by
  show Ideal.div (r (ix2 (0 : Fin 1) q)) (broadcastInDim S1x256 ![] bcast_S_S1x256 (constant (F := Ideal) S_ .f32 0x46800000#32) (ix2 (0 : Fin 1) q)) = _
  rw [Cert.Lib.BcastRead.scalar_spread_apply, constant_apply, n_eq]

/-! ## The aggregated edge embedding -/

/-- Stretch 0 leaves in `main_v16` the aggregated edge embedding of the first layer's table, bias and the edges. -/
theorem host0_v16 : StableHlo.after (hostOps0 (F := Ideal)) W (Proc.devRef .tc main_v16)
    = embArrK (W (Proc.devRef .tc main_arg4)) (W (Proc.devRef .tc main_arg5)) (W (Proc.devRef .tc main_arg2)) := by
  after_results_simp <;> rfl

/-- Stretch 2 leaves in `main_v48` the aggregated edge embedding of the second layer's table, bias and the edges. -/
theorem host2_v48 : StableHlo.after (hostOps2 (F := Ideal)) W (Proc.devRef .tc main_v48)
    = embArrK (W (Proc.devRef .tc main_arg18)) (W (Proc.devRef .tc main_arg19)) (W (Proc.devRef .tc main_arg2)) := by
  after_results_simp <;> rfl

/-! ## The bias rows -/

/-- Stretch 0 leaves in `main_v17` the vector `main_arg7` as a row. -/
theorem host0_v17 (q : Fin 256) : toRow (a := 256) (StableHlo.after (hostOps0 (F := Ideal)) W (Proc.devRef .tc main_v17)) q
    = toVec (a := 256) (W (Proc.devRef .tc main_arg7)) q := by
  have e : StableHlo.after (hostOps0 (F := Ideal)) W (Proc.devRef .tc main_v17)
      = (shapeCast S1x256 (W (Proc.devRef .tc main_arg7)) shapeCasts_S256_S1x256 : FVec Ideal S1x256 .f32) := by
    after_results_simp <;> rfl
  unfold toRow toVec; rw [e]; exact reshape_row_apply _ _ q

/-- Stretch 0 leaves in `main_v18` the vector `main_arg9` as a row. -/
theorem host0_v18 (q : Fin 256) : toRow (a := 256) (StableHlo.after (hostOps0 (F := Ideal)) W (Proc.devRef .tc main_v18)) q
    = toVec (a := 256) (W (Proc.devRef .tc main_arg9)) q := by
  have e : StableHlo.after (hostOps0 (F := Ideal)) W (Proc.devRef .tc main_v18)
      = (shapeCast S1x256 (W (Proc.devRef .tc main_arg9)) shapeCasts_S256_S1x256 : FVec Ideal S1x256 .f32) := by
    after_results_simp <;> rfl
  unfold toRow toVec; rw [e]; exact reshape_row_apply _ _ q

/-- Stretch 0 leaves in `main_v19` the vector `main_arg11` as a row. -/
theorem host0_v19 (q : Fin 256) : toRow (a := 256) (StableHlo.after (hostOps0 (F := Ideal)) W (Proc.devRef .tc main_v19)) q
    = toVec (a := 256) (W (Proc.devRef .tc main_arg11)) q := by
  have e : StableHlo.after (hostOps0 (F := Ideal)) W (Proc.devRef .tc main_v19)
      = (shapeCast S1x256 (W (Proc.devRef .tc main_arg11)) shapeCasts_S256_S1x256 : FVec Ideal S1x256 .f32) := by
    after_results_simp <;> rfl
  unfold toRow toVec; rw [e]; exact reshape_row_apply _ _ q

/-- Stretch 0 leaves in `main_v20` the vector `main_arg13` as a row. -/
theorem host0_v20 (q : Fin 256) : toRow (a := 256) (StableHlo.after (hostOps0 (F := Ideal)) W (Proc.devRef .tc main_v20)) q
    = toVec (a := 256) (W (Proc.devRef .tc main_arg13)) q := by
  have e : StableHlo.after (hostOps0 (F := Ideal)) W (Proc.devRef .tc main_v20)
      = (shapeCast S1x256 (W (Proc.devRef .tc main_arg13)) shapeCasts_S256_S1x256 : FVec Ideal S1x256 .f32) := by
    after_results_simp <;> rfl
  unfold toRow toVec; rw [e]; exact reshape_row_apply _ _ q

/-- Stretch 1 leaves in `main_v28` the vector `main_arg14` as a row. -/
theorem host1_v28 (q : Fin 256) : toRow (a := 256) (StableHlo.after (hostOps1 (F := Ideal)) W (Proc.devRef .tc main_v28)) q
    = toVec (a := 256) (W (Proc.devRef .tc main_arg14)) q := by
  have e : StableHlo.after (hostOps1 (F := Ideal)) W (Proc.devRef .tc main_v28)
      = (shapeCast S1x256 (W (Proc.devRef .tc main_arg14)) shapeCasts_S256_S1x256 : FVec Ideal S1x256 .f32) := by
    after_results_simp <;> rfl
  unfold toRow toVec; rw [e]; exact reshape_row_apply _ _ q

/-- Stretch 1 leaves in `main_v29` the vector `main_arg15` as a row. -/
theorem host1_v29 (q : Fin 256) : toRow (a := 256) (StableHlo.after (hostOps1 (F := Ideal)) W (Proc.devRef .tc main_v29)) q
    = toVec (a := 256) (W (Proc.devRef .tc main_arg15)) q := by
  have e : StableHlo.after (hostOps1 (F := Ideal)) W (Proc.devRef .tc main_v29)
      = (shapeCast S1x256 (W (Proc.devRef .tc main_arg15)) shapeCasts_S256_S1x256 : FVec Ideal S1x256 .f32) := by
    after_results_simp <;> rfl
  unfold toRow toVec; rw [e]; exact reshape_row_apply _ _ q

/-- Stretch 1 leaves in `main_v30` the vector `main_arg17` as a row. -/
theorem host1_v30 (q : Fin 256) : toRow (a := 256) (StableHlo.after (hostOps1 (F := Ideal)) W (Proc.devRef .tc main_v30)) q
    = toVec (a := 256) (W (Proc.devRef .tc main_arg17)) q := by
  have e : StableHlo.after (hostOps1 (F := Ideal)) W (Proc.devRef .tc main_v30)
      = (shapeCast S1x256 (W (Proc.devRef .tc main_arg17)) shapeCasts_S256_S1x256 : FVec Ideal S1x256 .f32) := by
    after_results_simp <;> rfl
  unfold toRow toVec; rw [e]; exact reshape_row_apply _ _ q

/-- Stretch 2 leaves in `main_v49` the vector `main_arg21` as a row. -/
theorem host2_v49 (q : Fin 256) : toRow (a := 256) (StableHlo.after (hostOps2 (F := Ideal)) W (Proc.devRef .tc main_v49)) q
    = toVec (a := 256) (W (Proc.devRef .tc main_arg21)) q := by
  have e : StableHlo.after (hostOps2 (F := Ideal)) W (Proc.devRef .tc main_v49)
      = (shapeCast S1x256 (W (Proc.devRef .tc main_arg21)) shapeCasts_S256_S1x256 : FVec Ideal S1x256 .f32) := by
    after_results_simp <;> rfl
  unfold toRow toVec; rw [e]; exact reshape_row_apply _ _ q

/-- Stretch 2 leaves in `main_v50` the vector `main_arg23` as a row. -/
theorem host2_v50 (q : Fin 256) : toRow (a := 256) (StableHlo.after (hostOps2 (F := Ideal)) W (Proc.devRef .tc main_v50)) q
    = toVec (a := 256) (W (Proc.devRef .tc main_arg23)) q := by
  have e : StableHlo.after (hostOps2 (F := Ideal)) W (Proc.devRef .tc main_v50)
      = (shapeCast S1x256 (W (Proc.devRef .tc main_arg23)) shapeCasts_S256_S1x256 : FVec Ideal S1x256 .f32) := by
    after_results_simp <;> rfl
  unfold toRow toVec; rw [e]; exact reshape_row_apply _ _ q

/-- Stretch 2 leaves in `main_v51` the vector `main_arg25` as a row. -/
theorem host2_v51 (q : Fin 256) : toRow (a := 256) (StableHlo.after (hostOps2 (F := Ideal)) W (Proc.devRef .tc main_v51)) q
    = toVec (a := 256) (W (Proc.devRef .tc main_arg25)) q := by
  have e : StableHlo.after (hostOps2 (F := Ideal)) W (Proc.devRef .tc main_v51)
      = (shapeCast S1x256 (W (Proc.devRef .tc main_arg25)) shapeCasts_S256_S1x256 : FVec Ideal S1x256 .f32) := by
    after_results_simp <;> rfl
  unfold toRow toVec; rw [e]; exact reshape_row_apply _ _ q

/-- Stretch 2 leaves in `main_v52` the vector `main_arg27` as a row. -/
theorem host2_v52 (q : Fin 256) : toRow (a := 256) (StableHlo.after (hostOps2 (F := Ideal)) W (Proc.devRef .tc main_v52)) q
    = toVec (a := 256) (W (Proc.devRef .tc main_arg27)) q := by
  have e : StableHlo.after (hostOps2 (F := Ideal)) W (Proc.devRef .tc main_v52)
      = (shapeCast S1x256 (W (Proc.devRef .tc main_arg27)) shapeCasts_S256_S1x256 : FVec Ideal S1x256 .f32) := by
    after_results_simp <;> rfl
  unfold toRow toVec; rw [e]; exact reshape_row_apply _ _ q

/-- Stretch 3 leaves in `main_v60` the vector `main_arg28` as a row. -/
theorem host3_v60 (q : Fin 256) : toRow (a := 256) (StableHlo.after (hostOps3 (F := Ideal)) W (Proc.devRef .tc main_v60)) q
    = toVec (a := 256) (W (Proc.devRef .tc main_arg28)) q := by
  have e : StableHlo.after (hostOps3 (F := Ideal)) W (Proc.devRef .tc main_v60)
      = (shapeCast S1x256 (W (Proc.devRef .tc main_arg28)) shapeCasts_S256_S1x256 : FVec Ideal S1x256 .f32) := by
    after_results_simp <;> rfl
  unfold toRow toVec; rw [e]; exact reshape_row_apply _ _ q

/-- Stretch 3 leaves in `main_v61` the vector `main_arg29` as a row. -/
theorem host3_v61 (q : Fin 256) : toRow (a := 256) (StableHlo.after (hostOps3 (F := Ideal)) W (Proc.devRef .tc main_v61)) q
    = toVec (a := 256) (W (Proc.devRef .tc main_arg29)) q := by
  have e : StableHlo.after (hostOps3 (F := Ideal)) W (Proc.devRef .tc main_v61)
      = (shapeCast S1x256 (W (Proc.devRef .tc main_arg29)) shapeCasts_S256_S1x256 : FVec Ideal S1x256 .f32) := by
    after_results_simp <;> rfl
  unfold toRow toVec; rw [e]; exact reshape_row_apply _ _ q

/-- Stretch 3 leaves in `main_v62` the vector `main_arg31` as a row. -/
theorem host3_v62 (q : Fin 256) : toRow (a := 256) (StableHlo.after (hostOps3 (F := Ideal)) W (Proc.devRef .tc main_v62)) q
    = toVec (a := 256) (W (Proc.devRef .tc main_arg31)) q := by
  have e : StableHlo.after (hostOps3 (F := Ideal)) W (Proc.devRef .tc main_v62)
      = (shapeCast S1x256 (W (Proc.devRef .tc main_arg31)) shapeCasts_S256_S1x256 : FVec Ideal S1x256 .f32) := by
    after_results_simp <;> rfl
  unfold toRow toVec; rw [e]; exact reshape_row_apply _ _ q

/-! ## The mean and variance rows -/

/-- Stretch 1 leaves in `main_v23` the row `main_v21_1` divided by the number of rows. -/
theorem host1_v23 (q : Fin 256) : toRow (a := 256) (StableHlo.after (hostOps1 (F := Ideal)) W (Proc.devRef .tc main_v23)) q
    = Ideal.div (toRow (a := 256) (W (Proc.devRef .tc main_v21_1)) q) ((nR : ℝ) : EReal) := by
  have e : StableHlo.after (hostOps1 (F := Ideal)) W (Proc.devRef .tc main_v23)
      = (Host.divf (W (Proc.devRef .tc main_v21_1))
          (broadcastInDim S1x256 ![] bcast_S_S1x256 (constant (F := Ideal) S_ .f32 0x46800000#32)) : FVec Ideal S1x256 .f32) := by
    after_results_simp <;> rfl
  unfold toRow; rw [e]
  exact div_nrow_apply _ q

/-- Stretch 1 leaves in `main_v27` the row `main_v21_2` divided by the number of rows, minus the square of the
    row `main_v21_1` divided by the number of rows. -/
theorem host1_v27 (q : Fin 256) : toRow (a := 256) (StableHlo.after (hostOps1 (F := Ideal)) W (Proc.devRef .tc main_v27)) q
    = Ideal.div (toRow (a := 256) (W (Proc.devRef .tc main_v21_2)) q) ((nR : ℝ) : EReal)
      - Ideal.div (toRow (a := 256) (W (Proc.devRef .tc main_v21_1)) q) ((nR : ℝ) : EReal)
        * Ideal.div (toRow (a := 256) (W (Proc.devRef .tc main_v21_1)) q) ((nR : ℝ) : EReal) := by
  have e : StableHlo.after (hostOps1 (F := Ideal)) W (Proc.devRef .tc main_v27)
      = (subf (Host.divf (W (Proc.devRef .tc main_v21_2))
            (broadcastInDim S1x256 ![] bcast_S_S1x256 (constant (F := Ideal) S_ .f32 0x46800000#32)))
          (mulf (Host.divf (W (Proc.devRef .tc main_v21_1))
              (broadcastInDim S1x256 ![] bcast_S_S1x256 (constant (F := Ideal) S_ .f32 0x46800000#32)))
            (Host.divf (W (Proc.devRef .tc main_v21_1))
              (broadcastInDim S1x256 ![] bcast_S_S1x256 (constant (F := Ideal) S_ .f32 0x46800000#32)))) : FVec Ideal S1x256 .f32) := by
    after_results_simp <;> rfl
  unfold toRow; rw [e, subf_apply, mulf_apply]
  rw [div_nrow_apply, div_nrow_apply]

/-- Stretch 3 leaves in `main_v55` the row `main_v53_1` divided by the number of rows. -/
theorem host3_v55 (q : Fin 256) : toRow (a := 256) (StableHlo.after (hostOps3 (F := Ideal)) W (Proc.devRef .tc main_v55)) q
    = Ideal.div (toRow (a := 256) (W (Proc.devRef .tc main_v53_1)) q) ((nR : ℝ) : EReal) := by
  have e : StableHlo.after (hostOps3 (F := Ideal)) W (Proc.devRef .tc main_v55)
      = (Host.divf (W (Proc.devRef .tc main_v53_1))
          (broadcastInDim S1x256 ![] bcast_S_S1x256 (constant (F := Ideal) S_ .f32 0x46800000#32)) : FVec Ideal S1x256 .f32) := by
    after_results_simp <;> rfl
  unfold toRow; rw [e]
  exact div_nrow_apply _ q

/-- Stretch 3 leaves in `main_v59` the row `main_v53_2` divided by the number of rows, minus the square of the
    row `main_v53_1` divided by the number of rows. -/
theorem host3_v59 (q : Fin 256) : toRow (a := 256) (StableHlo.after (hostOps3 (F := Ideal)) W (Proc.devRef .tc main_v59)) q
    = Ideal.div (toRow (a := 256) (W (Proc.devRef .tc main_v53_2)) q) ((nR : ℝ) : EReal)
      - Ideal.div (toRow (a := 256) (W (Proc.devRef .tc main_v53_1)) q) ((nR : ℝ) : EReal)
        * Ideal.div (toRow (a := 256) (W (Proc.devRef .tc main_v53_1)) q) ((nR : ℝ) : EReal) := by
  have e : StableHlo.after (hostOps3 (F := Ideal)) W (Proc.devRef .tc main_v59)
      = (subf (Host.divf (W (Proc.devRef .tc main_v53_2))
            (broadcastInDim S1x256 ![] bcast_S_S1x256 (constant (F := Ideal) S_ .f32 0x46800000#32)))
          (mulf (Host.divf (W (Proc.devRef .tc main_v53_1))
              (broadcastInDim S1x256 ![] bcast_S_S1x256 (constant (F := Ideal) S_ .f32 0x46800000#32)))
            (Host.divf (W (Proc.devRef .tc main_v53_1))
              (broadcastInDim S1x256 ![] bcast_S_S1x256 (constant (F := Ideal) S_ .f32 0x46800000#32)))) : FVec Ideal S1x256 .f32) := by
    after_results_simp <;> rfl
  unfold toRow; rw [e, subf_apply, mulf_apply]
  rw [div_nrow_apply, div_nrow_apply]

/-! ## Buffers a stretch does not write -/

/-- The buffers stretch 0 writes. -/
def writes0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20]

/-- A buffer stretch 0 does not write keeps its contents. -/
theorem host0_keep (b : Ref sig .tc) (hb : b ∉ writes0) :
    StableHlo.after (hostOps0 (F := Ideal)) W (Proc.devRef .tc b) = W (Proc.devRef .tc b) := by
  have h : ∀ y, y ∈ writes0 → Proc.devRef (τ := τ) .tc b ≠ Proc.devRef .tc y :=
    fun y hy e => hb (Proc.devRef_injective _ e ▸ hy)
  refine StableHlo.after_of_forall_not_mem _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact h _ (by decide)

/-- The buffers stretch 1 writes. -/
def writes1 : List (Ref sig .tc) := [main_cst_1, main_v22, main_v23, main_cst_2, main_v24, main_v25, main_v26, main_v27, main_v28, main_v29, main_v30]

/-- A buffer stretch 1 does not write keeps its contents. -/
theorem host1_keep (b : Ref sig .tc) (hb : b ∉ writes1) :
    StableHlo.after (hostOps1 (F := Ideal)) W (Proc.devRef .tc b) = W (Proc.devRef .tc b) := by
  have h : ∀ y, y ∈ writes1 → Proc.devRef (τ := τ) .tc b ≠ Proc.devRef .tc y :=
    fun y hy e => hb (Proc.devRef_injective _ e ▸ hy)
  refine StableHlo.after_of_forall_not_mem _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact h _ (by decide)

/-- The buffers stretch 2 writes. -/
def writes2 : List (Ref sig .tc) := [main_v32, main_v33, main_v34, main_v35, main_c_3, main_v36, main_v37, main_c_4, main_v38, main_v39, main_v40, main_v41, main_v42, main_cst_5, main_v43, main_v44, main_v45, main_v46, main_v47, main_v48, main_v49, main_v50, main_v51, main_v52]

/-- A buffer stretch 2 does not write keeps its contents. -/
theorem host2_keep (b : Ref sig .tc) (hb : b ∉ writes2) :
    StableHlo.after (hostOps2 (F := Ideal)) W (Proc.devRef .tc b) = W (Proc.devRef .tc b) := by
  have h : ∀ y, y ∈ writes2 → Proc.devRef (τ := τ) .tc b ≠ Proc.devRef .tc y :=
    fun y hy e => hb (Proc.devRef_injective _ e ▸ hy)
  refine StableHlo.after_of_forall_not_mem _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact h _ (by decide)

/-- The buffers stretch 3 writes. -/
def writes3 : List (Ref sig .tc) := [main_cst_6, main_v54, main_v55, main_cst_7, main_v56, main_v57, main_v58, main_v59, main_v60, main_v61, main_v62]

/-- A buffer stretch 3 does not write keeps its contents. -/
theorem host3_keep (b : Ref sig .tc) (hb : b ∉ writes3) :
    StableHlo.after (hostOps3 (F := Ideal)) W (Proc.devRef .tc b) = W (Proc.devRef .tc b) := by
  have h : ∀ y, y ∈ writes3 → Proc.devRef (τ := τ) .tc b ≠ Proc.devRef .tc y :=
    fun y hy e => hb (Proc.devRef_injective _ e ▸ hy)
  refine StableHlo.after_of_forall_not_mem _ _ (List.forall_iff_forall_mem.mp ?_)
  simp only [hostOps3, List.Forall, StableHlo.nullary_writes, StableHlo.unary_writes, StableHlo.binary_writes,
    StableHlo.ternary_writes, StableHlo.reshape_writes, Finset.mem_singleton]
  repeat' apply And.intro
  all_goals exact h _ (by decide)

/-- The buffers stretch 4 writes. -/
def writes4 : List (Ref sig .tc) := [main_v64]

/-- A buffer stretch 4 does not write keeps its contents. -/
theorem host4_keep (b : Ref sig .tc) (hb : b ∉ writes4) :
    StableHlo.after (hostOps4 (F := Ideal)) W (Proc.devRef .tc b) = W (Proc.devRef .tc b) := by
  have h : ∀ y, y ∈ writes4 → Proc.devRef (τ := τ) .tc b ≠ Proc.devRef .tc y :=
    fun y hy e => hb (Proc.devRef_injective _ e ▸ hy)
  refine StableHlo.after_of_forall_not_mem _ _ (List.forall_iff_forall_mem.mp ?_)
  simp only [hostOps4, List.Forall, StableHlo.nullary_writes, StableHlo.unary_writes, StableHlo.binary_writes,
    StableHlo.ternary_writes, StableHlo.reshape_writes, Finset.mem_singleton]
  repeat' apply And.intro
  all_goals exact h _ (by decide)

/-! ## The result -/

/-- The last stretch leaves in `main_v64` the two arrays side by side. -/
theorem host4_v64 : StableHlo.after (hostOps4 (F := Ideal)) W (Proc.devRef .tc main_v64)
    = concatenate S16384x512 1 [⟨S16384x256, W (Proc.devRef .tc main_v63)⟩, ⟨S16384x256, W (Proc.devRef .tc main_arg0)⟩]
        concatenates_S16384x256_S16384x256_S16384x512_d1 := by
  after_results_simp <;> rfl

end Cert.KernelIdeal.Hand

end
-- ==== Proof.KArgs.lean ====
/-
  The argument arrays of the program, read at the boundaries between its stretches of host operations and its
  kernel calls.

  The buffer contents at each boundary are a fold from the launch memory: a stretch of host operations rewrites the
  buffers it writes, a kernel call rewrites its own arrays.  An argument array is written by no host operation and by
  no call (a call reads it through an input window, which leaves it as entered, or does not touch it), so it holds
  its launch contents at every boundary.  Each theorem below walks one argument array back from a boundary to the launch memory.
-/
import proofs.«136727_j87875030876560_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## Before the first call -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-! ## After the first call -/

theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W2_arg17 (c : Dev nD) : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-! ## Before the second call -/

theorem W3_arg16 (c : Dev nD) : W3 m ρ c (Proc.devRef .tc main_arg16) = m ((c : Thread nD τ).loc main_arg16) :=
  calc W3 m ρ c (Proc.devRef .tc main_arg16)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

/-! ## After the second call -/

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W4_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem W4_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

theorem W4_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

theorem W4_arg25 (c : Dev nD) : W4 m ρ c (Proc.devRef .tc main_arg25) = m ((c : Thread nD τ).loc main_arg25) :=
  calc W4 m ρ c (Proc.devRef .tc main_arg25)
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg25) := rfl

theorem W4_arg27 (c : Dev nD) : W4 m ρ c (Proc.devRef .tc main_arg27) = m ((c : Thread nD τ).loc main_arg27) :=
  calc W4 m ρ c (Proc.devRef .tc main_arg27)
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg27) := rfl

/-! ## Before the third call -/

theorem W5_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem W5_arg22 (c : Dev nD) : W5 m ρ c (Proc.devRef .tc main_arg22) = m ((c : Thread nD τ).loc main_arg22) :=
  calc W5 m ρ c (Proc.devRef .tc main_arg22)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

theorem W5_arg24 (c : Dev nD) : W5 m ρ c (Proc.devRef .tc main_arg24) = m ((c : Thread nD τ).loc main_arg24) :=
  calc W5 m ρ c (Proc.devRef .tc main_arg24)
    _ = W4 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

theorem W5_arg26 (c : Dev nD) : W5 m ρ c (Proc.devRef .tc main_arg26) = m ((c : Thread nD τ).loc main_arg26) :=
  calc W5 m ρ c (Proc.devRef .tc main_arg26)
    _ = W4 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg26) := rfl

/-! ## After the third call -/

theorem W6_arg28 (c : Dev nD) : W6 m ρ c (Proc.devRef .tc main_arg28) = m ((c : Thread nD τ).loc main_arg28) :=
  calc W6 m ρ c (Proc.devRef .tc main_arg28)
    _ = W5 m ρ c (Proc.devRef .tc main_arg28) := W6_of_ne m ρ c main_arg28 (by decide)
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg28) := rfl

theorem W6_arg29 (c : Dev nD) : W6 m ρ c (Proc.devRef .tc main_arg29) = m ((c : Thread nD τ).loc main_arg29) :=
  calc W6 m ρ c (Proc.devRef .tc main_arg29)
    _ = W5 m ρ c (Proc.devRef .tc main_arg29) := W6_of_ne m ρ c main_arg29 (by decide)
    _ = W4 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg29) := rfl

theorem W6_arg31 (c : Dev nD) : W6 m ρ c (Proc.devRef .tc main_arg31) = m ((c : Thread nD τ).loc main_arg31) :=
  calc W6 m ρ c (Proc.devRef .tc main_arg31)
    _ = W5 m ρ c (Proc.devRef .tc main_arg31) := W6_of_ne m ρ c main_arg31 (by decide)
    _ = W4 m ρ c (Proc.devRef .tc main_arg31) := StableHlo.after_of_forall_not_mem (b := Proc.devRef .tc main_arg31) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg31) := W4_of_ne m ρ c main_arg31 (by decide)
    _ = W2 m ρ c (Proc.devRef .tc main_arg31) := StableHlo.after_of_forall_not_mem (b := Proc.devRef .tc main_arg31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg31) := W2_of_ne m ρ c main_arg31 (by decide)
    _ = W0 m ρ c (Proc.devRef .tc main_arg31) := StableHlo.after_of_forall_not_mem (b := Proc.devRef .tc main_arg31) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg31) := rfl

/-! ## Before the fourth call -/

theorem W7_arg30 (c : Dev nD) : W7 m ρ c (Proc.devRef .tc main_arg30) = m ((c : Thread nD τ).loc main_arg30) :=
  calc W7 m ρ c (Proc.devRef .tc main_arg30)
    _ = W6 m ρ c (Proc.devRef .tc main_arg30) := StableHlo.after_of_forall_not_mem (b := Proc.devRef .tc main_arg30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg30) := W6_of_ne m ρ c main_arg30 (by decide)
    _ = W4 m ρ c (Proc.devRef .tc main_arg30) := StableHlo.after_of_forall_not_mem (b := Proc.devRef .tc main_arg30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg30) := W4_of_ne m ρ c main_arg30 (by decide)
    _ = W2 m ρ c (Proc.devRef .tc main_arg30) := StableHlo.after_of_forall_not_mem (b := Proc.devRef .tc main_arg30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg30) := W2_of_ne m ρ c main_arg30 (by decide)
    _ = W0 m ρ c (Proc.devRef .tc main_arg30) := StableHlo.after_of_forall_not_mem (b := Proc.devRef .tc main_arg30) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg30) := rfl

/-! ## After the fourth call -/

theorem W8_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := W1_arg0 m ρ c

end Cert.KernelIdeal.Hand

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.Body0.lean ====
/-
  The dense kernel body of the first layer, read at an entry.

  The body takes a block `emb` and a block `x` of 2048 rows, four 256 x 256 matrices and four bias rows.  It forms
  `xn = x * nw + nb`, then `((((emb + emb * c1w) + c1b) + xn) + xn * c2w) + c2b`, rectifies, multiplies by `f1w`, adds
  `f1b` and rectifies again: the block of `h`.  It then adds to two running rows the column sums of `h` and of `h * h`
  over the 2048 rows, and at the first grid point it sets both rows to zero beforehand.  On the extended reals every
  narrowing of a number format is the identity and a matrix product into the zero matrix is the plain sum, so each
  entry is the corresponding entry of `hidK`, and the two rows are the accumulator plus a sum over the rows.
-/
import proofs.«136727_j87875030876560_1_alg».proof.Proof.Gen.KernelIdeal.Skeleton
import proofs.«136727_j87875030876560_1_alg».proof.Proof.Spec
import proofs.«136727_j87875030876560_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Linkx Idealize.ShloMosaic Idealize.ShloMosaic.ValueIdx

/-- A `[1, 256]` row, cast to its own shape and spread over 2048 rows, reads at `(p, q)` the row's entry `q`. -/
theorem k0_row_apply (v : Vec Ideal S1x256 .f32) (p : Fin 2048) (q : Fin 256) :
    broadcastTo S2048x256 (shapeCast S1x256 v Facts₀.shapeCasts_S1x256_S1x256) Facts₀.broadcasts_S1x256_S2048x256 (ix2 p q)
      = toRow v q := by
  rw [shapeCast_self]
  exact broadcastTo_1b_ab_apply (a := 2048) (b := 256) v _ p q

/-- The product of a 2048 x 256 block with a 256 x 256 matrix into the zero block, at `(p, q)`. -/
theorem k0_mm_apply {φ₁ φ₂ : FTy} (l : FVec Ideal S2048x256 φ₁) (r : FVec Ideal S256x256 φ₂) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) :=
  Cert.LibMatmulPlain.matmul_zero_apply (M := 2048) (K := 256) (N := 256)
    dot_S2048x256_S256x256_S2048x256_1_0_0_1_n_n rfl rfl rfl rfl rfl rfl l r p q

/-- The zero word spread over a block is zero at every entry. -/
theorem k0_zero_apply (S : Shape) (y : S.Idx) :
    broadcast S (Scalar.ofBits (F := Ideal) .f32 0x00000000#32) y = (0 : EReal) :=
  Ideal.ofBits_zero_f32

/-- `x * nw + nb` as the body forms it, at `(p, k)`. -/
theorem k0_xn_apply (x : Vec Ideal S2048x256 .f32) (nw : Vec Ideal S256x256 .f32) (nb : Vec Ideal S1x256 .f32)
    (p : Fin 2048) (k : Fin 256) :
    addf (matmul dot_S2048x256_S256x256_S2048x256_1_0_0_1_n_n none (truncf .bf16 x bitsLt_bf16_f32)
        (truncf .bf16 nw bitsLt_bf16_f32) (constant (F := Ideal) S2048x256 .f32 0x00000000#32))
      (broadcastTo S2048x256 (shapeCast S1x256 nb Facts₀.shapeCasts_S1x256_S1x256) Facts₀.broadcasts_S1x256_S2048x256) (ix2 p k)
      = xnOf (toMat x) (toMat nw) (toRow nb) p k := by
  rw [addf_apply, k0_row_apply, k0_mm_apply]
  rfl

/-- The sum before the first rectification, at `(p, k)`. -/
theorem k0_pre_apply (v3 : Vec Ideal S2048x256 .f32) (v5 : Vec Ideal S256x256 .f32) (v10 : Vec Ideal S1x256 .f32)
    (v14 : Vec Ideal S2048x256 .f32) (nw : Vec Ideal S256x256 .f32) (nb : Vec Ideal S1x256 .f32)
    (c2w : Vec Ideal S256x256 .f32) (c2b : Vec Ideal S1x256 .f32) (p : Fin 2048) (k : Fin 256) :
    k0_pay6 (F := Ideal) v3 v5 v10 v14 nw nb c2w c2b (ix2 p k)
      = ((((toMat v3 p k + mm (toMat v3) (toMat v5) p k) + toRow v10 k) + xnOf (toMat v14) (toMat nw) (toRow nb) p k)
          + mm (xnOf (toMat v14) (toMat nw) (toRow nb)) (toMat c2w) p k) + toRow c2b k := by
  unfold k0_pay6
  rw [addf_apply, k0_row_apply, addf_apply, k0_mm_apply, addf_apply, k0_xn_apply, addf_apply, k0_row_apply, addf_apply,
    k0_mm_apply, shapeCast_self]
  refine congrArg (· + toRow c2b k) (congrArg (_ + ·) (Finset.sum_congr rfl fun m _ => ?_))
  rw [truncf_apply, k0_xn_apply]
  rfl

/-- The block of `h` from the sum before the first rectification, at `(p, q)`. -/
theorem k0_pay1_apply (v32 : FVec Ideal S2048x256 .f32) (w : FVec Ideal S256x256 .bf16) (v39 : Vec Ideal S1x256 .f32)
    (p : Fin 2048) (q : Fin 256) :
    k0_pay1 (F := Ideal) v32 w v39 (ix2 p q)
      = max ((∑ k : Fin 256, max (v32 (ix2 p k)) 0 * w (ix2 k q)) + toRow v39 q) 0 := by
  unfold k0_pay1
  rw [maximumf_apply, k0_zero_apply, addf_apply, k0_row_apply, k0_mm_apply]
  refine congrArg (fun t => max (t + toRow v39 q) 0) (Finset.sum_congr rfl fun k _ => ?_)
  rw [truncf_apply, maximumf_apply, k0_zero_apply]

/-- The block of `h` at `(p, q)` is `hidK` of the operands. -/
theorem k0_h_apply (v3 v14 : Vec Ideal S2048x256 .f32) (v5 v15 v23 v33 : Vec Ideal S256x256 .f32)
    (v10 v19 v29 v39 : Vec Ideal S1x256 .f32) (p : Fin 2048) (q : Fin 256) :
    k0_pay1 (F := Ideal) (k0_pay6 v3 v5 v10 v14 v15 v19 v23 v29) (k0_pay7 v33) v39 (ix2 p q)
      = hidK (toMat v3) (toMat v14) (toMat v15) (toRow v19) (toMat v5) (toRow v10) (toMat v23) (toRow v29) (toMat v33)
          (toRow v39) p q := by
  rw [k0_pay1_apply]
  unfold hidK mm
  refine congrArg (fun t => max (t + toRow v39 q) 0) (Finset.sum_congr rfl fun k _ => ?_)
  rw [k0_pre_apply]
  rfl

/-- The lane sum over the 2048 rows, cast to a row, at `(u, q)`. -/
theorem k0_colsum_apply (src : FVec Ideal S2048x256 .f32) (hacc : (0x00000000#32 : BitVec 32) = 0x00000000#32)
    (u : Fin 1) (q : Fin 256) :
    shapeCast S1x256 (multiReduction (F := Ideal) .add [0] S256 src 0x00000000#32 Facts₀.reduces_S2048x256_S256 (.inl rfl) hacc)
      Facts₀.shapeCasts_S256_S1x256 (ix2 u q) = ∑ p : Fin 2048, src (ix2 p q) := by
  refine (shapeCast_a_1a_apply (a := 256) _ _ u q).trans ?_
  refine (Ideal.multiReduction_add_single src 0x00000000#32 Facts₀.reduces_S2048x256_S256 (.inl rfl) hacc (ix1 q)).trans ?_
  refine Finset.sum_congr rfl fun p _ => congrArg src (funext fun a => Fin.ext ?_)
  match a with
  | ⟨0, _⟩ => rfl
  | ⟨1, _⟩ => rfl

/-- The running row of column sums after the body: the row before plus the column sums of the block of `h`. -/
theorem k0_sum_apply (v32 : FVec Ideal S2048x256 .f32) (w : FVec Ideal S256x256 .bf16) (v39 v46 : Vec Ideal S1x256 .f32)
    (u : Fin 1) (q : Fin 256) :
    k0_pay2 (F := Ideal) v32 w v39 v46 (ix2 u q)
      = v46 (ix2 u q) + ∑ p : Fin 2048, k0_pay1 v32 w v39 (ix2 p q) := by
  unfold k0_pay2
  rw [addf_apply, shapeCast_self, k0_colsum_apply]

/-- The running row of column sums of squares after the body. -/
theorem k0_sumsq_apply (v32 : FVec Ideal S2048x256 .f32) (w : FVec Ideal S256x256 .bf16) (v39 v52 : Vec Ideal S1x256 .f32)
    (u : Fin 1) (q : Fin 256) :
    k0_pay3 (F := Ideal) v32 w v39 v52 (ix2 u q)
      = v52 (ix2 u q) + ∑ p : Fin 2048, k0_pay1 v32 w v39 (ix2 p q) * k0_pay1 v32 w v39 (ix2 p q) := by
  unfold k0_pay3
  rw [addf_apply, shapeCast_self, k0_colsum_apply]
  rfl

/-- The first row the body stores at the first grid point is zero. -/
theorem k0_zero4 (y : S1x256.Idx) : k0_pay4 (F := Ideal) y = 0 := Ideal.ofBits_zero_f32

/-- The second row the body stores at the first grid point is zero. -/
theorem k0_zero5 (y : S1x256.Idx) : k0_pay5 (F := Ideal) y = 0 := Ideal.ofBits_zero_f32

end Cert.KernelIdeal.Hand

end
-- ==== Proof.KCommon.lean ====
/-
  Small facts shared by the modules that read the idealized kernel's pallas_calls: the zero offsets of a whole-buffer
  access, and that the normalisation-and-product of a block of rows depends on that block's rows only (so a block of
  the whole array's result is the result on the block), likewise the hidden layer.
-/
import proofs.«136727_j87875030876560_1_alg».proof.Proof.Spec
import proofs.«136727_j87875030876560_1_alg».proof.Proof.LibEReal
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.Linkx

theorem hz : (![0, 0] : Fin 2 → Nat) = fun _ => 0 := funext fun a => by fin_cases a <;> rfl

/-- The normalisation and last product at row `i` read only row `i` of `h`: equal rows and equal parameters give equal entries. -/
theorem normOut_congr {n n' : ℕ} {h : Mat n 256} {h' : Mat n' 256} {mu mu' var var' g g' b b' : Vect 256} {W W' : Mat 256 256}
    {f f' : Vect 256} {i : Fin n} {i' : Fin n'} (q : Fin 256)
    (hh : ∀ k, h i k = h' i' k) (hmu : ∀ k, mu k = mu' k) (hvar : ∀ k, var k = var' k) (hg : ∀ k, g k = g' k)
    (hb : ∀ k, b k = b' k) (hW : ∀ k l, W k l = W' k l) (hf : ∀ k, f k = f' k) :
    normOut h mu var g b W f i q = normOut h' mu' var' g' b' W' f' i' q := by
  unfold normOut mm
  simp only [hh, hmu, hvar, hg, hb, hW, hf]

/-- The hidden layer at row `i` reads only row `i` of `emb` and of `x`. -/
theorem hidK_congr {n n' : ℕ} {emb x : Mat n 256} {emb' x' : Mat n' 256} {nw nw' : Mat 256 256} {nb nb' : Vect 256}
    {c1w c1w' : Mat 256 256} {c1b c1b' : Vect 256} {c2w c2w' : Mat 256 256} {c2b c2b' : Vect 256} {f1w f1w' : Mat 256 256}
    {f1b f1b' : Vect 256} {i : Fin n} {i' : Fin n'} (q : Fin 256)
    (he : ∀ k, emb i k = emb' i' k) (hx : ∀ k, x i k = x' i' k) (hnw : ∀ k l, nw k l = nw' k l) (hnb : ∀ k, nb k = nb' k)
    (hc1w : ∀ k l, c1w k l = c1w' k l) (hc1b : ∀ k, c1b k = c1b' k) (hc2w : ∀ k l, c2w k l = c2w' k l)
    (hc2b : ∀ k, c2b k = c2b' k) (hf1w : ∀ k l, f1w k l = f1w' k l) (hf1b : ∀ k, f1b k = f1b' k) :
    hidK emb x nw nb c1w c1b c2w c2b f1w f1b i q = hidK emb' x' nw' nb' c1w' c1b' c2w' c2b' f1w' f1b' i' q := by
  unfold hidK xnOf mm
  simp only [he, hx, hnw, hnb, hc1w, hc1b, hc2w, hc2b, hf1w, hf1b]

/-- Eight blocks of 2048 rows are the 16384 rows. -/
theorem h8 : 8 * 2048 = 16384 := by norm_num

/-- The sum of `f` over the rows of block `s` (zero past the eighth block). -/
def bsumOf (f : Fin 16384 → EReal) (s : ℕ) : EReal :=
  if hs : s < 8 then ∑ p : Fin 2048, f (Cert.Spec.blockIdx h8 ⟨s, hs⟩ p) else 0

/-- The eight block sums add up to the sum over all rows. -/
theorem bsum_total (f : Fin 16384 → EReal) : ∑ s ∈ Finset.range 8, bsumOf f s = ∑ i, f i := by
  rw [Cert.Spec.sum_blocks h8 f, Finset.sum_range]
  exact Finset.sum_congr rfl fun s _ => by unfold bsumOf; rw [dif_pos s.isLt]

end Cert.KernelIdeal.Hand

end
-- ==== Proof.KPiece0.lean ====
/-
  Pallas_call 0 of the idealized kernel (the dense chain of one layer: a block of 2048 rows per grid point, the column
  sums Σh and Σh² carried in two one-row result blocks across the eight points), at any float instance: what the body
  leaves in each of its three result blocks, as the body's own arithmetic of the blocks it loads.  At the first point
  the two sum rows are reset to zero before the point's column sums are added; at a later point the sums are added to
  what the point before left.
-/
import proofs.«136727_j87875030876560_1_alg».proof.Proof.Gen.KernelIdeal.Frame
import proofs.«136727_j87875030876560_1_alg».proof.Proof.KCommon
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Idealize.ShloMosaic.Tactic

variable {F : FTy → Type} [FloatOps F]

/-- The block of `h` the body computes from its ten input blocks. -/
abbrev hPay0 (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) : FVec F S2048x256 .f32 := k0_pay1 (k0_pay6 x0 x4 x5 x1 x2 x3 x6 x7) (k0_pay7 x8) x9

/-- First point: the `h` block. -/
theorem outA0_10 (c : Dev nD) (i : grid0.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : cond0_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) :
    out0_A_10 c i a1 h1 a2 h2 a3 h3 a4 h4 a5 h5 a6 h6 a7 h7 a8 h8 a9 h9 a10 h10 a11 h11 a12 h12 a13 h13 hc x0 x1 x2 x3 x4 x5 x6 x7 x8 x9 = hPay0 x0 x1 x2 x3 x4 x5 x6 x7 x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- First point: the sum row is zero plus the block's column sums. -/
theorem outA0_11 (c : Dev nD) (i : grid0.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : cond0_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) :
    out0_A_11 c i a1 h1 a2 h2 a3 h3 a4 h4 a5 h5 a6 h6 a7 h7 a8 h8 a9 h9 a10 h10 a11 h11 a12 h12 a13 h13 hc x0 x1 x2 x3 x4 x5 x6 x7 x8 x9 = k0_pay2 (k0_pay6 x0 x4 x5 x1 x2 x3 x6 x7) (k0_pay7 x8) x9 k0_pay4 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- First point: the sum-of-squares row likewise. -/
theorem outA0_12 (c : Dev nD) (i : grid0.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : cond0_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) :
    out0_A_12 c i a1 h1 a2 h2 a3 h3 a4 h4 a5 h5 a6 h6 a7 h7 a8 h8 a9 h9 a10 h10 a11 h11 a12 h12 a13 h13 hc x0 x1 x2 x3 x4 x5 x6 x7 x8 x9 = k0_pay3 (k0_pay6 x0 x4 x5 x1 x2 x3 x6 x7) (k0_pay7 x8) x9 k0_pay5 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- A later point: the `h` block. -/
theorem outB0_10 (c : Dev nD) (i : grid0.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : ¬cond0_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (xo11 xo12 : Vec F S1x256 .f32) :
    out0_B_10 c i a1 h1 a2 h2 a3 h3 a4 h4 a5 h5 a6 h6 a7 h7 a8 h8 a9 h9 a10 h10 a11 h11 a12 h12 a13 h13 hc x0 x1 x2 x3 x4 x5 x6 x7 x8 x9 xo11 xo12 = hPay0 x0 x1 x2 x3 x4 x5 x6 x7 x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x7 x8 x9 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- A later point: the sum row is what the point before left plus the block's column sums. -/
theorem outB0_11 (c : Dev nD) (i : grid0.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : ¬cond0_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (xo11 xo12 : Vec F S1x256 .f32) :
    out0_B_11 c i a1 h1 a2 h2 a3 h3 a4 h4 a5 h5 a6 h6 a7 h7 a8 h8 a9 h9 a10 h10 a11 h11 a12 h12 a13 h13 hc x0 x1 x2 x3 x4 x5 x6 x7 x8 x9 xo11 xo12 = k0_pay2 (k0_pay6 x0 x4 x5 x1 x2 x3 x6 x7) (k0_pay7 x8) x9 xo11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 x7 x8 x9 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz, h12.read_unread]

/-- A later point: the sum-of-squares row likewise. -/
theorem outB0_12 (c : Dev nD) (i : grid0.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : ¬cond0_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (xo11 xo12 : Vec F S1x256 .f32) :
    out0_B_12 c i a1 h1 a2 h2 a3 h3 a4 h4 a5 h5 a6 h6 a7 h7 a8 h8 a9 h9 a10 h10 a11 h11 a12 h12 a13 h13 hc x0 x1 x2 x3 x4 x5 x6 x7 x8 x9 xo11 xo12 = k0_pay3 (k0_pay6 x0 x4 x5 x1 x2 x3 x6 x7) (k0_pay7 x8) x9 xo12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc x0 x1 x2 x3 x4 x5 x6 x7 x8 x9 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz, h13.read_unread]

end Cert.KernelIdeal.Hand

end
-- ==== Proof.KReg0.lean ====
/-
  Pallas_call 0 of the idealized kernel (the dense chain of one layer) at ANY contents `V` of the buffers when the call is
  entered: after the call its first result array holds the hidden layer `hidK` of the whole arrays, row by row (point
  `t` writes back rows 2048·t … 2048·t + 2047), and its two one-row result arrays hold, column by column, the sum of
  `h` and of `h²` over all 16384 rows: the running sums after point `n` are the sums over the first `n + 1` blocks (by
  induction on the point; the first point resets them), and the row written back after the last point is the total.
-/
import proofs.«136727_j87875030876560_1_alg».proof.Proof.Gen.KernelIdeal.Frame
import proofs.«136727_j87875030876560_1_alg».proof.Proof.Body0
import proofs.«136727_j87875030876560_1_alg».proof.Proof.KPiece0
import proofs.«136727_j87875030876560_1_alg».proof.Proof.KCommon
import proofs.«136727_j87875030876560_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Linkx

variable (V : (c : Dev nD) → (b : Ref sig .tc) → Buf (Elt Ideal) ((c : Thread nD τ).loc b))

/-- The hidden layer of the whole arrays the call finds. -/
def H0 (c : Dev nD) : Mat 16384 256 :=
  hidK (toMat (a := 16384) (b := 256) (V c main_v16)) (toMat (a := 16384) (b := 256) (V c main_arg0))
    (toMat (a := 256) (b := 256) (V c main_arg6)) (toRow (a := 256) (V c main_v17))
    (toMat (a := 256) (b := 256) (V c main_arg8)) (toRow (a := 256) (V c main_v18))
    (toMat (a := 256) (b := 256) (V c main_arg10)) (toRow (a := 256) (V c main_v19))
    (toMat (a := 256) (b := 256) (V c main_arg12)) (toRow (a := 256) (V c main_v20))

/-- The printed index maps over the grid: the two row-block operands and the first result move together, block `t` at
    point `t`; every other operand and the two sum rows stay at block (0, 0). -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_10.index t (0 : Fin 2) = t.val
    ∧ win0_10.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

theorem N0_eq : cfg0.N = 8 := N_0

/-- Row-block operand 0's block at point `t` is rows 2048·t … of its array. -/
theorem blk0_0 (c : Dev nD) (t : Fin cfg0.N) (p : Fin 2048) (i : Fin 16384) (hi : i.val = t.val * 2048 + p.val) (k : Fin 256) :
    toMat (a := 2048) (b := 256) (iblk0 V c 0 t) p k = toMat (a := 16384) (b := 256) (V c main_v16) i k := by
  have e := idx_facts0 t
  unfold toMat iblk0
  rw [View.read_apply]
  show V c main_v16 _ = V c main_v16 _
  congr 1
  funext a; apply Fin.ext
  match a with
  | ⟨0, _⟩ => show win0_0.index t (0 : Fin 2) * 2048 + 1 * p.val = i.val; omega
  | ⟨1, _⟩ => show win0_0.index t (1 : Fin 2) * 256 + 1 * k.val = k.val; omega

/-- Row-block operand 1's block at point `t` is rows 2048·t … of its array. -/
theorem blk0_1 (c : Dev nD) (t : Fin cfg0.N) (p : Fin 2048) (i : Fin 16384) (hi : i.val = t.val * 2048 + p.val) (k : Fin 256) :
    toMat (a := 2048) (b := 256) (iblk0 V c 1 t) p k = toMat (a := 16384) (b := 256) (V c main_arg0) i k := by
  have e := idx_facts0 t
  unfold toMat iblk0
  rw [View.read_apply]
  show V c main_arg0 _ = V c main_arg0 _
  congr 1
  funext a; apply Fin.ext
  match a with
  | ⟨0, _⟩ => show win0_1.index t (0 : Fin 2) * 2048 + 1 * p.val = i.val; omega
  | ⟨1, _⟩ => show win0_1.index t (1 : Fin 2) * 256 + 1 * k.val = k.val; omega

theorem row0_3 (c : Dev nD) (t : Fin cfg0.N) (k : Fin 256) :
    toRow (a := 256) (iblk0 V c 3 t) k = toRow (a := 256) (V c main_v17) k := by
  have e := idx_facts0 t
  unfold toRow iblk0
  rw [View.read_apply]
  show V c main_v17 _ = V c main_v17 _
  congr 1
  funext a; apply Fin.ext
  match a with
  | ⟨0, _⟩ => show win0_3.index t (0 : Fin 2) * 1 + 1 * 0 = 0; omega
  | ⟨1, _⟩ => show win0_3.index t (1 : Fin 2) * 256 + 1 * k.val = k.val; omega

theorem row0_5 (c : Dev nD) (t : Fin cfg0.N) (k : Fin 256) :
    toRow (a := 256) (iblk0 V c 5 t) k = toRow (a := 256) (V c main_v18) k := by
  have e := idx_facts0 t
  unfold toRow iblk0
  rw [View.read_apply]
  show V c main_v18 _ = V c main_v18 _
  congr 1
  funext a; apply Fin.ext
  match a with
  | ⟨0, _⟩ => show win0_5.index t (0 : Fin 2) * 1 + 1 * 0 = 0; omega
  | ⟨1, _⟩ => show win0_5.index t (1 : Fin 2) * 256 + 1 * k.val = k.val; omega

theorem row0_7 (c : Dev nD) (t : Fin cfg0.N) (k : Fin 256) :
    toRow (a := 256) (iblk0 V c 7 t) k = toRow (a := 256) (V c main_v19) k := by
  have e := idx_facts0 t
  unfold toRow iblk0
  rw [View.read_apply]
  show V c main_v19 _ = V c main_v19 _
  congr 1
  funext a; apply Fin.ext
  match a with
  | ⟨0, _⟩ => show win0_7.index t (0 : Fin 2) * 1 + 1 * 0 = 0; omega
  | ⟨1, _⟩ => show win0_7.index t (1 : Fin 2) * 256 + 1 * k.val = k.val; omega

theorem row0_9 (c : Dev nD) (t : Fin cfg0.N) (k : Fin 256) :
    toRow (a := 256) (iblk0 V c 9 t) k = toRow (a := 256) (V c main_v20) k := by
  have e := idx_facts0 t
  unfold toRow iblk0
  rw [View.read_apply]
  show V c main_v20 _ = V c main_v20 _
  congr 1
  funext a; apply Fin.ext
  match a with
  | ⟨0, _⟩ => show win0_9.index t (0 : Fin 2) * 1 + 1 * 0 = 0; omega
  | ⟨1, _⟩ => show win0_9.index t (1 : Fin 2) * 256 + 1 * k.val = k.val; omega

theorem mat0_2 (c : Dev nD) (t : Fin cfg0.N) (k l : Fin 256) :
    toMat (a := 256) (b := 256) (iblk0 V c 2 t) k l = toMat (a := 256) (b := 256) (V c main_arg6) k l := by
  have e := idx_facts0 t
  unfold toMat iblk0
  rw [View.read_apply]
  show V c main_arg6 _ = V c main_arg6 _
  congr 1
  funext a; apply Fin.ext
  match a with
  | ⟨0, _⟩ => show win0_2.index t (0 : Fin 2) * 256 + 1 * k.val = k.val; omega
  | ⟨1, _⟩ => show win0_2.index t (1 : Fin 2) * 256 + 1 * l.val = l.val; omega

theorem mat0_4 (c : Dev nD) (t : Fin cfg0.N) (k l : Fin 256) :
    toMat (a := 256) (b := 256) (iblk0 V c 4 t) k l = toMat (a := 256) (b := 256) (V c main_arg8) k l := by
  have e := idx_facts0 t
  unfold toMat iblk0
  rw [View.read_apply]
  show V c main_arg8 _ = V c main_arg8 _
  congr 1
  funext a; apply Fin.ext
  match a with
  | ⟨0, _⟩ => show win0_4.index t (0 : Fin 2) * 256 + 1 * k.val = k.val; omega
  | ⟨1, _⟩ => show win0_4.index t (1 : Fin 2) * 256 + 1 * l.val = l.val; omega

theorem mat0_6 (c : Dev nD) (t : Fin cfg0.N) (k l : Fin 256) :
    toMat (a := 256) (b := 256) (iblk0 V c 6 t) k l = toMat (a := 256) (b := 256) (V c main_arg10) k l := by
  have e := idx_facts0 t
  unfold toMat iblk0
  rw [View.read_apply]
  show V c main_arg10 _ = V c main_arg10 _
  congr 1
  funext a; apply Fin.ext
  match a with
  | ⟨0, _⟩ => show win0_6.index t (0 : Fin 2) * 256 + 1 * k.val = k.val; omega
  | ⟨1, _⟩ => show win0_6.index t (1 : Fin 2) * 256 + 1 * l.val = l.val; omega

theorem mat0_8 (c : Dev nD) (t : Fin cfg0.N) (k l : Fin 256) :
    toMat (a := 256) (b := 256) (iblk0 V c 8 t) k l = toMat (a := 256) (b := 256) (V c main_arg12) k l := by
  have e := idx_facts0 t
  unfold toMat iblk0
  rw [View.read_apply]
  show V c main_arg12 _ = V c main_arg12 _
  congr 1
  funext a; apply Fin.ext
  match a with
  | ⟨0, _⟩ => show win0_8.index t (0 : Fin 2) * 256 + 1 * k.val = k.val; omega
  | ⟨1, _⟩ => show win0_8.index t (1 : Fin 2) * 256 + 1 * l.val = l.val; omega

/-- The block of `h` the body computes at point `t` is rows 2048·t … of the whole hidden layer. -/
theorem hblk0_apply (c : Dev nD) (t : Fin cfg0.N) (p : Fin 2048) (q : Fin 256) (i : Fin 16384) (hi : i.val = t.val * 2048 + p.val) :
    hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ValueIdx.ix2 p q) = H0 V c i q := by
  refine (k0_h_apply _ _ _ _ _ _ _ _ _ _ p q).trans ?_
  exact hidK_congr q (blk0_0 V c t p i hi) (blk0_1 V c t p i hi) (mat0_2 V c t) (row0_3 V c t) (mat0_4 V c t) (row0_5 V c t)
    (mat0_6 V c t) (row0_7 V c t) (mat0_8 V c t) (row0_9 V c t)

/-- The three result blocks after a first point (the sum rows reset, then the block's column sums added). -/
theorem outs0_A (c : Dev nD) (t : Fin cfg0.N) (h0 : t.val % 8 = 0) :
    outsAt0 V c t.val t.isLt = (hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), k0_pay2 (F := Ideal) (k0_pay6 (iblk0 V c 0 t) (iblk0 V c 4 t) (iblk0 V c 5 t) (iblk0 V c 1 t) (iblk0 V c 2 t) (iblk0 V c 3 t) (iblk0 V c 6 t) (iblk0 V c 7 t)) (k0_pay7 (iblk0 V c 8 t)) (iblk0 V c 9 t) (k0_pay4 (F := Ideal)), k0_pay3 (F := Ideal) (k0_pay6 (iblk0 V c 0 t) (iblk0 V c 4 t) (iblk0 V c 5 t) (iblk0 V c 1 t) (iblk0 V c 2 t) (iblk0 V c 3 t) (iblk0 V c 6 t) (iblk0 V c 7 t)) (k0_pay7 (iblk0 V c 8 t)) (iblk0 V c 9 t) (k0_pay5 (F := Ideal))) := by
  rw [outsAt0_A V c t h0, outA0_10, outA0_11, outA0_12]

/-- The three result blocks after a later point (the block's column sums added to what the point before left). -/
theorem outs0_B (c : Dev nD) (t : Fin cfg0.N) (h0 : ¬t.val % 8 = 0) :
    outsAt0 V c t.val t.isLt = (hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), k0_pay2 (F := Ideal) (k0_pay6 (iblk0 V c 0 t) (iblk0 V c 4 t) (iblk0 V c 5 t) (iblk0 V c 1 t) (iblk0 V c 2 t) (iblk0 V c 3 t) (iblk0 V c 6 t) (iblk0 V c 7 t)) (k0_pay7 (iblk0 V c 8 t)) (iblk0 V c 9 t) (outsAt0 V c (t.val - 1) (Nat.lt_of_le_of_lt (Nat.sub_le _ _) t.isLt)).2.1, k0_pay3 (F := Ideal) (k0_pay6 (iblk0 V c 0 t) (iblk0 V c 4 t) (iblk0 V c 5 t) (iblk0 V c 1 t) (iblk0 V c 2 t) (iblk0 V c 3 t) (iblk0 V c 6 t) (iblk0 V c 7 t)) (k0_pay7 (iblk0 V c 8 t)) (iblk0 V c 9 t) (outsAt0 V c (t.val - 1) (Nat.lt_of_le_of_lt (Nat.sub_le _ _) t.isLt)).2.2) := by
  rw [outsAt0_B V c t h0, outB0_10, outB0_11, outB0_12]

/-- What the first result block holds after point `t`: the block of `h` of that point. -/
theorem outs0_h (c : Dev nD) (t : Fin cfg0.N) :
    (outsAt0 V c t.val t.isLt).1 = hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by
  by_cases h0 : t.val % 8 = 0
  · rw [outs0_A V c t h0]
  · rw [outs0_B V c t h0]

/-- The column sums of block `t` of `h`. -/
theorem bsum0_eq (c : Dev nD) (t : Fin cfg0.N) (q : Fin 256) :
    ∑ p : Fin 2048, hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ValueIdx.ix2 p q) = bsumOf (fun i => H0 V c i q) t.val := by
  have ht : t.val < 8 := lt_of_lt_of_eq t.isLt N0_eq
  unfold bsumOf
  rw [dif_pos ht]
  exact Finset.sum_congr rfl fun p _ => hblk0_apply V c t p q (Cert.Spec.blockIdx h8 ⟨t.val, ht⟩ p) rfl

theorem bsq0_eq (c : Dev nD) (t : Fin cfg0.N) (q : Fin 256) :
    ∑ p : Fin 2048, hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ValueIdx.ix2 p q) * hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ValueIdx.ix2 p q)
      = bsumOf (fun i => H0 V c i q * H0 V c i q) t.val := by
  have ht : t.val < 8 := lt_of_lt_of_eq t.isLt N0_eq
  unfold bsumOf
  rw [dif_pos ht]
  exact Finset.sum_congr rfl fun p _ => by rw [hblk0_apply V c t p q (Cert.Spec.blockIdx h8 ⟨t.val, ht⟩ p) rfl]

/-- THE RUNNING SUMS. After point number `n` the sum row holds, in column `q`, the sum of `h` over the first `n + 1` blocks. -/
theorem outs0_sum (c : Dev nD) : ∀ (n : ℕ) (t : Fin cfg0.N), t.val = n → ∀ (u : Fin 1) (q : Fin 256),
    (outsAt0 V c t.val t.isLt).2.1 (ValueIdx.ix2 u q) = ∑ s ∈ Finset.range (n + 1), bsumOf (fun i => H0 V c i q) s
  | 0, t, ht, u, q => by
    have h0 : t.val % 8 = 0 := by rw [ht]
    rw [outs0_A V c t h0]
    refine (k0_sum_apply _ _ _ _ u q).trans ?_
    rw [k0_zero4, zero_add, Finset.sum_range_one, ← ht]
    exact bsum0_eq V c t q
  | n + 1, t, ht, u, q => by
    have hN : cfg0.N = 8 := N0_eq
    have hlt := t.isLt
    have hB : ¬t.val % 8 = 0 := by omega
    have hb : (∑ p : Fin 2048, hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ValueIdx.ix2 p q)) = bsumOf (fun i => H0 V c i q) (n + 1) := by
      rw [← ht]; exact bsum0_eq V c t q
    have ih := outs0_sum c n ⟨t.val - 1, by omega⟩ (by show t.val - 1 = n; omega) u q
    rw [outs0_B V c t hB]
    refine (k0_sum_apply _ _ _ _ u q).trans ?_
    rw [Finset.sum_range_succ, ← ih]
    exact congrArg₂ (· + ·) rfl hb

/-- The running sums of squares likewise. -/
theorem outs0_sq (c : Dev nD) : ∀ (n : ℕ) (t : Fin cfg0.N), t.val = n → ∀ (u : Fin 1) (q : Fin 256),
    (outsAt0 V c t.val t.isLt).2.2 (ValueIdx.ix2 u q) = ∑ s ∈ Finset.range (n + 1), bsumOf (fun i => H0 V c i q * H0 V c i q) s
  | 0, t, ht, u, q => by
    have h0 : t.val % 8 = 0 := by rw [ht]
    rw [outs0_A V c t h0]
    refine (k0_sumsq_apply _ _ _ _ u q).trans ?_
    rw [k0_zero5, zero_add, Finset.sum_range_one, ← ht]
    exact bsq0_eq V c t q
  | n + 1, t, ht, u, q => by
    have hN : cfg0.N = 8 := N0_eq
    have hlt := t.isLt
    have hB : ¬t.val % 8 = 0 := by omega
    have hb : (∑ p : Fin 2048, hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ValueIdx.ix2 p q) * hPay0 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ValueIdx.ix2 p q))
        = bsumOf (fun i => H0 V c i q * H0 V c i q) (n + 1) := by
      rw [← ht]; exact bsq0_eq V c t q
    have ih := outs0_sq c n ⟨t.val - 1, by omega⟩ (by show t.val - 1 = n; omega) u q
    rw [outs0_B V c t hB]
    refine (k0_sumsq_apply _ _ _ _ u q).trans ?_
    rw [Finset.sum_range_succ, ← ih]
    exact congrArg₂ (· + ·) rfl hb

theorem h7_0 : 7 < cfg0.N := by rw [N0_eq]; decide

/-- After the last point the sum row holds the column sums over all rows, the other row those of the squares. -/
theorem tot0_sum (c : Dev nD) (u : Fin 1) (q : Fin 256) :
    (outsAt0 V c 7 h7_0).2.1 (ValueIdx.ix2 u q) = ∑ i : Fin 16384, H0 V c i q :=
  (outs0_sum V c 7 ⟨7, h7_0⟩ rfl u q).trans (bsum_total _)
theorem tot0_sq (c : Dev nD) (u : Fin 1) (q : Fin 256) :
    (outsAt0 V c 7 h7_0).2.2 (ValueIdx.ix2 u q) = ∑ i : Fin 16384, H0 V c i q * H0 V c i q :=
  (outs0_sq V c 7 ⟨7, h7_0⟩ rfl u q).trans (bsum_total _)

end Cert.KernelIdeal.Hand

end
-- ==== Proof.KFin0.lean ====
/-
  Pallas_call 0 of the idealized kernel, continued: its three result arrays after the call, at any entry contents `V`.
  The hidden-layer array is filled block by block (every point writes its block back, and the eight blocks fill the
  array); each of the two sum rows is written back once, after the last point, and its one block is the whole row.
-/
import proofs.«136727_j87875030876560_1_alg».proof.Proof.KReg0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Linkx

variable (V : (c : Dev nD) → (b : Ref sig .tc) → Buf (Elt Ideal) ((c : Thread nD τ).loc b))

/-- What the hidden-layer array ends holding. -/
def G0_10 (c : Dev nD) : Buf (Elt Ideal) ((c : Thread nD τ).loc main_v21_0) := ofMat (a := 16384) (b := 256) (H0 V c)

/-- What point `t` writes back is block `t` of it. -/
theorem flushed0_10 (c : Dev nD) (t : Fin cfg0.N) :
    (dat0 V c).flushed 10 t = ((cfg0.win 10).blk t).view.read (Elt Ideal) (G0_10 V c) := by
  show (cfg0.win 10).cut (grid0.coords t) ((dat0 V c).after 10 t) = _
  rw [after0_10, outs0_h]
  funext j
  obtain ⟨p, q, rfl⟩ : ∃ (p : Fin 2048) (q : Fin 256), j = ValueIdx.ix2 p q := ⟨j 0, j 1, ValueIdx.eq_ix2 j⟩
  have ht : t.val < 8 := lt_of_lt_of_eq t.isLt N0_eq
  have hp : p.val < 2048 := p.isLt
  have hi : t.val * 2048 + p.val < 16384 := by omega
  refine (hblk0_apply V c t p q (⟨t.val * 2048 + p.val, hi⟩ : Fin 16384) rfl).trans ?_
  rw [View.read_apply]
  obtain ⟨-, -, -, -, e4, e5, -⟩ := idx_facts0 t
  have hy0 : ((((cfg0.win 10).blk t).view.emb (ValueIdx.ix2 p q) : S16384x256.Idx) 0 : Fin 16384) = (⟨t.val * 2048 + p.val, hi⟩ : Fin 16384) := by
    apply Fin.ext
    show win0_10.index t (0 : Fin 2) * 2048 + 1 * p.val = t.val * 2048 + p.val
    rw [e4]; omega
  have hy1 : (((cfg0.win 10).blk t).view.emb (ValueIdx.ix2 p q) : S16384x256.Idx) 1 = q := by
    apply Fin.ext
    show win0_10.index t (1 : Fin 2) * 256 + 1 * q.val = q.val
    rw [e5]; omega
  show _ = H0 V c ((((cfg0.win 10).blk t).view.emb (ValueIdx.ix2 p q) : S16384x256.Idx) 0) ((((cfg0.win 10).blk t).view.emb (ValueIdx.ix2 p q) : S16384x256.Idx) 1)
  rw [hy0, hy1]

theorem mem_blk0_10 (t : Fin cfg0.N) (i : S16384x256.Idx) :
    i ∈ ((cfg0.win 10).blk t).view.set ↔ ∀ a : Fin 2, win0_10.index t a * S2048x256.size a ≤ (i a).val ∧ (i a).val < win0_10.index t a * S2048x256.size a + S2048x256.size a := by
  show i ∈ ((View.whole main_v21_0).slice (win0_10.rect t)).set ↔ _
  rw [View.set_slice_whole, Rect.mem_set_unit]
  exact Iff.rfl

theorem cover0_10 (i : S16384x256.Idx) : ∃ t : Fin cfg0.N, (cfg0.win 10).flush t = true ∧ i ∈ ((cfg0.win 10).blk t).view.set := by
  have hi0 : (i 0).val < 16384 := (i 0).isLt
  have hi1 : (i 1).val < 256 := (i 1).isLt
  have hN : cfg0.N = 8 := N0_eq
  refine ⟨⟨(i 0).val / 2048, by rw [hN]; omega⟩, flush0_10 _, ?_⟩
  rw [mem_blk0_10]
  obtain ⟨-, -, -, -, e4, e5, -⟩ := idx_facts0 ⟨(i 0).val / 2048, by rw [hN]; omega⟩
  intro a
  match a with
  | ⟨0, _⟩ => show win0_10.index _ (0 : Fin 2) * 2048 ≤ (i 0).val ∧ (i 0).val < win0_10.index _ (0 : Fin 2) * 2048 + 2048
              rw [e4]; dsimp only; omega
  | ⟨1, _⟩ => show win0_10.index _ (1 : Fin 2) * 256 ≤ (i 1).val ∧ (i 1).val < win0_10.index _ (1 : Fin 2) * 256 + 256
              rw [e5]; omega

theorem final0_10 (c : Dev nD) : (dat0 V c).arrAt 10 cfg0.N = G0_10 V c :=
  (dat0 V c).arrAt_eq_of_cover 10 (G0_10 V c) (fun t _ => flushed0_10 V c t) cover0_10

/-- What the sum row's array ends holding: the row the last point leaves. -/
def G0_11 (c : Dev nD) : Buf (Elt Ideal) ((c : Thread nD τ).loc main_v21_1) := (outsAt0 V c 7 h7_0).2.1

/-- Its one write-back, after the last point, writes that row: block (0, 0) of the one-row array is the array. -/
theorem flushed0_11 (c : Dev nD) (t : Fin cfg0.N) (hf : (cfg0.win 11).flush t = true) :
    (dat0 V c).flushed 11 t = ((cfg0.win 11).blk t).view.read (Elt Ideal) (G0_11 V c) := by
  have hN : cfg0.N = 8 := N0_eq
  have h7 : t.val = 7 := by have := (flush0_11 t).mp hf; have := t.isLt; omega
  obtain rfl : t = t0_7 := Fin.ext h7
  show (cfg0.win 11).cut (grid0.coords t0_7) ((dat0 V c).after 11 t0_7) = _
  rw [after0_11]
  have hz' : (fun a => win0_11.index t0_7 a * main_v21_1.ty.shape.size a) = fun _ => 0 := funext fun a => by fin_cases a <;> decide
  exact (Memref.read_access_unit_zero (Elt Ideal) main_v21_1 hz' (fun a => by rw [congrFun hz' a]; simp) (G0_11 V c)).symm

theorem cover0_11 (i : S1x256.Idx) : ∃ t : Fin cfg0.N, (cfg0.win 11).flush t = true ∧ i ∈ ((cfg0.win 11).blk t).view.set :=
  ⟨t0_7, (flush0_11 t0_7).mpr rfl, by
    show i ∈ ((View.whole main_v21_1).slice (win0_11.rect t0_7)).set
    rw [View.set_slice_whole, Rect.mem_set_unit]
    intro a
    have h0 : (i 0 : Nat) < 1 := (i 0).isLt
    have h1 : (i 1 : Nat) < 256 := (i 1).isLt
    match a with
    | ⟨0, _⟩ => show win0_11.index t0_7 0 * win0_11.size 0 ≤ (i 0 : Nat) ∧ (i 0 : Nat) < win0_11.index t0_7 0 * win0_11.size 0 + win0_11.xsize (grid0.coords t0_7) 0
                rw [show win0_11.index t0_7 0 * win0_11.size 0 = 0 from by decide +kernel, show win0_11.xsize (grid0.coords t0_7) 0 = 1 from by decide +kernel]; omega
    | ⟨1, _⟩ => show win0_11.index t0_7 1 * win0_11.size 1 ≤ (i 1 : Nat) ∧ (i 1 : Nat) < win0_11.index t0_7 1 * win0_11.size 1 + win0_11.xsize (grid0.coords t0_7) 1
                rw [show win0_11.index t0_7 1 * win0_11.size 1 = 0 from by decide +kernel, show win0_11.xsize (grid0.coords t0_7) 1 = 256 from by decide +kernel]; omega⟩

theorem final0_11 (c : Dev nD) : (dat0 V c).arrAt 11 cfg0.N = G0_11 V c :=
  (dat0 V c).arrAt_eq_of_cover 11 (G0_11 V c) (flushed0_11 V c) cover0_11

/-- What the sum-of-squares row's array ends holding: the row the last point leaves. -/
def G0_12 (c : Dev nD) : Buf (Elt Ideal) ((c : Thread nD τ).loc main_v21_2) := (outsAt0 V c 7 h7_0).2.2

/-- Its one write-back, after the last point, writes that row: block (0, 0) of the one-row array is the array. -/
theorem flushed0_12 (c : Dev nD) (t : Fin cfg0.N) (hf : (cfg0.win 12).flush t = true) :
    (dat0 V c).flushed 12 t = ((cfg0.win 12).blk t).view.read (Elt Ideal) (G0_12 V c) := by
  have hN : cfg0.N = 8 := N0_eq
  have h7 : t.val = 7 := by have := (flush0_12 t).mp hf; have := t.isLt; omega
  obtain rfl : t = t0_7 := Fin.ext h7
  show (cfg0.win 12).cut (grid0.coords t0_7) ((dat0 V c).after 12 t0_7) = _
  rw [after0_12]
  have hz' : (fun a => win0_12.index t0_7 a * main_v21_2.ty.shape.size a) = fun _ => 0 := funext fun a => by fin_cases a <;> decide
  exact (Memref.read_access_unit_zero (Elt Ideal) main_v21_2 hz' (fun a => by rw [congrFun hz' a]; simp) (G0_12 V c)).symm

theorem cover0_12 (i : S1x256.Idx) : ∃ t : Fin cfg0.N, (cfg0.win 12).flush t = true ∧ i ∈ ((cfg0.win 12).blk t).view.set :=
  ⟨t0_7, (flush0_12 t0_7).mpr rfl, by
    show i ∈ ((View.whole main_v21_2).slice (win0_12.rect t0_7)).set
    rw [View.set_slice_whole, Rect.mem_set_unit]
    intro a
    have h0 : (i 0 : Nat) < 1 := (i 0).isLt
    have h1 : (i 1 : Nat) < 256 := (i 1).isLt
    match a with
    | ⟨0, _⟩ => show win0_12.index t0_7 0 * win0_12.size 0 ≤ (i 0 : Nat) ∧ (i 0 : Nat) < win0_12.index t0_7 0 * win0_12.size 0 + win0_12.xsize (grid0.coords t0_7) 0
                rw [show win0_12.index t0_7 0 * win0_12.size 0 = 0 from by decide +kernel, show win0_12.xsize (grid0.coords t0_7) 0 = 1 from by decide +kernel]; omega
    | ⟨1, _⟩ => show win0_12.index t0_7 1 * win0_12.size 1 ≤ (i 1 : Nat) ∧ (i 1 : Nat) < win0_12.index t0_7 1 * win0_12.size 1 + win0_12.xsize (grid0.coords t0_7) 1
                rw [show win0_12.index t0_7 1 * win0_12.size 1 = 0 from by decide +kernel, show win0_12.xsize (grid0.coords t0_7) 1 = 256 from by decide +kernel]; omega⟩

theorem final0_12 (c : Dev nD) : (dat0 V c).arrAt 12 cfg0.N = G0_12 V c :=
  (dat0 V c).arrAt_eq_of_cover 12 (G0_12 V c) (flushed0_12 V c) cover0_12

/-- The two rows, column by column: the sums of `h` and of `h²` over all rows. -/
theorem sumrow0 (c : Dev nD) (q : Fin 256) : toRow (a := 256) ((dat0 V c).arrAt 11 cfg0.N) q = ∑ i : Fin 16384, H0 V c i q := by
  rw [final0_11]; exact tot0_sum V c 0 q
theorem sqrow0 (c : Dev nD) (q : Fin 256) : toRow (a := 256) ((dat0 V c).arrAt 12 cfg0.N) q = ∑ i : Fin 16384, H0 V c i q * H0 V c i q := by
  rw [final0_12]; exact tot0_sq V c 0 q

end Cert.KernelIdeal.Hand

end
-- ==== Proof.Body1.lean ====
/-
  The normalising kernel body of the first layer, read at an entry.

  The body takes a block `h` of 2048 rows, the row of column means, the row of column variances, a scale row, a shift
  row, a 256 x 256 matrix and a bias row; it forms `((h - mean) * rsqrt (var + eps)) * scale + shift`, multiplies by the
  matrix and adds the bias.  On the extended reals every narrowing of a number format is the identity and the matrix
  product into the zero matrix is the plain sum, so entry `(p, q)` of the result is `normOut` of the operands at `(p, q)`.
-/
import proofs.«136727_j87875030876560_1_alg».proof.Proof.Gen.KernelIdeal.Skeleton
import proofs.«136727_j87875030876560_1_alg».proof.Proof.Spec
import proofs.«136727_j87875030876560_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Linkx Idealize.ShloMosaic Idealize.ShloMosaic.ValueIdx

/-- A `[1, 256]` row, cast to its own shape and spread over 2048 rows, reads at `(p, q)` the row's entry `q`. -/
theorem k1_row_apply (v : Vec Ideal S1x256 .f32) (p : Fin 2048) (q : Fin 256) :
    broadcastTo S2048x256 (shapeCast S1x256 v Facts₀.shapeCasts_S1x256_S1x256) Facts₀.broadcasts_S1x256_S2048x256 (ix2 p q)
      = toRow v q := by
  rw [shapeCast_self]
  exact broadcastTo_1b_ab_apply (a := 2048) (b := 256) v _ p q

/-- The product of a 2048 x 256 block with a 256 x 256 matrix into the zero block, at `(p, q)`. -/
theorem k1_mm_apply (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) :=
  Cert.LibMatmulPlain.matmul_zero_apply (M := 2048) (K := 256) (N := 256)
    dot_S2048x256_S256x256_S2048x256_1_0_0_1_n_n rfl rfl rfl rfl rfl rfl l r p q

/-- The normalising body at `(p, q)`. -/
theorem k1_apply (v0 : Vec Ideal S2048x256 .f32) (v2 v7 v13 v17 v25 : Vec Ideal S1x256 .f32) (v21 : Vec Ideal S256x256 .f32)
    (p : Fin 2048) (q : Fin 256) :
    k1_pay1 (F := Ideal) v0 v2 v7 v13 v17 v21 v25 (ix2 p q)
      = normOut (toMat v0) (toRow v7) (toRow v2) (toRow v13) (toRow v17) (toMat v21) (toRow v25) p q := by
  unfold k1_pay1
  rw [addf_apply, k1_row_apply, k1_mm_apply]
  unfold normOut mm
  refine congrArg (· + toRow v25 q) (Finset.sum_congr rfl fun k _ => ?_)
  rw [truncf_apply, truncf_apply, addf_apply, mulf_apply, mulf_apply, subf_apply, k1_row_apply, k1_row_apply, k1_row_apply,
    shapeCast_self]
  have hr : broadcastTo S2048x256
      (rsqrt (addf (shapeCast S1x256 v2 Facts₀.shapeCasts_S1x256_S1x256)
        (broadcast S1x256 (Scalar.ofBits (F := Ideal) .f32 0x3727C5AC#32)))) Facts₀.broadcasts_S1x256_S2048x256 (ix2 p k)
      = Ideal.rsqrt (toRow v2 k + ((epsR : ℝ) : EReal)) := by
    rw [broadcastTo_1b_ab_apply (a := 2048) (b := 256) _ _ p k, shapeCast_self, ← eps_eq]
    rfl
  rw [hr]
  rfl

end Cert.KernelIdeal.Hand

end
-- ==== Proof.KReg1.lean ====
/-
  Pallas_call 1 of the idealized kernel (the normalisation and last matrix product, one block of 2048 rows per grid
  point) at ANY contents `V` of the buffers when the call is entered: after the call its result array holds, row by
  row, `normOut` of the whole `h` array and the mean, variance, scale, shift, weight and bias rows.  Point `t` writes
  back block `t` (rows 2048·t … 2048·t + 2047), the one-row and weight operands are the same block at every point,
  and the eight blocks fill the array.
-/
import proofs.«136727_j87875030876560_1_alg».proof.Proof.Gen.KernelIdeal.Frame
import proofs.«136727_j87875030876560_1_alg».proof.Proof.Body1
import proofs.«136727_j87875030876560_1_alg».proof.Proof.KCommon
import proofs.«136727_j87875030876560_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Linkx

variable (V : (c : Dev nD) → (b : Ref sig .tc) → Buf (Elt Ideal) ((c : Thread nD τ).loc b))

/-- What the call's result array ends holding, of the arrays the call finds. -/
def G1 (c : Dev nD) : Buf (Elt Ideal) ((c : Thread nD τ).loc main_v31) :=
  ofMat (a := 16384) (b := 256) (normOut (toMat (a := 16384) (b := 256) (V c main_v21_0)) (toRow (a := 256) (V c main_v23))
    (toRow (a := 256) (V c main_v27)) (toRow (a := 256) (V c main_v28)) (toRow (a := 256) (V c main_v29))
    (toMat (a := 256) (b := 256) (V c main_arg16)) (toRow (a := 256) (V c main_v30)))

/-- The printed index maps over the grid: the row-block operand and the result move together, block `t` at point `t`;
    every other operand stays at block (0, 0). -/
theorem idx_facts1 : ∀ t : Fin cfg1.N, win1_0.index t (0 : Fin 2) = win1_7.index t (0 : Fin 2)
    ∧ win1_0.index t (1 : Fin 2) = 0 ∧ win1_7.index t (1 : Fin 2) = 0 ∧ win1_7.index t (0 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The row-block operand's block at point `t`, read as a matrix, is rows 2048·t … of the array. -/
theorem blk1_0 (c : Dev nD) (t : Fin cfg1.N) (p : Fin 2048) (k : Fin 256) (y : S16384x256.Idx)
    (hy0 : (y 0).val = win1_7.index t (0 : Fin 2) * 2048 + 1 * p.val) :
    toMat (a := 2048) (b := 256) (iblk1 V c 0 t) p k = toMat (a := 16384) (b := 256) (V c main_v21_0) (y 0) k := by
  obtain ⟨e0, e1, -⟩ := idx_facts1 t
  unfold toMat iblk1
  rw [View.read_apply]
  show V c main_v21_0 _ = V c main_v21_0 _
  congr 1
  funext a; apply Fin.ext
  match a with
  | ⟨0, _⟩ => show win1_0.index t (0 : Fin 2) * 2048 + 1 * p.val = (y 0).val; rw [hy0, e0]
  | ⟨1, _⟩ => show win1_0.index t (1 : Fin 2) * 256 + 1 * k.val = k.val; rw [e1]; omega

/-! A one-row operand's block is the whole row at every point. -/

theorem row1_1 (c : Dev nD) (t : Fin cfg1.N) (k : Fin 256) :
    toRow (a := 256) (iblk1 V c 1 t) k = toRow (a := 256) (V c main_v23) k := by
  have e := idx_facts1 t
  unfold toRow iblk1
  rw [View.read_apply]
  show V c main_v23 _ = V c main_v23 _
  congr 1
  funext a; apply Fin.ext
  match a with
  | ⟨0, _⟩ => show win1_1.index t (0 : Fin 2) * 1 + 1 * 0 = 0; omega
  | ⟨1, _⟩ => show win1_1.index t (1 : Fin 2) * 256 + 1 * k.val = k.val; omega

theorem row1_2 (c : Dev nD) (t : Fin cfg1.N) (k : Fin 256) :
    toRow (a := 256) (iblk1 V c 2 t) k = toRow (a := 256) (V c main_v27) k := by
  have e := idx_facts1 t
  unfold toRow iblk1
  rw [View.read_apply]
  show V c main_v27 _ = V c main_v27 _
  congr 1
  funext a; apply Fin.ext
  match a with
  | ⟨0, _⟩ => show win1_2.index t (0 : Fin 2) * 1 + 1 * 0 = 0; omega
  | ⟨1, _⟩ => show win1_2.index t (1 : Fin 2) * 256 + 1 * k.val = k.val; omega

theorem row1_3 (c : Dev nD) (t : Fin cfg1.N) (k : Fin 256) :
    toRow (a := 256) (iblk1 V c 3 t) k = toRow (a := 256) (V c main_v28) k := by
  have e := idx_facts1 t
  unfold toRow iblk1
  rw [View.read_apply]
  show V c main_v28 _ = V c main_v28 _
  congr 1
  funext a; apply Fin.ext
  match a with
  | ⟨0, _⟩ => show win1_3.index t (0 : Fin 2) * 1 + 1 * 0 = 0; omega
  | ⟨1, _⟩ => show win1_3.index t (1 : Fin 2) * 256 + 1 * k.val = k.val; omega

theorem row1_4 (c : Dev nD) (t : Fin cfg1.N) (k : Fin 256) :
    toRow (a := 256) (iblk1 V c 4 t) k = toRow (a := 256) (V c main_v29) k := by
  have e := idx_facts1 t
  unfold toRow iblk1
  rw [View.read_apply]
  show V c main_v29 _ = V c main_v29 _
  congr 1
  funext a; apply Fin.ext
  match a with
  | ⟨0, _⟩ => show win1_4.index t (0 : Fin 2) * 1 + 1 * 0 = 0; omega
  | ⟨1, _⟩ => show win1_4.index t (1 : Fin 2) * 256 + 1 * k.val = k.val; omega

theorem row1_6 (c : Dev nD) (t : Fin cfg1.N) (k : Fin 256) :
    toRow (a := 256) (iblk1 V c 6 t) k = toRow (a := 256) (V c main_v30) k := by
  have e := idx_facts1 t
  unfold toRow iblk1
  rw [View.read_apply]
  show V c main_v30 _ = V c main_v30 _
  congr 1
  funext a; apply Fin.ext
  match a with
  | ⟨0, _⟩ => show win1_6.index t (0 : Fin 2) * 1 + 1 * 0 = 0; omega
  | ⟨1, _⟩ => show win1_6.index t (1 : Fin 2) * 256 + 1 * k.val = k.val; omega

/-- The weight operand's block is the whole matrix at every point. -/
theorem mat1_5 (c : Dev nD) (t : Fin cfg1.N) (k l : Fin 256) :
    toMat (a := 256) (b := 256) (iblk1 V c 5 t) k l = toMat (a := 256) (b := 256) (V c main_arg16) k l := by
  have e := idx_facts1 t
  unfold toMat iblk1
  rw [View.read_apply]
  show V c main_arg16 _ = V c main_arg16 _
  congr 1
  funext a; apply Fin.ext
  match a with
  | ⟨0, _⟩ => show win1_5.index t (0 : Fin 2) * 256 + 1 * k.val = k.val; omega
  | ⟨1, _⟩ => show win1_5.index t (1 : Fin 2) * 256 + 1 * l.val = l.val; omega

/-- What point `t` writes back is block `t` of `G1`. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S2048x256) hz, View.ld_unit_zero (S := S1x256) hz, View.ld_unit_zero (S := S256x256) hz]
  funext j
  obtain ⟨p, q, rfl⟩ : ∃ (p : Fin 2048) (q : Fin 256), j = ValueIdx.ix2 p q := ⟨j 0, j 1, ValueIdx.eq_ix2 j⟩
  refine (k1_apply _ _ _ _ _ _ _ p q).trans ?_
  rw [View.read_apply]
  have hy0 : ((((cfg1.win 7).blk t).view.emb (ValueIdx.ix2 p q) : S16384x256.Idx) 0).val = win1_7.index t (0 : Fin 2) * 2048 + 1 * p.val := rfl
  have hy1 : (((cfg1.win 7).blk t).view.emb (ValueIdx.ix2 p q) : S16384x256.Idx) 1 = q := by
    obtain ⟨-, -, e2, -⟩ := idx_facts1 t
    apply Fin.ext
    show win1_7.index t (1 : Fin 2) * 256 + 1 * q.val = q.val
    rw [e2]; omega
  show _ = normOut _ _ _ _ _ _ _ ((((cfg1.win 7).blk t).view.emb (ValueIdx.ix2 p q) : S16384x256.Idx) 0) ((((cfg1.win 7).blk t).view.emb (ValueIdx.ix2 p q) : S16384x256.Idx) 1)
  rw [hy1]
  exact normOut_congr q (fun k => blk1_0 V c t p k _ hy0) (row1_1 V c t) (row1_2 V c t) (row1_3 V c t) (row1_4 V c t)
    (mat1_5 V c t) (row1_6 V c t)

/-- An index of the array is in point `t`'s block iff each coordinate is in the block's range on its axis. -/
theorem mem_blk1 (t : Fin cfg1.N) (i : S16384x256.Idx) :
    i ∈ ((cfg1.win 7).blk t).view.set ↔ ∀ a : Fin 2, win1_7.index t a * S2048x256.size a ≤ (i a).val ∧ (i a).val < win1_7.index t a * S2048x256.size a + S2048x256.size a := by
  show i ∈ ((View.whole main_v31).slice (win1_7.rect t)).set ↔ _
  rw [View.set_slice_whole, Rect.mem_set_unit]
  exact Iff.rfl

/-- The eight blocks fill the array: row `r` is in block `r / 2048`. -/
theorem cover1 (i : S16384x256.Idx) : ∃ t : Fin cfg1.N, (cfg1.win 7).flush t = true ∧ i ∈ ((cfg1.win 7).blk t).view.set := by
  have hi0 : (i 0).val < 16384 := (i 0).isLt
  have hi1 : (i 1).val < 256 := (i 1).isLt
  have hN : cfg1.N = 8 := N_1
  refine ⟨⟨(i 0).val / 2048, by rw [hN]; omega⟩, flush1_7 _, ?_⟩
  rw [mem_blk1]
  obtain ⟨-, -, e2, e3, -⟩ := idx_facts1 ⟨(i 0).val / 2048, by rw [hN]; omega⟩
  intro a
  match a with
  | ⟨0, _⟩ => show win1_7.index _ (0 : Fin 2) * 2048 ≤ (i 0).val ∧ (i 0).val < win1_7.index _ (0 : Fin 2) * 2048 + 2048
              rw [e3]; dsimp only; omega
  | ⟨1, _⟩ => show win1_7.index _ (1 : Fin 2) * 256 ≤ (i 1).val ∧ (i 1).val < win1_7.index _ (1 : Fin 2) * 256 + 256
              rw [e2]; omega

/-- The result array after the call. -/
theorem final1 (c : Dev nD) : (dat1 V c).arrAt 7 cfg1.N = G1 V c :=
  (dat1 V c).arrAt_eq_of_cover 7 (G1 V c) (fun t _ => flushed1_eq V c t) (cover1)

end Cert.KernelIdeal.Hand

end
-- ==== Proof.KChain1.lean ====
/-
  The first layer of the program's run, read back to the launch memory.

  The buffer contents at each boundary between the host stretches and the kernel calls are a fold from the launch
  memory.  The first host stretch leaves the aggregated edge embedding and the bias vectors as rows; the first call
  leaves the hidden layer of what it finds and the rows of its column sums and column sums of squares; the next host
  stretch divides those rows by the number of rows and forms the variance row; the second call normalises the hidden
  layer with those rows and applies the last matrix.  Every argument array holds its launch contents throughout, so
  the result array of the second call is the first layer, in the arrangement that takes the variance as the mean of the
  squares minus the square of the mean, of the launch contents.
-/
import proofs.«136727_j87875030876560_1_alg».proof.Proof.Gen.KernelIdeal.Frame
import proofs.«136727_j87875030876560_1_alg».proof.Proof.Spec
import proofs.«136727_j87875030876560_1_alg».proof.Proof.KEmb
import proofs.«136727_j87875030876560_1_alg».proof.Proof.KHost
import proofs.«136727_j87875030876560_1_alg».proof.Proof.KArgs
import proofs.«136727_j87875030876560_1_alg».proof.Proof.KFin0
import proofs.«136727_j87875030876560_1_alg».proof.Proof.KReg1

set_option maxRecDepth 16384

noncomputable section

namespace Cert.KernelIdeal.Hand

open Idealize.ShloMosaic Idealize.ShloMosaic.TcCoe Idealize.SL.Sem
open Cert.KernelIdeal Cert.KernelIdeal.Gen Cert.Linkx

variable (m : (ℓ : Loc nD τ sig) → Buf (Elt Ideal) ℓ) (ρ : Dev nD → PrngReg)

/-- The first layer of the launch contents. -/
def L1K (c : Dev nD) : Mat 16384 256 :=
  layerK (toMat (a := 16384) (b := 256) (embArrK (m ((c : Thread nD τ).loc main_arg4)) (m ((c : Thread nD τ).loc main_arg5)) (m ((c : Thread nD τ).loc main_arg2))))
    (toMat (a := 16384) (b := 256) (m ((c : Thread nD τ).loc main_arg0)))
    (toMat (a := 256) (b := 256) (m ((c : Thread nD τ).loc main_arg6))) (toVec (a := 256) (m ((c : Thread nD τ).loc main_arg7))) (toMat (a := 256) (b := 256) (m ((c : Thread nD τ).loc main_arg8))) (toVec (a := 256) (m ((c : Thread nD τ).loc main_arg9)))
    (toMat (a := 256) (b := 256) (m ((c : Thread nD τ).loc main_arg10))) (toVec (a := 256) (m ((c : Thread nD τ).loc main_arg11))) (toMat (a := 256) (b := 256) (m ((c : Thread nD τ).loc main_arg12))) (toVec (a := 256) (m ((c : Thread nD τ).loc main_arg13)))
    (toVec (a := 256) (m ((c : Thread nD τ).loc main_arg14))) (toVec (a := 256) (m ((c : Thread nD τ).loc main_arg15))) (toMat (a := 256) (b := 256) (m ((c : Thread nD τ).loc main_arg16))) (toVec (a := 256) (m ((c : Thread nD τ).loc main_arg17)))

/-! ## Layer 1 -/

/-- The hidden layer of layer 1, of the launch contents. -/
def hid1K (c : Dev nD) : Mat 16384 256 :=
  hidK (toMat (a := 16384) (b := 256) (embArrK (m ((c : Thread nD τ).loc main_arg4)) (m ((c : Thread nD τ).loc main_arg5)) (m ((c : Thread nD τ).loc main_arg2))))
    (toMat (a := 16384) (b := 256) (m ((c : Thread nD τ).loc main_arg0)))
    (toMat (a := 256) (b := 256) (m ((c : Thread nD τ).loc main_arg6))) (toVec (a := 256) (m ((c : Thread nD τ).loc main_arg7)))
    (toMat (a := 256) (b := 256) (m ((c : Thread nD τ).loc main_arg8))) (toVec (a := 256) (m ((c : Thread nD τ).loc main_arg9)))
    (toMat (a := 256) (b := 256) (m ((c : Thread nD τ).loc main_arg10))) (toVec (a := 256) (m ((c : Thread nD τ).loc main_arg11)))
    (toMat (a := 256) (b := 256) (m ((c : Thread nD τ).loc main_arg12))) (toVec (a := 256) (m ((c : Thread nD τ).loc main_arg13)))

/-- Layer 1 is the normalisation of its hidden layer by that layer's own column means and variances. -/
theorem L1K_eq (c : Dev nD) : L1K m c = normOut (hid1K m c) (colMean (hid1K m c)) (varK (hid1K m c))
    (toVec (a := 256) (m ((c : Thread nD τ).loc main_arg14))) (toVec (a := 256) (m ((c : Thread nD τ).loc main_arg15))) (toMat (a := 256) (b := 256) (m ((c : Thread nD τ).loc main_arg16))) (toVec (a := 256) (m ((c : Thread nD τ).loc main_arg17))) := rfl

/-! ### What the first call of the layer finds -/

/-- The aggregated edge embedding the host operations leave is the one of the launch contents. -/
theorem V1_main_v16 (c : Dev nD) : (toMat (a := 16384) (b := 256) (V1 m ρ c main_v16)) = (toMat (a := 16384) (b := 256) (embArrK (m ((c : Thread nD τ).loc main_arg4)) (m ((c : Thread nD τ).loc main_arg5)) (m ((c : Thread nD τ).loc main_arg2)))) := by
  refine (congrArg (toMat (a := 16384) (b := 256)) (host0_v16 (W0 m ρ c))).trans ?_
  rw [show W0 m ρ c (Proc.devRef .tc main_arg4) = (m ((c : Thread nD τ).loc main_arg4)) from rfl,
    show W0 m ρ c (Proc.devRef .tc main_arg5) = (m ((c : Thread nD τ).loc main_arg5)) from rfl,
    show W0 m ρ c (Proc.devRef .tc main_arg2) = (m ((c : Thread nD τ).loc main_arg2)) from rfl]

/-- The bias row `main_v17` is the launch vector `main_arg7`. -/
theorem V1_main_v17 (c : Dev nD) : (toRow (a := 256) (V1 m ρ c main_v17)) = (toVec (a := 256) (m ((c : Thread nD τ).loc main_arg7))) := funext fun q =>
  (host0_v17 (W0 m ρ c) q).trans (congrArg (fun y => toVec (a := 256) y q) (rfl : W0 m ρ c (Proc.devRef .tc main_arg7) = (m ((c : Thread nD τ).loc main_arg7))))

/-- The bias row `main_v18` is the launch vector `main_arg9`. -/
theorem V1_main_v18 (c : Dev nD) : (toRow (a := 256) (V1 m ρ c main_v18)) = (toVec (a := 256) (m ((c : Thread nD τ).loc main_arg9))) := funext fun q =>
  (host0_v18 (W0 m ρ c) q).trans (congrArg (fun y => toVec (a := 256) y q) (rfl : W0 m ρ c (Proc.devRef .tc main_arg9) = (m ((c : Thread nD τ).loc main_arg9))))

/-- The bias row `main_v19` is the launch vector `main_arg11`. -/
theorem V1_main_v19 (c : Dev nD) : (toRow (a := 256) (V1 m ρ c main_v19)) = (toVec (a := 256) (m ((c : Thread nD τ).loc main_arg11))) := funext fun q =>
  (host0_v19 (W0 m ρ c) q).trans (congrArg (fun y => toVec (a := 256) y q) (rfl : W0 m ρ c (Proc.devRef .tc main_arg11) = (m ((c : Thread nD τ).loc main_arg11))))

/-- The bias row `main_v20` is the launch vector `main_arg13`. -/
theorem V1_main_v20 (c : Dev nD) : (toRow (a := 256) (V1 m ρ c main_v20)) = (toVec (a := 256) (m ((c : Thread nD τ).loc main_arg13))) := funext fun q =>
  (host0_v20 (W0 m ρ c) q).trans (congrArg (fun y => toVec (a := 256) y q) (rfl : W0 m ρ c (Proc.devRef .tc main_arg13) = (m ((c : Thread nD τ).loc main_arg13))))

/-- The matrix `main_arg6` is as launched. -/
theorem V1_arg6 (c : Dev nD) : (toMat (a := 256) (b := 256) (V1 m ρ c main_arg6)) = (toMat (a := 256) (b := 256) (m ((c : Thread nD τ).loc main_arg6))) :=
  congrArg (toMat (a := 256) (b := 256)) (W1_arg6 m ρ c)

/-- The matrix `main_arg8` is as launched. -/
theorem V1_arg8 (c : Dev nD) : (toMat (a := 256) (b := 256) (V1 m ρ c main_arg8)) = (toMat (a := 256) (b := 256) (m ((c : Thread nD τ).loc main_arg8))) :=
  congrArg (toMat (a := 256) (b := 256)) (W1_arg8 m ρ c)

/-- The matrix `main_arg10` is as launched. -/
theorem V1_arg10 (c : Dev nD) : (toMat (a := 256) (b := 256) (V1 m ρ c main_arg10)) = (toMat (a := 256) (b := 256) (m ((c : Thread nD τ).loc main_arg10))) :=
  congrArg (toMat (a := 256) (b := 256)) (W1_arg10 m ρ c)

/-- The matrix `main_arg12` is as launched. -/
theorem V1_arg12 (c : Dev nD) : (toMat (a := 256) (b := 256) (V1 m ρ c main_arg12)) = (toMat (a := 256) (b := 256) (m ((c : Thread nD τ).loc main_arg12))) :=
  congrArg (toMat (a := 256) (b := 256)) (W1_arg12 m ρ c)

/-- The node features `main_arg0` are as launched. -/
theorem V1_x (c : Dev nD) : (toMat (a := 16384) (b := 256) (V1 m ρ c main_arg0)) = (toMat (a := 16384) (b := 256) (m ((c : Thread nD τ).loc main_arg0))) :=
  congrArg (toMat (a := 16384) (b := 256)) (W1_arg0 m ρ c)

/-- The hidden layer of the arrays the call finds is the hidden layer of the launch contents. -/
theorem H0_V1 (c : Dev nD) : H0 (V1 m ρ) c = hid1K m c := by
  unfold H0 hid1K
  rw [V1_main_v16 m ρ c, V1_x m ρ c, V1_arg6 m ρ c, V1_arg8 m ρ c, V1_arg10 m ρ c, V1_arg12 m ρ c,
    V1_main_v17 m ρ c, V1_main_v18 m ρ c, V1_main_v19 m ρ c, V1_main_v20 m ρ c]

/-! ### What the first call leaves -/

/-- The hidden layer, as an array. -/
theorem W2_main_v21_0 (c : Dev nD) : W2 m ρ c (Proc.devRef .tc main_v21_0) = ofMat (a := 16384) (b := 256) (hid1K m c) :=
  (W2_arr m ρ c 10).trans ((final0_10 (V1 m ρ) c).trans (congrArg (ofMat (a := 16384) (b := 256)) (H0_V1 m ρ c)))

/-- The row of column sums of the hidden layer. -/
theorem W2_main_v21_1 (c : Dev nD) (q : Fin 256) :
    (toRow (a := 256) (W2 m ρ c (Proc.devRef .tc main_v21_1))) q = ∑ i : Fin 16384, hid1K m c i q :=
  (congrArg (fun y => toRow (a := 256) y q) (W2_arr m ρ c 11)).trans
    ((sumrow0 (V1 m ρ) c q).trans (by rw [H0_V1 m ρ c]))

/-- The row of column sums of squares of the hidden layer. -/
theorem W2_main_v21_2 (c : Dev nD) (q : Fin 256) :
    (toRow (a := 256) (W2 m ρ c (Proc.devRef .tc main_v21_2))) q = ∑ i : Fin 16384, hid1K m c i q * hid1K m c i q :=
  (congrArg (fun y => toRow (a := 256) y q) (W2_arr m ρ c 12)).trans
    ((sqrow0 (V1 m ρ) c q).trans (by rw [H0_V1 m ρ c]))

/-! ### What the second call of the layer finds -/

/-- The hidden layer: the host operations between the calls do not write it. -/
theorem V3_main_v21_0 (c : Dev nD) : (toMat (a := 16384) (b := 256) (V3 m ρ c main_v21_0)) = hid1K m c :=
  (congrArg (toMat (a := 16384) (b := 256)) ((host1_keep (W2 m ρ c) main_v21_0 (by decide)).trans (W2_main_v21_0 m ρ c))).trans
    (toMat_ofMat _)

/-- The mean row is the column means of the hidden layer. -/
theorem V3_main_v23 (c : Dev nD) : (toRow (a := 256) (V3 m ρ c main_v23)) = colMean (hid1K m c) := funext fun q =>
  (host1_v23 (W2 m ρ c) q).trans
    (congrArg (fun t => Ideal.div t ((nR : ℝ) : EReal)) (W2_main_v21_1 m ρ c q))

/-- The variance row is the mean of the squares minus the square of the mean, of the hidden layer's columns. -/
theorem V3_main_v27 (c : Dev nD) : (toRow (a := 256) (V3 m ρ c main_v27)) = varK (hid1K m c) := funext fun q => by
  refine (host1_v27 (W2 m ρ c) q).trans ?_
  rw [W2_main_v21_1 m ρ c q, W2_main_v21_2 m ρ c q]
  rfl

/-- The row `main_v28` is the launch vector `main_arg14`. -/
theorem V3_main_v28 (c : Dev nD) : (toRow (a := 256) (V3 m ρ c main_v28)) = (toVec (a := 256) (m ((c : Thread nD τ).loc main_arg14))) := funext fun q =>
  (host1_v28 (W2 m ρ c) q).trans (congrArg (fun y => toVec (a := 256) y q) (W2_arg14 m ρ c))

/-- The row `main_v29` is the launch vector `main_arg15`. -/
theorem V3_main_v29 (c : Dev nD) : (toRow (a := 256) (V3 m ρ c main_v29)) = (toVec (a := 256) (m ((c : Thread nD τ).loc main_arg15))) := funext fun q =>
  (host1_v29 (W2 m ρ c) q).trans (congrArg (fun y => toVec (a := 256) y q) (W2_arg15 m ρ c))

/-- The row `main_v30` is the launch vector `main_arg17`. -/
theorem V3_main_v30 (c : Dev nD) : (toRow (a := 256) (V3 m ρ c main_v30)) = (toVec (a := 256) (m ((c : Thread nD τ).loc main_arg17))) := funext fun q =>
  (host1_v30 (W2 m ρ c) q).trans (congrArg (fun y => toVec (a := 256) y q) (W2_arg17 m ρ c))

/-- The matrix `main_arg16` is as launched. -/
theorem V3_arg16 (c : Dev nD) : (toMat (a := 256) (b := 256) (V3 m ρ c main_arg16)) = (toMat (a := 256) (b := 256) (m ((c : Thread nD τ).loc main_arg16))) :=
  congrArg (toMat (a := 256) (b := 256)) (W3_arg16 m ρ c)

/-- What the second call leaves, of the arrays it finds, is the layer of the launch contents. -/
theorem G1_V3 (c : Dev nD) : G1 (V3 m ρ) c = ofMat (a := 16384) (b := 256) (L1K m c) := by
  unfold G1
  rw [V3_main_v21_0 m ρ c, V3_main_v23 m ρ c, V3_main_v27 m ρ c, V3_main_v28 m ρ c, V3_main_v29 m ρ c, V3_main_v30 m ρ c,
    V3_arg16 m ρ c, L1K_eq m c]

/-- The layer's result array after its second call. -/
theorem W4_main_v31 (c : Dev nD) : W4 m ρ c (Proc.devRef .tc main_v31) = ofMat (a := 16384) (b := 256) (L1K m c) :=
  (W4_arr m ρ c 7).trans ((final1 (V3 m ρ) c).trans (G1_V3 m ρ c))

end Cert.KernelIdeal.Hand

end
-- ==== Proof.Body2.lean ====
/-
  The dense kernel body of the second layer, read at an entry.

  The body takes a block `emb` and a block `x` of 2048 rows, four 256 x 256 matrices and four bias rows.  It forms
  `xn = x * nw + nb`, then `((((emb + emb * c1w) + c1b) + xn) + xn * c2w) + c2b`, rectifies, multiplies by `f1w`, adds
  `f1b` and rectifies again: the block of `h`.  It then adds to two running rows the column sums of `h` and of `h * h`
  over the 2048 rows, and at the first grid point it sets both rows to zero beforehand.  On the extended reals every
  narrowing of a number format is the identity and a matrix product into the zero matrix is the plain sum, so each
  entry is the corresponding entry of `hidK`, and the two rows are the accumulator plus a sum over the rows.
-/
import proofs.«136727_j87875030876560_1_alg».proof.Proof.Gen.KernelIdeal.Skeleton
import proofs.«136727_j87875030876560_1_alg».proof.Proof.Spec
import proofs.«136727_j87875030876560_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Linkx Idealize.ShloMosaic Idealize.ShloMosaic.ValueIdx

/-- A `[1, 256]` row, cast to its own shape and spread over 2048 rows, reads at `(p, q)` the row's entry `q`. -/
theorem k2_row_apply (v : Vec Ideal S1x256 .f32) (p : Fin 2048) (q : Fin 256) :
    broadcastTo S2048x256 (shapeCast S1x256 v Facts₀.shapeCasts_S1x256_S1x256) Facts₀.broadcasts_S1x256_S2048x256 (ix2 p q)
      = toRow v q := by
  rw [shapeCast_self]
  exact broadcastTo_1b_ab_apply (a := 2048) (b := 256) v _ p q

/-- The product of a 2048 x 256 block with a 256 x 256 matrix into the zero block, at `(p, q)`. -/
theorem k2_mm_apply {φ₁ φ₂ : FTy} (l : FVec Ideal S2048x256 φ₁) (r : FVec Ideal S256x256 φ₂) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) :=
  Cert.LibMatmulPlain.matmul_zero_apply (M := 2048) (K := 256) (N := 256)
    dot_S2048x256_S256x256_S2048x256_1_0_0_1_n_n rfl rfl rfl rfl rfl rfl l r p q

/-- The zero word spread over a block is zero at every entry. -/
theorem k2_zero_apply (S : Shape) (y : S.Idx) :
    broadcast S (Scalar.ofBits (F := Ideal) .f32 0x00000000#32) y = (0 : EReal) :=
  Ideal.ofBits_zero_f32

/-- `x * nw + nb` as the body forms it, at `(p, k)`. -/
theorem k2_xn_apply (x : Vec Ideal S2048x256 .f32) (nw : Vec Ideal S256x256 .f32) (nb : Vec Ideal S1x256 .f32)
    (p : Fin 2048) (k : Fin 256) :
    addf (matmul dot_S2048x256_S256x256_S2048x256_1_0_0_1_n_n none
        (truncf .bf16 (shapeCast S2048x256 x Facts₀.shapeCasts_S2048x256_S2048x256) bitsLt_bf16_f32)
        (truncf .bf16 nw bitsLt_bf16_f32) (constant (F := Ideal) S2048x256 .f32 0x00000000#32))
      (broadcastTo S2048x256 (shapeCast S1x256 nb Facts₀.shapeCasts_S1x256_S1x256) Facts₀.broadcasts_S1x256_S2048x256) (ix2 p k)
      = xnOf (toMat x) (toMat nw) (toRow nb) p k := by
  rw [addf_apply, k2_row_apply, k2_mm_apply, shapeCast_self]
  rfl

/-- The sum before the first rectification, at `(p, k)`. -/
theorem k2_pre_apply (v3 : Vec Ideal S2048x256 .f32) (v5 : Vec Ideal S256x256 .f32) (v10 : Vec Ideal S1x256 .f32)
    (v14 : Vec Ideal S2048x256 .f32) (nw : Vec Ideal S256x256 .f32) (nb : Vec Ideal S1x256 .f32)
    (c2w : Vec Ideal S256x256 .f32) (c2b : Vec Ideal S1x256 .f32) (p : Fin 2048) (k : Fin 256) :
    k2_pay6 (F := Ideal) v3 v5 v10 v14 nw nb c2w c2b (ix2 p k)
      = ((((toMat v3 p k + mm (toMat v3) (toMat v5) p k) + toRow v10 k) + xnOf (toMat v14) (toMat nw) (toRow nb) p k)
          + mm (xnOf (toMat v14) (toMat nw) (toRow nb)) (toMat c2w) p k) + toRow c2b k := by
  unfold k2_pay6
  rw [addf_apply, k2_row_apply, addf_apply, k2_mm_apply, addf_apply, k2_xn_apply, addf_apply, k2_row_apply, addf_apply,
    k2_mm_apply, shapeCast_self]
  refine congrArg (· + toRow c2b k) (congrArg (_ + ·) (Finset.sum_congr rfl fun m _ => ?_))
  rw [truncf_apply, k2_xn_apply]
  rfl

/-- The block of `h` from the sum before the first rectification, at `(p, q)`. -/
theorem k2_pay1_apply (v33 : FVec Ideal S2048x256 .f32) (w : Vec Ideal S256x256 .f32) (v40 : Vec Ideal S1x256 .f32)
    (p : Fin 2048) (q : Fin 256) :
    k2_pay1 (F := Ideal) v33 w v40 (ix2 p q)
      = max ((∑ k : Fin 256, max (v33 (ix2 p k)) 0 * w (ix2 k q)) + toRow v40 q) 0 := by
  unfold k2_pay1
  rw [maximumf_apply, k2_zero_apply, addf_apply, k2_row_apply, k2_mm_apply]
  refine congrArg (fun t => max (t + toRow v40 q) 0) (Finset.sum_congr rfl fun k _ => ?_)
  rw [truncf_apply, maximumf_apply, k2_zero_apply, truncf_apply]

/-- The block of `h` at `(p, q)` is `hidK` of the operands. -/
theorem k2_h_apply (v3 v14 : Vec Ideal S2048x256 .f32) (v5 v16 v24 v34 : Vec Ideal S256x256 .f32)
    (v10 v20 v30 v40 : Vec Ideal S1x256 .f32) (p : Fin 2048) (q : Fin 256) :
    k2_pay1 (F := Ideal) (k2_pay6 v3 v5 v10 v14 v16 v20 v24 v30) v34 v40 (ix2 p q)
      = hidK (toMat v3) (toMat v14) (toMat v16) (toRow v20) (toMat v5) (toRow v10) (toMat v24) (toRow v30) (toMat v34)
          (toRow v40) p q := by
  rw [k2_pay1_apply]
  unfold hidK mm
  refine congrArg (fun t => max (t + toRow v40 q) 0) (Finset.sum_congr rfl fun k _ => ?_)
  rw [k2_pre_apply]
  rfl

/-- The lane sum over the 2048 rows, cast to a row, at `(u, q)`. -/
theorem k2_colsum_apply (src : FVec Ideal S2048x256 .f32) (hacc : (0x00000000#32 : BitVec 32) = 0x00000000#32)
    (u : Fin 1) (q : Fin 256) :
    shapeCast S1x256 (multiReduction (F := Ideal) .add [0] S256 src 0x00000000#32 Facts₀.reduces_S2048x256_S256 (.inl rfl) hacc)
      Facts₀.shapeCasts_S256_S1x256 (ix2 u q) = ∑ p : Fin 2048, src (ix2 p q) := by
  refine (shapeCast_a_1a_apply (a := 256) _ _ u q).trans ?_
  refine (Ideal.multiReduction_add_single src 0x00000000#32 Facts₀.reduces_S2048x256_S256 (.inl rfl) hacc (ix1 q)).trans ?_
  refine Finset.sum_congr rfl fun p _ => congrArg src (funext fun a => Fin.ext ?_)
  match a with
  | ⟨0, _⟩ => rfl
  | ⟨1, _⟩ => rfl

/-- The running row of column sums after the body: the row before plus the column sums of the block of `h`. -/
theorem k2_sum_apply (v33 : FVec Ideal S2048x256 .f32) (w : Vec Ideal S256x256 .f32) (v40 v47 : Vec Ideal S1x256 .f32)
    (u : Fin 1) (q : Fin 256) :
    k2_pay2 (F := Ideal) v33 w v40 v47 (ix2 u q)
      = v47 (ix2 u q) + ∑ p : Fin 2048, k2_pay1 v33 w v40 (ix2 p q) := by
  unfold k2_pay2
  rw [addf_apply, shapeCast_self, k2_colsum_apply]

/-- The running row of column sums of squares after the body. -/
theorem k2_sumsq_apply (v33 : FVec Ideal S2048x256 .f32) (w : Vec Ideal S256x256 .f32) (v40 v53 : Vec Ideal S1x256 .f32)
    (u : Fin 1) (q : Fin 256) :
    k2_pay3 (F := Ideal) v33 w v40 v53 (ix2 u q)
      = v53 (ix2 u q) + ∑ p : Fin 2048, k2_pay1 v33 w v40 (ix2 p q) * k2_pay1 v33 w v40 (ix2 p q) := by
  unfold k2_pay3
  rw [addf_apply, shapeCast_self, k2_colsum_apply]
  rfl

/-- The first row the body stores at the first grid point is zero. -/
theorem k2_zero4 (y : S1x256.Idx) : k2_pay4 (F := Ideal) y = 0 := Ideal.ofBits_zero_f32

/-- The second row the body stores at the first grid point is zero. -/
theorem k2_zero5 (y : S1x256.Idx) : k2_pay5 (F := Ideal) y = 0 := Ideal.ofBits_zero_f32

end Cert.KernelIdeal.Hand

end
-- ==== Proof.KPiece2.lean ====
/-
  Pallas_call 2 of the idealized kernel (the dense chain of one layer: a block of 2048 rows per grid point, the column
  sums Σh and Σh² carried in two one-row result blocks across the eight points), at any float instance: what the body
  leaves in each of its three result blocks, as the body's own arithmetic of the blocks it loads.  At the first point
  the two sum rows are reset to zero before the point's column sums are added; at a later point the sums are added to
  what the point before left.
-/
import proofs.«136727_j87875030876560_1_alg».proof.Proof.Gen.KernelIdeal.Frame
import proofs.«136727_j87875030876560_1_alg».proof.Proof.KCommon
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Idealize.ShloMosaic.Tactic

variable {F : FTy → Type} [FloatOps F]

/-- The block of `h` the body computes from its ten input blocks. -/
abbrev hPay2 (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) : FVec F S2048x256 .f32 := k2_pay1 (k2_pay6 x0 x4 x5 x1 x2 x3 x6 x7) x8 x9

/-- First point: the `h` block. -/
theorem outA2_10 (c : Dev nD) (i : grid2.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : cond2_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) :
    out2_A_10 c i a1 h1 a2 h2 a3 h3 a4 h4 a5 h5 a6 h6 a7 h7 a8 h8 a9 h9 a10 h10 a11 h11 a12 h12 a13 h13 hc x0 x1 x2 x3 x4 x5 x6 x7 x8 x9 = hPay2 x0 x1 x2 x3 x4 x5 x6 x7 x8 x9 := by
  unfold out2_A_10
  rw [View.read_writes_eq_canon _ _ _ (cover2_A_10 c i a1 h1 a2 h2 a3 h3 a4 h4 a5 h5 a6 h6 a7 h7 a8 h8 a9 h9 a10 h10 a11 h11 a12 h12 a13 h13 hc x0 x1 x2 x3 x4 x5 x6 x7 x8 x9)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- First point: the sum row is zero plus the block's column sums. -/
theorem outA2_11 (c : Dev nD) (i : grid2.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : cond2_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) :
    out2_A_11 c i a1 h1 a2 h2 a3 h3 a4 h4 a5 h5 a6 h6 a7 h7 a8 h8 a9 h9 a10 h10 a11 h11 a12 h12 a13 h13 hc x0 x1 x2 x3 x4 x5 x6 x7 x8 x9 = k2_pay2 (k2_pay6 x0 x4 x5 x1 x2 x3 x6 x7) x8 x9 k2_pay4 := by
  unfold out2_A_11
  rw [View.read_writes_eq_canon _ _ _ (cover2_A_11 c i a1 h1 a2 h2 a3 h3 a4 h4 a5 h5 a6 h6 a7 h7 a8 h8 a9 h9 a10 h10 a11 h11 a12 h12 a13 h13 hc x0 x1 x2 x3 x4 x5 x6 x7 x8 x9)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- First point: the sum-of-squares row likewise. -/
theorem outA2_12 (c : Dev nD) (i : grid2.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : cond2_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) :
    out2_A_12 c i a1 h1 a2 h2 a3 h3 a4 h4 a5 h5 a6 h6 a7 h7 a8 h8 a9 h9 a10 h10 a11 h11 a12 h12 a13 h13 hc x0 x1 x2 x3 x4 x5 x6 x7 x8 x9 = k2_pay3 (k2_pay6 x0 x4 x5 x1 x2 x3 x6 x7) x8 x9 k2_pay5 := by
  unfold out2_A_12
  rw [View.read_writes_eq_canon _ _ _ (cover2_A_12 c i a1 h1 a2 h2 a3 h3 a4 h4 a5 h5 a6 h6 a7 h7 a8 h8 a9 h9 a10 h10 a11 h11 a12 h12 a13 h13 hc x0 x1 x2 x3 x4 x5 x6 x7 x8 x9)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- A later point: the `h` block. -/
theorem outB2_10 (c : Dev nD) (i : grid2.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : ¬cond2_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (xo11 xo12 : Vec F S1x256 .f32) :
    out2_B_10 c i a1 h1 a2 h2 a3 h3 a4 h4 a5 h5 a6 h6 a7 h7 a8 h8 a9 h9 a10 h10 a11 h11 a12 h12 a13 h13 hc x0 x1 x2 x3 x4 x5 x6 x7 x8 x9 xo11 xo12 = hPay2 x0 x1 x2 x3 x4 x5 x6 x7 x8 x9 := by
  unfold out2_B_10
  rw [View.read_writes_eq_canon _ _ _ (cover2_B_10 c i a1 h1 a2 h2 a3 h3 a4 h4 a5 h5 a6 h6 a7 h7 a8 h8 a9 h9 a10 h10 a11 h11 a12 h12 a13 h13 hc x0 x1 x2 x3 x4 x5 x6 x7 x8 x9 xo11 xo12)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz]

/-- A later point: the sum row is what the point before left plus the block's column sums. -/
theorem outB2_11 (c : Dev nD) (i : grid2.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : ¬cond2_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (xo11 xo12 : Vec F S1x256 .f32) :
    out2_B_11 c i a1 h1 a2 h2 a3 h3 a4 h4 a5 h5 a6 h6 a7 h7 a8 h8 a9 h9 a10 h10 a11 h11 a12 h12 a13 h13 hc x0 x1 x2 x3 x4 x5 x6 x7 x8 x9 xo11 xo12 = k2_pay2 (k2_pay6 x0 x4 x5 x1 x2 x3 x6 x7) x8 x9 xo11 := by
  unfold out2_B_11
  rw [View.read_writes_eq_canon _ _ _ (cover2_B_11 c i a1 h1 a2 h2 a3 h3 a4 h4 a5 h5 a6 h6 a7 h7 a8 h8 a9 h9 a10 h10 a11 h11 a12 h12 a13 h13 hc x0 x1 x2 x3 x4 x5 x6 x7 x8 x9 xo11 xo12)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz, h12.read_unread]

/-- A later point: the sum-of-squares row likewise. -/
theorem outB2_12 (c : Dev nD) (i : grid2.Coords) (a1 : Memref sig .tc .vmem S2048x256 .f32) (h1 : a1.IsWhole) (a2 : Memref sig .tc .vmem S2048x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S2048x256 .f32) (h11 : a11.IsWhole) (a12 : Memref sig .tc .vmem S1x256 .f32) (h12 : a12.IsWhole) (a13 : Memref sig .tc .vmem S1x256 .f32) (h13 : a13.IsWhole) (hc : ¬cond2_0 i) (x0 : Vec F S2048x256 .f32) (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (xo11 xo12 : Vec F S1x256 .f32) :
    out2_B_12 c i a1 h1 a2 h2 a3 h3 a4 h4 a5 h5 a6 h6 a7 h7 a8 h8 a9 h9 a10 h10 a11 h11 a12 h12 a13 h13 hc x0 x1 x2 x3 x4 x5 x6 x7 x8 x9 xo11 xo12 = k2_pay3 (k2_pay6 x0 x4 x5 x1 x2 x3 x6 x7) x8 x9 xo12 := by
  unfold out2_B_12
  rw [View.read_writes_eq_canon _ _ _ (cover2_B_12 c i a1 h1 a2 h2 a3 h3 a4 h4 a5 h5 a6 h6 a7 h7 a8 h8 a9 h9 a10 h10 a11 h11 a12 h12 a13 h13 hc x0 x1 x2 x3 x4 x5 x6 x7 x8 x9 xo11 xo12)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2048x256) hz, View.ld_unit_zero (S := S256x256) hz, View.ld_unit_zero (S := S1x256) hz, h13.read_unread]

end Cert.KernelIdeal.Hand

end
-- ==== Proof.KReg2.lean ====
/-
  Pallas_call 2 of the idealized kernel (the dense chain of one layer) at ANY contents `V` of the buffers when the call is
  entered: after the call its first result array holds the hidden layer `hidK` of the whole arrays, row by row (point
  `t` writes back rows 2048·t … 2048·t + 2047), and its two one-row result arrays hold, column by column, the sum of
  `h` and of `h²` over all 16384 rows: the running sums after point `n` are the sums over the first `n + 1` blocks (by
  induction on the point; the first point resets them), and the row written back after the last point is the total.
-/
import proofs.«136727_j87875030876560_1_alg».proof.Proof.Gen.KernelIdeal.Frame
import proofs.«136727_j87875030876560_1_alg».proof.Proof.Body2
import proofs.«136727_j87875030876560_1_alg».proof.Proof.KPiece2
import proofs.«136727_j87875030876560_1_alg».proof.Proof.KCommon
import proofs.«136727_j87875030876560_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Linkx

variable (V : (c : Dev nD) → (b : Ref sig .tc) → Buf (Elt Ideal) ((c : Thread nD τ).loc b))

/-- The hidden layer of the whole arrays the call finds. -/
def H2 (c : Dev nD) : Mat 16384 256 :=
  hidK (toMat (a := 16384) (b := 256) (V c main_v48)) (toMat (a := 16384) (b := 256) (V c main_v31))
    (toMat (a := 256) (b := 256) (V c main_arg20)) (toRow (a := 256) (V c main_v49))
    (toMat (a := 256) (b := 256) (V c main_arg22)) (toRow (a := 256) (V c main_v50))
    (toMat (a := 256) (b := 256) (V c main_arg24)) (toRow (a := 256) (V c main_v51))
    (toMat (a := 256) (b := 256) (V c main_arg26)) (toRow (a := 256) (V c main_v52))

/-- The printed index maps over the grid: the two row-block operands and the first result move together, block `t` at
    point `t`; every other operand and the two sum rows stay at block (0, 0). -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_10.index t (0 : Fin 2) = t.val
    ∧ win2_10.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_11.index t (0 : Fin 2) = 0
    ∧ win2_11.index t (1 : Fin 2) = 0
    ∧ win2_12.index t (0 : Fin 2) = 0
    ∧ win2_12.index t (1 : Fin 2) = 0 :=
  (by decide +kernel : ∀ t : Fin grid2.N, _)

theorem N2_eq : cfg2.N = 8 := N_2

/-- Row-block operand 0's block at point `t` is rows 2048·t … of its array. -/
theorem blk2_0 (c : Dev nD) (t : Fin cfg2.N) (p : Fin 2048) (i : Fin 16384) (hi : i.val = t.val * 2048 + p.val) (k : Fin 256) :
    toMat (a := 2048) (b := 256) (iblk2 V c 0 t) p k = toMat (a := 16384) (b := 256) (V c main_v48) i k := by
  have e := idx_facts2 t
  unfold toMat iblk2
  rw [View.read_apply]
  show V c main_v48 _ = V c main_v48 _
  congr 1
  funext a; apply Fin.ext
  match a with
  | ⟨0, _⟩ => show win2_0.index t (0 : Fin 2) * 2048 + 1 * p.val = i.val; omega
  | ⟨1, _⟩ => show win2_0.index t (1 : Fin 2) * 256 + 1 * k.val = k.val; omega

/-- Row-block operand 1's block at point `t` is rows 2048·t … of its array. -/
theorem blk2_1 (c : Dev nD) (t : Fin cfg2.N) (p : Fin 2048) (i : Fin 16384) (hi : i.val = t.val * 2048 + p.val) (k : Fin 256) :
    toMat (a := 2048) (b := 256) (iblk2 V c 1 t) p k = toMat (a := 16384) (b := 256) (V c main_v31) i k := by
  have e := idx_facts2 t
  unfold toMat iblk2
  rw [View.read_apply]
  show V c main_v31 _ = V c main_v31 _
  congr 1
  funext a; apply Fin.ext
  match a with
  | ⟨0, _⟩ => show win2_1.index t (0 : Fin 2) * 2048 + 1 * p.val = i.val; omega
  | ⟨1, _⟩ => show win2_1.index t (1 : Fin 2) * 256 + 1 * k.val = k.val; omega

theorem row2_3 (c : Dev nD) (t : Fin cfg2.N) (k : Fin 256) :
    toRow (a := 256) (iblk2 V c 3 t) k = toRow (a := 256) (V c main_v49) k := by
  have e := idx_facts2 t
  unfold toRow iblk2
  rw [View.read_apply]
  show V c main_v49 _ = V c main_v49 _
  congr 1
  funext a; apply Fin.ext
  match a with
  | ⟨0, _⟩ => show win2_3.index t (0 : Fin 2) * 1 + 1 * 0 = 0; omega
  | ⟨1, _⟩ => show win2_3.index t (1 : Fin 2) * 256 + 1 * k.val = k.val; omega

theorem row2_5 (c : Dev nD) (t : Fin cfg2.N) (k : Fin 256) :
    toRow (a := 256) (iblk2 V c 5 t) k = toRow (a := 256) (V c main_v50) k := by
  have e := idx_facts2 t
  unfold toRow iblk2
  rw [View.read_apply]
  show V c main_v50 _ = V c main_v50 _
  congr 1
  funext a; apply Fin.ext
  match a with
  | ⟨0, _⟩ => show win2_5.index t (0 : Fin 2) * 1 + 1 * 0 = 0; omega
  | ⟨1, _⟩ => show win2_5.index t (1 : Fin 2) * 256 + 1 * k.val = k.val; omega

theorem row2_7 (c : Dev nD) (t : Fin cfg2.N) (k : Fin 256) :
    toRow (a := 256) (iblk2 V c 7 t) k = toRow (a := 256) (V c main_v51) k := by
  have e := idx_facts2 t
  unfold toRow iblk2
  rw [View.read_apply]
  show V c main_v51 _ = V c main_v51 _
  congr 1
  funext a; apply Fin.ext
  match a with
  | ⟨0, _⟩ => show win2_7.index t (0 : Fin 2) * 1 + 1 * 0 = 0; omega
  | ⟨1, _⟩ => show win2_7.index t (1 : Fin 2) * 256 + 1 * k.val = k.val; omega

theorem row2_9 (c : Dev nD) (t : Fin cfg2.N) (k : Fin 256) :
    toRow (a := 256) (iblk2 V c 9 t) k = toRow (a := 256) (V c main_v52) k := by
  have e := idx_facts2 t
  unfold toRow iblk2
  rw [View.read_apply]
  show V c main_v52 _ = V c main_v52 _
  congr 1
  funext a; apply Fin.ext
  match a with
  | ⟨0, _⟩ => show win2_9.index t (0 : Fin 2) * 1 + 1 * 0 = 0; omega
  | ⟨1, _⟩ => show win2_9.index t (1 : Fin 2) * 256 + 1 * k.val = k.val; omega

theorem mat2_2 (c : Dev nD) (t : Fin cfg2.N) (k l : Fin 256) :
    toMat (a := 256) (b := 256) (iblk2 V c 2 t) k l = toMat (a := 256) (b := 256) (V c main_arg20) k l := by
  have e := idx_facts2 t
  unfold toMat iblk2
  rw [View.read_apply]
  show V c main_arg20 _ = V c main_arg20 _
  congr 1
  funext a; apply Fin.ext
  match a with
  | ⟨0, _⟩ => show win2_2.index t (0 : Fin 2) * 256 + 1 * k.val = k.val; omega
  | ⟨1, _⟩ => show win2_2.index t (1 : Fin 2) * 256 + 1 * l.val = l.val; omega

theorem mat2_4 (c : Dev nD) (t : Fin cfg2.N) (k l : Fin 256) :
    toMat (a := 256) (b := 256) (iblk2 V c 4 t) k l = toMat (a := 256) (b := 256) (V c main_arg22) k l := by
  have e := idx_facts2 t
  unfold toMat iblk2
  rw [View.read_apply]
  show V c main_arg22 _ = V c main_arg22 _
  congr 1
  funext a; apply Fin.ext
  match a with
  | ⟨0, _⟩ => show win2_4.index t (0 : Fin 2) * 256 + 1 * k.val = k.val; omega
  | ⟨1, _⟩ => show win2_4.index t (1 : Fin 2) * 256 + 1 * l.val = l.val; omega

theorem mat2_6 (c : Dev nD) (t : Fin cfg2.N) (k l : Fin 256) :
    toMat (a := 256) (b := 256) (iblk2 V c 6 t) k l = toMat (a := 256) (b := 256) (V c main_arg24) k l := by
  have e := idx_facts2 t
  unfold toMat iblk2
  rw [View.read_apply]
  show V c main_arg24 _ = V c main_arg24 _
  congr 1
  funext a; apply Fin.ext
  match a with
  | ⟨0, _⟩ => show win2_6.index t (0 : Fin 2) * 256 + 1 * k.val = k.val; omega
  | ⟨1, _⟩ => show win2_6.index t (1 : Fin 2) * 256 + 1 * l.val = l.val; omega

theorem mat2_8 (c : Dev nD) (t : Fin cfg2.N) (k l : Fin 256) :
    toMat (a := 256) (b := 256) (iblk2 V c 8 t) k l = toMat (a := 256) (b := 256) (V c main_arg26) k l := by
  have e := idx_facts2 t
  unfold toMat iblk2
  rw [View.read_apply]
  show V c main_arg26 _ = V c main_arg26 _
  congr 1
  funext a; apply Fin.ext
  match a with
  | ⟨0, _⟩ => show win2_8.index t (0 : Fin 2) * 256 + 1 * k.val = k.val; omega
  | ⟨1, _⟩ => show win2_8.index t (1 : Fin 2) * 256 + 1 * l.val = l.val; omega

/-- The block of `h` the body computes at point `t` is rows 2048·t … of the whole hidden layer. -/
theorem hblk2_apply (c : Dev nD) (t : Fin cfg2.N) (p : Fin 2048) (q : Fin 256) (i : Fin 16384) (hi : i.val = t.val * 2048 + p.val) :
    hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ValueIdx.ix2 p q) = H2 V c i q := by
  refine (k2_h_apply _ _ _ _ _ _ _ _ _ _ p q).trans ?_
  exact hidK_congr q (blk2_0 V c t p i hi) (blk2_1 V c t p i hi) (mat2_2 V c t) (row2_3 V c t) (mat2_4 V c t) (row2_5 V c t)
    (mat2_6 V c t) (row2_7 V c t) (mat2_8 V c t) (row2_9 V c t)

/-- The three result blocks after a first point (the sum rows reset, then the block's column sums added). -/
theorem outs2_A (c : Dev nD) (t : Fin cfg2.N) (h0 : t.val % 8 = 0) :
    outsAt2 V c t.val t.isLt = (hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t), k2_pay2 (F := Ideal) (k2_pay6 (iblk2 V c 0 t) (iblk2 V c 4 t) (iblk2 V c 5 t) (iblk2 V c 1 t) (iblk2 V c 2 t) (iblk2 V c 3 t) (iblk2 V c 6 t) (iblk2 V c 7 t)) (iblk2 V c 8 t) (iblk2 V c 9 t) (k2_pay4 (F := Ideal)), k2_pay3 (F := Ideal) (k2_pay6 (iblk2 V c 0 t) (iblk2 V c 4 t) (iblk2 V c 5 t) (iblk2 V c 1 t) (iblk2 V c 2 t) (iblk2 V c 3 t) (iblk2 V c 6 t) (iblk2 V c 7 t)) (iblk2 V c 8 t) (iblk2 V c 9 t) (k2_pay5 (F := Ideal))) := by
  rw [outsAt2_A V c t h0, outA2_10, outA2_11, outA2_12]

/-- The three result blocks after a later point (the block's column sums added to what the point before left). -/
theorem outs2_B (c : Dev nD) (t : Fin cfg2.N) (h0 : ¬t.val % 8 = 0) :
    outsAt2 V c t.val t.isLt = (hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t), k2_pay2 (F := Ideal) (k2_pay6 (iblk2 V c 0 t) (iblk2 V c 4 t) (iblk2 V c 5 t) (iblk2 V c 1 t) (iblk2 V c 2 t) (iblk2 V c 3 t) (iblk2 V c 6 t) (iblk2 V c 7 t)) (iblk2 V c 8 t) (iblk2 V c 9 t) (outsAt2 V c (t.val - 1) (Nat.lt_of_le_of_lt (Nat.sub_le _ _) t.isLt)).2.1, k2_pay3 (F := Ideal) (k2_pay6 (iblk2 V c 0 t) (iblk2 V c 4 t) (iblk2 V c 5 t) (iblk2 V c 1 t) (iblk2 V c 2 t) (iblk2 V c 3 t) (iblk2 V c 6 t) (iblk2 V c 7 t)) (iblk2 V c 8 t) (iblk2 V c 9 t) (outsAt2 V c (t.val - 1) (Nat.lt_of_le_of_lt (Nat.sub_le _ _) t.isLt)).2.2) := by
  rw [outsAt2_B V c t h0, outB2_10, outB2_11, outB2_12]

/-- What the first result block holds after point `t`: the block of `h` of that point. -/
theorem outs2_h (c : Dev nD) (t : Fin cfg2.N) :
    (outsAt2 V c t.val t.isLt).1 = hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by
  by_cases h0 : t.val % 8 = 0
  · rw [outs2_A V c t h0]
  · rw [outs2_B V c t h0]

/-- The column sums of block `t` of `h`. -/
theorem bsum2_eq (c : Dev nD) (t : Fin cfg2.N) (q : Fin 256) :
    ∑ p : Fin 2048, hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ValueIdx.ix2 p q) = bsumOf (fun i => H2 V c i q) t.val := by
  have ht : t.val < 8 := lt_of_lt_of_eq t.isLt N2_eq
  unfold bsumOf
  rw [dif_pos ht]
  exact Finset.sum_congr rfl fun p _ => hblk2_apply V c t p q (Cert.Spec.blockIdx h8 ⟨t.val, ht⟩ p) rfl

theorem bsq2_eq (c : Dev nD) (t : Fin cfg2.N) (q : Fin 256) :
    ∑ p : Fin 2048, hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ValueIdx.ix2 p q) * hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ValueIdx.ix2 p q)
      = bsumOf (fun i => H2 V c i q * H2 V c i q) t.val := by
  have ht : t.val < 8 := lt_of_lt_of_eq t.isLt N2_eq
  unfold bsumOf
  rw [dif_pos ht]
  exact Finset.sum_congr rfl fun p _ => by rw [hblk2_apply V c t p q (Cert.Spec.blockIdx h8 ⟨t.val, ht⟩ p) rfl]

/-- THE RUNNING SUMS. After point number `n` the sum row holds, in column `q`, the sum of `h` over the first `n + 1` blocks. -/
theorem outs2_sum (c : Dev nD) : ∀ (n : ℕ) (t : Fin cfg2.N), t.val = n → ∀ (u : Fin 1) (q : Fin 256),
    (outsAt2 V c t.val t.isLt).2.1 (ValueIdx.ix2 u q) = ∑ s ∈ Finset.range (n + 1), bsumOf (fun i => H2 V c i q) s
  | 0, t, ht, u, q => by
    have h0 : t.val % 8 = 0 := by rw [ht]
    rw [outs2_A V c t h0]
    refine (k2_sum_apply _ _ _ _ u q).trans ?_
    rw [k2_zero4, zero_add, Finset.sum_range_one, ← ht]
    exact bsum2_eq V c t q
  | n + 1, t, ht, u, q => by
    have hN : cfg2.N = 8 := N2_eq
    have hlt := t.isLt
    have hB : ¬t.val % 8 = 0 := by omega
    have hb : (∑ p : Fin 2048, hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ValueIdx.ix2 p q)) = bsumOf (fun i => H2 V c i q) (n + 1) := by
      rw [← ht]; exact bsum2_eq V c t q
    have ih := outs2_sum c n ⟨t.val - 1, by omega⟩ (by show t.val - 1 = n; omega) u q
    rw [outs2_B V c t hB]
    refine (k2_sum_apply _ _ _ _ u q).trans ?_
    rw [Finset.sum_range_succ, ← ih]
    exact congrArg₂ (· + ·) rfl hb

/-- The running sums of squares likewise. -/
theorem outs2_sq (c : Dev nD) : ∀ (n : ℕ) (t : Fin cfg2.N), t.val = n → ∀ (u : Fin 1) (q : Fin 256),
    (outsAt2 V c t.val t.isLt).2.2 (ValueIdx.ix2 u q) = ∑ s ∈ Finset.range (n + 1), bsumOf (fun i => H2 V c i q * H2 V c i q) s
  | 0, t, ht, u, q => by
    have h0 : t.val % 8 = 0 := by rw [ht]
    rw [outs2_A V c t h0]
    refine (k2_sumsq_apply _ _ _ _ u q).trans ?_
    rw [k2_zero5, zero_add, Finset.sum_range_one, ← ht]
    exact bsq2_eq V c t q
  | n + 1, t, ht, u, q => by
    have hN : cfg2.N = 8 := N2_eq
    have hlt := t.isLt
    have hB : ¬t.val % 8 = 0 := by omega
    have hb : (∑ p : Fin 2048, hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ValueIdx.ix2 p q) * hPay2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ValueIdx.ix2 p q))
        = bsumOf (fun i => H2 V c i q * H2 V c i q) (n + 1) := by
      rw [← ht]; exact bsq2_eq V c t q
    have ih := outs2_sq c n ⟨t.val - 1, by omega⟩ (by show t.val - 1 = n; omega) u q
    rw [outs2_B V c t hB]
    refine (k2_sumsq_apply _ _ _ _ u q).trans ?_
    rw [Finset.sum_range_succ, ← ih]
    exact congrArg₂ (· + ·) rfl hb

theorem h7_2 : 7 < cfg2.N := by rw [N2_eq]; decide

/-- After the last point the sum row holds the column sums over all rows, the other row those of the squares. -/
theorem tot2_sum (c : Dev nD) (u : Fin 1) (q : Fin 256) :
    (outsAt2 V c 7 h7_2).2.1 (ValueIdx.ix2 u q) = ∑ i : Fin 16384, H2 V c i q :=
  (outs2_sum V c 7 ⟨7, h7_2⟩ rfl u q).trans (bsum_total _)
theorem tot2_sq (c : Dev nD) (u : Fin 1) (q : Fin 256) :
    (outsAt2 V c 7 h7_2).2.2 (ValueIdx.ix2 u q) = ∑ i : Fin 16384, H2 V c i q * H2 V c i q :=
  (outs2_sq V c 7 ⟨7, h7_2⟩ rfl u q).trans (bsum_total _)

end Cert.KernelIdeal.Hand

end
-- ==== Proof.KFin2.lean ====
/-
  Pallas_call 2 of the idealized kernel, continued: its three result arrays after the call, at any entry contents `V`.
  The hidden-layer array is filled block by block (every point writes its block back, and the eight blocks fill the
  array); each of the two sum rows is written back once, after the last point, and its one block is the whole row.
-/
import proofs.«136727_j87875030876560_1_alg».proof.Proof.KReg2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Linkx

variable (V : (c : Dev nD) → (b : Ref sig .tc) → Buf (Elt Ideal) ((c : Thread nD τ).loc b))

/-- What the hidden-layer array ends holding. -/
def G2_10 (c : Dev nD) : Buf (Elt Ideal) ((c : Thread nD τ).loc main_v53_0) := ofMat (a := 16384) (b := 256) (H2 V c)

/-- What point `t` writes back is block `t` of it. -/
theorem flushed2_10 (c : Dev nD) (t : Fin cfg2.N) :
    (dat2 V c).flushed 10 t = ((cfg2.win 10).blk t).view.read (Elt Ideal) (G2_10 V c) := by
  show (cfg2.win 10).cut (grid2.coords t) ((dat2 V c).after 10 t) = _
  rw [after2_10, outs2_h]
  funext j
  obtain ⟨p, q, rfl⟩ : ∃ (p : Fin 2048) (q : Fin 256), j = ValueIdx.ix2 p q := ⟨j 0, j 1, ValueIdx.eq_ix2 j⟩
  have ht : t.val < 8 := lt_of_lt_of_eq t.isLt N2_eq
  have hp : p.val < 2048 := p.isLt
  have hi : t.val * 2048 + p.val < 16384 := by omega
  refine (hblk2_apply V c t p q (⟨t.val * 2048 + p.val, hi⟩ : Fin 16384) rfl).trans ?_
  rw [View.read_apply]
  obtain ⟨-, -, -, -, e4, e5, -⟩ := idx_facts2 t
  have hy0 : ((((cfg2.win 10).blk t).view.emb (ValueIdx.ix2 p q) : S16384x256.Idx) 0 : Fin 16384) = (⟨t.val * 2048 + p.val, hi⟩ : Fin 16384) := by
    apply Fin.ext
    show win2_10.index t (0 : Fin 2) * 2048 + 1 * p.val = t.val * 2048 + p.val
    rw [e4]; omega
  have hy1 : (((cfg2.win 10).blk t).view.emb (ValueIdx.ix2 p q) : S16384x256.Idx) 1 = q := by
    apply Fin.ext
    show win2_10.index t (1 : Fin 2) * 256 + 1 * q.val = q.val
    rw [e5]; omega
  show _ = H2 V c ((((cfg2.win 10).blk t).view.emb (ValueIdx.ix2 p q) : S16384x256.Idx) 0) ((((cfg2.win 10).blk t).view.emb (ValueIdx.ix2 p q) : S16384x256.Idx) 1)
  rw [hy0, hy1]

theorem mem_blk2_10 (t : Fin cfg2.N) (i : S16384x256.Idx) :
    i ∈ ((cfg2.win 10).blk t).view.set ↔ ∀ a : Fin 2, win2_10.index t a * S2048x256.size a ≤ (i a).val ∧ (i a).val < win2_10.index t a * S2048x256.size a + S2048x256.size a := by
  show i ∈ ((View.whole main_v53_0).slice (win2_10.rect t)).set ↔ _
  rw [View.set_slice_whole, Rect.mem_set_unit]
  exact Iff.rfl

theorem cover2_10 (i : S16384x256.Idx) : ∃ t : Fin cfg2.N, (cfg2.win 10).flush t = true ∧ i ∈ ((cfg2.win 10).blk t).view.set := by
  have hi0 : (i 0).val < 16384 := (i 0).isLt
  have hi1 : (i 1).val < 256 := (i 1).isLt
  have hN : cfg2.N = 8 := N2_eq
  refine ⟨⟨(i 0).val / 2048, by rw [hN]; omega⟩, flush2_10 _, ?_⟩
  rw [mem_blk2_10]
  obtain ⟨-, -, -, -, e4, e5, -⟩ := idx_facts2 ⟨(i 0).val / 2048, by rw [hN]; omega⟩
  intro a
  match a with
  | ⟨0, _⟩ => show win2_10.index _ (0 : Fin 2) * 2048 ≤ (i 0).val ∧ (i 0).val < win2_10.index _ (0 : Fin 2) * 2048 + 2048
              rw [e4]; dsimp only; omega
  | ⟨1, _⟩ => show win2_10.index _ (1 : Fin 2) * 256 ≤ (i 1).val ∧ (i 1).val < win2_10.index _ (1 : Fin 2) * 256 + 256
              rw [e5]; omega

theorem final2_10 (c : Dev nD) : (dat2 V c).arrAt 10 cfg2.N = G2_10 V c :=
  (dat2 V c).arrAt_eq_of_cover 10 (G2_10 V c) (fun t _ => flushed2_10 V c t) cover2_10

/-- What the sum row's array ends holding: the row the last point leaves. -/
def G2_11 (c : Dev nD) : Buf (Elt Ideal) ((c : Thread nD τ).loc main_v53_1) := (outsAt2 V c 7 h7_2).2.1

/-- Its one write-back, after the last point, writes that row: block (0, 0) of the one-row array is the array. -/
theorem flushed2_11 (c : Dev nD) (t : Fin cfg2.N) (hf : (cfg2.win 11).flush t = true) :
    (dat2 V c).flushed 11 t = ((cfg2.win 11).blk t).view.read (Elt Ideal) (G2_11 V c) := by
  have hN : cfg2.N = 8 := N2_eq
  have h7 : t.val = 7 := by have := (flush2_11 t).mp hf; have := t.isLt; omega
  obtain rfl : t = t2_7 := Fin.ext h7
  show (cfg2.win 11).cut (grid2.coords t2_7) ((dat2 V c).after 11 t2_7) = _
  rw [after2_11]
  have hz' : (fun a => win2_11.index t2_7 a * main_v53_1.ty.shape.size a) = fun _ => 0 := funext fun a => by fin_cases a <;> decide
  exact (Memref.read_access_unit_zero (Elt Ideal) main_v53_1 hz' (fun a => by rw [congrFun hz' a]; simp) (G2_11 V c)).symm

theorem cover2_11 (i : S1x256.Idx) : ∃ t : Fin cfg2.N, (cfg2.win 11).flush t = true ∧ i ∈ ((cfg2.win 11).blk t).view.set :=
  ⟨t2_7, (flush2_11 t2_7).mpr rfl, by
    show i ∈ ((View.whole main_v53_1).slice (win2_11.rect t2_7)).set
    rw [View.set_slice_whole, Rect.mem_set_unit]
    intro a
    have h0 : (i 0 : Nat) < 1 := (i 0).isLt
    have h1 : (i 1 : Nat) < 256 := (i 1).isLt
    match a with
    | ⟨0, _⟩ => show win2_11.index t2_7 0 * win2_11.size 0 ≤ (i 0 : Nat) ∧ (i 0 : Nat) < win2_11.index t2_7 0 * win2_11.size 0 + win2_11.xsize (grid2.coords t2_7) 0
                rw [show win2_11.index t2_7 0 * win2_11.size 0 = 0 from by decide +kernel, show win2_11.xsize (grid2.coords t2_7) 0 = 1 from by decide +kernel]; omega
    | ⟨1, _⟩ => show win2_11.index t2_7 1 * win2_11.size 1 ≤ (i 1 : Nat) ∧ (i 1 : Nat) < win2_11.index t2_7 1 * win2_11.size 1 + win2_11.xsize (grid2.coords t2_7) 1
                rw [show win2_11.index t2_7 1 * win2_11.size 1 = 0 from by decide +kernel, show win2_11.xsize (grid2.coords t2_7) 1 = 256 from by decide +kernel]; omega⟩

theorem final2_11 (c : Dev nD) : (dat2 V c).arrAt 11 cfg2.N = G2_11 V c :=
  (dat2 V c).arrAt_eq_of_cover 11 (G2_11 V c) (flushed2_11 V c) cover2_11

/-- What the sum-of-squares row's array ends holding: the row the last point leaves. -/
def G2_12 (c : Dev nD) : Buf (Elt Ideal) ((c : Thread nD τ).loc main_v53_2) := (outsAt2 V c 7 h7_2).2.2

/-- Its one write-back, after the last point, writes that row: block (0, 0) of the one-row array is the array. -/
theorem flushed2_12 (c : Dev nD) (t : Fin cfg2.N) (hf : (cfg2.win 12).flush t = true) :
    (dat2 V c).flushed 12 t = ((cfg2.win 12).blk t).view.read (Elt Ideal) (G2_12 V c) := by
  have hN : cfg2.N = 8 := N2_eq
  have h7 : t.val = 7 := by have := (flush2_12 t).mp hf; have := t.isLt; omega
  obtain rfl : t = t2_7 := Fin.ext h7
  show (cfg2.win 12).cut (grid2.coords t2_7) ((dat2 V c).after 12 t2_7) = _
  rw [after2_12]
  have hz' : (fun a => win2_12.index t2_7 a * main_v53_2.ty.shape.size a) = fun _ => 0 := funext fun a => by fin_cases a <;> decide
  exact (Memref.read_access_unit_zero (Elt Ideal) main_v53_2 hz' (fun a => by rw [congrFun hz' a]; simp) (G2_12 V c)).symm

theorem cover2_12 (i : S1x256.Idx) : ∃ t : Fin cfg2.N, (cfg2.win 12).flush t = true ∧ i ∈ ((cfg2.win 12).blk t).view.set :=
  ⟨t2_7, (flush2_12 t2_7).mpr rfl, by
    show i ∈ ((View.whole main_v53_2).slice (win2_12.rect t2_7)).set
    rw [View.set_slice_whole, Rect.mem_set_unit]
    intro a
    have h0 : (i 0 : Nat) < 1 := (i 0).isLt
    have h1 : (i 1 : Nat) < 256 := (i 1).isLt
    match a with
    | ⟨0, _⟩ => show win2_12.index t2_7 0 * win2_12.size 0 ≤ (i 0 : Nat) ∧ (i 0 : Nat) < win2_12.index t2_7 0 * win2_12.size 0 + win2_12.xsize (grid2.coords t2_7) 0
                rw [show win2_12.index t2_7 0 * win2_12.size 0 = 0 from by decide +kernel, show win2_12.xsize (grid2.coords t2_7) 0 = 1 from by decide +kernel]; omega
    | ⟨1, _⟩ => show win2_12.index t2_7 1 * win2_12.size 1 ≤ (i 1 : Nat) ∧ (i 1 : Nat) < win2_12.index t2_7 1 * win2_12.size 1 + win2_12.xsize (grid2.coords t2_7) 1
                rw [show win2_12.index t2_7 1 * win2_12.size 1 = 0 from by decide +kernel, show win2_12.xsize (grid2.coords t2_7) 1 = 256 from by decide +kernel]; omega⟩

theorem final2_12 (c : Dev nD) : (dat2 V c).arrAt 12 cfg2.N = G2_12 V c :=
  (dat2 V c).arrAt_eq_of_cover 12 (G2_12 V c) (flushed2_12 V c) cover2_12

/-- The two rows, column by column: the sums of `h` and of `h²` over all rows. -/
theorem sumrow2 (c : Dev nD) (q : Fin 256) : toRow (a := 256) ((dat2 V c).arrAt 11 cfg2.N) q = ∑ i : Fin 16384, H2 V c i q := by
  rw [final2_11]; exact tot2_sum V c 0 q
theorem sqrow2 (c : Dev nD) (q : Fin 256) : toRow (a := 256) ((dat2 V c).arrAt 12 cfg2.N) q = ∑ i : Fin 16384, H2 V c i q * H2 V c i q := by
  rw [final2_12]; exact tot2_sq V c 0 q

end Cert.KernelIdeal.Hand

end
-- ==== Proof.Body3.lean ====
/-
  The normalising kernel body of the second layer, read at an entry.

  The body takes a block `h` of 2048 rows, the row of column means, the row of column variances, a scale row, a shift
  row, a 256 x 256 matrix and a bias row; it forms `((h - mean) * rsqrt (var + eps)) * scale + shift`, multiplies by the
  matrix and adds the bias.  On the extended reals every narrowing of a number format is the identity and the matrix
  product into the zero matrix is the plain sum, so entry `(p, q)` of the result is `normOut` of the operands at `(p, q)`.
-/
import proofs.«136727_j87875030876560_1_alg».proof.Proof.Gen.KernelIdeal.Skeleton
import proofs.«136727_j87875030876560_1_alg».proof.Proof.Spec
import proofs.«136727_j87875030876560_1_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Linkx Idealize.ShloMosaic Idealize.ShloMosaic.ValueIdx

/-- A `[1, 256]` row, cast to its own shape and spread over 2048 rows, reads at `(p, q)` the row's entry `q`. -/
theorem k3_row_apply (v : Vec Ideal S1x256 .f32) (p : Fin 2048) (q : Fin 256) :
    broadcastTo S2048x256 (shapeCast S1x256 v Facts₀.shapeCasts_S1x256_S1x256) Facts₀.broadcasts_S1x256_S2048x256 (ix2 p q)
      = toRow v q := by
  rw [shapeCast_self]
  exact broadcastTo_1b_ab_apply (a := 2048) (b := 256) v _ p q

/-- The product of a 2048 x 256 block with a 256 x 256 matrix into the zero block, at `(p, q)`. -/
theorem k3_mm_apply (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) :=
  Cert.LibMatmulPlain.matmul_zero_apply (M := 2048) (K := 256) (N := 256)
    dot_S2048x256_S256x256_S2048x256_1_0_0_1_n_n rfl rfl rfl rfl rfl rfl l r p q

/-- The normalising body at `(p, q)`. -/
theorem k3_apply (v0 : Vec Ideal S2048x256 .f32) (v2 v7 v13 v17 v25 : Vec Ideal S1x256 .f32) (v21 : Vec Ideal S256x256 .f32)
    (p : Fin 2048) (q : Fin 256) :
    k3_pay1 (F := Ideal) v0 v2 v7 v13 v17 v21 v25 (ix2 p q)
      = normOut (toMat v0) (toRow v7) (toRow v2) (toRow v13) (toRow v17) (toMat v21) (toRow v25) p q := by
  unfold k3_pay1
  rw [addf_apply, k3_row_apply, k3_mm_apply]
  unfold normOut mm
  refine congrArg (· + toRow v25 q) (Finset.sum_congr rfl fun k _ => ?_)
  rw [truncf_apply, truncf_apply, addf_apply, mulf_apply, mulf_apply, subf_apply, k3_row_apply, k3_row_apply, k3_row_apply,
    shapeCast_self]
  have hr : broadcastTo S2048x256
      (rsqrt (addf (shapeCast S1x256 v2 Facts₀.shapeCasts_S1x256_S1x256)
        (broadcast S1x256 (Scalar.ofBits (F := Ideal) .f32 0x3727C5AC#32)))) Facts₀.broadcasts_S1x256_S2048x256 (ix2 p k)
      = Ideal.rsqrt (toRow v2 k + ((epsR : ℝ) : EReal)) := by
    rw [broadcastTo_1b_ab_apply (a := 2048) (b := 256) _ _ p k, shapeCast_self, ← eps_eq]
    rfl
  rw [hr]
  rfl

end Cert.KernelIdeal.Hand

end
-- ==== Proof.KReg3.lean ====
/-
  Pallas_call 3 of the idealized kernel (the normalisation and last matrix product, one block of 2048 rows per grid
  point) at ANY contents `V` of the buffers when the call is entered: after the call its result array holds, row by
  row, `normOut` of the whole `h` array and the mean, variance, scale, shift, weight and bias rows.  Point `t` writes
  back block `t` (rows 2048·t … 2048·t + 2047), the one-row and weight operands are the same block at every point,
  and the eight blocks fill the array.
-/
import proofs.«136727_j87875030876560_1_alg».proof.Proof.Gen.KernelIdeal.Frame
import proofs.«136727_j87875030876560_1_alg».proof.Proof.Body3
import proofs.«136727_j87875030876560_1_alg».proof.Proof.KCommon
import proofs.«136727_j87875030876560_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Linkx

variable (V : (c : Dev nD) → (b : Ref sig .tc) → Buf (Elt Ideal) ((c : Thread nD τ).loc b))

/-- What the call's result array ends holding, of the arrays the call finds. -/
def G3 (c : Dev nD) : Buf (Elt Ideal) ((c : Thread nD τ).loc main_v63) :=
  ofMat (a := 16384) (b := 256) (normOut (toMat (a := 16384) (b := 256) (V c main_v53_0)) (toRow (a := 256) (V c main_v55))
    (toRow (a := 256) (V c main_v59)) (toRow (a := 256) (V c main_v60)) (toRow (a := 256) (V c main_v61))
    (toMat (a := 256) (b := 256) (V c main_arg30)) (toRow (a := 256) (V c main_v62)))

/-- The printed index maps over the grid: the row-block operand and the result move together, block `t` at point `t`;
    every other operand stays at block (0, 0). -/
theorem idx_facts3 : ∀ t : Fin cfg3.N, win3_0.index t (0 : Fin 2) = win3_7.index t (0 : Fin 2)
    ∧ win3_0.index t (1 : Fin 2) = 0 ∧ win3_7.index t (1 : Fin 2) = 0 ∧ win3_7.index t (0 : Fin 2) = t.val
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The row-block operand's block at point `t`, read as a matrix, is rows 2048·t … of the array. -/
theorem blk3_0 (c : Dev nD) (t : Fin cfg3.N) (p : Fin 2048) (k : Fin 256) (y : S16384x256.Idx)
    (hy0 : (y 0).val = win3_7.index t (0 : Fin 2) * 2048 + 1 * p.val) :
    toMat (a := 2048) (b := 256) (iblk3 V c 0 t) p k = toMat (a := 16384) (b := 256) (V c main_v53_0) (y 0) k := by
  obtain ⟨e0, e1, -⟩ := idx_facts3 t
  unfold toMat iblk3
  rw [View.read_apply]
  show V c main_v53_0 _ = V c main_v53_0 _
  congr 1
  funext a; apply Fin.ext
  match a with
  | ⟨0, _⟩ => show win3_0.index t (0 : Fin 2) * 2048 + 1 * p.val = (y 0).val; rw [hy0, e0]
  | ⟨1, _⟩ => show win3_0.index t (1 : Fin 2) * 256 + 1 * k.val = k.val; rw [e1]; omega

/-! A one-row operand's block is the whole row at every point. -/

theorem row3_1 (c : Dev nD) (t : Fin cfg3.N) (k : Fin 256) :
    toRow (a := 256) (iblk3 V c 1 t) k = toRow (a := 256) (V c main_v55) k := by
  have e := idx_facts3 t
  unfold toRow iblk3
  rw [View.read_apply]
  show V c main_v55 _ = V c main_v55 _
  congr 1
  funext a; apply Fin.ext
  match a with
  | ⟨0, _⟩ => show win3_1.index t (0 : Fin 2) * 1 + 1 * 0 = 0; omega
  | ⟨1, _⟩ => show win3_1.index t (1 : Fin 2) * 256 + 1 * k.val = k.val; omega

theorem row3_2 (c : Dev nD) (t : Fin cfg3.N) (k : Fin 256) :
    toRow (a := 256) (iblk3 V c 2 t) k = toRow (a := 256) (V c main_v59) k := by
  have e := idx_facts3 t
  unfold toRow iblk3
  rw [View.read_apply]
  show V c main_v59 _ = V c main_v59 _
  congr 1
  funext a; apply Fin.ext
  match a with
  | ⟨0, _⟩ => show win3_2.index t (0 : Fin 2) * 1 + 1 * 0 = 0; omega
  | ⟨1, _⟩ => show win3_2.index t (1 : Fin 2) * 256 + 1 * k.val = k.val; omega

theorem row3_3 (c : Dev nD) (t : Fin cfg3.N) (k : Fin 256) :
    toRow (a := 256) (iblk3 V c 3 t) k = toRow (a := 256) (V c main_v60) k := by
  have e := idx_facts3 t
  unfold toRow iblk3
  rw [View.read_apply]
  show V c main_v60 _ = V c main_v60 _
  congr 1
  funext a; apply Fin.ext
  match a with
  | ⟨0, _⟩ => show win3_3.index t (0 : Fin 2) * 1 + 1 * 0 = 0; omega
  | ⟨1, _⟩ => show win3_3.index t (1 : Fin 2) * 256 + 1 * k.val = k.val; omega

theorem row3_4 (c : Dev nD) (t : Fin cfg3.N) (k : Fin 256) :
    toRow (a := 256) (iblk3 V c 4 t) k = toRow (a := 256) (V c main_v61) k := by
  have e := idx_facts3 t
  unfold toRow iblk3
  rw [View.read_apply]
  show V c main_v61 _ = V c main_v61 _
  congr 1
  funext a; apply Fin.ext
  match a with
  | ⟨0, _⟩ => show win3_4.index t (0 : Fin 2) * 1 + 1 * 0 = 0; omega
  | ⟨1, _⟩ => show win3_4.index t (1 : Fin 2) * 256 + 1 * k.val = k.val; omega

theorem row3_6 (c : Dev nD) (t : Fin cfg3.N) (k : Fin 256) :
    toRow (a := 256) (iblk3 V c 6 t) k = toRow (a := 256) (V c main_v62) k := by
  have e := idx_facts3 t
  unfold toRow iblk3
  rw [View.read_apply]
  show V c main_v62 _ = V c main_v62 _
  congr 1
  funext a; apply Fin.ext
  match a with
  | ⟨0, _⟩ => show win3_6.index t (0 : Fin 2) * 1 + 1 * 0 = 0; omega
  | ⟨1, _⟩ => show win3_6.index t (1 : Fin 2) * 256 + 1 * k.val = k.val; omega

/-- The weight operand's block is the whole matrix at every point. -/
theorem mat3_5 (c : Dev nD) (t : Fin cfg3.N) (k l : Fin 256) :
    toMat (a := 256) (b := 256) (iblk3 V c 5 t) k l = toMat (a := 256) (b := 256) (V c main_arg30) k l := by
  have e := idx_facts3 t
  unfold toMat iblk3
  rw [View.read_apply]
  show V c main_arg30 _ = V c main_arg30 _
  congr 1
  funext a; apply Fin.ext
  match a with
  | ⟨0, _⟩ => show win3_5.index t (0 : Fin 2) * 256 + 1 * k.val = k.val; omega
  | ⟨1, _⟩ => show win3_5.index t (1 : Fin 2) * 256 + 1 * l.val = l.val; omega

/-- What point `t` writes back is block `t` of `G3`. -/
theorem flushed3_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz]
  simp only [View.ld_unit_zero (S := S2048x256) hz, View.ld_unit_zero (S := S1x256) hz, View.ld_unit_zero (S := S256x256) hz]
  funext j
  obtain ⟨p, q, rfl⟩ : ∃ (p : Fin 2048) (q : Fin 256), j = ValueIdx.ix2 p q := ⟨j 0, j 1, ValueIdx.eq_ix2 j⟩
  refine (k3_apply _ _ _ _ _ _ _ p q).trans ?_
  rw [View.read_apply]
  have hy0 : ((((cfg3.win 7).blk t).view.emb (ValueIdx.ix2 p q) : S16384x256.Idx) 0).val = win3_7.index t (0 : Fin 2) * 2048 + 1 * p.val := rfl
  have hy1 : (((cfg3.win 7).blk t).view.emb (ValueIdx.ix2 p q) : S16384x256.Idx) 1 = q := by
    obtain ⟨-, -, e2, -⟩ := idx_facts3 t
    apply Fin.ext
    show win3_7.index t (1 : Fin 2) * 256 + 1 * q.val = q.val
    rw [e2]; omega
  show _ = normOut _ _ _ _ _ _ _ ((((cfg3.win 7).blk t).view.emb (ValueIdx.ix2 p q) : S16384x256.Idx) 0) ((((cfg3.win 7).blk t).view.emb (ValueIdx.ix2 p q) : S16384x256.Idx) 1)
  rw [hy1]
  exact normOut_congr q (fun k => blk3_0 V c t p k _ hy0) (row3_1 V c t) (row3_2 V c t) (row3_3 V c t) (row3_4 V c t)
    (mat3_5 V c t) (row3_6 V c t)

/-- An index of the array is in point `t`'s block iff each coordinate is in the block's range on its axis. -/
theorem mem_blk3 (t : Fin cfg3.N) (i : S16384x256.Idx) :
    i ∈ ((cfg3.win 7).blk t).view.set ↔ ∀ a : Fin 2, win3_7.index t a * S2048x256.size a ≤ (i a).val ∧ (i a).val < win3_7.index t a * S2048x256.size a + S2048x256.size a := by
  show i ∈ ((View.whole main_v63).slice (win3_7.rect t)).set ↔ _
  rw [View.set_slice_whole, Rect.mem_set_unit]
  exact Iff.rfl

/-- The eight blocks fill the array: row `r` is in block `r / 2048`. -/
theorem cover3 (i : S16384x256.Idx) : ∃ t : Fin cfg3.N, (cfg3.win 7).flush t = true ∧ i ∈ ((cfg3.win 7).blk t).view.set := by
  have hi0 : (i 0).val < 16384 := (i 0).isLt
  have hi1 : (i 1).val < 256 := (i 1).isLt
  have hN : cfg3.N = 8 := N_3
  refine ⟨⟨(i 0).val / 2048, by rw [hN]; omega⟩, flush3_7 _, ?_⟩
  rw [mem_blk3]
  obtain ⟨-, -, e2, e3, -⟩ := idx_facts3 ⟨(i 0).val / 2048, by rw [hN]; omega⟩
  intro a
  match a with
  | ⟨0, _⟩ => show win3_7.index _ (0 : Fin 2) * 2048 ≤ (i 0).val ∧ (i 0).val < win3_7.index _ (0 : Fin 2) * 2048 + 2048
              rw [e3]; dsimp only; omega
  | ⟨1, _⟩ => show win3_7.index _ (1 : Fin 2) * 256 ≤ (i 1).val ∧ (i 1).val < win3_7.index _ (1 : Fin 2) * 256 + 256
              rw [e2]; omega

/-- The result array after the call. -/
theorem final3 (c : Dev nD) : (dat3 V c).arrAt 7 cfg3.N = G3 V c :=
  (dat3 V c).arrAt_eq_of_cover 7 (G3 V c) (fun t _ => flushed3_eq V c t) (cover3)

end Cert.KernelIdeal.Hand

end
-- ==== Proof.KRun.lean ====
/-
  The idealized kernel's run with its result named: every weakly fair execution of @main terminates, nothing
  faulting, with the result array at the contents the last boundary of the run's fold gives it and every argument
  array as launched.  The fold (the buffer contents at each boundary between a stretch of host operations and a
  pallas_call) is the generated frame's; the later modules read it back to the launch contents.
-/
import proofs.«136727_j87875030876560_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result array named. -/
theorem run_value : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c),
       (h c _ (mem_uc main_arg27 (by decide))).trans (W9_main_arg27 m ρ c),
       (h c _ (mem_uc main_arg28 (by decide))).trans (W9_main_arg28 m ρ c),
       (h c _ (mem_uc main_arg29 (by decide))).trans (W9_main_arg29 m ρ c),
       (h c _ (mem_uc main_arg30 (by decide))).trans (W9_main_arg30 m ρ c),
       (h c _ (mem_uc main_arg31 (by decide))).trans (W9_main_arg31 m ρ c)⟩)

end Cert.KernelIdeal.Gen

end
-- ==== Proof.KChain.lean ====
/-
  The program's run read back to the launch memory.

  The second layer repeats the first on the first layer's result: the third host stretch leaves the second aggregated
  edge embedding and bias rows and does not write the first layer's result array; the third call leaves the hidden
  layer and its two sum rows; the fourth host stretch forms the mean and variance rows; the fourth call normalises and
  applies the last matrix.  The last host operation puts that result and the node features side by side.  So the
  result buffer of the run holds the two layers, in the arrangement that takes the variance as the mean of the squares
  minus the square of the mean, of the launch contents, beside the node features; and every argument is as launched.
-/
import proofs.«136727_j87875030876560_1_alg».proof.Proof.Gen.KernelIdeal.Frame
import proofs.«136727_j87875030876560_1_alg».proof.Proof.Spec
import proofs.«136727_j87875030876560_1_alg».proof.Proof.KEmb
import proofs.«136727_j87875030876560_1_alg».proof.Proof.KHost
import proofs.«136727_j87875030876560_1_alg».proof.Proof.KArgs
import proofs.«136727_j87875030876560_1_alg».proof.Proof.KChain1
import proofs.«136727_j87875030876560_1_alg».proof.Proof.KFin2
import proofs.«136727_j87875030876560_1_alg».proof.Proof.KReg3
import proofs.«136727_j87875030876560_1_alg».proof.Proof.KRun

set_option maxRecDepth 16384

noncomputable section

namespace Cert.KernelIdeal.Hand

open Idealize.ShloMosaic Idealize.ShloMosaic.TcCoe Idealize.SL.Sem
open Cert.KernelIdeal Cert.KernelIdeal.Gen Cert.Linkx

variable (m : (ℓ : Loc nD τ sig) → Buf (Elt Ideal) ℓ) (ρ : Dev nD → PrngReg)

/-- The last host operation: two arrays of 256 columns side by side. -/
def lastOpK (a x : FVec Ideal S16384x256 .f32) : FVec Ideal S16384x512 .f32 :=
  concatenate S16384x512 1 [⟨S16384x256, a⟩, ⟨S16384x256, x⟩] Facts₀.concatenates_S16384x256_S16384x256_S16384x512_d1

/-- The second layer of the launch contents: its node features are the first layer. -/
def L2K (c : Dev nD) : Mat 16384 256 :=
  layerK (toMat (a := 16384) (b := 256) (embArrK (m ((c : Thread nD τ).loc main_arg18)) (m ((c : Thread nD τ).loc main_arg19)) (m ((c : Thread nD τ).loc main_arg2))))
    (L1K m c)
    (toMat (a := 256) (b := 256) (m ((c : Thread nD τ).loc main_arg20))) (toVec (a := 256) (m ((c : Thread nD τ).loc main_arg21))) (toMat (a := 256) (b := 256) (m ((c : Thread nD τ).loc main_arg22))) (toVec (a := 256) (m ((c : Thread nD τ).loc main_arg23)))
    (toMat (a := 256) (b := 256) (m ((c : Thread nD τ).loc main_arg24))) (toVec (a := 256) (m ((c : Thread nD τ).loc main_arg25))) (toMat (a := 256) (b := 256) (m ((c : Thread nD τ).loc main_arg26))) (toVec (a := 256) (m ((c : Thread nD τ).loc main_arg27)))
    (toVec (a := 256) (m ((c : Thread nD τ).loc main_arg28))) (toVec (a := 256) (m ((c : Thread nD τ).loc main_arg29))) (toMat (a := 256) (b := 256) (m ((c : Thread nD τ).loc main_arg30))) (toVec (a := 256) (m ((c : Thread nD τ).loc main_arg31)))

/-! ## Layer 2 -/

/-- The hidden layer of layer 2, of the launch contents. -/
def hid2K (c : Dev nD) : Mat 16384 256 :=
  hidK (toMat (a := 16384) (b := 256) (embArrK (m ((c : Thread nD τ).loc main_arg18)) (m ((c : Thread nD τ).loc main_arg19)) (m ((c : Thread nD τ).loc main_arg2))))
    (L1K m c)
    (toMat (a := 256) (b := 256) (m ((c : Thread nD τ).loc main_arg20))) (toVec (a := 256) (m ((c : Thread nD τ).loc main_arg21)))
    (toMat (a := 256) (b := 256) (m ((c : Thread nD τ).loc main_arg22))) (toVec (a := 256) (m ((c : Thread nD τ).loc main_arg23)))
    (toMat (a := 256) (b := 256) (m ((c : Thread nD τ).loc main_arg24))) (toVec (a := 256) (m ((c : Thread nD τ).loc main_arg25)))
    (toMat (a := 256) (b := 256) (m ((c : Thread nD τ).loc main_arg26))) (toVec (a := 256) (m ((c : Thread nD τ).loc main_arg27)))

/-- Layer 2 is the normalisation of its hidden layer by that layer's own column means and variances. -/
theorem L2K_eq (c : Dev nD) : L2K m c = normOut (hid2K m c) (colMean (hid2K m c)) (varK (hid2K m c))
    (toVec (a := 256) (m ((c : Thread nD τ).loc main_arg28))) (toVec (a := 256) (m ((c : Thread nD τ).loc main_arg29))) (toMat (a := 256) (b := 256) (m ((c : Thread nD τ).loc main_arg30))) (toVec (a := 256) (m ((c : Thread nD τ).loc main_arg31))) := rfl

/-! ### What the first call of the layer finds -/

/-- The aggregated edge embedding the host operations leave is the one of the launch contents. -/
theorem V5_main_v48 (c : Dev nD) : (toMat (a := 16384) (b := 256) (V5 m ρ c main_v48)) = (toMat (a := 16384) (b := 256) (embArrK (m ((c : Thread nD τ).loc main_arg18)) (m ((c : Thread nD τ).loc main_arg19)) (m ((c : Thread nD τ).loc main_arg2)))) := by
  refine (congrArg (toMat (a := 16384) (b := 256)) (host2_v48 (W4 m ρ c))).trans ?_
  rw [show W4 m ρ c (Proc.devRef .tc main_arg18) = (m ((c : Thread nD τ).loc main_arg18)) from W4_arg18 m ρ c,
    show W4 m ρ c (Proc.devRef .tc main_arg19) = (m ((c : Thread nD τ).loc main_arg19)) from W4_arg19 m ρ c,
    show W4 m ρ c (Proc.devRef .tc main_arg2) = (m ((c : Thread nD τ).loc main_arg2)) from W4_arg2 m ρ c]

/-- The bias row `main_v49` is the launch vector `main_arg21`. -/
theorem V5_main_v49 (c : Dev nD) : (toRow (a := 256) (V5 m ρ c main_v49)) = (toVec (a := 256) (m ((c : Thread nD τ).loc main_arg21))) := funext fun q =>
  (host2_v49 (W4 m ρ c) q).trans (congrArg (fun y => toVec (a := 256) y q) (W4_arg21 m ρ c))

/-- The bias row `main_v50` is the launch vector `main_arg23`. -/
theorem V5_main_v50 (c : Dev nD) : (toRow (a := 256) (V5 m ρ c main_v50)) = (toVec (a := 256) (m ((c : Thread nD τ).loc main_arg23))) := funext fun q =>
  (host2_v50 (W4 m ρ c) q).trans (congrArg (fun y => toVec (a := 256) y q) (W4_arg23 m ρ c))

/-- The bias row `main_v51` is the launch vector `main_arg25`. -/
theorem V5_main_v51 (c : Dev nD) : (toRow (a := 256) (V5 m ρ c main_v51)) = (toVec (a := 256) (m ((c : Thread nD τ).loc main_arg25))) := funext fun q =>
  (host2_v51 (W4 m ρ c) q).trans (congrArg (fun y => toVec (a := 256) y q) (W4_arg25 m ρ c))

/-- The bias row `main_v52` is the launch vector `main_arg27`. -/
theorem V5_main_v52 (c : Dev nD) : (toRow (a := 256) (V5 m ρ c main_v52)) = (toVec (a := 256) (m ((c : Thread nD τ).loc main_arg27))) := funext fun q =>
  (host2_v52 (W4 m ρ c) q).trans (congrArg (fun y => toVec (a := 256) y q) (W4_arg27 m ρ c))

/-- The matrix `main_arg20` is as launched. -/
theorem V5_arg20 (c : Dev nD) : (toMat (a := 256) (b := 256) (V5 m ρ c main_arg20)) = (toMat (a := 256) (b := 256) (m ((c : Thread nD τ).loc main_arg20))) :=
  congrArg (toMat (a := 256) (b := 256)) (W5_arg20 m ρ c)

/-- The matrix `main_arg22` is as launched. -/
theorem V5_arg22 (c : Dev nD) : (toMat (a := 256) (b := 256) (V5 m ρ c main_arg22)) = (toMat (a := 256) (b := 256) (m ((c : Thread nD τ).loc main_arg22))) :=
  congrArg (toMat (a := 256) (b := 256)) (W5_arg22 m ρ c)

/-- The matrix `main_arg24` is as launched. -/
theorem V5_arg24 (c : Dev nD) : (toMat (a := 256) (b := 256) (V5 m ρ c main_arg24)) = (toMat (a := 256) (b := 256) (m ((c : Thread nD τ).loc main_arg24))) :=
  congrArg (toMat (a := 256) (b := 256)) (W5_arg24 m ρ c)

/-- The matrix `main_arg26` is as launched. -/
theorem V5_arg26 (c : Dev nD) : (toMat (a := 256) (b := 256) (V5 m ρ c main_arg26)) = (toMat (a := 256) (b := 256) (m ((c : Thread nD τ).loc main_arg26))) :=
  congrArg (toMat (a := 256) (b := 256)) (W5_arg26 m ρ c)

/-- The node features of this layer are the previous layer's result: the host operations do not write that array. -/
theorem V5_x (c : Dev nD) : (toMat (a := 16384) (b := 256) (V5 m ρ c main_v31)) = (L1K m c) :=
  (congrArg (toMat (a := 16384) (b := 256)) ((host2_keep (W4 m ρ c) main_v31 (by decide)).trans (W4_main_v31 m ρ c))).trans
    (toMat_ofMat _)

/-- The hidden layer of the arrays the call finds is the hidden layer of the launch contents. -/
theorem H2_V5 (c : Dev nD) : H2 (V5 m ρ) c = hid2K m c := by
  unfold H2 hid2K
  rw [V5_main_v48 m ρ c, V5_x m ρ c, V5_arg20 m ρ c, V5_arg22 m ρ c, V5_arg24 m ρ c, V5_arg26 m ρ c,
    V5_main_v49 m ρ c, V5_main_v50 m ρ c, V5_main_v51 m ρ c, V5_main_v52 m ρ c]

/-! ### What the first call leaves -/

/-- The hidden layer, as an array. -/
theorem W6_main_v53_0 (c : Dev nD) : W6 m ρ c (Proc.devRef .tc main_v53_0) = ofMat (a := 16384) (b := 256) (hid2K m c) :=
  (W6_arr m ρ c 10).trans ((final2_10 (V5 m ρ) c).trans (congrArg (ofMat (a := 16384) (b := 256)) (H2_V5 m ρ c)))

/-- The row of column sums of the hidden layer. -/
theorem W6_main_v53_1 (c : Dev nD) (q : Fin 256) :
    (toRow (a := 256) (W6 m ρ c (Proc.devRef .tc main_v53_1))) q = ∑ i : Fin 16384, hid2K m c i q :=
  (congrArg (fun y => toRow (a := 256) y q) (W6_arr m ρ c 11)).trans
    ((sumrow2 (V5 m ρ) c q).trans (by rw [H2_V5 m ρ c]))

/-- The row of column sums of squares of the hidden layer. -/
theorem W6_main_v53_2 (c : Dev nD) (q : Fin 256) :
    (toRow (a := 256) (W6 m ρ c (Proc.devRef .tc main_v53_2))) q = ∑ i : Fin 16384, hid2K m c i q * hid2K m c i q :=
  (congrArg (fun y => toRow (a := 256) y q) (W6_arr m ρ c 12)).trans
    ((sqrow2 (V5 m ρ) c q).trans (by rw [H2_V5 m ρ c]))

/-! ### What the second call of the layer finds -/

/-- The hidden layer: the host operations between the calls do not write it. -/
theorem V7_main_v53_0 (c : Dev nD) : (toMat (a := 16384) (b := 256) (V7 m ρ c main_v53_0)) = hid2K m c :=
  (congrArg (toMat (a := 16384) (b := 256)) ((host3_keep (W6 m ρ c) main_v53_0 (by decide)).trans (W6_main_v53_0 m ρ c))).trans
    (toMat_ofMat _)

/-- The mean row is the column means of the hidden layer. -/
theorem V7_main_v55 (c : Dev nD) : (toRow (a := 256) (V7 m ρ c main_v55)) = colMean (hid2K m c) := funext fun q =>
  (host3_v55 (W6 m ρ c) q).trans
    (congrArg (fun t => Ideal.div t ((nR : ℝ) : EReal)) (W6_main_v53_1 m ρ c q))

/-- The variance row is the mean of the squares minus the square of the mean, of the hidden layer's columns. -/
theorem V7_main_v59 (c : Dev nD) : (toRow (a := 256) (V7 m ρ c main_v59)) = varK (hid2K m c) := funext fun q => by
  refine (host3_v59 (W6 m ρ c) q).trans ?_
  rw [W6_main_v53_1 m ρ c q, W6_main_v53_2 m ρ c q]
  rfl

/-- The row `main_v60` is the launch vector `main_arg28`. -/
theorem V7_main_v60 (c : Dev nD) : (toRow (a := 256) (V7 m ρ c main_v60)) = (toVec (a := 256) (m ((c : Thread nD τ).loc main_arg28))) := funext fun q =>
  (host3_v60 (W6 m ρ c) q).trans (congrArg (fun y => toVec (a := 256) y q) (W6_arg28 m ρ c))

/-- The row `main_v61` is the launch vector `main_arg29`. -/
theorem V7_main_v61 (c : Dev nD) : (toRow (a := 256) (V7 m ρ c main_v61)) = (toVec (a := 256) (m ((c : Thread nD τ).loc main_arg29))) := funext fun q =>
  (host3_v61 (W6 m ρ c) q).trans (congrArg (fun y => toVec (a := 256) y q) (W6_arg29 m ρ c))

/-- The row `main_v62` is the launch vector `main_arg31`. -/
theorem V7_main_v62 (c : Dev nD) : (toRow (a := 256) (V7 m ρ c main_v62)) = (toVec (a := 256) (m ((c : Thread nD τ).loc main_arg31))) := funext fun q =>
  (host3_v62 (W6 m ρ c) q).trans (congrArg (fun y => toVec (a := 256) y q) (W6_arg31 m ρ c))

/-- The matrix `main_arg30` is as launched. -/
theorem V7_arg30 (c : Dev nD) : (toMat (a := 256) (b := 256) (V7 m ρ c main_arg30)) = (toMat (a := 256) (b := 256) (m ((c : Thread nD τ).loc main_arg30))) :=
  congrArg (toMat (a := 256) (b := 256)) (W7_arg30 m ρ c)

/-- What the second call leaves, of the arrays it finds, is the layer of the launch contents. -/
theorem G3_V7 (c : Dev nD) : G3 (V7 m ρ) c = ofMat (a := 16384) (b := 256) (L2K m c) := by
  unfold G3
  rw [V7_main_v53_0 m ρ c, V7_main_v55 m ρ c, V7_main_v59 m ρ c, V7_main_v60 m ρ c, V7_main_v61 m ρ c, V7_main_v62 m ρ c,
    V7_arg30 m ρ c, L2K_eq m c]

/-- The layer's result array after its second call. -/
theorem W8_main_v63 (c : Dev nD) : W8 m ρ c (Proc.devRef .tc main_v63) = ofMat (a := 16384) (b := 256) (L2K m c) :=
  (W8_arr m ρ c 7).trans ((final3 (V7 m ρ) c).trans (G3_V7 m ρ c))

/-! ## The result -/

/-- The result buffer after the last host operation. -/
theorem W9_v64 (c : Dev nD) : W9 m ρ c (Proc.devRef .tc main_v64)
    = lastOpK (ofMat (a := 16384) (b := 256) (L2K m c)) (m ((c : Thread nD τ).loc main_arg0)) :=
  (host4_v64 (W8 m ρ c)).trans (congrArg₂ lastOpK (W8_main_v63 m ρ c) (W8_arg0 m ρ c))

/-- The run from the launch memory `m`: the result buffer holds the two layers of the launch contents beside the node
    features, and every argument is as launched. -/
theorem run : θ_run (defs (F := Ideal)) (onTc (τ := τ) (main (F := Ideal))) ⟨m, fun _ => 0, ρ⟩ (fun r => ∀ c : Dev nD,
      r.2.mem ((c.tc : Thread nD τ).loc main_v64)
        = lastOpK (ofMat (a := 16384) (b := 256) (L2K m c)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c => ⟨((h c).1).trans (W9_v64 m ρ c), (h c).2⟩) (Cert.KernelIdeal.Gen.run_value m ρ)

end Cert.KernelIdeal.Hand

end
-- ==== Proof.lean ====
/-
  The certificate of the two-layer LINKX network.

  Both programs form, for each layer, the aggregated edge embedding (the embedding table's rows gathered at the
  edges' sources and added up at their destinations, plus a bias row), a dense chain of four 256 × 256 matrix
  products with biases and two rectifications, a batch normalisation of the result over its 16384 rows, and a last
  matrix product; the result is the second layer of the first layer of the node features, with the node features
  appended as further columns.  The kernel program computes the dense chain in blocks of rows, adds each bias last,
  and takes the variance of a column as the mean of its squares less the square of its mean, from column sums
  accumulated over the blocks; the reference groups each bias with its product and takes the variance as the mean
  squared deviation from the mean.  On the extended reals the two agree whenever every input entry is a real number,
  which the precondition states: sums of reals may be regrouped, and the two variances of finitely many reals
  coincide.  The kernel program's run gives its result as the second arrangement of the two layers, the reference's
  run gives its result as the composition of its own operations, one layer of which is the first arrangement; the
  argument arrays are left as they were by both.
-/
import proofs.«136727_j87875030876560_1_alg».proof.Defs
import proofs.«136727_j87875030876560_1_alg».proof.Proof.Gen.Kernel
import proofs.«136727_j87875030876560_1_alg».proof.Proof.Gen.Kernel.Skeleton
import proofs.«136727_j87875030876560_1_alg».proof.Proof.Gen.Kernel.Launch
import proofs.«136727_j87875030876560_1_alg».proof.Proof.Gen.Kernel.Points
import proofs.«136727_j87875030876560_1_alg».proof.Proof.Gen.Kernel.Frame
import proofs.«136727_j87875030876560_1_alg».proof.Proof.Gen.KernelIdeal
import proofs.«136727_j87875030876560_1_alg».proof.Proof.Gen.KernelIdeal.Skeleton
import proofs.«136727_j87875030876560_1_alg».proof.Proof.Gen.KernelIdeal.Launch
import proofs.«136727_j87875030876560_1_alg».proof.Proof.Gen.KernelIdeal.Points
import proofs.«136727_j87875030876560_1_alg».proof.Proof.Gen.KernelIdeal.Frame
import proofs.«136727_j87875030876560_1_alg».proof.Proof.Gen.ReferenceIdeal
import proofs.«136727_j87875030876560_1_alg».proof.Proof.Gen.Pre_finite_inputs
import proofs.«136727_j87875030876560_1_alg».proof.Proof.Finite
import proofs.«136727_j87875030876560_1_alg».proof.Proof.Bridge
import proofs.«136727_j87875030876560_1_alg».proof.Proof.RefRun
import proofs.«136727_j87875030876560_1_alg».proof.Proof.KChain
import Idealize.ShloMosaic.Adequacy
import Idealize.ShloMosaic.Init

noncomputable section

namespace Cert.Proof

open Idealize.ShloMosaic Idealize.SL.Sem

/-! ## The two results as functions of the argument arrays -/

section Out

open Cert.Linkx Cert.Spec Cert.KernelIdeal.Hand Cert.ReferenceIdeal.Hand Cert.Proof.Bridge

variable [Cert.KernelIdeal.Facts] [Cert.ReferenceIdeal.Facts]

/-- The final concatenation is the same operation in both programs. -/
theorem lastOpK_eq (a x : FVec Ideal Cert.KernelIdeal.S16384x256 .f32) : lastOpK a x = lastOp a x := rfl

/-- The reference's result: its two layers, then the node features appended. -/
def refOut (x : M) (ei : IVec Cert.ReferenceIdeal.S2x262144 32)
    (ew1 : M) (eb1 : V) (nw1 : W) (nb1 : V) (c1w1 : W) (c1b1 : V) (c2w1 : W) (c2b1 : V)
    (f1w1 : W) (f1b1 : V) (g1 b1 : V) (f2w1 : W) (f2b1 : V)
    (ew2 : M) (eb2 : V) (nw2 : W) (nb2 : V) (c1w2 : W) (c1b2 : V) (c2w2 : W) (c2b2 : V)
    (f1w2 : W) (f1b2 : V) (g2 b2 : V) (f2w2 : W) (f2b2 : V) :
    FVec Ideal Cert.ReferenceIdeal.S16384x512 .f32 :=
  lastOp (layerArr (embArr ew2 eb2 ei) (layerArr (embArr ew1 eb1 ei) x nw1 nb1 c1w1 c1b1 c2w1 c2b1 f1w1 f1b1 g1 b1 f2w1 f2b1) nw2 nb2 c1w2 c1b2 c2w2 c2b2 f1w2 f1b2 g2 b2 f2w2 f2b2) x

/-- The kernel program's result: the second arrangement of the two layers, then the node features appended. -/
def kerOut (x : M) (ei : IVec Cert.ReferenceIdeal.S2x262144 32)
    (ew1 : M) (eb1 : V) (nw1 : W) (nb1 : V) (c1w1 : W) (c1b1 : V) (c2w1 : W) (c2b1 : V)
    (f1w1 : W) (f1b1 : V) (g1 b1 : V) (f2w1 : W) (f2b1 : V)
    (ew2 : M) (eb2 : V) (nw2 : W) (nb2 : V) (c1w2 : W) (c1b2 : V) (c2w2 : W) (c2b2 : V)
    (f1w2 : W) (f1b2 : V) (g2 b2 : V) (f2w2 : W) (f2b2 : V) :
    FVec Ideal Cert.KernelIdeal.S16384x512 .f32 :=
  lastOpK (ofMat (a := 16384) (b := 256) (layerK (toMat (embArrK ew2 eb2 ei))
    (layerK (toMat (embArrK ew1 eb1 ei)) (toMat x) (toMat nw1) (toVec nb1) (toMat c1w1) (toVec c1b1) (toMat c2w1) (toVec c2b1) (toMat f1w1) (toVec f1b1) (toVec g1) (toVec b1) (toMat f2w1) (toVec f2b1))
    (toMat nw2) (toVec nb2) (toMat c1w2) (toVec c1b2) (toMat c2w2) (toVec c2b2) (toMat f1w2) (toVec f1b2) (toVec g2) (toVec b2) (toMat f2w2) (toVec f2b2))) x

/-- On real inputs the two results are one array. -/
theorem out_eq (x : M) (ei : IVec Cert.ReferenceIdeal.S2x262144 32)
    (ew1 : M) (eb1 : V) (nw1 : W) (nb1 : V) (c1w1 : W) (c1b1 : V) (c2w1 : W) (c2b1 : V)
    (f1w1 : W) (f1b1 : V) (g1 b1 : V) (f2w1 : W) (f2b1 : V)
    (ew2 : M) (eb2 : V) (nw2 : W) (nb2 : V) (c1w2 : W) (c1b2 : V) (c2w2 : W) (c2b2 : V)
    (f1w2 : W) (f1b2 : V) (g2 b2 : V) (f2w2 : W) (f2b2 : V)
    (hx : ∀ i, IsReal (x i))
    (hew1 : ∀ i, IsReal (ew1 i)) (heb1 : ∀ i, IsReal (eb1 i)) (hnw1 : ∀ i, IsReal (nw1 i)) (hnb1 : ∀ i, IsReal (nb1 i)) (hc1w1 : ∀ i, IsReal (c1w1 i)) (hc1b1 : ∀ i, IsReal (c1b1 i)) (hc2w1 : ∀ i, IsReal (c2w1 i)) (hc2b1 : ∀ i, IsReal (c2b1 i)) (hf1w1 : ∀ i, IsReal (f1w1 i)) (hf1b1 : ∀ i, IsReal (f1b1 i)) (hg1 : ∀ i, IsReal (g1 i)) (hb1 : ∀ i, IsReal (b1 i)) (hf2w1 : ∀ i, IsReal (f2w1 i)) (hf2b1 : ∀ i, IsReal (f2b1 i))
    (hew2 : ∀ i, IsReal (ew2 i)) (heb2 : ∀ i, IsReal (eb2 i)) (hnw2 : ∀ i, IsReal (nw2 i)) (hnb2 : ∀ i, IsReal (nb2 i)) (hc1w2 : ∀ i, IsReal (c1w2 i)) (hc1b2 : ∀ i, IsReal (c1b2 i)) (hc2w2 : ∀ i, IsReal (c2w2 i)) (hc2b2 : ∀ i, IsReal (c2b2 i)) (hf1w2 : ∀ i, IsReal (f1w2 i)) (hf1b2 : ∀ i, IsReal (f1b2 i)) (hg2 : ∀ i, IsReal (g2 i)) (hb2 : ∀ i, IsReal (b2 i)) (hf2w2 : ∀ i, IsReal (f2w2 i)) (hf2b2 : ∀ i, IsReal (f2b2 i)) :
    refOut x ei ew1 eb1 nw1 nb1 c1w1 c1b1 c2w1 c2b1 f1w1 f1b1 g1 b1 f2w1 f2b1 ew2 eb2 nw2 nb2 c1w2 c1b2 c2w2 c2b2 f1w2 f1b2 g2 b2 f2w2 f2b2 = kerOut x ei ew1 eb1 nw1 nb1 c1w1 c1b1 c2w1 c2b1 f1w1 f1b1 g1 b1 f2w1 f2b1 ew2 eb2 nw2 nb2 c1w2 c1b2 c2w2 c2b2 f1w2 f1b2 g2 b2 f2w2 f2b2 := by
  unfold refOut kerOut
  rw [lastOpK_eq, two_layers x ei ew1 eb1 nw1 nb1 c1w1 c1b1 c2w1 c2b1 f1w1 f1b1 g1 b1 f2w1 f2b1 ew2 eb2 nw2 nb2 c1w2 c1b2 c2w2 c2b2 f1w2 f1b2 g2 b2 f2w2 f2b2 hx hew1 heb1 hnw1 hnb1 hc1w1 hc1b1 hc2w1 hc2b1 hf1w1 hf1b1 hg1 hb1 hf2w1 hf2b1 hew2 heb2 hnw2 hnb2 hc1w2 hc1b2 hc2w2 hc2b2 hf1w2 hf1b2 hg2 hb2 hf2w2 hf2b2]

/-- The same, from arrays that agree with those one by one. -/
theorem out_eq' (x' : M) (ei' : IVec Cert.ReferenceIdeal.S2x262144 32)
    (ew1' : M) (eb1' : V) (nw1' : W) (nb1' : V) (c1w1' : W) (c1b1' : V) (c2w1' : W) (c2b1' : V)
    (f1w1' : W) (f1b1' : V) (g1' b1' : V) (f2w1' : W) (f2b1' : V)
    (ew2' : M) (eb2' : V) (nw2' : W) (nb2' : V) (c1w2' : W) (c1b2' : V) (c2w2' : W) (c2b2' : V)
    (f1w2' : W) (f1b2' : V) (g2' b2' : V) (f2w2' : W) (f2b2' : V)
    (x : M) (ei : IVec Cert.ReferenceIdeal.S2x262144 32)
    (ew1 : M) (eb1 : V) (nw1 : W) (nb1 : V) (c1w1 : W) (c1b1 : V) (c2w1 : W) (c2b1 : V)
    (f1w1 : W) (f1b1 : V) (g1 b1 : V) (f2w1 : W) (f2b1 : V)
    (ew2 : M) (eb2 : V) (nw2 : W) (nb2 : V) (c1w2 : W) (c1b2 : V) (c2w2 : W) (c2b2 : V)
    (f1w2 : W) (f1b2 : V) (g2 b2 : V) (f2w2 : W) (f2b2 : V)
    (q_x : x' = x) (q_ei : ei' = ei) (q_ew1 : ew1' = ew1) (q_eb1 : eb1' = eb1) (q_nw1 : nw1' = nw1) (q_nb1 : nb1' = nb1) (q_c1w1 : c1w1' = c1w1) (q_c1b1 : c1b1' = c1b1) (q_c2w1 : c2w1' = c2w1) (q_c2b1 : c2b1' = c2b1) (q_f1w1 : f1w1' = f1w1) (q_f1b1 : f1b1' = f1b1) (q_g1 : g1' = g1) (q_b1 : b1' = b1) (q_f2w1 : f2w1' = f2w1) (q_f2b1 : f2b1' = f2b1) (q_ew2 : ew2' = ew2) (q_eb2 : eb2' = eb2) (q_nw2 : nw2' = nw2) (q_nb2 : nb2' = nb2) (q_c1w2 : c1w2' = c1w2) (q_c1b2 : c1b2' = c1b2) (q_c2w2 : c2w2' = c2w2) (q_c2b2 : c2b2' = c2b2) (q_f1w2 : f1w2' = f1w2) (q_f1b2 : f1b2' = f1b2) (q_g2 : g2' = g2) (q_b2 : b2' = b2) (q_f2w2 : f2w2' = f2w2) (q_f2b2 : f2b2' = f2b2)
    (hx : ∀ i, IsReal (x i))
    (hew1 : ∀ i, IsReal (ew1 i)) (heb1 : ∀ i, IsReal (eb1 i)) (hnw1 : ∀ i, IsReal (nw1 i)) (hnb1 : ∀ i, IsReal (nb1 i)) (hc1w1 : ∀ i, IsReal (c1w1 i)) (hc1b1 : ∀ i, IsReal (c1b1 i)) (hc2w1 : ∀ i, IsReal (c2w1 i)) (hc2b1 : ∀ i, IsReal (c2b1 i)) (hf1w1 : ∀ i, IsReal (f1w1 i)) (hf1b1 : ∀ i, IsReal (f1b1 i)) (hg1 : ∀ i, IsReal (g1 i)) (hb1 : ∀ i, IsReal (b1 i)) (hf2w1 : ∀ i, IsReal (f2w1 i)) (hf2b1 : ∀ i, IsReal (f2b1 i))
    (hew2 : ∀ i, IsReal (ew2 i)) (heb2 : ∀ i, IsReal (eb2 i)) (hnw2 : ∀ i, IsReal (nw2 i)) (hnb2 : ∀ i, IsReal (nb2 i)) (hc1w2 : ∀ i, IsReal (c1w2 i)) (hc1b2 : ∀ i, IsReal (c1b2 i)) (hc2w2 : ∀ i, IsReal (c2w2 i)) (hc2b2 : ∀ i, IsReal (c2b2 i)) (hf1w2 : ∀ i, IsReal (f1w2 i)) (hf1b2 : ∀ i, IsReal (f1b2 i)) (hg2 : ∀ i, IsReal (g2 i)) (hb2 : ∀ i, IsReal (b2 i)) (hf2w2 : ∀ i, IsReal (f2w2 i)) (hf2b2 : ∀ i, IsReal (f2b2 i)) :
    refOut x' ei' ew1' eb1' nw1' nb1' c1w1' c1b1' c2w1' c2b1' f1w1' f1b1' g1' b1' f2w1' f2b1' ew2' eb2' nw2' nb2' c1w2' c1b2' c2w2' c2b2' f1w2' f1b2' g2' b2' f2w2' f2b2' = kerOut x ei ew1 eb1 nw1 nb1 c1w1 c1b1 c2w1 c2b1 f1w1 f1b1 g1 b1 f2w1 f2b1 ew2 eb2 nw2 nb2 c1w2 c1b2 c2w2 c2b2 f1w2 f1b2 g2 b2 f2w2 f2b2 := by
  subst q_x q_ei q_ew1 q_eb1 q_nw1 q_nb1 q_c1w1 q_c1b1 q_c2w1 q_c2b1 q_f1w1 q_f1b1 q_g1 q_b1 q_f2w1 q_f2b1 q_ew2 q_eb2 q_nw2 q_nb2 q_c1w2 q_c1b2 q_c2w2 q_c2b2 q_f1w2 q_f1b2 q_g2 q_b2 q_f2w2 q_f2b2
  exact out_eq _ _ _ _ _ _ _ _ _ _ _ _ _ _ _ _ _ _ _ _ _ _ _ _ _ _ _ _ _ _ hx hew1 heb1 hnw1 hnb1 hc1w1 hc1b1 hc2w1 hc2b1 hf1w1 hf1b1 hg1 hb1 hf2w1 hf2b1 hew2 heb2 hnw2 hnb2 hc1w2 hc1b2 hc2w2 hc2b2 hf1w2 hf1b2 hg2 hb2 hf2w2 hf2b2

end Out

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- From memories that agree on the arguments and satisfy the precondition both programs run, leave the arguments
    as they were, and end with the same result array. -/
theorem algebraic : Cert.algebraic_KernelIdeal_ReferenceIdeal := by
  intro m ρ m' ρ' hpre hagree
  refine ⟨fun c => Cert.KernelIdeal.Hand.lastOpK
      (Cert.Linkx.ofMat (a := 16384) (b := 256) (Cert.KernelIdeal.Hand.L2K m c)) (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7, a8, a9, a10, a11, a12, a13, a14, a15, a16, a17, a18, a19, a20, a21, a22, a23, a24, a25, a26, a27, a28, a29, a30, a31⟩ := hagree c
  obtain ⟨r0, r4, r5, r6, r7, r8, r9, r10, r11, r12, r13, r14, r15, r16, r17, r18, r19, r20, r21, r22, r23, r24, r25, r26, r27, r28, r29, r30, r31⟩ := Cert.Proof.Finite.real_of_pre m hpre c
  exact out_eq'
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))
    (m' ((c.tc : Thread Cert.ReferenceIdeal.nD Cert.ReferenceIdeal.τ).loc Cert.ReferenceIdeal.main_arg20))
    (m' ((c.tc : Thread Cert.ReferenceIdeal.nD Cert.ReferenceIdeal.τ).loc Cert.ReferenceIdeal.main_arg21))
    (m' ((c.tc : Thread Cert.ReferenceIdeal.nD Cert.ReferenceIdeal.τ).loc Cert.ReferenceIdeal.main_arg22))
    (m' ((c.tc : Thread Cert.ReferenceIdeal.nD Cert.ReferenceIdeal.τ).loc Cert.ReferenceIdeal.main_arg23))
    (m' ((c.tc : Thread Cert.ReferenceIdeal.nD Cert.ReferenceIdeal.τ).loc Cert.ReferenceIdeal.main_arg24))
    (m' ((c.tc : Thread Cert.ReferenceIdeal.nD Cert.ReferenceIdeal.τ).loc Cert.ReferenceIdeal.main_arg25))
    (m' ((c.tc : Thread Cert.ReferenceIdeal.nD Cert.ReferenceIdeal.τ).loc Cert.ReferenceIdeal.main_arg26))
    (m' ((c.tc : Thread Cert.ReferenceIdeal.nD Cert.ReferenceIdeal.τ).loc Cert.ReferenceIdeal.main_arg27))
    (m' ((c.tc : Thread Cert.ReferenceIdeal.nD Cert.ReferenceIdeal.τ).loc Cert.ReferenceIdeal.main_arg28))
    (m' ((c.tc : Thread Cert.ReferenceIdeal.nD Cert.ReferenceIdeal.τ).loc Cert.ReferenceIdeal.main_arg29))
    (m' ((c.tc : Thread Cert.ReferenceIdeal.nD Cert.ReferenceIdeal.τ).loc Cert.ReferenceIdeal.main_arg30))
    (m' ((c.tc : Thread Cert.ReferenceIdeal.nD Cert.ReferenceIdeal.τ).loc Cert.ReferenceIdeal.main_arg31))
    (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24))
    (m ((c.tc : Thread Cert.KernelIdeal.nD Cert.KernelIdeal.τ).loc Cert.KernelIdeal.main_arg25))
    (m ((c.tc : Thread Cert.KernelIdeal.nD Cert.KernelIdeal.τ).loc Cert.KernelIdeal.main_arg26))
    (m ((c.tc : Thread Cert.KernelIdeal.nD Cert.KernelIdeal.τ).loc Cert.KernelIdeal.main_arg27))
    (m ((c.tc : Thread Cert.KernelIdeal.nD Cert.KernelIdeal.τ).loc Cert.KernelIdeal.main_arg28))
    (m ((c.tc : Thread Cert.KernelIdeal.nD Cert.KernelIdeal.τ).loc Cert.KernelIdeal.main_arg29))
    (m ((c.tc : Thread Cert.KernelIdeal.nD Cert.KernelIdeal.τ).loc Cert.KernelIdeal.main_arg30))
    (m ((c.tc : Thread Cert.KernelIdeal.nD Cert.KernelIdeal.τ).loc Cert.KernelIdeal.main_arg31))
    a0 a2 a4 a5 a6 a7 a8 a9 a10 a11 a12 a13 a14 a15 a16 a17 a18 a19 a20 a21 a22 a23 a24 a25 a26 a27 a28 a29 a30 a31
    r0 r4 r5 r6 r7 r8 r9 r10 r11 r12 r13 r14 r15 r16 r17 r18 r19 r20 r21 r22 r23 r24 r25 r26 r27 r28 r29 r30 r31

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
